-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x128 : Shape := ⟨2, ![16384, 128]⟩
abbrev S16384x1 : Shape := ⟨2, ![16384, 1]⟩
abbrev S16384 : Shape := ⟨1, ![16384]⟩
abbrev S_ : Shape := ⟨0, ![]⟩

class Facts : Prop where
  slices_S16384x32_S16384x1_0_4 : S16384x32.Slices ![0, 4] S16384x1
  shapeCasts_S16384x1_S16384 : S16384x1.ShapeCasts S16384
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v11 : IVec S_ 1) (main_v16 : IVec S16384 1) (main_c_4 : IVec S_ 1) : IVec S_ 1 :=
  let main_v17 : IVec S_ 1 := (fun x v => Host.reduce IntOp.andi x v reducesTo_S16384_S_d0 h_S_) main_v16 main_c_4
  let main_v18 : IVec S_ 1 := andi main_v11 main_v17
  main_v18

def fn {F : FTy → Type} [FloatOps F] (main_arg0 : FVec F S16384x32 .f32) (main_arg1 : FVec F S16384x128 .f32) : IVec S_ 1 :=
  let main_v0 : FVec F S16384x1 .f32 := (extractStridedSlice S16384x1 ![0, 4] · slices_S16384x32_S16384x1_0_4) main_arg0
  let main_v1 : FVec F S16384 .f32 := shapeCast S16384 main_v0 shapeCasts_S16384x1_S16384
  let main_v2 : IVec S16384 32 := fptosi 32 main_v1
  let main_v3 : FVec F S16384x32 .f32 := Host.absf main_arg0
  let main_cst : FVec F S_ .f32 := constant S_ .f32 0x7F800000#32
  let main_v4 : FVec F S16384x32 .f32 := broadcastInDim S16384x32 ![] bcast_S_S16384x32 main_cst
  let main_v5 : IVec S16384x32 1 := cmpf .olt main_v3 main_v4
  let main_c : IVec S_ 1 := constantI S_ 1 1#1
  let main_v6 : IVec S_ 1 := (fun x v => Host.reduce IntOp.andi x v reducesTo_S16384x32_S_d0_1 h_S_) main_v5 main_c
  let main_v7 : FVec F S16384x128 .f32 := Host.absf main_arg1
  let main_cst_0 : FVec F S_ .f32 := constant S_ .f32 0x7F800000#32
  let main_v8 : FVec F S16384x128 .f32 := broadcastInDim S16384x128 ![] bcast_S_S16384x128 main_cst_0
  let main_v9 : IVec S16384x128 1 := cmpf .olt main_v7 main_v8
  let main_c_1 : IVec S_ 1 := constantI S_ 1 1#1
  let main_v10 : IVec S_ 1 := (fun x v => Host.reduce IntOp.andi x v reducesTo_S16384x128_S_d0_1 h_S_) main_v9 main_c_1
  let main_v11 : IVec S_ 1 := andi main_v6 main_v10
  let main_c_2 : IVec S_ 32 := constantI S_ 32 0#32
  let main_v12 : IVec S16384 32 := broadcastInDim S16384 ![] bcast_S_S16384 main_c_2
  let main_v13 : IVec S16384 1 := cmpi .sge main_v2 main_v12
  let main_c_3 : IVec S_ 32 := constantI S_ 32 128#32
  let main_v14 : IVec S16384 32 := broadcastInDim S16384 ![] bcast_S_S16384 main_c_3
  let main_v15 : IVec S16384 1 := cmpi .slt main_v2 main_v14
  let main_v16 : IVec S16384 1 := andi main_v13 main_v15
  let main_c_4 : IVec S_ 1 := constantI S_ 1 1#1
  fn_part1 (F := F) main_v11 main_v16 main_c_4
-- ==== Kernel.lean ====
abbrev S16384x32 : Shape := ⟨2, ![16384, 32]⟩
abbrev S16384x128 : Shape := ⟨2, ![16384, 128]⟩
abbrev S2097152 : Shape := ⟨1, ![2097152]⟩
abbrev S524288 : Shape := ⟨1, ![524288]⟩
abbrev S128x128 : Shape := ⟨2, ![128, 128]⟩
abbrev S8x128 : Shape := ⟨2, ![8, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S16384 : Shape := ⟨1, ![16384]⟩

abbrev nBuf : Table → Nat
  | .hbm => 6
  | .local .scVector .vmem => 4
  | _ => 0

abbrev bufTy : (tb : Table) → Fin (nBuf tb) → BufTy
  | .hbm, ⟨0, _⟩ => ⟨S16384x32, .f32⟩
  | .hbm, ⟨1, _⟩ => ⟨S16384x128, .f32⟩
  | .hbm, ⟨2, _⟩ => ⟨S2097152, .f32⟩
  | .hbm, ⟨3, _⟩ => ⟨S524288, .f32⟩
  | .hbm, ⟨4, _⟩ => ⟨S128x128, .f32⟩
  | .hbm, ⟨5, _⟩ => ⟨S16384, .f32⟩
  | .local .scVector .vmem, ⟨0, _⟩ => ⟨S8x128, .i32⟩
  | .local .scVector .vmem, ⟨1, _⟩ => ⟨S8x128, .f32⟩
  | .local .scVector .vmem, ⟨2, _⟩ => ⟨S8x128, .i32⟩
  | .local .scVector .vmem, ⟨3, _⟩ => ⟨S8x128, .f32⟩
  | _, _ => ⟨S16384x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c8_i32 : BitVec 32 := 8#32
  let v2532 : BitVec 32 := Scalar.muli v1 c8_i32
  let c0_i32_1219_r0 : BitVec 32 := 0#32
  ![v2532.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x128_S2097152 : S16384x128.ShapeCasts S2097152
  shapeCasts_S16384x32_S524288 : S16384x32.ShapeCasts S524288
  iota_S16_d0_w32_scVector : S16.Iotas .scVector 32 [0]
  inb_S8x128_S1x16_0_0 : ∀ a, (![0, 0] : Fin 2 → Nat) a + S1x16.size a ≤ S8x128.size a
  h_S1x16 : 0 < S1x16.numel
  shapeCasts_S1x16_S16 : S1x16.ShapeCasts S16
  shapeCasts_S16_S1x16 : S16.ShapeCasts S1x16
  inb_S8x128_S1x16_0_16 : ∀ a, (![0, 16] : Fin 2 → Nat) a + S1x16.size a ≤ S8x128.size a
  inb_S8x128_S1x16_0_32 : ∀ a, (![0, 32] : Fin 2 → Nat) a + S1x16.size a ≤ S8x128.size a
  inb_S8x128_S1x16_0_48 : ∀ a, (![0, 48] : Fin 2 → Nat) a + S1x16.size a ≤ S8x128.size a
  inb_S8x128_S1x16_0_64 : ∀ a, (![0, 64] : Fin 2 → Nat) a + S1x16.size a ≤ S8x128.size a
  inb_S8x128_S1x16_0_80 : ∀ a, (![0, 80] : Fin 2 → Nat) a + S1x16.size a ≤ S8x128.size a
  inb_S8x128_S1x16_0_96 : ∀ a, (![0, 96] : Fin 2 → Nat) a + S1x16.size a ≤ S8x128.size a
  inb_S8x128_S1x16_0_112 : ∀ a, (![0, 112] : Fin 2 → Nat) a + S1x16.size a ≤ S8x128.size a
  inb_S8x128_S1x128_0_0 : ∀ a, (![0, 0] : Fin 2 → Nat) a + S1x128.size a ≤ S8x128.size a
  squeezes_S1x128_S128 : S1x128.Squeezes S128
  inb_S524288_S524288_0 : ∀ a, (![0] : Fin 1 → Nat) a + S524288.size a ≤ S524288.size a
  gathers_S524288_S128 : S524288.Gathers 0 S128
  inb_S8x128_S1x16_1_0 : ∀ a, (![1, 0] : Fin 2 → Nat) a + S1x16.size a ≤ S8x128.size a
  inb_S8x128_S1x16_1_16 : ∀ a, (![1, 16] : Fin 2 → Nat) a + S1x16.size a ≤ S8x128.size a
  inb_S8x128_S1x16_1_32 : ∀ a, (![1, 32] : Fin 2 → Nat) a + S1x16.size a ≤ S8x128.size a
  inb_S8x128_S1x16_1_48 : ∀ a, (![1, 48] : Fin 2 → Nat) a + S1x16.size a ≤ S8x128.size a
  inb_S8x128_S1x16_1_64 : ∀ a, (![1, 64] : Fin 2 → Nat) a + S1x16.size a ≤ S8x128.size a
  inb_S8x128_S1x16_1_80 : ∀ a, (![1, 80] : Fin 2 → Nat) a + S1x16.size a ≤ S8x128.size a
  inb_S8x128_S1x16_1_96 : ∀ a, (![1, 96] : Fin 2 → Nat) a + S1x16.size a ≤ S8x128.size a
  inb_S8x128_S1x16_1_112 : ∀ a, (![1, 112] : Fin 2 → Nat) a + S1x16.size a ≤ S8x128.size a
  inb_S8x128_S1x128_1_0 : ∀ a, (![1, 0] : Fin 2 → Nat) a + S1x128.size a ≤ S8x128.size a
  inb_S8x128_S1x16_2_0 : ∀ a, (![2, 0] : Fin 2 → Nat) a + S1x16.size a ≤ S8x128.size a
  inb_S8x128_S1x16_2_16 : ∀ a, (![2, 16] : Fin 2 → Nat) a + S1x16.size a ≤ S8x128.size a
  inb_S8x128_S1x16_2_32 : ∀ a, (![2, 32] : Fin 2 → Nat) a + S1x16.size a ≤ S8x128.size a
  inb_S8x128_S1x16_2_48 : ∀ a, (![2, 48] : Fin 2 → Nat) a + S1x16.size a ≤ S8x128.size a
  inb_S8x128_S1x16_2_64 : ∀ a, (![2, 64] : Fin 2 → Nat) a + S1x16.size a ≤ S8x128.size a
  inb_S8x128_S1x16_2_80 : ∀ a, (![2, 80] : Fin 2 → Nat) a + S1x16.size a ≤ S8x128.size a
  inb_S8x128_S1x16_2_96 : ∀ a, (![2, 96] : Fin 2 → Nat) a + S1x16.size a ≤ S8x128.size a
  inb_S8x128_S1x16_2_112 : ∀ a, (![2, 112] : Fin 2 → Nat) a + S1x16.size a ≤ S8x128.size a
  inb_S8x128_S1x128_2_0 : ∀ a, (![2, 0] : Fin 2 → Nat) a + S1x128.size a ≤ S8x128.size a
  inb_S8x128_S1x16_3_0 : ∀ a, (![3, 0] : Fin 2 → Nat) a + S1x16.size a ≤ S8x128.size a
  inb_S8x128_S1x16_3_16 : ∀ a, (![3, 16] : Fin 2 → Nat) a + S1x16.size a ≤ S8x128.size a
  inb_S8x128_S1x16_3_32 : ∀ a, (![3, 32] : Fin 2 → Nat) a + S1x16.size a ≤ S8x128.size a
  inb_S8x128_S1x16_3_48 : ∀ a, (![3, 48] : Fin 2 → Nat) a + S1x16.size a ≤ S8x128.size a
  inb_S8x128_S1x16_3_64 : ∀ a, (![3, 64] : Fin 2 → Nat) a + S1x16.size a ≤ S8x128.size a
  inb_S8x128_S1x16_3_80 : ∀ a, (![3, 80] : Fin 2 → Nat) a + S1x16.size a ≤ S8x128.size a
  inb_S8x128_S1x16_3_96 : ∀ a, (![3, 96] : Fin 2 → Nat) a + S1x16.size a ≤ S8x128.size a
  inb_S8x128_S1x16_3_112 : ∀ a, (![3, 112] : Fin 2 → Nat) a + S1x16.size a ≤ S8x128.size a
  inb_S8x128_S1x128_3_0 : ∀ a, (![3, 0] : Fin 2 → Nat) a + S1x128.size a ≤ S8x128.size a
  inb_S8x128_S1x16_4_0 : ∀ a, (![4, 0] : Fin 2 → Nat) a + S1x16.size a ≤ S8x128.size a
  inb_S8x128_S1x16_4_16 : ∀ a, (![4, 16] : Fin 2 → Nat) a + S1x16.size a ≤ S8x128.size a
  inb_S8x128_S1x16_4_32 : ∀ a, (![4, 32] : Fin 2 → Nat) a + S1x16.size a ≤ S8x128.size a
  inb_S8x128_S1x16_4_48 : ∀ a, (![4, 48] : Fin 2 → Nat) a + S1x16.size a ≤ S8x128.size a
  inb_S8x128_S1x16_4_64 : ∀ a, (![4, 64] : Fin 2 → Nat) a + S1x16.size a ≤ S8x128.size a
  inb_S8x128_S1x16_4_80 : ∀ a, (![4, 80] : Fin 2 → Nat) a + S1x16.size a ≤ S8x128.size a
  inb_S8x128_S1x16_4_96 : ∀ a, (![4, 96] : Fin 2 → Nat) a + S1x16.size a ≤ S8x128.size a
  inb_S8x128_S1x16_4_112 : ∀ a, (![4, 112] : Fin 2 → Nat) a + S1x16.size a ≤ S8x128.size a
  inb_S8x128_S1x128_4_0 : ∀ a, (![4, 0] : Fin 2 → Nat) a + S1x128.size a ≤ S8x128.size a
  inb_S8x128_S1x16_5_0 : ∀ a, (![5, 0] : Fin 2 → Nat) a + S1x16.size a ≤ S8x128.size a
  inb_S8x128_S1x16_5_16 : ∀ a, (![5, 16] : Fin 2 → Nat) a + S1x16.size a ≤ S8x128.size a
  inb_S8x128_S1x16_5_32 : ∀ a, (![5, 32] : Fin 2 → Nat) a + S1x16.size a ≤ S8x128.size a
  inb_S8x128_S1x16_5_48 : ∀ a, (![5, 48] : Fin 2 → Nat) a + S1x16.size a ≤ S8x128.size a
  inb_S8x128_S1x16_5_64 : ∀ a, (![5, 64] : Fin 2 → Nat) a + S1x16.size a ≤ S8x128.size a
  inb_S8x128_S1x16_5_80 : ∀ a, (![5, 80] : Fin 2 → Nat) a + S1x16.size a ≤ S8x128.size a
  inb_S8x128_S1x16_5_96 : ∀ a, (![5, 96] : Fin 2 → Nat) a + S1x16.size a ≤ S8x128.size a
  inb_S8x128_S1x16_5_112 : ∀ a, (![5, 112] : Fin 2 → Nat) a + S1x16.size a ≤ S8x128.size a
  inb_S8x128_S1x128_5_0 : ∀ a, (![5, 0] : Fin 2 → Nat) a + S1x128.size a ≤ S8x128.size a
  inb_S8x128_S1x16_6_0 : ∀ a, (![6, 0] : Fin 2 → Nat) a + S1x16.size a ≤ S8x128.size a
  inb_S8x128_S1x16_6_16 : ∀ a, (![6, 16] : Fin 2 → Nat) a + S1x16.size a ≤ S8x128.size a
  inb_S8x128_S1x16_6_32 : ∀ a, (![6, 32] : Fin 2 → Nat) a + S1x16.size a ≤ S8x128.size a
  inb_S8x128_S1x16_6_48 : ∀ a, (![6, 48] : Fin 2 → Nat) a + S1x16.size a ≤ S8x128.size a
  inb_S8x128_S1x16_6_64 : ∀ a, (![6, 64] : Fin 2 → Nat) a + S1x16.size a ≤ S8x128.size a
  inb_S8x128_S1x16_6_80 : ∀ a, (![6, 80] : Fin 2 → Nat) a + S1x16.size a ≤ S8x128.size a
  inb_S8x128_S1x16_6_96 : ∀ a, (![6, 96] : Fin 2 → Nat) a + S1x16.size a ≤ S8x128.size a
  inb_S8x128_S1x16_6_112 : ∀ a, (![6, 112] : Fin 2 → Nat) a + S1x16.size a ≤ S8x128.size a
  inb_S8x128_S1x128_6_0 : ∀ a, (![6, 0] : Fin 2 → Nat) a + S1x128.size a ≤ S8x128.size a
  inb_S8x128_S1x16_7_0 : ∀ a, (![7, 0] : Fin 2 → Nat) a + S1x16.size a ≤ S8x128.size a
  inb_S8x128_S1x16_7_16 : ∀ a, (![7, 16] : Fin 2 → Nat) a + S1x16.size a ≤ S8x128.size a
  inb_S8x128_S1x16_7_32 : ∀ a, (![7, 32] : Fin 2 → Nat) a + S1x16.size a ≤ S8x128.size a
  inb_S8x128_S1x16_7_48 : ∀ a, (![7, 48] : Fin 2 → Nat) a + S1x16.size a ≤ S8x128.size a
  inb_S8x128_S1x16_7_64 : ∀ a, (![7, 64] : Fin 2 → Nat) a + S1x16.size a ≤ S8x128.size a
  inb_S8x128_S1x16_7_80 : ∀ a, (![7, 80] : Fin 2 → Nat) a + S1x16.size a ≤ S8x128.size a
  inb_S8x128_S1x16_7_96 : ∀ a, (![7, 96] : Fin 2 → Nat) a + S1x16.size a ≤ S8x128.size a
  inb_S8x128_S1x16_7_112 : ∀ a, (![7, 112] : Fin 2 → Nat) a + S1x16.size a ≤ S8x128.size a
  inb_S8x128_S1x128_7_0 : ∀ a, (![7, 0] : Fin 2 → Nat) a + S1x128.size a ≤ S8x128.size a
  inb_S2097152_S2097152_0 : ∀ a, (![0] : Fin 1 → Nat) a + S2097152.size a ≤ S2097152.size a
  gathers_S2097152_S128 : S2097152.Gathers 0 S128
  shapeCasts_S128x128_S16384 : S128x128.ShapeCasts S16384
  hcc0_scratch4 : 0 + S_.numel ≤ 25
  hcc0_scratch5 : 1 + S_.numel ≤ 25
  hcc0_scratch6 : 2 + S_.numel ≤ 25
  hcc0_scratch7 : 3 + S_.numel ≤ 25
  hcc0_scratch8 : 4 + S_.numel ≤ 25
  hcc0_scratch9 : 5 + S_.numel ≤ 25
  hcc0_scratch10 : 6 + S_.numel ≤ 25
  hcc0_scratch11 : 7 + S_.numel ≤ 25
  hcc0_scratch12 : 8 + S_.numel ≤ 25
  hcc0_scratch13 : 9 + S_.numel ≤ 25
  hcc0_scratch14 : 10 + S_.numel ≤ 25
  hcc0_scratch15 : 11 + S_.numel ≤ 25
  hcc0_scratch16 : 12 + S_.numel ≤ 25
  hcc0_scratch17 : 13 + S_.numel ≤ 25
  hcc0_scratch18 : 14 + S_.numel ≤ 25
  hcc0_scratch19 : 15 + S_.numel ≤ 25
  hcc0_scratch20 : 16 + S_.numel ≤ 25
  hcc0_scratch21 : 17 + S_.numel ≤ 25
  hcc0_scratch22 : 18 + S_.numel ≤ 25
  hcc0_scratch23 : 19 + S_.numel ≤ 25
  hcc0_scratch24 : 20 + S_.numel ≤ 25
  hcc0_scratch25 : 21 + S_.numel ≤ 25
  hcc0_scratch26 : 22 + S_.numel ≤ 25
  hcc0_scratch27 : 23 + S_.numel ≤ 25
  hcc0_scoped0 : 24 + S_.numel ≤ 25
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x128.size a ≤ S128x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc0_scratch12 : DmaSems sig S_ := SemArray.consecutive 8 S_ hcc0_scratch12
abbrev cc0_scratch13 : DmaSems sig S_ := SemArray.consecutive 9 S_ hcc0_scratch13
abbrev cc0_scratch14 : DmaSems sig S_ := SemArray.consecutive 10 S_ hcc0_scratch14
abbrev cc0_scratch15 : DmaSems sig S_ := SemArray.consecutive 11 S_ hcc0_scratch15
abbrev cc0_scratch16 : DmaSems sig S_ := SemArray.consecutive 12 S_ hcc0_scratch16
abbrev cc0_scratch17 : DmaSems sig S_ := SemArray.consecutive 13 S_ hcc0_scratch17
abbrev cc0_scratch18 : DmaSems sig S_ := SemArray.consecutive 14 S_ hcc0_scratch18
abbrev cc0_scratch19 : DmaSems sig S_ := SemArray.consecutive 15 S_ hcc0_scratch19
abbrev cc0_scratch20 : DmaSems sig S_ := SemArray.consecutive 16 S_ hcc0_scratch20
abbrev cc0_scratch21 : DmaSems sig S_ := SemArray.consecutive 17 S_ hcc0_scratch21
abbrev cc0_scratch22 : DmaSems sig S_ := SemArray.consecutive 18 S_ hcc0_scratch22
abbrev cc0_scratch23 : DmaSems sig S_ := SemArray.consecutive 19 S_ hcc0_scratch23
abbrev cc0_scratch24 : DmaSems sig S_ := SemArray.consecutive 20 S_ hcc0_scratch24
abbrev cc0_scratch25 : DmaSems sig S_ := SemArray.consecutive 21 S_ hcc0_scratch25
abbrev cc0_scratch26 : DmaSems sig S_ := SemArray.consecutive 22 S_ hcc0_scratch26
abbrev cc0_scratch27 : DmaSems sig S_ := SemArray.consecutive 23 S_ hcc0_scratch27
abbrev cc0_scoped0 : DmaSems sig S_ := SemArray.consecutive 24 S_ hcc0_scoped0

class Facts : Prop extends Facts₀ where

variable [Facts]
-- ==== ReferenceIdeal.lean ====
abbrev S16384x32 : Shape := ⟨2, ![16384, 32]⟩
abbrev S16384x128 : Shape := ⟨2, ![16384, 128]⟩
abbrev S16384x1 : Shape := ⟨2, ![16384, 1]⟩
abbrev S16384 : Shape := ⟨1, ![16384]⟩
abbrev S_ : Shape := ⟨0, ![]⟩
abbrev S16384x2 : Shape := ⟨2, ![16384, 2]⟩

abbrev nBuf : Space → Nat
  | .hbm => 31
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x128, .f32⟩
  | .hbm, ⟨2, _⟩ => ⟨S16384x1, .f32⟩
  | .hbm, ⟨3, _⟩ => ⟨S16384, .f32⟩
  | .hbm, ⟨4, _⟩ => ⟨S16384, .i32⟩
  | .hbm, ⟨5, _⟩ => ⟨S_, .f32⟩
  | .hbm, ⟨6, _⟩ => ⟨S16384x128, .f32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x1, .i32⟩
  | .hbm, ⟨24, _⟩ => ⟨S16384x2, .i32⟩
  | .hbm, ⟨25, _⟩ => ⟨S_, .f32⟩
  | .hbm, ⟨26, _⟩ => ⟨S16384, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S16384x32_S16384x1_0_4 : S16384x32.Slices ![0, 4] S16384x1
  shapeCasts_S16384x1_S16384 : S16384x1.ShapeCasts S16384
  bcast_S_S16384x128 : S_.BroadcastsInDim S16384x128 (![] : Fin 0 → Fin S16384x128.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x128_S16384_d1 : S16384x128.ReducesTo [1] S16384
  h_S_ : 0 < S_.numel
  scatter_S16384x128_S16384x2_S16384_n_01_01_1_wf : ScatterDims.WF S16384x128 S16384x2 S16384 [] [0, 1] [0, 1] 1

variable [Facts₀]

def scatter_S16384x128_S16384x2_S16384_n_01_01_1 : ScatterDims S16384x128 S16384x2 S16384 where
  updateWindowDims := []
  insertedWindowDims := [0, 1]
  scatterDimsToOperandDims := [0, 1]
  indexVectorDim := 1
  wf := scatter_S16384x128_S16384x2_S16384_n_01_01_1_wf

class Facts : Prop extends Facts₀ where

variable [Facts]
-- ==== Proof.Spec.lean ====
/-
  The function both programs compute, stated once, over any float instance.

  Row `r` of `z` (16384 rows of 32 attribute codes) selects a column of row `r` of `a` (16384 rows of 128 counts):
  the code in attribute slot 4, converted to a signed 32-bit word. The result's entry `r` is that one entry of `a`
  times the constant whose binary32 word is 0x3F7FBE77. The selection makes sense when the word, read as a natural
  number, is below 128 (`InRange`); the column is written `% 128` only so that it is an index for every input.

  The same function is stated a second time over the two arguments laid out flat in row-major order (entry (r, k) of
  `z` at position 32 r + k, entry (r, k) of `a` at position 128 r + k), with the result as a 128 × 128 block whose
  entry (p, q) is result entry 128 p + q: that is how a program that works on the flat arrays meets it.
-/
import Idealize.ShloMosaic.PureOps
import Idealize.ShloMosaic.Lib.ValueIdx

noncomputable section

namespace Cert.Spec

open Idealize.ShloMosaic Idealize.ShloMosaic.ValueIdx

abbrev SZ : Shape := ⟨2, ![16384, 32]⟩
abbrev SA : Shape := ⟨2, ![16384, 128]⟩
abbrev SR : Shape := ⟨1, ![16384]⟩
abbrev SZf : Shape := ⟨1, ![524288]⟩
abbrev SAf : Shape := ⟨1, ![2097152]⟩
abbrev SOb : Shape := ⟨2, ![128, 128]⟩

variable {F : FTy → Type} [FloatOps F]

/-- The scaling constant, 0.999 rounded to binary32, as a value of the instance. -/
def scale : F .f32 := FloatOps.ofBits .f32 0x3F7FBE77#32

/-! ## Over the two-dimensional arguments -/

/-- The word that selects row `r`'s column: attribute slot 4 of row `r` of `z`, converted to a signed 32-bit integer. -/
def colWord (z : FVec F SZ .f32) (r : Fin 16384) : BitVec 32 := FloatOps.fptosi 32 (z (ix2 r (4 : Fin 32)))

/-- Every row's selecting word names a column of `a`. -/
def InRange (z : FVec F SZ .f32) : Prop := ∀ r : Fin 16384, (colWord z r).toNat < 128

/-- The selected column, as an index. -/
def col (z : FVec F SZ .f32) (r : Fin 16384) : Fin 128 := ⟨(colWord z r).toNat % 128, Nat.mod_lt _ (by norm_num)⟩

/-- Entry `r` of the result. -/
def outAt (z : FVec F SZ .f32) (a : FVec F SA .f32) (r : Fin 16384) : F .f32 := FloatOps.mulf (a (ix2 r (col z r))) scale

/-- The result: one scaled entry of `a` per row. -/
def G (z : FVec F SZ .f32) (a : FVec F SA .f32) : FVec F SR .f32 := fun i => outAt z a (i 0)

/-! ## Over the flat arguments -/

/-- Position of entry (r, 4) of `z` in its flat layout. -/
def zPos (r : Fin 16384) : Fin 524288 := ⟨r.val * 32 + 4, by have := r.isLt; omega⟩

/-- The selecting word of row `r`, read from flat `z`. -/
def colWordF (zf : FVec F SZf .f32) (r : Fin 16384) : BitVec 32 := FloatOps.fptosi 32 (zf (ix1 (zPos r)))

/-- Every row's selecting word names a column, read from flat `z`. -/
def InRangeF (zf : FVec F SZf .f32) : Prop := ∀ r : Fin 16384, (colWordF zf r).toNat < 128

/-- Position of the selected entry of row `r` in flat `a`. -/
def aPos (zf : FVec F SZf .f32) (r : Fin 16384) : Fin 2097152 :=
  ⟨r.val * 128 + (colWordF zf r).toNat % 128, by have := r.isLt; have := Nat.mod_lt (colWordF zf r).toNat (show 0 < 128 by norm_num); omega⟩

/-- Entry `r` of the result, from the flat arguments. -/
def outAtF (zf : FVec F SZf .f32) (af : FVec F SAf .f32) (r : Fin 16384) : F .f32 := FloatOps.mulf (af (ix1 (aPos zf r))) scale

/-- Result entry index of block position (p, q). -/
def rowOf (p q : Fin 128) : Fin 16384 := ⟨p.val * 128 + q.val, by have := p.isLt; have := q.isLt; omega⟩

/-- The result as a 128 × 128 block, from the flat arguments. -/
def GblkF (zf : FVec F SZf .f32) (af : FVec F SAf .f32) : FVec F SOb .f32 := fun j => outAtF zf af (rowOf (j 0) (j 1))

end Cert.Spec

end
-- ==== Proof.Common.lean ====
/-
  The setting shared by the proof of one task's body and the proof of the whole launch, for the program whose
  one kernel runs on the sixteen vector subcores of one SparseCore.

  The TensorCore lays `z` and `a` out flat (`main_v1`, 524288 words; `main_v0`, 2097152 words), starts the kernel, and
  reads the kernel's 128 × 128 result block (`main_v2`) as the 16384 results. Task `j` (of sixteen) owns rows
  8 j … 8 j + 7 of the block, that is results 1024 j … 1024 j + 1023, and only READS the two flat arrays, every task
  all of both: so each task holds its own rows of the block outright and a read share of each flat array
  (the full share's `j`-th read token of sixteen).
-/
import proofs.«207294_g27419071217675_cont_9to1_1737_29_alg».proof.Defs
import proofs.«207294_g27419071217675_cont_9to1_1737_29_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207294_g27419071217675_cont_9to1_1737_29_alg».proof.Proof.Gen.KernelIdeal
import proofs.«207294_g27419071217675_cont_9to1_1737_29_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- Flat `z`, flat `a`, the result block, the two arguments and the result, as locations of device `d`. -/
abbrev zLoc (d : Dev nD) : Loc nD τ sig := (SparseCore.T d).loc main_v1
abbrev aLoc (d : Dev nD) : Loc nD τ sig := (SparseCore.T d).loc main_v0
abbrev oLoc (d : Dev nD) : Loc nD τ sig := (SparseCore.T d).loc main_v2
abbrev z2Loc (d : Dev nD) : Loc nD τ sig := (SparseCore.T d).loc main_arg0
abbrev a2Loc (d : Dev nD) : Loc nD τ sig := (SparseCore.T d).loc main_arg1
abbrev rLoc (d : Dev nD) : Loc nD τ sig := (SparseCore.T d).loc main_v3

/-- The whole arrays as a vector subcore names them. -/
abbrev zV : Memref sig .scVector .hbm S524288 .f32 := Memref.whole main_v1_scv
abbrev aV : Memref sig .scVector .hbm S2097152 .f32 := Memref.whole main_v0_scv
abbrev oV : Memref sig .scVector .hbm S128x128 .f32 := Memref.whole main_v2_scv
abbrev s0V : Memref sig .scVector .vmem S8x128 .i32 := Memref.whole cc0_scratch0
abbrev s1V : Memref sig .scVector .vmem S8x128 .f32 := Memref.whole cc0_scratch1
abbrev s2V : Memref sig .scVector .vmem S8x128 .i32 := Memref.whole cc0_scratch2
abbrev s3V : Memref sig .scVector .vmem S8x128 .f32 := Memref.whole cc0_scratch3

/-! ## The block's rows, sixteen parts of eight -/

theorem odiv : 16 ∣ S128x128.size 0 := ⟨8, rfl⟩
abbrev orow (i : Fin 16) : Rect S128x128 := Rect.part (s := S128x128) (a₀ := 0) odiv i
abbrev oRowSet (i : Fin 16) : Finset S128x128.Idx := ((oV).view.slice (orow i)).set

/-- Task `i`'s read share of a flat array: the `i`-th read token of sixteen of the full share. -/
abbrev rq (i : Fin 16) : PosShare TreeShare := Transfers.shareTok fullShare 16 i

/-! ## The task's coordinates -/

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The task's coordinates from its SparseCore and subcore. -/
def coordsV (c : Fin (grid0.bound 0)) (s : Fin (grid0.bound 1)) : grid0.Coords :=
  fun | 0 => c | 1 => s | ⟨_ + 2, h⟩ => absurd h (Nat.not_lt.2 (Nat.le_add_left _ _))

/-- The task's call of the kernel function, on the whole arrays, its four scratch buffers and its semaphores. -/
abbrev taskProg [FloatOps F] (L : grid0.Coords) :=
  cc0_sc_kernel (F := F) L zV (Memref.isWhole_whole _) aV (Memref.isWhole_whole _) oV (Memref.isWhole_whole _)
    s0V (Memref.isWhole_whole _) s1V (Memref.isWhole_whole _) s2V (Memref.isWhole_whole _) s3V (Memref.isWhole_whole _)
    cc0_scratch4 cc0_scratch5 cc0_scratch6 cc0_scratch7 cc0_scratch8 cc0_scratch9 cc0_scratch10 cc0_scratch11
    cc0_scratch12 cc0_scratch13 cc0_scratch14 cc0_scratch15 cc0_scratch16 cc0_scratch17 cc0_scratch18 cc0_scratch19
    cc0_scratch20 cc0_scratch21 cc0_scratch22 cc0_scratch23 cc0_scratch24 cc0_scratch25 cc0_scratch26 cc0_scratch27 cc0_scoped0

theorem defs₀_vector [FloatOps F] (c : Fin τ.nSC) (s : Fin τ.nSub) :
    defs₀ (F := F) (.scVector c s) 0 ()
      = SparseCore.onTile hcore0 hsub0 (fun c s => taskProg (F := F) (coordsV c s)) ⟨⟩ c s := rfl

/-! ## What a task holds of the arrays -/

variable [FloatOps F]

/-- Task `i`'s hold on the three arrays: read shares of flat `z` and flat `a` at contents `zf`, `af`, and its eight
    rows of the block at contents `o`. -/
abbrev taskPts (d : Dev nD) (i : Fin 16) (zf : Buf (Elt F) (zLoc d)) (af : Buf (Elt F) (aLoc d)) (o : Buf (Elt F) (oLoc d)) : sProp 𝕄 :=
  iprop((zLoc d ↦{rq i} zf) ∗ (aLoc d ↦{rq i} af) ∗ (oLoc d ↦[oRowSet i]{fullShare} o))

/-- The block the kernel leaves, from the flat arrays' contents. -/
abbrev outBlk (d : Dev nD) (zf : Buf (Elt F) (zLoc d)) (af : Buf (Elt F) (aLoc d)) : Buf (Elt F) (oLoc d) :=
  Cert.Spec.GblkF (F := F) zf af

/-- What one task does, as the launch needs it: from its hold on the three arrays (whatever the block's rows held),
    its scratch buffers and semaphores, and its debts, the task's program runs to the end without a fault and leaves the
    flat arrays as they were and its rows of the block at the specified values — provided every row's selecting word,
    read from flat `z`, names a column. -/
def TileBodySpec : Prop :=
  ∀ (_ : (K (F := F)).Facts) (d : Dev nD) (L : grid0.Coords)
    (zf : Buf (Elt F) (zLoc d)) (af : Buf (Elt F) (aLoc d)) (o : Buf (Elt F) (oLoc d))
    (_ : Cert.Spec.InRangeF (F := F) zf)
    (O : CellTallies nD τ sig (HIx 1)) (W : Waits sig (HIx 1)) (_ : ∀ g, O g none = 0),
    iprop(levAts (K (F := F)).L (K (F := F)).lev ∗ emp
        ∗ taskPts d (jL L) zf af o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (taskProg (F := F) L)
          fun _ => (iprop(taskPts d (jL L) zf af (outBlk d zf af)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.KI

end
-- ==== Proof.SpecFlat.lean ====
/-
  The flat statement of the specification is the two-dimensional one read through the row-major layout.

  Reshaping `z` (16384 × 32) to 524288 words puts entry (r, k) at position 32 r + k; reshaping `a` (16384 × 128) to
  2097152 words puts entry (r, k) at 128 r + k; reshaping the 128 × 128 block to 16384 results takes entry (p, q) to
  result 128 p + q. So the selecting word read from flat `z` is the one read from `z`, the selected entry of flat `a`
  is the selected entry of `a`, and the block built from the flat arrays, reshaped, is the result `G z a`.
-/
import proofs.«207294_g27419071217675_cont_9to1_1737_29_alg».proof.Proof.Spec
import Idealize.ShloMosaic.Lib.Pipeline.Value

noncomputable section

namespace Cert.Spec

open Idealize.ShloMosaic Idealize.ShloMosaic.ValueIdx

variable {F : FTy → Type} [FloatOps F]

/-- Flat `z` at position 32 r + 4 is `z` at (r, 4). -/
theorem flat_z_at (z : FVec F SZ .f32) (h : SZ.ShapeCasts SZf) (r : Fin 16384) :
    shapeCast SZf z h (ix1 (zPos r)) = z (ix2 r (4 : Fin 32)) := by
  refine shapeCast_apply z h _ _ ?_
  rw [Shape.rowMajor_val_two, Shape.rowMajor_val_one]
  rfl

/-- The selecting word read from flat `z` is the one read from `z`. -/
theorem colWordF_flat (z : FVec F SZ .f32) (h : SZ.ShapeCasts SZf) (r : Fin 16384) :
    colWordF (shapeCast SZf z h) r = colWord z r := by
  unfold colWordF colWord
  rw [flat_z_at]

/-- Words in range for `z` are in range for flat `z`. -/
theorem inRangeF_of_inRange (z : FVec F SZ .f32) (h : SZ.ShapeCasts SZf) (hz : InRange z) : InRangeF (shapeCast SZf z h) :=
  fun r => by rw [colWordF_flat]; exact hz r

/-- Flat `a` at position 128 r + k is `a` at (r, k). -/
theorem flat_a_at (a : FVec F SA .f32) (h : SA.ShapeCasts SAf) (r : Fin 16384) (k : Fin 128) (p : Fin 2097152)
    (hp : p.val = r.val * 128 + k.val) : shapeCast SAf a h (ix1 p) = a (ix2 r k) := by
  refine shapeCast_apply a h _ _ ?_
  rw [Shape.rowMajor_val_two, Shape.rowMajor_val_one]
  exact hp.symm

/-- Entry `r` of the result from the flat arrays is entry `r` of the result. -/
theorem outAtF_flat (z : FVec F SZ .f32) (a : FVec F SA .f32) (hz : SZ.ShapeCasts SZf) (ha : SA.ShapeCasts SAf) (r : Fin 16384) :
    outAtF (shapeCast SZf z hz) (shapeCast SAf a ha) r = outAt z a r := by
  unfold outAtF outAt
  rw [flat_a_at a ha r (col z r) (aPos (shapeCast SZf z hz) r) (by show r.val * 128 + (colWordF (shapeCast SZf z hz) r).toNat % 128 = r.val * 128 + (colWord z r).toNat % 128; rw [colWordF_flat])]

/-- The block built from the flat arrays, read as 16384 results, is the result. -/
theorem G_of_flat (z : FVec F SZ .f32) (a : FVec F SA .f32) (hz : SZ.ShapeCasts SZf) (ha : SA.ShapeCasts SAf) (hr : SOb.ShapeCasts SR) :
    shapeCast SR (GblkF (shapeCast SZf z hz) (shapeCast SAf a ha)) hr = G z a := by
  funext i
  obtain ⟨r, rfl⟩ : ∃ r : Fin 16384, i = ix1 r := ⟨i 0, eq_ix1 i⟩
  have hp : r.val / 128 < 128 := by have := r.isLt; omega
  have hq : r.val % 128 < 128 := Nat.mod_lt _ (by norm_num)
  rw [shapeCast_apply (GblkF (shapeCast SZf z hz) (shapeCast SAf a ha)) hr (ix1 r) (ix2 (⟨r.val / 128, hp⟩ : Fin 128) (⟨r.val % 128, hq⟩ : Fin 128))
    (by rw [Shape.rowMajor_val_two, Shape.rowMajor_val_one]; show r.val / 128 * 128 + r.val % 128 = r.val; omega)]
  show outAtF _ _ (rowOf ⟨r.val / 128, hp⟩ ⟨r.val % 128, hq⟩) = outAt z a r
  rw [outAtF_flat]
  congr 1
  exact Fin.ext (by show r.val / 128 * 128 + r.val % 128 = r.val; omega)

end Cert.Spec

end
-- ==== Proof.Launch.lean ====
/-
  The whole program's run, from one task's body (`TileBodySpec`, taken here as a hypothesis).

  On each device the TensorCore reshapes `a` and `z` to their flat layouts, starts the one kernel on SparseCore 0 and
  waits for it, and reshapes the kernel's 128 × 128 block to the 16384 results. The call hands the sequencer the two
  flat arrays and the block whole; the sequencer hands each of its sixteen tasks a read share of each flat array and
  the task's own eight rows of the block, and gathers them back, the rows now at the specified values; so after the
  last reshape the result array holds the specification's function of the two arguments, which were only read.
-/
import proofs.«207294_g27419071217675_cont_9to1_1737_29_alg».proof.Proof.Common
import proofs.«207294_g27419071217675_cont_9to1_1737_29_alg».proof.Proof.SpecFlat

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The contents at the call and after it -/

/-- Flat `z` and flat `a` as the two reshapes leave them, the block the kernel leaves, and the result read off it. -/
def zf (d : Dev nD) : Buf (Elt F) (zLoc d) := shapeCast S524288 (m (z2Loc d)) shapeCasts_S16384x32_S524288
def af (d : Dev nD) : Buf (Elt F) (aLoc d) := shapeCast S2097152 (m (a2Loc d)) shapeCasts_S16384x128_S2097152
def ob (d : Dev nD) : Buf (Elt F) (oLoc d) := outBlk d (zf m d) (af m d)
def res (d : Dev nD) : Buf (Elt F) (rLoc d) := shapeCast S16384 (ob m d) shapeCasts_S128x128_S16384

/-! ## What the handshakes carry -/

abbrev zPts (d : Dev nD) : sProp 𝕄 := zLoc d ↦{fullShare} zf m d
abbrev aPts (d : Dev nD) : sProp 𝕄 := aLoc d ↦{fullShare} af m d
abbrev oPts (d : Dev nD) (f : Buf (Elt F) (oLoc d)) : sProp 𝕄 := oLoc d ↦{fullShare} f

/-- The one call takes the two flat arrays and the block whole and brings them back, the block at the specified values;
    each task takes its read shares and its rows, and brings them back, the rows at the specified values. -/
def P : (K (F := F)).Pay (nD := nD) (Val := Elt F) (Name := ℕ) (U := UU) where
  st := fun q d _ => match q with | 0 => iprop(zPts m d ∗ aPts m d ∗ oPts d (m (oLoc d)))
  dn := fun q d _ => match q with | 0 => iprop(zPts m d ∗ aPts m d ∗ oPts d (ob m d))
  go := fun q d _ i => match q with | 0 => taskPts d (Fin.cast nSub_zero i) (zf m d) (af m d) (m (oLoc d))
  td := fun q d _ i => match q with | 0 => taskPts d (Fin.cast nSub_zero i) (zf m d) (af m d) (ob m d)
  x := fun _ _ => iprop(emp)

instance P_storable : (P (F := F) m).IsStorable where
  st q d _ := match q with
    | 0 => (inferInstance : BI.Storable (upEmb : UEmb _ 𝕄) iprop(zPts m d ∗ aPts m d ∗ oPts d (m (oLoc d))))
  dn q d _ := match q with
    | 0 => (inferInstance : BI.Storable (upEmb : UEmb _ 𝕄) iprop(zPts m d ∗ aPts m d ∗ oPts d (ob m d)))
  go q d _ i := match q with
    | 0 => (inferInstance : BI.Storable (upEmb : UEmb _ 𝕄) (taskPts d (Fin.cast nSub_zero i) (zf m d) (af m d) (m (oLoc d))))
  td q d _ i := match q with
    | 0 => (inferInstance : BI.Storable (upEmb : UEmb _ 𝕄) (taskPts d (Fin.cast nSub_zero i) (zf m d) (af m d) (ob m d)))

/-! ## The obligation of a task, from its body -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBodySpec (F := F)) (hF : (K (F := F)).Facts) (hin : ∀ d, Cert.Spec.InRangeF (F := F) (zf m d)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody hF d (coordsV ⟨_, hci.1⟩ ⟨_, hci.2⟩) (zf m d) (af m d) (m (oLoc d)) (hin d) O W hO).trans (wp_mono frame _ _ fun _ => obl_post)

/-! ## The block's rows split and join; the flat arrays' read shares -/

omit [FloatOps F] in
theorem oRowSet_eq (i : Fin 16) : oRowSet i = (orow i).set := by
  show ((View.whole (main_v2_scv : Ref sig .scVector)).slice (orow i)).set = _
  rw [View.set_slice]; exact Finset.map_refl
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(zPts m d ∗ aPts m d ∗ oPts d (m (oLoc d))) ⊢ |={Set.univ}=> iprop(
      (bigSep Finset.univ fun i : Fin ((K (F := F)).nSub 0) => taskPts d (Fin.cast nSub_zero i) (zf m d) (af m d) (m (oLoc d)))
      ∗ ((bigSep Finset.univ fun i : Fin ((K (F := F)).nSub 0) => taskPts d (Fin.cast nSub_zero i) (zf m d) (af m d) (ob m d))
          -∗ iprop(zPts m d ∗ aPts m d ∗ oPts d (ob m d))))
  rw [bigSep_tasks (F := F) (fun i => taskPts d i (zf m d) (af m d) (m (oLoc d))),
    bigSep_tasks (F := F) (fun i => taskPts d i (zf m d) (af m d) (ob m d)), bigSep_sep', bigSep_sep', bigSep_sep', bigSep_sep']
  unfold zPts aPts oPts
  rw [oPts_rows, oPts_rows]
  iintro ⟨Hz, Ha, Ho⟩
  ihave Hz' := (Transfers.pointsTo_toks_split (ℓ := zLoc d) (S := Finset.univ) (f := zf m d) fullShare 16) $$ Hz
  icases Hz' with ⟨Hzr, Hzt⟩
  ihave Ha' := (Transfers.pointsTo_toks_split (ℓ := aLoc d) (S := Finset.univ) (f := af m d) fullShare 16) $$ Ha
  icases Ha' with ⟨Har, Hat⟩
  imodintro
  isplitl [Hzt Hat Ho]
  · isplitl [Hzt]; · iexact Hzt
    isplitl [Hat]; · iexact Hat
    iexact Ho
  iintro ⟨Hzt, Hat, Ho⟩
  isplitl [Hzr Hzt]
  · iapply (Transfers.pointsTo_toks_join (ℓ := zLoc d) (S := Finset.univ) (f := zf m d) fullShare 16)
    isplitl [Hzr] <;> iassumption
  isplitl [Har Hat]
  · iapply (Transfers.pointsTo_toks_join (ℓ := aLoc d) (S := Finset.univ) (f := af m d) fullShare 16)
    isplitl [Har] <;> iassumption
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev z2' : DevRef τ sig := Proc.devRef .tc (main_arg0 : Ref sig .tc)
abbrev a2' : DevRef τ sig := Proc.devRef .tc (main_arg1 : Ref sig .tc)
abbrev af' : DevRef τ sig := Proc.devRef .tc (main_v0 : Ref sig .tc)
abbrev zf' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opA : HloOp τ sig (Elt F) := StableHlo.reshape main_arg1 main_v0 rfl shapeCasts_S16384x128_S2097152
abbrev opZ : HloOp τ sig (Elt F) := StableHlo.reshape main_arg0 main_v1 rfl shapeCasts_S16384x32_S524288
abbrev opR : HloOp τ sig (Elt F) := StableHlo.reshape main_v2 main_v3 rfl shapeCasts_S128x128_S16384

/-- The TensorCore's six arrays, all unscoped. -/
abbrev S6 : Finset (DevRef τ sig) := {z2', a2', af', zf', o', r'}

omit [FloatOps F] in
theorem held_S6 (d : Dev nD) (W : Valuation τ sig (Elt F)) :
    (held (T d) S6 W : sProp 𝕄)
      = iprop((z2Loc d ↦{fullShare} W z2') ∗ (a2Loc d ↦{fullShare} W a2') ∗ (aLoc d ↦{fullShare} W af') ∗ (zLoc d ↦{fullShare} W zf')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((z2Loc d ↦{fullShare} W main_arg0) ∗ (a2Loc d ↦{fullShare} W main_arg1) ∗ (aLoc d ↦{fullShare} W main_v0) ∗ (zLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation, the valuation at the call (both reshapes done), and the valuation after the call. -/
def V0 (d : Dev nD) : Valuation τ sig (Elt F) := fun b => m (d, b)
def V2 (d : Dev nD) : Valuation τ sig (Elt F) := (opZ (F := F)).result ((opA (F := F)).result (V0 m d))
def V4 (d : Dev nD) : Valuation τ sig (Elt F) := Function.update (V2 m d) o' (ob m d)

theorem unscoped_held (d : Dev nD) : (unscopedBufs d (fun b => m ((SparseCore.T d).loc b)) : sProp 𝕄) = held (T d) S6 (V0 m d) := by
  rw [unscopedBufs_eq, held_S6]; rfl

theorem V2_z2 (d : Dev nD) : V2 m d z2' = m (z2Loc d) := by
  unfold V2
  rw [(opZ (F := F)).result_of_not_mem _ (show z2' ∉ ({zf'} : Finset (DevRef τ sig)) by decide),
    (opA (F := F)).result_of_not_mem _ (show z2' ∉ ({af'} : Finset (DevRef τ sig)) by decide)]
  rfl
theorem V2_a2 (d : Dev nD) : V2 m d a2' = m (a2Loc d) := by
  unfold V2
  rw [(opZ (F := F)).result_of_not_mem _ (show a2' ∉ ({zf'} : Finset (DevRef τ sig)) by decide),
    (opA (F := F)).result_of_not_mem _ (show a2' ∉ ({af'} : Finset (DevRef τ sig)) by decide)]
  rfl
theorem V2_o (d : Dev nD) : V2 m d o' = m (oLoc d) := by
  unfold V2
  rw [(opZ (F := F)).result_of_not_mem _ (show o' ∉ ({zf'} : Finset (DevRef τ sig)) by decide),
    (opA (F := F)).result_of_not_mem _ (show o' ∉ ({af'} : Finset (DevRef τ sig)) by decide)]
  rfl
theorem V2_r (d : Dev nD) : V2 m d r' = m (rLoc d) := by
  unfold V2
  rw [(opZ (F := F)).result_of_not_mem _ (show r' ∉ ({zf'} : Finset (DevRef τ sig)) by decide),
    (opA (F := F)).result_of_not_mem _ (show r' ∉ ({af'} : Finset (DevRef τ sig)) by decide)]
  rfl
theorem V2_af (d : Dev nD) : V2 m d af' = af m d := by
  unfold V2
  rw [(opZ (F := F)).result_of_not_mem _ (show af' ∉ ({zf'} : Finset (DevRef τ sig)) by decide)]
  exact (StableHlo.reshape_result main_arg1 main_v0 rfl shapeCasts_S16384x128_S2097152 ⟨by decide, rfl⟩ ⟨by decide, rfl⟩ (V0 m d)).trans rfl
theorem V2_zf (d : Dev nD) : V2 m d zf' = zf m d := by
  unfold V2
  refine (StableHlo.reshape_result main_arg0 main_v1 rfl shapeCasts_S16384x32_S524288 ⟨by decide, rfl⟩ ⟨by decide, rfl⟩ _).trans ?_
  rw [(opA (F := F)).result_of_not_mem _ (show z2' ∉ ({af'} : Finset (DevRef τ sig)) by decide)]
  rfl

theorem V4_o (d : Dev nD) : V4 m d o' = ob m d := Function.update_self _ _ _
theorem V4_z2 (d : Dev nD) : V4 m d z2' = m (z2Loc d) := (Function.update_of_ne (show z2' ≠ o' by decide) _ _).trans (V2_z2 m d)
theorem V4_a2 (d : Dev nD) : V4 m d a2' = m (a2Loc d) := (Function.update_of_ne (show a2' ≠ o' by decide) _ _).trans (V2_a2 m d)
theorem V4_af (d : Dev nD) : V4 m d af' = af m d := (Function.update_of_ne (show af' ≠ o' by decide) _ _).trans (V2_af m d)
theorem V4_zf (d : Dev nD) : V4 m d zf' = zf m d := (Function.update_of_ne (show zf' ≠ o' by decide) _ _).trans (V2_zf m d)
theorem V4_r (d : Dev nD) : V4 m d r' = m (rLoc d) := (Function.update_of_ne (show r' ≠ o' by decide) _ _).trans (V2_r m d)

/-- After the last reshape: the arguments as launched, the result read off the block. -/
theorem R5_z2 (d : Dev nD) : (opR (F := F)).result (V4 m d) z2' = m (z2Loc d) := by
  rw [(opR (F := F)).result_of_not_mem _ (show z2' ∉ ({r'} : Finset (DevRef τ sig)) by decide), V4_z2]
theorem R5_a2 (d : Dev nD) : (opR (F := F)).result (V4 m d) a2' = m (a2Loc d) := by
  rw [(opR (F := F)).result_of_not_mem _ (show a2' ∉ ({r'} : Finset (DevRef τ sig)) by decide), V4_a2]
theorem R5_r (d : Dev nD) : (opR (F := F)).result (V4 m d) r' = res m d := by
  refine (StableHlo.reshape_result main_v2 main_v3 rfl shapeCasts_S128x128_S16384 ⟨by decide, rfl⟩ ⟨by decide, rfl⟩ _).trans ?_
  rw [V4_o]
  rfl

theorem st0_eq (d : Dev nD) : (bigSep Finset.univ fun c : Fin ((K (F := F)).nCore 0) => (P m).st 0 d c) = iprop(zPts m d ∗ aPts m d ∗ oPts d (m (oLoc d))) :=
  bigSep_univ_of_subsingleton (0 : Fin 1)
theorem dn0_eq (d : Dev nD) : (bigSep Finset.univ fun c : Fin ((K (F := F)).nCore 0) => (P m).dn 0 d c) = iprop(zPts m d ∗ aPts m d ∗ oPts d (ob m d)) :=
  bigSep_univ_of_subsingleton (0 : Fin 1)

/-- The six arrays at the call, and after the last reshape. -/
theorem held_V2 (d : Dev nD) :
    (held (T d) S6 ((opZ (F := F)).result ((opA (F := F)).result (V0 m d))) : sProp 𝕄)
      = iprop((z2Loc d ↦{fullShare} m (z2Loc d)) ∗ (a2Loc d ↦{fullShare} m (a2Loc d)) ∗ (aLoc d ↦{fullShare} af m d) ∗ (zLoc d ↦{fullShare} zf m d)
          ∗ (oLoc d ↦{fullShare} m (oLoc d)) ∗ rLoc d ↦{fullShare} m (rLoc d)) := by
  show held (SparseCore.T d) S6 (V2 m d) = _
  rw [held_S6, V2_z2, V2_a2, V2_af, V2_zf, V2_o, V2_r]
theorem held_V4 (d : Dev nD) :
    (held (T d) S6 (V4 m d) : sProp 𝕄)
      = iprop((z2Loc d ↦{fullShare} m (z2Loc d)) ∗ (a2Loc d ↦{fullShare} m (a2Loc d)) ∗ (aLoc d ↦{fullShare} af m d) ∗ (zLoc d ↦{fullShare} zf m d)
          ∗ (oLoc d ↦{fullShare} ob m d) ∗ rLoc d ↦{fullShare} m (rLoc d)) := by
  rw [held_S6, V4_z2, V4_a2, V4_af, V4_zf, V4_o, V4_r]
theorem held_R5 (d : Dev nD) :
    (held (T d) S6 ((opR (F := F)).result (V4 m d)) : sProp 𝕄)
      = iprop((z2Loc d ↦{fullShare} m (z2Loc d)) ∗ (a2Loc d ↦{fullShare} m (a2Loc d)) ∗ (aLoc d ↦{fullShare} (opR (F := F)).result (V4 m d) af')
          ∗ (zLoc d ↦{fullShare} (opR (F := F)).result (V4 m d) zf') ∗ (oLoc d ↦{fullShare} (opR (F := F)).result (V4 m d) o') ∗ rLoc d ↦{fullShare} res m d) := by
  rw [held_S6, R5_z2, R5_a2, R5_r]

theorem hA : (opA (F := F)).bufs ⊆ S6 := show ({a2', af'} : Finset (DevRef τ sig)) ⊆ S6 by decide
theorem hZ : (opZ (F := F)).bufs ⊆ S6 := show ({z2', zf'} : Finset (DevRef τ sig)) ⊆ S6 by decide
theorem hR : (opR (F := F)).bufs ⊆ S6 := show ({o', r'} : Finset (DevRef τ sig)) ⊆ S6 by decide

/-- What @main leaves the claim: the two arguments at their launch contents and the result at the specified values. -/
abbrev FIN (d : Dev nD) : sProp 𝕄 :=
  iprop((z2Loc d ↦{fullShare} m (z2Loc d)) ∗ (a2Loc d ↦{fullShare} m (a2Loc d)) ∗ rLoc d ↦{fullShare} res m d)

/-- @main on device `d`'s TensorCore: the two reshapes, the call (from the flat arrays and the block), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opA) (S := S6) hA (V := V0 m d)) $$ [Hb Hheld]
  · isplitl [Hb] <;> iassumption
  iintro ⟨Hb, Hheld⟩
  rw [wp_ret]; imodintro
  iapply (wp_hlo_within 𝒱 (SparseCore.T d) none Set.univ (op := opZ) (S := S6) hZ (V := (opA (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hz2, Ha2, Ha, Hz, Ho, Hr⟩
  iapply ((K (F := F)).wp_run (D (F := F)) 𝒱 (EH := EH) (P := P m) κ d 0) $$ [Hst Hz Ha Ho Hb Hz2 Ha2 Hr]
  isplitr; · iexact Hctx
  isplitl [Hst]; · iexact Hst
  isplitl [Hz Ha Ho]
  · rw [st0_eq]
    isplitl [Hz]; · iexact Hz
    isplitl [Ha]; · iexact Ha
    iexact Ho
  iintro ⟨Hst, Hdn⟩
  ihave Hdn' := (Entails.of_eq (dn0_eq m d)) $$ Hdn
  icases Hdn' with ⟨Hz, Ha, Ho⟩
  iapply (wp_hlo_within 𝒱 (SparseCore.T d) none Set.univ (op := opR) (S := S6) hR (V := V4 m d)) $$ [Hb Hz2 Ha2 Ha Hz Ho Hr]
  · isplitl [Hb]; · iexact Hb
    rw [held_V4]
    isplitl [Hz2]; · iexact Hz2
    isplitl [Ha2]; · iexact Ha2
    isplitl [Ha]; · iexact Ha
    isplitl [Hz]; · iexact Hz
    isplitl [Ho]; · iexact Ho
    iexact Hr
  iintro ⟨Hb, Hheld⟩
  ihave Hh := (Entails.of_eq (held_R5 (F := F) m d)) $$ Hheld
  icases Hh with ⟨Hz2, Ha2, -, -, -, Hr⟩
  rw [wp_ret]; imodintro; imodintro
  isplitl [Hst]; · iexact Hst
  isplitl [Hz2]; · iexact Hz2
  isplitl [Ha2]; · iexact Ha2
  iexact Hr

def fq (d : Dev nD) (s' : Phys nD τ sig (Elt F)) : Prop :=
  s'.mem.mem (rLoc d) = res m d ∧ s'.mem.mem (z2Loc d) = m (z2Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨Hz, Ha, Hr⟩, HSI⟩
  ihave H := (persistent_entails_right (SI_pointsTo_agree (st := s') (ℓ := z2Loc d) (I := Finset.univ) (q := fullShare) (f := m (z2Loc d)))) $$ [HSI Hz]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The result array at the specified values and the two arguments as launched, on every device. -/
def QC : PUnit × MemSt nD τ sig (Elt F) → Prop := fun r => ∀ c : Dev nD,
  r.2.mem (rLoc c) = res m c ∧ r.2.mem (z2Loc c) = m (z2Loc c) ∧ r.2.mem (a2Loc c) = m (a2Loc c)

theorem run_main [∀ e, Nonempty (Elt F e)] (hbody : TileBodySpec (F := F)) (hin : ∀ d, Cert.Spec.InRangeF (F := F) (zf m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KI

end
-- ==== Proof.CommonB.lean ====
/-
  The setting shared by the proof of one task's body and the proof of the whole launch, for the program whose
  one kernel runs on the sixteen vector subcores of one SparseCore.

  The TensorCore lays `z` and `a` out flat (`main_v1`, 524288 words; `main_v0`, 2097152 words), starts the kernel, and
  reads the kernel's 128 × 128 result block (`main_v2`) as the 16384 results. Task `j` (of sixteen) owns rows
  8 j … 8 j + 7 of the block, that is results 1024 j … 1024 j + 1023, and only READS the two flat arrays, every task
  all of both: so each task holds its own rows of the block outright and a read share of each flat array
  (the full share's `j`-th read token of sixteen).
-/
import proofs.«207294_g27419071217675_cont_9to1_1737_29_alg».proof.Defs
import proofs.«207294_g27419071217675_cont_9to1_1737_29_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207294_g27419071217675_cont_9to1_1737_29_alg».proof.Proof.Gen.Kernel
import proofs.«207294_g27419071217675_cont_9to1_1737_29_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- Flat `z`, flat `a`, the result block, the two arguments and the result, as locations of device `d`. -/
abbrev zLoc (d : Dev nD) : Loc nD τ sig := (SparseCore.T d).loc main_v1
abbrev aLoc (d : Dev nD) : Loc nD τ sig := (SparseCore.T d).loc main_v0
abbrev oLoc (d : Dev nD) : Loc nD τ sig := (SparseCore.T d).loc main_v2
abbrev z2Loc (d : Dev nD) : Loc nD τ sig := (SparseCore.T d).loc main_arg0
abbrev a2Loc (d : Dev nD) : Loc nD τ sig := (SparseCore.T d).loc main_arg1
abbrev rLoc (d : Dev nD) : Loc nD τ sig := (SparseCore.T d).loc main_v3

/-- The whole arrays as a vector subcore names them. -/
abbrev zV : Memref sig .scVector .hbm S524288 .f32 := Memref.whole main_v1_scv
abbrev aV : Memref sig .scVector .hbm S2097152 .f32 := Memref.whole main_v0_scv
abbrev oV : Memref sig .scVector .hbm S128x128 .f32 := Memref.whole main_v2_scv
abbrev s0V : Memref sig .scVector .vmem S8x128 .i32 := Memref.whole cc0_scratch0
abbrev s1V : Memref sig .scVector .vmem S8x128 .f32 := Memref.whole cc0_scratch1
abbrev s2V : Memref sig .scVector .vmem S8x128 .i32 := Memref.whole cc0_scratch2
abbrev s3V : Memref sig .scVector .vmem S8x128 .f32 := Memref.whole cc0_scratch3

/-! ## The block's rows, sixteen parts of eight -/

theorem odiv : 16 ∣ S128x128.size 0 := ⟨8, rfl⟩
abbrev orow (i : Fin 16) : Rect S128x128 := Rect.part (s := S128x128) (a₀ := 0) odiv i
abbrev oRowSet (i : Fin 16) : Finset S128x128.Idx := ((oV).view.slice (orow i)).set

/-- Task `i`'s read share of a flat array: the `i`-th read token of sixteen of the full share. -/
abbrev rq (i : Fin 16) : PosShare TreeShare := Transfers.shareTok fullShare 16 i

/-! ## The task's coordinates -/

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The task's coordinates from its SparseCore and subcore. -/
def coordsV (c : Fin (grid0.bound 0)) (s : Fin (grid0.bound 1)) : grid0.Coords :=
  fun | 0 => c | 1 => s | ⟨_ + 2, h⟩ => absurd h (Nat.not_lt.2 (Nat.le_add_left _ _))

/-- The task's call of the kernel function, on the whole arrays, its four scratch buffers and its semaphores. -/
abbrev taskProg [FloatOps F] (L : grid0.Coords) :=
  cc0_sc_kernel (F := F) L zV (Memref.isWhole_whole _) aV (Memref.isWhole_whole _) oV (Memref.isWhole_whole _)
    s0V (Memref.isWhole_whole _) s1V (Memref.isWhole_whole _) s2V (Memref.isWhole_whole _) s3V (Memref.isWhole_whole _)
    cc0_scratch4 cc0_scratch5 cc0_scratch6 cc0_scratch7 cc0_scratch8 cc0_scratch9 cc0_scratch10 cc0_scratch11
    cc0_scratch12 cc0_scratch13 cc0_scratch14 cc0_scratch15 cc0_scratch16 cc0_scratch17 cc0_scratch18 cc0_scratch19
    cc0_scratch20 cc0_scratch21 cc0_scratch22 cc0_scratch23 cc0_scratch24 cc0_scratch25 cc0_scratch26 cc0_scratch27 cc0_scoped0

theorem defs₀_vector [FloatOps F] (c : Fin τ.nSC) (s : Fin τ.nSub) :
    defs₀ (F := F) (.scVector c s) 0 ()
      = SparseCore.onTile hcore0 hsub0 (fun c s => taskProg (F := F) (coordsV c s)) ⟨⟩ c s := rfl

/-! ## What a task holds of the arrays -/

variable [FloatOps F]

/-- Task `i`'s hold on the three arrays: read shares of flat `z` and flat `a` at contents `zf`, `af`, and its eight
    rows of the block at contents `o`. -/
abbrev taskPts (d : Dev nD) (i : Fin 16) (zf : Buf (Elt F) (zLoc d)) (af : Buf (Elt F) (aLoc d)) (o : Buf (Elt F) (oLoc d)) : sProp 𝕄 :=
  iprop((zLoc d ↦{rq i} zf) ∗ (aLoc d ↦{rq i} af) ∗ (oLoc d ↦[oRowSet i]{fullShare} o))

/-- The block the kernel leaves, from the flat arrays' contents. -/
abbrev outBlk (d : Dev nD) (zf : Buf (Elt F) (zLoc d)) (af : Buf (Elt F) (aLoc d)) : Buf (Elt F) (oLoc d) :=
  Cert.Spec.GblkF (F := F) zf af

/-- What one task does, as the launch needs it: from its hold on the three arrays (whatever the block's rows held),
    its scratch buffers and semaphores, and its debts, the task's program runs to the end without a fault and leaves the
    flat arrays as they were and its rows of the block at the specified values — provided every row's selecting word,
    read from flat `z`, names a column. -/
def TileBodySpec : Prop :=
  ∀ (_ : (K (F := F)).Facts) (d : Dev nD) (L : grid0.Coords)
    (zf : Buf (Elt F) (zLoc d)) (af : Buf (Elt F) (aLoc d)) (o : Buf (Elt F) (oLoc d))
    (_ : Cert.Spec.InRangeF (F := F) zf)
    (O : CellTallies nD τ sig (HIx 1)) (W : Waits sig (HIx 1)) (_ : ∀ g, O g none = 0),
    iprop(levAts (K (F := F)).L (K (F := F)).lev ∗ emp
        ∗ taskPts d (jL L) zf af o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (taskProg (F := F) L)
          fun _ => (iprop(taskPts d (jL L) zf af (outBlk d zf af)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

end Cert.KB

end
-- ==== Proof.LaunchB.lean ====
/-
  The whole program's run, from one task's body (`TileBodySpec`, taken here as a hypothesis).

  On each device the TensorCore reshapes `a` and `z` to their flat layouts, starts the one kernel on SparseCore 0 and
  waits for it, and reshapes the kernel's 128 × 128 block to the 16384 results. The call hands the sequencer the two
  flat arrays and the block whole; the sequencer hands each of its sixteen tasks a read share of each flat array and
  the task's own eight rows of the block, and gathers them back, the rows now at the specified values; so after the
  last reshape the result array holds the specification's function of the two arguments, which were only read.
-/
import proofs.«207294_g27419071217675_cont_9to1_1737_29_alg».proof.Proof.CommonB
import proofs.«207294_g27419071217675_cont_9to1_1737_29_alg».proof.Proof.SpecFlat

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The contents at the call and after it -/

/-- Flat `z` and flat `a` as the two reshapes leave them, the block the kernel leaves, and the result read off it. -/
def zf (d : Dev nD) : Buf (Elt F) (zLoc d) := shapeCast S524288 (m (z2Loc d)) shapeCasts_S16384x32_S524288
def af (d : Dev nD) : Buf (Elt F) (aLoc d) := shapeCast S2097152 (m (a2Loc d)) shapeCasts_S16384x128_S2097152
def ob (d : Dev nD) : Buf (Elt F) (oLoc d) := outBlk d (zf m d) (af m d)
def res (d : Dev nD) : Buf (Elt F) (rLoc d) := shapeCast S16384 (ob m d) shapeCasts_S128x128_S16384

/-! ## What the handshakes carry -/

abbrev zPts (d : Dev nD) : sProp 𝕄 := zLoc d ↦{fullShare} zf m d
abbrev aPts (d : Dev nD) : sProp 𝕄 := aLoc d ↦{fullShare} af m d
abbrev oPts (d : Dev nD) (f : Buf (Elt F) (oLoc d)) : sProp 𝕄 := oLoc d ↦{fullShare} f

/-- The one call takes the two flat arrays and the block whole and brings them back, the block at the specified values;
    each task takes its read shares and its rows, and brings them back, the rows at the specified values. -/
def P : (K (F := F)).Pay (nD := nD) (Val := Elt F) (Name := ℕ) (U := UU) where
  st := fun q d _ => match q with | 0 => iprop(zPts m d ∗ aPts m d ∗ oPts d (m (oLoc d)))
  dn := fun q d _ => match q with | 0 => iprop(zPts m d ∗ aPts m d ∗ oPts d (ob m d))
  go := fun q d _ i => match q with | 0 => taskPts d (Fin.cast nSub_zero i) (zf m d) (af m d) (m (oLoc d))
  td := fun q d _ i => match q with | 0 => taskPts d (Fin.cast nSub_zero i) (zf m d) (af m d) (ob m d)
  x := fun _ _ => iprop(emp)

instance P_storable : (P (F := F) m).IsStorable where
  st q d _ := match q with
    | 0 => (inferInstance : BI.Storable (upEmb : UEmb _ 𝕄) iprop(zPts m d ∗ aPts m d ∗ oPts d (m (oLoc d))))
  dn q d _ := match q with
    | 0 => (inferInstance : BI.Storable (upEmb : UEmb _ 𝕄) iprop(zPts m d ∗ aPts m d ∗ oPts d (ob m d)))
  go q d _ i := match q with
    | 0 => (inferInstance : BI.Storable (upEmb : UEmb _ 𝕄) (taskPts d (Fin.cast nSub_zero i) (zf m d) (af m d) (m (oLoc d))))
  td q d _ i := match q with
    | 0 => (inferInstance : BI.Storable (upEmb : UEmb _ 𝕄) (taskPts d (Fin.cast nSub_zero i) (zf m d) (af m d) (ob m d)))

/-! ## The obligation of a task, from its body -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBodySpec (F := F)) (hF : (K (F := F)).Facts) (hin : ∀ d, Cert.Spec.InRangeF (F := F) (zf m d)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody hF d (coordsV ⟨_, hci.1⟩ ⟨_, hci.2⟩) (zf m d) (af m d) (m (oLoc d)) (hin d) O W hO).trans (wp_mono frame _ _ fun _ => obl_post)

/-! ## The block's rows split and join; the flat arrays' read shares -/

omit [FloatOps F] in
theorem oRowSet_eq (i : Fin 16) : oRowSet i = (orow i).set := by
  show ((View.whole (main_v2_scv : Ref sig .scVector)).slice (orow i)).set = _
  rw [View.set_slice]; exact Finset.map_refl
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(zPts m d ∗ aPts m d ∗ oPts d (m (oLoc d))) ⊢ |={Set.univ}=> iprop(
      (bigSep Finset.univ fun i : Fin ((K (F := F)).nSub 0) => taskPts d (Fin.cast nSub_zero i) (zf m d) (af m d) (m (oLoc d)))
      ∗ ((bigSep Finset.univ fun i : Fin ((K (F := F)).nSub 0) => taskPts d (Fin.cast nSub_zero i) (zf m d) (af m d) (ob m d))
          -∗ iprop(zPts m d ∗ aPts m d ∗ oPts d (ob m d))))
  rw [bigSep_tasks (F := F) (fun i => taskPts d i (zf m d) (af m d) (m (oLoc d))),
    bigSep_tasks (F := F) (fun i => taskPts d i (zf m d) (af m d) (ob m d)), bigSep_sep', bigSep_sep', bigSep_sep', bigSep_sep']
  unfold zPts aPts oPts
  rw [oPts_rows, oPts_rows]
  iintro ⟨Hz, Ha, Ho⟩
  ihave Hz' := (Transfers.pointsTo_toks_split (ℓ := zLoc d) (S := Finset.univ) (f := zf m d) fullShare 16) $$ Hz
  icases Hz' with ⟨Hzr, Hzt⟩
  ihave Ha' := (Transfers.pointsTo_toks_split (ℓ := aLoc d) (S := Finset.univ) (f := af m d) fullShare 16) $$ Ha
  icases Ha' with ⟨Har, Hat⟩
  imodintro
  isplitl [Hzt Hat Ho]
  · isplitl [Hzt]; · iexact Hzt
    isplitl [Hat]; · iexact Hat
    iexact Ho
  iintro ⟨Hzt, Hat, Ho⟩
  isplitl [Hzr Hzt]
  · iapply (Transfers.pointsTo_toks_join (ℓ := zLoc d) (S := Finset.univ) (f := zf m d) fullShare 16)
    isplitl [Hzr] <;> iassumption
  isplitl [Har Hat]
  · iapply (Transfers.pointsTo_toks_join (ℓ := aLoc d) (S := Finset.univ) (f := af m d) fullShare 16)
    isplitl [Har] <;> iassumption
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev z2' : DevRef τ sig := Proc.devRef .tc (main_arg0 : Ref sig .tc)
abbrev a2' : DevRef τ sig := Proc.devRef .tc (main_arg1 : Ref sig .tc)
abbrev af' : DevRef τ sig := Proc.devRef .tc (main_v0 : Ref sig .tc)
abbrev zf' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opA : HloOp τ sig (Elt F) := StableHlo.reshape main_arg1 main_v0 rfl shapeCasts_S16384x128_S2097152
abbrev opZ : HloOp τ sig (Elt F) := StableHlo.reshape main_arg0 main_v1 rfl shapeCasts_S16384x32_S524288
abbrev opR : HloOp τ sig (Elt F) := StableHlo.reshape main_v2 main_v3 rfl shapeCasts_S128x128_S16384

/-- The TensorCore's six arrays, all unscoped. -/
abbrev S6 : Finset (DevRef τ sig) := {z2', a2', af', zf', o', r'}

omit [FloatOps F] in
theorem held_S6 (d : Dev nD) (W : Valuation τ sig (Elt F)) :
    (held (T d) S6 W : sProp 𝕄)
      = iprop((z2Loc d ↦{fullShare} W z2') ∗ (a2Loc d ↦{fullShare} W a2') ∗ (aLoc d ↦{fullShare} W af') ∗ (zLoc d ↦{fullShare} W zf')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((z2Loc d ↦{fullShare} W main_arg0) ∗ (a2Loc d ↦{fullShare} W main_arg1) ∗ (aLoc d ↦{fullShare} W main_v0) ∗ (zLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation, the valuation at the call (both reshapes done), and the valuation after the call. -/
def V0 (d : Dev nD) : Valuation τ sig (Elt F) := fun b => m (d, b)
def V2 (d : Dev nD) : Valuation τ sig (Elt F) := (opZ (F := F)).result ((opA (F := F)).result (V0 m d))
def V4 (d : Dev nD) : Valuation τ sig (Elt F) := Function.update (V2 m d) o' (ob m d)

theorem unscoped_held (d : Dev nD) : (unscopedBufs d (fun b => m ((SparseCore.T d).loc b)) : sProp 𝕄) = held (T d) S6 (V0 m d) := by
  rw [unscopedBufs_eq, held_S6]; rfl

theorem V2_z2 (d : Dev nD) : V2 m d z2' = m (z2Loc d) := by
  unfold V2
  rw [(opZ (F := F)).result_of_not_mem _ (show z2' ∉ ({zf'} : Finset (DevRef τ sig)) by decide),
    (opA (F := F)).result_of_not_mem _ (show z2' ∉ ({af'} : Finset (DevRef τ sig)) by decide)]
  rfl
theorem V2_a2 (d : Dev nD) : V2 m d a2' = m (a2Loc d) := by
  unfold V2
  rw [(opZ (F := F)).result_of_not_mem _ (show a2' ∉ ({zf'} : Finset (DevRef τ sig)) by decide),
    (opA (F := F)).result_of_not_mem _ (show a2' ∉ ({af'} : Finset (DevRef τ sig)) by decide)]
  rfl
theorem V2_o (d : Dev nD) : V2 m d o' = m (oLoc d) := by
  unfold V2
  rw [(opZ (F := F)).result_of_not_mem _ (show o' ∉ ({zf'} : Finset (DevRef τ sig)) by decide),
    (opA (F := F)).result_of_not_mem _ (show o' ∉ ({af'} : Finset (DevRef τ sig)) by decide)]
  rfl
theorem V2_r (d : Dev nD) : V2 m d r' = m (rLoc d) := by
  unfold V2
  rw [(opZ (F := F)).result_of_not_mem _ (show r' ∉ ({zf'} : Finset (DevRef τ sig)) by decide),
    (opA (F := F)).result_of_not_mem _ (show r' ∉ ({af'} : Finset (DevRef τ sig)) by decide)]
  rfl
theorem V2_af (d : Dev nD) : V2 m d af' = af m d := by
  unfold V2
  rw [(opZ (F := F)).result_of_not_mem _ (show af' ∉ ({zf'} : Finset (DevRef τ sig)) by decide)]
  exact (StableHlo.reshape_result main_arg1 main_v0 rfl shapeCasts_S16384x128_S2097152 ⟨by decide, rfl⟩ ⟨by decide, rfl⟩ (V0 m d)).trans rfl
theorem V2_zf (d : Dev nD) : V2 m d zf' = zf m d := by
  unfold V2
  refine (StableHlo.reshape_result main_arg0 main_v1 rfl shapeCasts_S16384x32_S524288 ⟨by decide, rfl⟩ ⟨by decide, rfl⟩ _).trans ?_
  rw [(opA (F := F)).result_of_not_mem _ (show z2' ∉ ({af'} : Finset (DevRef τ sig)) by decide)]
  rfl

theorem V4_o (d : Dev nD) : V4 m d o' = ob m d := Function.update_self _ _ _
theorem V4_z2 (d : Dev nD) : V4 m d z2' = m (z2Loc d) := (Function.update_of_ne (show z2' ≠ o' by decide) _ _).trans (V2_z2 m d)
theorem V4_a2 (d : Dev nD) : V4 m d a2' = m (a2Loc d) := (Function.update_of_ne (show a2' ≠ o' by decide) _ _).trans (V2_a2 m d)
theorem V4_af (d : Dev nD) : V4 m d af' = af m d := (Function.update_of_ne (show af' ≠ o' by decide) _ _).trans (V2_af m d)
theorem V4_zf (d : Dev nD) : V4 m d zf' = zf m d := (Function.update_of_ne (show zf' ≠ o' by decide) _ _).trans (V2_zf m d)
theorem V4_r (d : Dev nD) : V4 m d r' = m (rLoc d) := (Function.update_of_ne (show r' ≠ o' by decide) _ _).trans (V2_r m d)

/-- After the last reshape: the arguments as launched, the result read off the block. -/
theorem R5_z2 (d : Dev nD) : (opR (F := F)).result (V4 m d) z2' = m (z2Loc d) := by
  rw [(opR (F := F)).result_of_not_mem _ (show z2' ∉ ({r'} : Finset (DevRef τ sig)) by decide), V4_z2]
theorem R5_a2 (d : Dev nD) : (opR (F := F)).result (V4 m d) a2' = m (a2Loc d) := by
  rw [(opR (F := F)).result_of_not_mem _ (show a2' ∉ ({r'} : Finset (DevRef τ sig)) by decide), V4_a2]
theorem R5_r (d : Dev nD) : (opR (F := F)).result (V4 m d) r' = res m d := by
  refine (StableHlo.reshape_result main_v2 main_v3 rfl shapeCasts_S128x128_S16384 ⟨by decide, rfl⟩ ⟨by decide, rfl⟩ _).trans ?_
  rw [V4_o]
  rfl

theorem st0_eq (d : Dev nD) : (bigSep Finset.univ fun c : Fin ((K (F := F)).nCore 0) => (P m).st 0 d c) = iprop(zPts m d ∗ aPts m d ∗ oPts d (m (oLoc d))) :=
  bigSep_univ_of_subsingleton (0 : Fin 1)
theorem dn0_eq (d : Dev nD) : (bigSep Finset.univ fun c : Fin ((K (F := F)).nCore 0) => (P m).dn 0 d c) = iprop(zPts m d ∗ aPts m d ∗ oPts d (ob m d)) :=
  bigSep_univ_of_subsingleton (0 : Fin 1)

/-- The six arrays at the call, and after the last reshape. -/
theorem held_V2 (d : Dev nD) :
    (held (T d) S6 ((opZ (F := F)).result ((opA (F := F)).result (V0 m d))) : sProp 𝕄)
      = iprop((z2Loc d ↦{fullShare} m (z2Loc d)) ∗ (a2Loc d ↦{fullShare} m (a2Loc d)) ∗ (aLoc d ↦{fullShare} af m d) ∗ (zLoc d ↦{fullShare} zf m d)
          ∗ (oLoc d ↦{fullShare} m (oLoc d)) ∗ rLoc d ↦{fullShare} m (rLoc d)) := by
  show held (SparseCore.T d) S6 (V2 m d) = _
  rw [held_S6, V2_z2, V2_a2, V2_af, V2_zf, V2_o, V2_r]
theorem held_V4 (d : Dev nD) :
    (held (T d) S6 (V4 m d) : sProp 𝕄)
      = iprop((z2Loc d ↦{fullShare} m (z2Loc d)) ∗ (a2Loc d ↦{fullShare} m (a2Loc d)) ∗ (aLoc d ↦{fullShare} af m d) ∗ (zLoc d ↦{fullShare} zf m d)
          ∗ (oLoc d ↦{fullShare} ob m d) ∗ rLoc d ↦{fullShare} m (rLoc d)) := by
  rw [held_S6, V4_z2, V4_a2, V4_af, V4_zf, V4_o, V4_r]
theorem held_R5 (d : Dev nD) :
    (held (T d) S6 ((opR (F := F)).result (V4 m d)) : sProp 𝕄)
      = iprop((z2Loc d ↦{fullShare} m (z2Loc d)) ∗ (a2Loc d ↦{fullShare} m (a2Loc d)) ∗ (aLoc d ↦{fullShare} (opR (F := F)).result (V4 m d) af')
          ∗ (zLoc d ↦{fullShare} (opR (F := F)).result (V4 m d) zf') ∗ (oLoc d ↦{fullShare} (opR (F := F)).result (V4 m d) o') ∗ rLoc d ↦{fullShare} res m d) := by
  rw [held_S6, R5_z2, R5_a2, R5_r]

theorem hA : (opA (F := F)).bufs ⊆ S6 := show ({a2', af'} : Finset (DevRef τ sig)) ⊆ S6 by decide
theorem hZ : (opZ (F := F)).bufs ⊆ S6 := show ({z2', zf'} : Finset (DevRef τ sig)) ⊆ S6 by decide
theorem hR : (opR (F := F)).bufs ⊆ S6 := show ({o', r'} : Finset (DevRef τ sig)) ⊆ S6 by decide

/-- What @main leaves the claim: the two arguments at their launch contents and the result at the specified values. -/
abbrev FIN (d : Dev nD) : sProp 𝕄 :=
  iprop((z2Loc d ↦{fullShare} m (z2Loc d)) ∗ (a2Loc d ↦{fullShare} m (a2Loc d)) ∗ rLoc d ↦{fullShare} res m d)

/-- @main on device `d`'s TensorCore: the two reshapes, the call (from the flat arrays and the block), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opA) (S := S6) hA (V := V0 m d)) $$ [Hb Hheld]
  · isplitl [Hb] <;> iassumption
  iintro ⟨Hb, Hheld⟩
  rw [wp_ret]; imodintro
  iapply (wp_hlo_within 𝒱 (SparseCore.T d) none Set.univ (op := opZ) (S := S6) hZ (V := (opA (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hz2, Ha2, Ha, Hz, Ho, Hr⟩
  iapply ((K (F := F)).wp_run (D (F := F)) 𝒱 (EH := EH) (P := P m) κ d 0) $$ [Hst Hz Ha Ho Hb Hz2 Ha2 Hr]
  isplitr; · iexact Hctx
  isplitl [Hst]; · iexact Hst
  isplitl [Hz Ha Ho]
  · rw [st0_eq]
    isplitl [Hz]; · iexact Hz
    isplitl [Ha]; · iexact Ha
    iexact Ho
  iintro ⟨Hst, Hdn⟩
  ihave Hdn' := (Entails.of_eq (dn0_eq m d)) $$ Hdn
  icases Hdn' with ⟨Hz, Ha, Ho⟩
  iapply (wp_hlo_within 𝒱 (SparseCore.T d) none Set.univ (op := opR) (S := S6) hR (V := V4 m d)) $$ [Hb Hz2 Ha2 Ha Hz Ho Hr]
  · isplitl [Hb]; · iexact Hb
    rw [held_V4]
    isplitl [Hz2]; · iexact Hz2
    isplitl [Ha2]; · iexact Ha2
    isplitl [Ha]; · iexact Ha
    isplitl [Hz]; · iexact Hz
    isplitl [Ho]; · iexact Ho
    iexact Hr
  iintro ⟨Hb, Hheld⟩
  ihave Hh := (Entails.of_eq (held_R5 (F := F) m d)) $$ Hheld
  icases Hh with ⟨Hz2, Ha2, -, -, -, Hr⟩
  rw [wp_ret]; imodintro; imodintro
  isplitl [Hst]; · iexact Hst
  isplitl [Hz2]; · iexact Hz2
  isplitl [Ha2]; · iexact Ha2
  iexact Hr

def fq (d : Dev nD) (s' : Phys nD τ sig (Elt F)) : Prop :=
  s'.mem.mem (rLoc d) = res m d ∧ s'.mem.mem (z2Loc d) = m (z2Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨Hz, Ha, Hr⟩, HSI⟩
  ihave H := (persistent_entails_right (SI_pointsTo_agree (st := s') (ℓ := z2Loc d) (I := Finset.univ) (q := fullShare) (f := m (z2Loc d)))) $$ [HSI Hz]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The result array at the specified values and the two arguments as launched, on every device. -/
def QC : PUnit × MemSt nD τ sig (Elt F) → Prop := fun r => ∀ c : Dev nD,
  r.2.mem (rLoc c) = res m c ∧ r.2.mem (z2Loc c) = m (z2Loc c) ∧ r.2.mem (a2Loc c) = m (a2Loc c)

theorem run_main [∀ e, Nonempty (Elt F e)] (hbody : TileBodySpec (F := F)) (hin : ∀ d, Cert.Spec.InRangeF (F := F) (zf m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KB

end
-- ==== Proof.PreDecode.lean ====
/-
  The precondition, read back.

  The precondition is one bit: the conjunction of "every entry of z is finite", "every entry of a is finite"
  and, over all rows r, "the signed word w = fptosi 32 (z[r, 4]) satisfies 0 ≤ w and w < 128". Each "for all"
  is a reduction by `and` from the constant 1 into a result with a single index, so the bit being 1 gives the
  element fact at every index.

  Two consequences are stated here. For any float instance: a word that is nonnegative and below 128 as a signed
  32-bit integer has an unsigned reading below 128, so every row's selecting word names a column of a. At the
  extended reals: an entry x with |x| < +∞ (the comparison against the word 0x7F800000, which denotes +∞) is
  neither +∞ nor -∞, so it is a real number.
-/
import proofs.«207294_g27419071217675_cont_9to1_1737_29_alg».proof.Proof.Spec
import proofs.«207294_g27419071217675_cont_9to1_1737_29_alg».proof.Pre_finite_inputs
import Idealize.ShloMosaic.Lib.ReduceAll
import Idealize.ShloMosaic.Lib.Pipeline.Value
import Idealize.ShloMosaic.PureOps.Ideal

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- A word that is nonnegative and below 128 as a signed integer reads below 128 unsigned. -/
theorem toNat_lt_128 (w : BitVec 32) (h0 : IntOp.cmpi .sge w 0#32 = 1#1) (h1 : IntOp.cmpi .slt w 128#32 = 1#1) :
    w.toNat < 128 := by
  rw [IntOp.cmpi_sge] at h0
  rw [IntOp.cmpi_slt] at h1
  rw [show (0#32 : BitVec 32).toInt = 0 from by decide] at h0
  rw [show (128#32 : BitVec 32).toInt = 128 from by decide] at h1
  have hw := w.isLt
  rw [BitVec.toInt_eq_toNat_cond] at h0 h1
  split at h0 <;> omega

/-- Column 4 of z as a vector over the rows, read at row r, is entry (r, 4) of z (for any element type, and whatever
    evidence the slice and the reshape carry). -/
theorem slot4_at {α : Type} (z : S16384x32.Idx → α) (hs : S16384x32.Slices ![0, 4] S16384x1) (hc : S16384x1.ShapeCasts S16384)
    (r : Fin 16384) :
    shapeCast S16384 (extractStridedSlice S16384x1 ![0, 4] z hs) hc (ix1 r) = z (ix2 r (4 : Fin 32)) := by
  refine (shapeCast_apply _ hc (ix1 r) (ix2 r (0 : Fin 1)) ?_).trans ?_
  · rewrite [Shape.rowMajor_val_two, Shape.rowMajor_val_one]
    show r.val * 1 + 0 = r.val
    omega
  · exact extractStridedSlice_apply ![0, 4] z hs (ix2 r (0 : Fin 1)) (ix2 r (4 : Fin 32))
      (fun a => match a with
        | ⟨0, _⟩ => by show r.val = 0 + r.val; omega
        | ⟨1, _⟩ => by show 4 = 4 + 0; rfl)

section Generic

variable {F : FTy → Type} [FloatOps F] [Facts]

/-- The three conjuncts of the precondition, each at every index: z's entries compare below +∞ in absolute value,
    a's entries likewise, and every row's word is nonnegative and below 128 (signed). -/
theorem pre_elements (z : FVec F S16384x32 .f32) (a : FVec F S16384x128 .f32) (h : fn (F := F) z a = fun _ => 1#1) :
    (∀ i, FloatOps.cmpf .olt (FloatOps.hostAbsf (z i)) (FloatOps.ofBits .f32 0x7F800000#32) = 1#1)
    ∧ (∀ j, FloatOps.cmpf .olt (FloatOps.hostAbsf (a j)) (FloatOps.ofBits .f32 0x7F800000#32) = 1#1)
    ∧ (∀ r : Fin 16384, IntOp.cmpi .sge (FloatOps.fptosi 32 (z (ix2 r (4 : Fin 32)))) 0#32 = 1#1
        ∧ IntOp.cmpi .slt (FloatOps.fptosi 32 (z (ix2 r (4 : Fin 32)))) 128#32 = 1#1) := by
  have e := congrFun h ix0
  dsimp only [fn, fn_part1] at e
  obtain ⟨e1, e2⟩ := IntOp.andi_eq_one.1 e
  obtain ⟨ez, ea⟩ := IntOp.andi_eq_one.1 e1
  refine ⟨fun i => ?_, fun j => ?_, fun r => ?_⟩
  · exact Host.reduce_andi_all _ _ _ _ _ ez i
  · exact Host.reduce_andi_all _ _ _ _ _ ea j
  · have er := Host.reduce_andi_all _ _ _ _ _ e2 (ix1 r)
    obtain ⟨h0, h1⟩ := IntOp.andi_eq_one.1 er
    have hs := slot4_at z Facts.slices_S16384x32_S16384x1_0_4 Facts.shapeCasts_S16384x1_S16384 r
    constructor
    · have h0' : IntOp.cmpi .sge (FloatOps.fptosi 32 (shapeCast S16384 (extractStridedSlice S16384x1 ![0, 4] z Facts.slices_S16384x32_S16384x1_0_4)
          Facts.shapeCasts_S16384x1_S16384 (ix1 r))) 0#32 = 1#1 := h0
      rw [hs] at h0'; exact h0'
    · have h1' : IntOp.cmpi .slt (FloatOps.fptosi 32 (shapeCast S16384 (extractStridedSlice S16384x1 ![0, 4] z Facts.slices_S16384x32_S16384x1_0_4)
          Facts.shapeCasts_S16384x1_S16384 (ix1 r))) 128#32 = 1#1 := h1
      rw [hs] at h1'; exact h1'

/-- Under the precondition every row's selecting word names a column of a. -/
theorem inRange_of_pre (z : FVec F Cert.Spec.SZ .f32) (a : FVec F Cert.Spec.SA .f32)
    (h : Cert.Pre_finite_inputs.fn (F := F) z a = fun _ => 1#1) : Cert.Spec.InRange z := by
  intro r
  obtain ⟨h0, h1⟩ := (pre_elements (F := F) z a h).2.2 r
  exact toNat_lt_128 _ h0 h1

end Generic

section AtIdeal

variable [Facts]

/-- An extended real whose absolute value is below +∞ is a real number. -/
theorem real_of_abs_lt_top (x : EReal)
    (hx : FloatOps.cmpf (F := Ideal) (φ := .f32) .olt (FloatOps.hostAbsf (F := Ideal) (φ := .f32) x) (FloatOps.ofBits (F := Ideal) .f32 0x7F800000#32) = 1#1) :
    ∃ y : ℝ, x = (y : EReal) := by
  induction x using EReal.rec with
  | bot => exact absurd hx (by simp [FloatOps.cmpf, FloatOps.hostAbsf, FloatOps.ofBits, Ideal.ofBits, Ideal.ieee, Ideal.cmp])
  | coe y => exact ⟨y, rfl⟩
  | top => exact absurd hx (by simp [FloatOps.cmpf, FloatOps.hostAbsf, FloatOps.ofBits, Ideal.ofBits, Ideal.ieee, Ideal.cmp])

/-- Under the precondition every entry of a (and of z) is a real number. -/
theorem finite_of_pre (z : FVec Ideal Cert.Spec.SZ .f32) (a : FVec Ideal Cert.Spec.SA .f32)
    (h : Cert.Pre_finite_inputs.fn (F := Ideal) z a = fun _ => 1#1) : ∀ j, ∃ x : ℝ, a j = (x : EReal) :=
  fun j => real_of_abs_lt_top (a j) ((pre_elements (F := Ideal) z a h).2.1 j)

theorem finite_z_of_pre (z : FVec Ideal Cert.Spec.SZ .f32) (a : FVec Ideal Cert.Spec.SA .f32)
    (h : Cert.Pre_finite_inputs.fn (F := Ideal) z a = fun _ => 1#1) : ∀ i, ∃ x : ℝ, z i = (x : EReal) :=
  fun i => real_of_abs_lt_top (z i) ((pre_elements (F := Ideal) z a h).1 i)

end AtIdeal

end Cert.PreDecode

end
-- ==== Proof.RefIndex.lean ====
/-
  The reference's index array, entry by entry.

  The reference scatters through an array of 16384 index pairs (row, column). The row entry of pair r is the row
  number r as a 32-bit word, after a wrap "add 16384 if negative" that never applies, because a row number below 2^31
  is not negative as a signed word. The column entry of pair r is the selecting word of row r — attribute slot 4 of
  row r of z, converted to a signed 32-bit integer — after a wrap "add 128 if negative", which does not apply when the
  word's unsigned reading is below 128. The pairs are a concatenation of the two columns along the second axis, so
  entry (r, 0) comes from the first column and entry (r, 1) from the second.
-/
import proofs.«207294_g27419071217675_cont_9to1_1737_29_alg».proof.Proof.Spec
import proofs.«207294_g27419071217675_cont_9to1_1737_29_alg».proof.Proof.PreDecode
import proofs.«207294_g27419071217675_cont_9to1_1737_29_alg».proof.Proof.Gen.ReferenceIdeal.Read

noncomputable section

namespace Cert.RefSide

open Idealize.ShloMosaic Idealize.ShloMosaic.ValueIdx
open Cert.ReferenceIdeal Cert.ReferenceIdeal.Read

variable [Cert.ReferenceIdeal.Facts]

/-! ## Small words -/

/-- A number below 16384 is its own word's unsigned reading. -/
theorem toNat_ofNat_row (n : Nat) (h : n < 16384) : (BitVec.ofNat 32 n).toNat = n := by
  rw [BitVec.toNat_ofNat]; omega

/-- A number below 16384 is its own word's signed reading. -/
theorem toInt_ofNat_row (n : Nat) (h : n < 16384) : (BitVec.ofNat 32 n).toInt = (n : Int) := by
  rw [BitVec.toInt_eq_toNat_of_lt (by rw [toNat_ofNat_row n h]; omega), toNat_ofNat_row n h]

/-- A word whose unsigned reading is below 16384 does not test negative. -/
theorem not_neg_of_small (w : BitVec 32) (h : w.toNat < 16384) : ¬ IntOp.cmpi .slt w 0#32 = 1#1 := by
  rw [IntOp.cmpi_slt, BitVec.toInt_eq_toNat_of_lt (by omega), show (0#32 : BitVec 32).toInt = 0 from by decide]
  omega

section
variable {F : FTy → Type} [FloatOps F]

/-! ## The two columns -/

/-- The wrapped row number of row r is the word r. -/
theorem rowWord_at (r : Fin 16384) : val_main_v9 (F := F) (ix1 r) = BitVec.ofNat 32 r.val := by
  rw [val_main_v9_apply, val_main_v6_apply, val_main_v4_apply, val_main_v5_apply, val_main_c_apply]
  show Scalar.select (IntOp.cmpi .slt (BitVec.ofNat 32 r.val) 0#32) _ (BitVec.ofNat 32 r.val) = _
  rw [eq_zero_of_ne_one (not_neg_of_small _ (by rw [toNat_ofNat_row _ r.isLt]; exact r.isLt)), select_zero]

/-- The converted attribute slot 4 of row r is the selecting word of row r. -/
theorem word_at (z : FVec F Cert.Spec.SZ .f32) (r : Fin 16384) :
    val_main_v2 (F := F) z (ix1 r) = Cert.Spec.colWord z r :=
  congrArg (FloatOps.fptosi 32) (Cert.PreDecode.slot4_at z _ _ r)

/-- The wrapped selecting word of row r is the selecting word itself when that names a column. -/
theorem selWord_at (z : FVec F Cert.Spec.SZ .f32) (r : Fin 16384) (hr : (Cert.Spec.colWord z r).toNat < 128) :
    val_main_v14 (F := F) z (ix1 r) = Cert.Spec.colWord z r := by
  rw [val_main_v14_apply, val_main_v11_apply, val_main_v10_apply, val_main_c_1_apply, word_at]
  rw [eq_zero_of_ne_one (not_neg_of_small _ (by omega)), select_zero]

/-! ## The pairs -/

/-- Entry (r, 0) of the index pairs is the first column at r. -/
theorem idxArr_left (z : FVec F Cert.Spec.SZ .f32) (r : Fin 16384) :
    val_main_v17 (F := F) z (ix2 r (0 : Fin 2)) = val_main_v9 (F := F) (ix1 r) := by
  unfold val_main_v17
  refine (concatenate_pair_apply_left _ _ _ Facts₀.concatenates_S16384x1_S16384x1_S16384x2_d1 (ix2 r (0 : Fin 2)) rfl (ix2 r (0 : Fin 1))
    (fun b => by match b with | ⟨0, _⟩ => rfl | ⟨1, _⟩ => rfl)).trans ?_
  rw [val_main_v15_apply]
  exact congrArg (val_main_v9 (F := F)) (funext fun a => by match a with | ⟨0, _⟩ => rfl)

/-- Entry (r, 1) of the index pairs is the second column at r. -/
theorem idxArr_right (z : FVec F Cert.Spec.SZ .f32) (r : Fin 16384) :
    val_main_v17 (F := F) z (ix2 r (1 : Fin 2)) = val_main_v14 (F := F) z (ix1 r) := by
  unfold val_main_v17
  refine (concatenate_pair_apply_right _ _ _ Facts₀.concatenates_S16384x1_S16384x1_S16384x2_d1 (ix2 r (1 : Fin 2)) rfl rfl (ix2 r (0 : Fin 1))
    (fun b => by match b with | ⟨0, _⟩ => exact fun _ => rfl | ⟨1, _⟩ => exact fun hne => absurd rfl hne) rfl).trans ?_
  rw [val_main_v16_apply]
  exact congrArg (val_main_v14 (F := F) z) (funext fun a => by match a with | ⟨0, _⟩ => rfl)

/-- The row entry of pair r reads, signed, as r. -/
theorem idxArr_row (z : FVec F Cert.Spec.SZ .f32) (r : Fin 16384) :
    (val_main_v17 (F := F) z (ix2 r (0 : Fin 2))).toInt = (r.val : Int) := by
  rw [idxArr_left, rowWord_at, toInt_ofNat_row _ r.isLt]

/-- The column entry of pair r reads, signed, as the selected column of row r, when the selecting word names a column. -/
theorem idxArr_col (z : FVec F Cert.Spec.SZ .f32) (r : Fin 16384) (hr : (Cert.Spec.colWord z r).toNat < 128) :
    (val_main_v17 (F := F) z (ix2 r (1 : Fin 2))).toInt = ((Cert.Spec.col z r).val : Int) := by
  rw [idxArr_right, selWord_at z r hr, BitVec.toInt_eq_toNat_of_lt (by omega)]
  show ((Cert.Spec.colWord z r).toNat : Int) = (((Cert.Spec.colWord z r).toNat % 128 : Nat) : Int)
  rw [Nat.mod_eq_of_lt hr]

end

end Cert.RefSide

end
-- ==== Proof.RefLanding.lean ====
/-
  Where an update of the reference's scatter lands.

  The scatter writes one scalar per row: update r goes to the position of the 16384 × 128 result that index pair r
  names, both entries read as signed integers and not clamped, and is dropped when that position is outside the
  result. Both axes of the result are indexed by the pair (there is no window), so the landing position of update r
  is (first entry, second entry) when the first is in [0, 16384) and the second in [0, 128).
-/
import proofs.«207294_g27419071217675_cont_9to1_1737_29_alg».proof.Proof.Gen.ReferenceIdeal.Read
import Idealize.ShloMosaic.Lib.ValueIdx

noncomputable section

namespace Cert.RefSide

open Idealize.ShloMosaic Idealize.ShloMosaic.ValueIdx
open Cert.ReferenceIdeal

variable [Cert.ReferenceIdeal.Facts]

/-- The scatter's dimension numbers: both result axes come from the index pair. -/
abbrev dS := scatter_S16384x128_S16384x2_S16384_n_01_01_1

theorem ix1_val {n : Nat} (r : Fin n) (d : Fin 1) : (ix1 r d).val = r.val := by
  match d with | ⟨0, _⟩ => rfl

set_option maxHeartbeats 50000 in
/-- On the row axis update r starts at the first entry of pair r. -/
theorem start0 (idx : IVec S16384x2 32) (r : Fin 16384) :
    dS.start (ix1 r) idx (0 : Fin 2) = (idx (ix2 r (0 : Fin 2))).toInt := by
  unfold ScatterDims.start
  rw [dif_pos (by decide)]
  refine congrArg (fun k => (idx k).toInt) (funext fun b => Fin.ext ?_)
  match b with
  | ⟨0, _⟩ => exact ix1_val r _
  | ⟨1, _⟩ => rfl

set_option maxHeartbeats 50000 in
/-- On the column axis update r starts at the second entry of pair r. -/
theorem start1 (idx : IVec S16384x2 32) (r : Fin 16384) :
    dS.start (ix1 r) idx (1 : Fin 2) = (idx (ix2 r (1 : Fin 2))).toInt := by
  unfold ScatterDims.start
  rw [dif_pos (by decide)]
  refine congrArg (fun k => (idx k).toInt) (funext fun b => Fin.ext ?_)
  match b with
  | ⟨0, _⟩ => exact ix1_val r _
  | ⟨1, _⟩ => rfl

set_option maxHeartbeats 50000 in
/-- There is no window: the offset inside it is 0 on both axes. -/
theorem window0 (j : S16384.Idx) (a : Fin 2) : dS.window j a = 0 := by
  unfold ScatterDims.window
  rw [dif_neg (by revert a; decide)]

set_option maxHeartbeats 100000 in
/-- Update r lands at (R, C) when pair r reads, signed, as (R, C) with R a row and C a column. -/
theorem lands_at (idx : IVec S16384x2 32) (r R : Fin 16384) (C : Fin 128)
    (hR : (idx (ix2 r (0 : Fin 2))).toInt = (R.val : Int)) (hC : (idx (ix2 r (1 : Fin 2))).toInt = (C.val : Int)) :
    dS.resultIdx? (ix1 r) idx = some (ix2 R C) := by
  have h0 : dS.start (ix1 r) idx (0 : Fin 2) + (dS.window (ix1 r) (0 : Fin 2) : Int) = (R.val : Int) := by
    rw [start0, window0, hR]; simp
  have h1 : dS.start (ix1 r) idx (1 : Fin 2) + (dS.window (ix1 r) (1 : Fin 2) : Int) = (C.val : Int) := by
    rw [start1, window0, hC]; simp
  unfold ScatterDims.resultIdx?
  split
  · refine congrArg some (funext fun a => Fin.ext ?_)
    match a with
    | ⟨0, _⟩ =>
      show (dS.start (ix1 r) idx (0 : Fin 2) + (dS.window (ix1 r) (0 : Fin 2) : Int)).toNat = R.val
      rw [h0]; rfl
    | ⟨1, _⟩ =>
      show (dS.start (ix1 r) idx (1 : Fin 2) + (dS.window (ix1 r) (1 : Fin 2) : Int)).toNat = C.val
      rw [h1]; rfl
  · rename_i hne
    refine absurd (fun a => ?_) hne
    match a with
    | ⟨0, _⟩ =>
      show 0 ≤ dS.start (ix1 r) idx (0 : Fin 2) + (dS.window (ix1 r) (0 : Fin 2) : Int)
        ∧ dS.start (ix1 r) idx (0 : Fin 2) + (dS.window (ix1 r) (0 : Fin 2) : Int) < ((16384 : Nat) : Int)
      rw [h0]; have := R.isLt; omega
    | ⟨1, _⟩ =>
      show 0 ≤ dS.start (ix1 r) idx (1 : Fin 2) + (dS.window (ix1 r) (1 : Fin 2) : Int)
        ∧ dS.start (ix1 r) idx (1 : Fin 2) + (dS.window (ix1 r) (1 : Fin 2) : Int) < ((128 : Nat) : Int)
      rw [h1]; have := C.isLt; omega

end Cert.RefSide

end
-- ==== Proof.ScatterSet.lean ====
/-
  A scatter that overwrites, read at one index.

  The scatter is a left fold over the update positions in row-major order: a position either lands on an index of the
  result, whose element it replaces by the combiner of the old element and the update, or lands nowhere and changes
  nothing. Read at a fixed index i: a step whose position does not land on i leaves the element at i as it was. So
  if no position lands on i the scatter leaves the operand's element there; and if exactly one position j₀ lands on
  i, and the combiner returns the update, the scatter leaves update j₀ there, whatever the steps before and after it
  did elsewhere.
-/
import Idealize.ShloMosaic.PureOps

namespace Cert.RefSide

open Idealize.ShloMosaic

section Fold

variable {ι κ α : Type}

/-- A fold whose every step leaves the element at i alone leaves the starting element at i. -/
theorem foldl_at_of_skip (step : (ι → α) → κ → (ι → α)) (i : ι) :
    ∀ (l : List κ) (x : ι → α), (∀ n ∈ l, ∀ r, step r n i = r i) → l.foldl step x i = x i
  | [], _, _ => rfl
  | n :: l, x, h => by
    rw [List.foldl_cons, foldl_at_of_skip step i l _ (fun k hk => h k (List.mem_cons_of_mem _ hk))]
    exact h n List.mem_cons_self x

/-- A fold over a duplicate-free list in which one step n₀ sets the element at i to v₀, whatever it was, and every
    other step leaves it alone, ends with v₀ at i. -/
theorem foldl_at_of_single (step : (ι → α) → κ → (ι → α)) (i : ι) (n0 : κ) (v0 : α) (hhit : ∀ r, step r n0 i = v0) :
    ∀ (l : List κ) (x : ι → α), l.Nodup → n0 ∈ l → (∀ n ∈ l, n ≠ n0 → ∀ r, step r n i = r i) → l.foldl step x i = v0
  | [], _, _, hm, _ => nomatch hm
  | n :: l, x, hnd, hm, hs => by
    obtain ⟨hnl, hl⟩ := List.nodup_cons.1 hnd
    rw [List.foldl_cons]
    rcases List.mem_cons.1 hm with e | hm'
    · subst e
      rw [foldl_at_of_skip step i l _ (fun k hk => hs k (List.mem_cons_of_mem _ hk) (fun e => hnl (e ▸ hk)))]
      exact hhit x
    · exact foldl_at_of_single step i n0 v0 hhit l _ hl hm' (fun k hk => hs k (List.mem_cons_of_mem _ hk))

end Fold

section Scatter

variable {α : Type} {s si u : Shape} {w : Nat}

/-- No update lands on i: the scatter leaves the operand's element at i. -/
theorem scatter_at_of_no_landing (d : ScatterDims s si u) (f : α → α → α) (x : s.Idx → α) (idx : IVec si w) (upd : u.Idx → α)
    (i : s.Idx) (h : ∀ j : u.Idx, d.resultIdx? j idx ≠ some i) : Host.scatter d f x idx upd i = x i := by
  unfold Host.scatter
  refine foldl_at_of_skip _ i _ _ (fun n _ r => ?_)
  beta_reduce
  have hn := h (u.rowMajor.symm n)
  generalize d.resultIdx? (u.rowMajor.symm n) idx = o at hn ⊢
  cases o with
  | none => rfl
  | some i0 =>
    show (if i = i0 then f (r i0) (upd (u.rowMajor.symm n)) else r i) = r i
    rw [if_neg]
    intro e
    exact hn (by rw [e])

/-- Exactly one update j₀ lands on i, and the combiner returns the update: the scatter leaves update j₀ at i. -/
theorem scatter_at_of_one_landing (d : ScatterDims s si u) (f : α → α → α) (hf : ∀ a b, f a b = b) (x : s.Idx → α)
    (idx : IVec si w) (upd : u.Idx → α) (i : s.Idx) (j0 : u.Idx) (h0 : d.resultIdx? j0 idx = some i)
    (hu : ∀ j : u.Idx, d.resultIdx? j idx = some i → j = j0) : Host.scatter d f x idx upd i = upd j0 := by
  unfold Host.scatter
  refine foldl_at_of_single _ i (u.rowMajor j0) (upd j0) (fun r => ?_) _ _ (List.nodup_finRange _) (List.mem_finRange _)
    (fun n _ hne r => ?_)
  · beta_reduce
    rw [Equiv.symm_apply_apply, h0]
    show (if i = i then f (r i) (upd j0) else r i) = upd j0
    rw [if_pos rfl, hf]
  · beta_reduce
    have hn : d.resultIdx? (u.rowMajor.symm n) idx ≠ some i := fun e => hne ((Equiv.symm_apply_eq _).1 (hu _ e))
    generalize d.resultIdx? (u.rowMajor.symm n) idx = o at hn ⊢
    cases o with
    | none => rfl
    | some i0 =>
      show (if i = i0 then f (r i0) (upd (u.rowMajor.symm n)) else r i) = r i
      rw [if_neg]
      intro e
      exact hn (by rw [e])

end Scatter

end Cert.RefSide
-- ==== Proof.RefValue.lean ====
/-
  The reference computes one scaled entry of a per row.

  Row by row the reference builds a 16384 × 128 array that is zero except for the constant 0.999 at the positions
  its index pairs name, multiplies it entry by entry into a, and sums each row starting from 0. When every row's
  selecting word names a column, update r lands at (r, col r): the rows are distinct, so exactly one update — update
  r — lands in row r, at column col r, and none lands at any other column of that row. Hence the scattered array is
  0.999 at (r, col r) and 0 elsewhere in row r; the products are a[r, col r] · 0.999 at column col r and
  a[r, k] · 0 = 0 elsewhere (a product with 0 is 0 for every extended real); and 0 plus the row's sum is the one
  surviving product.
-/
import proofs.«207294_g27419071217675_cont_9to1_1737_29_alg».proof.Proof.Spec
import proofs.«207294_g27419071217675_cont_9to1_1737_29_alg».proof.Proof.RefIndex
import proofs.«207294_g27419071217675_cont_9to1_1737_29_alg».proof.Proof.RefLanding
import proofs.«207294_g27419071217675_cont_9to1_1737_29_alg».proof.Proof.ScatterSet
import proofs.«207294_g27419071217675_cont_9to1_1737_29_alg».proof.Proof.Gen.ReferenceIdeal.Read
import Idealize.ShloMosaic.PureOps.Ideal.Laws

noncomputable section

namespace Cert.RefSide

open Idealize.ShloMosaic Idealize.ShloMosaic.ValueIdx
open Cert.ReferenceIdeal Cert.ReferenceIdeal.Read

variable [Cert.ReferenceIdeal.Facts]

section
variable {F : FTy → Type} [FloatOps F]

/-- When every selecting word names a column, update q lands at (q, col q). -/
theorem update_lands (z : FVec F Cert.Spec.SZ .f32) (hz : Cert.Spec.InRange z) (q : Fin 16384) :
    dS.resultIdx? (ix1 q) (val_main_v17 (F := F) z) = some (ix2 q (Cert.Spec.col z q)) :=
  lands_at _ q q (Cert.Spec.col z q) (idxArr_row z q) (idxArr_col z q (hz q))

/-- Every update position is some row q, and lands at (q, col q). -/
theorem every_update_lands (z : FVec F Cert.Spec.SZ .f32) (hz : Cert.Spec.InRange z) (j : S16384.Idx) :
    ∃ q : Fin 16384, j = ix1 q ∧ dS.resultIdx? j (val_main_v17 (F := F) z) = some (ix2 q (Cert.Spec.col z q)) := by
  obtain ⟨q, rfl⟩ : ∃ q : Fin 16384, j = ix1 q := ⟨j 0, eq_ix1 j⟩
  exact ⟨q, rfl, update_lands z hz q⟩

/-- The scattered array at (r, k): the constant at the selected column of row r, zero at every other column. -/
theorem scatter_at (z : FVec F Cert.Spec.SZ .f32) (hz : Cert.Spec.InRange z) (r : Fin 16384) (k : Fin 128) :
    val_main_v19 (F := F) z (ix2 r k)
      = if k = Cert.Spec.col z r then FloatOps.ofBits .f32 0x3F7FBE77#32 else FloatOps.ofBits .f32 0x00000000#32 := by
  unfold val_main_v19
  by_cases hk : k = Cert.Spec.col z r
  · rw [if_pos hk]
    subst hk
    refine (scatter_at_of_one_landing dS (fun _ b => b) (fun _ _ => rfl) _ _ _ (ix2 r (Cert.Spec.col z r)) (ix1 r)
      (update_lands z hz r) (fun j hj => ?_)).trans ?_
    · obtain ⟨q, rfl, hl⟩ := every_update_lands z hz j
      rw [hl] at hj
      have hqr : q = r := congrFun (Option.some.inj hj) 0
      rw [hqr]
    · rw [val_main_v18_apply, val_main_cst_3_apply]
  · rw [if_neg hk]
    refine (scatter_at_of_no_landing dS (fun _ b => b) _ _ _ (ix2 r k) (fun j hj => ?_)).trans ?_
    · obtain ⟨q, rfl, hl⟩ := every_update_lands z hz j
      rw [hl] at hj
      have e := Option.some.inj hj
      have hqr : q = r := congrFun e 0
      have hck : Cert.Spec.col z q = k := congrFun e 1
      exact hk (by rw [← hck, hqr])
    · rw [val_main_v3_apply, val_main_cst_apply]

end

/-- At the extended reals, when every selecting word names a column, the reference's result is the specification's. -/
theorem ref_value (z : FVec Ideal Cert.Spec.SZ .f32) (a : FVec Ideal Cert.Spec.SA .f32) (hz : Cert.Spec.InRange z) :
    val_main_v21 (F := Ideal) z a = Cert.Spec.G (F := Ideal) z a := by
  funext i
  obtain ⟨r, rfl⟩ : ∃ r : Fin 16384, i = ix1 r := ⟨i 0, eq_ix1 i⟩
  rw [val_main_v21_apply, val_main_cst_4_apply]
  have hterm : ∀ k : Fin 128, val_main_v20 (F := Ideal) z a (idx_main_v21 (ix1 r) k)
      = if k = Cert.Spec.col z r then a (ix2 r k) * Ideal.ofBits .f32 0x3F7FBE77#32 else 0 := by
    intro k
    have hidx : idx_main_v21 (ix1 r) k = ix2 r k :=
      funext fun b => by match b with | ⟨0, _⟩ => rfl | ⟨1, _⟩ => rfl
    rw [hidx, val_main_v20_apply, scatter_at z hz r k]
    by_cases hk : k = Cert.Spec.col z r
    · rw [if_pos hk, if_pos hk]; rfl
    · rw [if_neg hk, if_neg hk]
      show a (ix2 r k) * Ideal.ofBits .f32 0x00000000#32 = 0
      rw [Ideal.ofBits_zero_f32, mul_zero]
  rw [Finset.sum_congr rfl (fun k _ => hterm k), Finset.sum_ite_eq', if_pos (Finset.mem_univ _)]
  show Ideal.ofBits .f32 0x00000000#32 + a (ix2 r (Cert.Spec.col z r)) * Ideal.ofBits .f32 0x3F7FBE77#32 = _
  rw [Ideal.ofBits_zero_f32, zero_add]
  rfl

end Cert.RefSide

end
-- ==== Proof.RefRun.lean ====
/-
  The reference's run.

  Every weakly fair execution of the reference terminates with its result at the composed term of its operations and
  its arguments unchanged. Under the precondition every row's selecting word names a column, so that term is the
  specification's function of the two arguments; dropping the result gives the frame.
-/
import proofs.«207294_g27419071217675_cont_9to1_1737_29_alg».proof.Proof.RefValue
import proofs.«207294_g27419071217675_cont_9to1_1737_29_alg».proof.Proof.PreDecode
import proofs.«207294_g27419071217675_cont_9to1_1737_29_alg».proof.Defs

noncomputable section

namespace Cert.RefSide

open Idealize.ShloMosaic Idealize.ShloMosaic.TcCoe Idealize.SL.Sem

/-- Under the precondition the reference runs, ends with the specification's result, and leaves its arguments unchanged. -/
theorem ref_run [Cert.ReferenceIdeal.Facts] [Cert.Pre_finite_inputs.Facts]
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v21)
        = Cert.Spec.G (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine (θ_run (Cert.ReferenceIdeal.defs (F := Ideal)) _ _).mono (fun r h c => ⟨?_, (h c).2⟩)
    (Cert.ReferenceIdeal.Value.run (F := Ideal) m' g')
  rw [(h c).1, Cert.ReferenceIdeal.Read.val_main_v21_eq]
  exact ref_value _ _ (Cert.PreDecode.inRange_of_pre _ _ (hpre c))

/-- The reference runs and leaves its arguments unchanged. -/
theorem ref_frame [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.Value.run (F := Ideal) m ρ)

end Cert.RefSide

end
-- ==== Proof.Assembly.lean ====
/-
  The five claims, from the kernel's run (at the word level and on the extended reals), the reference's run, and the
  decoding of the precondition — given that one task of the kernel does what `TileBodySpec` says, at each instance.

  The precondition puts every row's selecting word in range; read through the flat layout of `z` that is what the
  kernel's tasks need. The kernel's run ends with the result array at the specification's function of the two
  arguments, read through the flat layouts, which is the function itself; the reference's run ends at the same
  function of its own arguments, which agree with the kernel's. Dropping the value from a run leaves the frame.
-/
import proofs.«207294_g27419071217675_cont_9to1_1737_29_alg».proof.Defs
import proofs.«207294_g27419071217675_cont_9to1_1737_29_alg».proof.Proof.Gen.Kernel
import proofs.«207294_g27419071217675_cont_9to1_1737_29_alg».proof.Proof.Gen.KernelIdeal
import proofs.«207294_g27419071217675_cont_9to1_1737_29_alg».proof.Proof.Gen.ReferenceIdeal
import proofs.«207294_g27419071217675_cont_9to1_1737_29_alg».proof.Proof.Gen.Pre_finite_inputs
import proofs.«207294_g27419071217675_cont_9to1_1737_29_alg».proof.Proof.Launch
import proofs.«207294_g27419071217675_cont_9to1_1737_29_alg».proof.Proof.LaunchB
import proofs.«207294_g27419071217675_cont_9to1_1737_29_alg».proof.Proof.PreDecode
import proofs.«207294_g27419071217675_cont_9to1_1737_29_alg».proof.Proof.RefRun

noncomputable section

namespace Cert.Assembly

open Idealize.ShloMosaic Idealize.SL.Sem

variable {F : FTy → Type} [FloatOps F]

/-! ## The idealized kernel -/

/-- The precondition, read through the flat layout of `z`: every row's selecting word names a column. -/
theorem inRange_ki (m : (ℓ : Loc Cert.KernelIdeal.nD Cert.KernelIdeal.τ Cert.KernelIdeal.sig) → Buf (Elt F) ℓ)
    (h : ∀ c : Dev Cert.KernelIdeal.nD,
      Cert.Pre_finite_inputs.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    ∀ d, Cert.Spec.InRangeF (F := F) (Cert.KI.zf m d) := fun d => by
  unfold Cert.KI.zf
  exact Cert.Spec.inRangeF_of_inRange _ _ (Cert.PreDecode.inRange_of_pre _ _ (h d))

/-- The result the kernel's run names is the specification's function of the two arguments. -/
theorem res_ki (m : (ℓ : Loc Cert.KernelIdeal.nD Cert.KernelIdeal.τ Cert.KernelIdeal.sig) → Buf (Elt F) ℓ) (c : Dev Cert.KernelIdeal.nD) :
    Cert.KI.res m c = Cert.Spec.G (F := F) (m (Cert.KI.z2Loc c)) (m (Cert.KI.a2Loc c)) := by
  unfold Cert.KI.res Cert.KI.ob Cert.KI.zf Cert.KI.af
  exact Cert.Spec.G_of_flat _ _ _ _ _

theorem frame_ki (hi : Cert.KI.TileBodySpec (F := Ideal)) : Cert.frame_KernelIdeal := fun m ρ hpre =>
  (θ_run Cert.KernelIdeal.defs _ _).mono (fun _ h c => ⟨(h c).2.1, (h c).2.2⟩)
    (Cert.KI.run_main (F := Ideal) m ρ hi (inRange_ki m hpre))

/-! ## The kernel at the word level -/

theorem inRange_kb (m : (ℓ : Loc Cert.Kernel.nD Cert.Kernel.τ Cert.Kernel.sig) → Buf (Elt F) ℓ)
    (h : ∀ c : Dev Cert.Kernel.nD,
      Cert.Pre_finite_inputs.fn (F := F) (m ((c.tc : Thread Cert.Kernel.nD Cert.Kernel.τ).loc Cert.Kernel.main_arg0))
        (m ((c.tc : Thread Cert.Kernel.nD Cert.Kernel.τ).loc Cert.Kernel.main_arg1)) = fun _ => 1#1) :
    ∀ d, Cert.Spec.InRangeF (F := F) (Cert.KB.zf m d) := fun d => by
  unfold Cert.KB.zf
  exact Cert.Spec.inRangeF_of_inRange _ _ (Cert.PreDecode.inRange_of_pre _ _ (h d))

theorem frame_kb (hb : Cert.KB.TileBodySpec (F := Bits)) : Cert.frame_Kernel := fun m ρ hpre =>
  (θ_run Cert.Kernel.defs _ _).mono (fun _ h c => ⟨(h c).2.1, (h c).2.2⟩)
    (Cert.KB.run_main (F := Bits) m ρ hb (inRange_kb m hpre))

/-! ## The two idealized programs end with equal results -/

theorem algebraic (hi : Cert.KI.TileBodySpec (F := Ideal)) : Cert.algebraic_KernelIdeal_ReferenceIdeal := by
  intro m ρ m' ρ' hpre hagree
  have hpre' : Cert.Pre_ReferenceIdeal m' := fun c => by
    rw [(hagree c).1, (hagree c).2]; exact hpre c
  refine ⟨fun c => Cert.Spec.G (F := Ideal) (m (Cert.KI.z2Loc c)) (m (Cert.KI.a2Loc c)), ?_, ?_⟩
  · exact (θ_run Cert.KernelIdeal.defs _ _).mono (fun _ h c => ⟨(h c).1.trans (res_ki m c), (h c).2.1, (h c).2.2⟩)
      (Cert.KI.run_main (F := Ideal) m ρ hi (inRange_ki m hpre))
  · refine (θ_run Cert.ReferenceIdeal.defs _ _).mono (fun _ h c => ⟨?_, (h c).2.1, (h c).2.2⟩) (Cert.RefSide.ref_run m' ρ' hpre')
    rw [(h c).1, (hagree c).1, (hagree c).2]

/-- Everything claimed, from one task's body at each instance. -/
theorem claim_of_bodies (hb : Cert.KB.TileBodySpec (F := Bits)) (hi : Cert.KI.TileBodySpec (F := Ideal)) : Cert.Claim :=
  ⟨Cert.Kernel.Gen.facts, Cert.KernelIdeal.Gen.facts, Cert.ReferenceIdeal.Gen.facts, Cert.Pre_finite_inputs.Gen.facts,
    frame_kb hb, frame_ki hi, Cert.RefSide.ref_frame, trivial, algebraic hi⟩

end Cert.Assembly

end
-- ==== Proof.BodySetup.lean ====
/-
  One task's hold on its own memory, named: the four scratch buffers it uses among the subcore's own buffers,
  the seventeen semaphore cells it uses among the subcore's own cells (one per gather out of flat `z`, one per
  gather out of flat `a`, one for the copy of the result rows), the task's rows of the block as the program
  slices them, and the read share of a flat array cut into one token per cell that reads it.
-/
import proofs.«207294_g27419071217675_cont_9to1_1737_29_alg».proof.Proof.Common

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The cells -/

/-- The cell of DMA semaphore `s` on vector subcore `(c, i)` of device `d`. -/
abbrev cell (d : Dev nD) (c : Fin τ.nSC) (i : Fin τ.nSub) (s : DmaSems sig S_) : GSem nD τ sig := (V d c i, .dma s.sem)

theorem cell_ne (d : Dev nD) (c : Fin τ.nSC) (i : Fin τ.nSub) {s t : DmaSems sig S_} (h : s.sem ≠ t.sem) :
    cell d c i s ≠ cell d c i t := by
  intro e; exact h (by simpa [cell] using e)

theorem cell_mem (d : Dev nD) (c : Fin τ.nSC) (i : Fin τ.nSub) (s : DmaSems sig S_)
    (h : (SemLoc.dma s.sem : SemLoc sig).isScoped .scVector = true) : cell d c i s ∈ ownCells (V d c i) :=
  (mem_ownCells (g := cell d c i s)).mpr ⟨rfl, h⟩

/-- The subcore's own cells but the seventeen the task uses. -/
abbrev restCells (d : Dev nD) (c : Fin τ.nSC) (i : Fin τ.nSub) : Finset (GSem nD τ sig) :=
  ((((((((((((((((((ownCells (V d c i)).erase (cell d c i cc0_scratch4)).erase (cell d c i cc0_scratch5)).erase (cell d c i cc0_scratch6)).erase (cell d c i cc0_scratch7)).erase (cell d c i cc0_scratch8)).erase (cell d c i cc0_scratch9)).erase (cell d c i cc0_scratch10)).erase (cell d c i cc0_scratch11)).erase (cell d c i cc0_scratch12)).erase (cell d c i cc0_scratch13)).erase (cell d c i cc0_scratch14)).erase (cell d c i cc0_scratch15)).erase (cell d c i cc0_scratch16)).erase (cell d c i cc0_scratch17)).erase (cell d c i cc0_scratch18)).erase (cell d c i cc0_scratch19)).erase (cell d c i cc0_scoped0))

/-- The subcore's own semaphores at zero: the seventeen the task uses, each at zero, and the others. -/
theorem ownSems0_V (d : Dev nD) (c : Fin τ.nSC) (i : Fin τ.nSub) :
    (ownSems0 (V d c i) : sProp 𝕄)
      = iprop(semVal (cell d c i cc0_scratch4) 0
          ∗ semVal (cell d c i cc0_scratch5) 0
          ∗ semVal (cell d c i cc0_scratch6) 0
          ∗ semVal (cell d c i cc0_scratch7) 0
          ∗ semVal (cell d c i cc0_scratch8) 0
          ∗ semVal (cell d c i cc0_scratch9) 0
          ∗ semVal (cell d c i cc0_scratch10) 0
          ∗ semVal (cell d c i cc0_scratch11) 0
          ∗ semVal (cell d c i cc0_scratch12) 0
          ∗ semVal (cell d c i cc0_scratch13) 0
          ∗ semVal (cell d c i cc0_scratch14) 0
          ∗ semVal (cell d c i cc0_scratch15) 0
          ∗ semVal (cell d c i cc0_scratch16) 0
          ∗ semVal (cell d c i cc0_scratch17) 0
          ∗ semVal (cell d c i cc0_scratch18) 0
          ∗ semVal (cell d c i cc0_scratch19) 0
          ∗ semVal (cell d c i cc0_scoped0) 0
          ∗ bigSep (restCells d c i) fun g => semVal g 0) := by
  unfold SparseCore.Cfg.ownSems0
  rw [SparseCore.bigSep_erase' (cell_mem d c i cc0_scratch4 (by decide)),
    SparseCore.bigSep_erase' (Finset.mem_erase.mpr ⟨cell_ne d c i (by decide), cell_mem d c i cc0_scratch5 (by decide)⟩),
    SparseCore.bigSep_erase' (Finset.mem_erase.mpr ⟨cell_ne d c i (by decide), Finset.mem_erase.mpr ⟨cell_ne d c i (by decide), cell_mem d c i cc0_scratch6 (by decide)⟩⟩),
    SparseCore.bigSep_erase' (Finset.mem_erase.mpr ⟨cell_ne d c i (by decide), Finset.mem_erase.mpr ⟨cell_ne d c i (by decide), Finset.mem_erase.mpr ⟨cell_ne d c i (by decide), cell_mem d c i cc0_scratch7 (by decide)⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch8 (by decide)⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch9 (by decide)⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch10 (by decide)⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch11 (by decide)⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch12 (by decide)⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch13 (by decide)⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch14 (by decide)⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch15 (by decide)⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch16 (by decide)⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch17 (by decide)⟩⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch18 (by decide)⟩⟩⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch19 (by decide)⟩⟩⟩⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scoped0 (by decide)⟩⟩⟩⟩⟩⟩⟩⟩⟩⟩⟩⟩⟩⟩⟩⟩)]

/-! ## The scratch buffers -/

/-- The subcore's own buffers: the four scratch buffers, each at some contents, and the others. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (((((ownRefs (τ := τ) (.scVector c i)).erase ((Proc.scVector c i).devRef cc0_scratch0)).erase
              ((Proc.scVector c i).devRef cc0_scratch1)).erase ((Proc.scVector c i).devRef cc0_scratch2)).erase
              ((Proc.scVector c i).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector c i) (b := (Proc.scVector c i).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector c i) (b := (Proc.scVector c i).devRef cc0_scratch3) rfl⟩⟩⟩)]

/-! ## The arrays as the task's program names them -/

section Tile

variable (d : Dev nD) (L : grid0.Coords)

/-- The task's eight rows of the block, as the program slices them. -/
abbrev orowK (L : grid0.Coords) : Rect S128x128 := Rect.unit (s := S128x128) (k0_off1 L) S8x128.size (k0_off1_inb L)
abbrev oRowK (L : grid0.Coords) : Memref sig .scVector .hbm S8x128 .f32 := (oV).slice (orowK L) (fun _ => rfl)

theorem orowK_eq : orowK L = orow (jL L) := by
  unfold orowK orow Rect.part Rect.block
  have h0 : (L 0).val = 0 := by have := (L 0).isLt; simpa using this
  congr 1 <;> funext a
  · rw [k0_off1_eq]
    match a with
    | 0 => simp [Shape.partIx, Shape.partSize, h0]; omega
    | 1 => simp [Shape.partIx, Shape.partSize]
  · match a with
    | 0 => simp [Shape.partSize]
    | 1 => simp [Shape.partSize]

theorem set_oRowK : (oRowK L).view.set = oRowSet (jL L) := by
  show ((oV).view.slice (orowK L)).set = ((oV).view.slice (orow (jL L))).set
  rw [orowK_eq]

theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
theorem pts_zV (q : PosShare TreeShare) (f : Buf (Elt F) (zLoc d)) :
    ((zV).view.loc (V d (cV L) (jV L)) ↦{q} f : sProp 𝕄) = zLoc d ↦{q} f := rfl
theorem pts_aV (q : PosShare TreeShare) (f : Buf (Elt F) (aLoc d)) :
    ((aV).view.loc (V d (cV L) (jV L)) ↦{q} f : sProp 𝕄) = aLoc d ↦{q} f := rfl
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl

end Tile

/-! ## A read share cut into tokens, one at a time -/

/-- What remains of a share after `k` tokens is what remains after `k + 1` and the `k`-th token. -/
theorem tok_step {ℓ : Loc nD τ sig} {I : Finset (Idx ℓ)} {f : Buf (Elt F) ℓ} (q : PosShare TreeShare) (k : ℕ) :
    (ℓ ↦[I]{Transfers.shareDrop q k} f : sProp 𝕄)
      ⊣⊢ iprop((ℓ ↦[I]{Transfers.shareDrop q (k + 1)} f) ∗ ℓ ↦[I]{Transfers.shareTokN q k} f) :=
  pointsTo_share (PosShare.mem_left_op_right _)

end Cert.KI

end
-- ==== Proof.WordFacts.lean ====
/-
  The kernel's index words, as natural numbers: nothing wraps around.

  A task's rows start at a base below 16384 − 15; lane `l` of a vector handles row base + l. The position of that
  row's attribute slot 4 in flat `z` is 32 (base + l) + 4, below 524288; the position of column `c` (below 128) of
  that row in flat `a` is 128 (base + l) + c, below 2097152. Computed on 32-bit words with wrapping addition and
  multiplication these are the same numbers, since every intermediate value is below 2³².
-/
import Idealize.ShloMosaic.PureOps

namespace Cert.WordFacts

open Idealize.ShloMosaic

/-- The word of a small number is that number. -/
theorem toNat_ofNat_small (n : ℕ) (h : n < 4294967296) : (BitVec.ofNat 32 n).toNat = n := by
  rw [BitVec.toNat_ofNat]; exact Nat.mod_eq_of_lt h

/-- Row base + lane, as a word. -/
theorem rowWord_toNat (b : BitVec 32) (l : ℕ) (hl : l < 16) (hb : b.toNat + 15 < 16384) :
    (IntOp.addi (BitVec.ofNat 32 l) b).toNat = b.toNat + l := by
  show (BitVec.ofNat 32 l + b).toNat = _
  rw [BitVec.toNat_add, toNat_ofNat_small l (by omega)]
  omega

/-- The position in flat `z` of attribute slot 4 of row base + lane: 32 (base + lane) + 4, without wrapping. -/
theorem zWord_toNat (b : BitVec 32) (l : ℕ) (hl : l < 16) (hb : b.toNat + 15 < 16384) :
    (IntOp.addi (IntOp.muli (IntOp.addi (BitVec.ofNat 32 l) b) 32#32) 4#32).toNat = (b.toNat + l) * 32 + 4 := by
  have h1 := rowWord_toNat b l hl hb
  show ((IntOp.addi (BitVec.ofNat 32 l) b) * 32#32 + 4#32).toNat = _
  rw [BitVec.toNat_add, BitVec.toNat_mul, h1]
  simp only [BitVec.toNat_ofNat]
  omega

/-- and it is a position of flat `z`. -/
theorem zWord_lt (b : BitVec 32) (l : ℕ) (hl : l < 16) (hb : b.toNat + 15 < 16384) :
    (IntOp.addi (IntOp.muli (IntOp.addi (BitVec.ofNat 32 l) b) 32#32) 4#32).toNat < 524288 := by
  rw [zWord_toNat b l hl hb]; omega

/-- The position in flat `a` of column `c` of row base + lane: 128 (base + lane) + c, without wrapping. -/
theorem aWord_toNat (b c : BitVec 32) (l : ℕ) (hl : l < 16) (hb : b.toNat + 15 < 16384) (hc : c.toNat < 128) :
    (IntOp.addi (IntOp.muli (IntOp.addi (BitVec.ofNat 32 l) b) 128#32) c).toNat = (b.toNat + l) * 128 + c.toNat := by
  have h1 := rowWord_toNat b l hl hb
  show ((IntOp.addi (BitVec.ofNat 32 l) b) * 128#32 + c).toNat = _
  rw [BitVec.toNat_add, BitVec.toNat_mul, h1]
  simp only [BitVec.toNat_ofNat]
  omega

/-- and it is a position of flat `a`. -/
theorem aWord_lt (b c : BitVec 32) (l : ℕ) (hl : l < 16) (hb : b.toNat + 15 < 16384) (hc : c.toNat < 128) :
    (IntOp.addi (IntOp.muli (IntOp.addi (BitVec.ofNat 32 l) b) 128#32) c).toNat < 2097152 := by
  rw [aWord_toNat b c l hl hb hc]; omega

/-- The base of task `w` (of sixteen, on the one SparseCore `c = 0`), chunk `r` and vector `v`: 1024 w + r' + v' with
    r' = 128 r and v' = 16 v given as numbers, as the kernel computes it. -/
theorem baseSum_toNat (w c r' v' : ℕ) (hw : w < 16) (hc : c = 0) (hr : r' ≤ 896) (hv : v' ≤ 112) :
    (Scalar.addi (Scalar.addi (Scalar.muli (Scalar.addi (Scalar.muli (BitVec.ofNat 32 w) 1#32) (BitVec.ofNat 32 c)) 1024#32) (BitVec.ofNat 32 r')) (BitVec.ofNat 32 v')).toNat
      = 1024 * w + r' + v' := by
  subst hc
  show ((BitVec.ofNat 32 w * 1#32 + BitVec.ofNat 32 0) * 1024#32 + BitVec.ofNat 32 r' + BitVec.ofNat 32 v').toNat = _
  simp only [BitVec.toNat_add, BitVec.toNat_mul, BitVec.toNat_ofNat]
  omega

/-- The base of task `j`'s rows: 1024 j. -/
theorem base_toNat (j : ℕ) (hj : j < 16) :
    (Scalar.muli (Scalar.addi (Scalar.muli (BitVec.ofNat 32 j) 1#32) (BitVec.ofNat 32 0)) 1024#32).toNat = 1024 * j := by
  show ((BitVec.ofNat 32 j * 1#32 + BitVec.ofNat 32 0) * 1024#32).toNat = _
  simp only [BitVec.toNat_add, BitVec.toNat_mul, BitVec.toNat_ofNat]
  omega

/-- The sum base + chunk offset + vector offset is below 16384 − 15, and is 1024 w + 128 r + 16 v. -/
theorem rowBase_toNat (b c1 c2 : BitVec 32) (w r v : ℕ) (hw : w < 16) (hr : r < 8) (hv : v < 8)
    (hb : b.toNat = 1024 * w) (h1 : c1.toNat = 128 * r) (h2 : c2.toNat = 16 * v) :
    (Scalar.addi (Scalar.addi b c1) c2).toNat = 1024 * w + 128 * r + 16 * v := by
  show (b + c1 + c2).toNat = _
  rw [BitVec.toNat_add, BitVec.toNat_add, hb, h1, h2]
  omega

/-- Position in flat `z` of slot 4 of row 1024 w + 128 r + 16 v + l, as the kernel computes it. -/
theorem zword_toNat (b c1 c2 : BitVec 32) (w r v l : ℕ) (hw : w < 16) (hr : r < 8) (hv : v < 8) (hl : l < 16)
    (hb : b.toNat = 1024 * w) (h1 : c1.toNat = 128 * r) (h2 : c2.toNat = 16 * v) :
    (IntOp.addi (IntOp.muli (IntOp.addi (BitVec.ofNat 32 l) (Scalar.addi (Scalar.addi b c1) c2)) 32#32) 4#32).toNat
      = 32 * (1024 * w + 128 * r + 16 * v + l) + 4 := by
  have hB := rowBase_toNat b c1 c2 w r v hw hr hv hb h1 h2
  rw [zWord_toNat _ l hl (by rw [hB]; omega), hB]
  omega

/-- Position in flat `a` of column `c` of row 1024 w + 128 r + 16 v + l, as the kernel computes it. -/
theorem aword_toNat (b c1 c2 c : BitVec 32) (w r v l : ℕ) (hw : w < 16) (hr : r < 8) (hv : v < 8) (hl : l < 16)
    (hb : b.toNat = 1024 * w) (h1 : c1.toNat = 128 * r) (h2 : c2.toNat = 16 * v) (hc : c.toNat < 128) :
    (IntOp.addi (IntOp.muli (IntOp.addi (BitVec.ofNat 32 l) (Scalar.addi (Scalar.addi b c1) c2)) 128#32) c).toNat
      = 128 * (1024 * w + 128 * r + 16 * v + l) + c.toNat := by
  have hB := rowBase_toNat b c1 c2 w r v hw hr hv hb h1 h2
  rw [aWord_toNat _ c l hl (by rw [hB]; omega) hc, hB]
  omega

end Cert.WordFacts
-- ==== Proof.BodyZ.lean ====
/-
  Phase one of a task, as data: the index lists the task writes into its first scratch buffer. Row `r`, lane group
  `v`, lane `l` of the buffer receives the position in flat `z` of attribute slot 4 of result row
  `1024 w + 128 r + 16 v + l`, that is `32 · row + 4`; the word arithmetic does not wrap, so every list entry is a
  position of flat `z`: the in-range fact each gather out of flat `z` needs, at the list's contents when it is issued.
-/
import proofs.«207294_g27419071217675_cont_9to1_1737_29_alg».proof.Proof.BodySetup
import proofs.«207294_g27419071217675_cont_9to1_1737_29_alg».proof.Proof.WordFacts

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The words -/

/-- The task's first result index, as the program computes it: `1024 w`. -/
def v2w (L : grid0.Coords) : BitVec 32 :=
  Scalar.muli (Scalar.addi (Scalar.muli (BitVec.ofNat 32 (L 1).val) 1#32) (BitVec.ofNat 32 (L 0).val)) 1024#32

theorem v2w_toNat (L : grid0.Coords) : (v2w L).toNat = 1024 * (L 1).val := by
  have h0 : (L 0).val = 0 := by have := (L 0).isLt; simpa using this
  unfold v2w; rw [h0]; exact Cert.WordFacts.base_toNat _ (L 1).isLt

/-- Sixteen consecutive positions in flat `z`: lane `l` holds `32 · (b + c₁ + c₂ + l) + 4`. -/
def zVec (b c1 c2 : BitVec 32) : IVec S1x16 32 :=
  shapeCast S1x16 (addi (muli (addi (iota .scVector S16 32 [0] iota_S16_d0_w32_scVector) (broadcast S16 (Scalar.addi (Scalar.addi b c1) c2)))
    (broadcast S16 32#32)) (broadcast S16 4#32)) shapeCasts_S16_S1x16

/-- A 1 × 16 index read as a 16-index: the lane. -/
theorem reshape_lane (h : S1x16.numel = S16.numel) (j : S1x16.Idx) : ((Shape.reshapeEquiv h j) 0).val = (j 1).val := by
  have e := Shape.rowMajor_reshapeEquiv h j
  rw [Shape.rowMajor_val_one, Shape.rowMajor_val_two] at e
  have h0 : (j 0).val = 0 := by have := (j 0).isLt; simpa using this
  rw [h0] at e; simpa using e

/-- A 128-index read as a 1 × 128 index: row 0, the same column. -/
theorem reshape_col (h : S128.numel = S1x128.numel) (x : S128.Idx) : ((Shape.reshapeEquiv h x) 1).val = (x 0).val := by
  have e := Shape.rowMajor_reshapeEquiv h x
  rw [Shape.rowMajor_val_one, Shape.rowMajor_val_two] at e
  have h0 : ((Shape.reshapeEquiv h x) 0).val = 0 := by have := ((Shape.reshapeEquiv h x) 0).isLt; simpa using this
  rw [h0] at e; simpa using e

theorem zVec_apply (b c1 c2 : BitVec 32) (j : S1x16.Idx) :
    zVec b c1 c2 j = IntOp.addi (IntOp.muli (IntOp.addi (BitVec.ofNat 32 (j 1).val) (Scalar.addi (Scalar.addi b c1) c2)) 32#32) 4#32 := by
  unfold zVec shapeCast addi muli iota broadcast
  simp only [List.foldl, Nat.zero_mul, Nat.zero_add]
  rw [reshape_lane]

/-- What entry `y` of the first scratch buffer is to hold: `32 · (1024 w + 128 y₀ + y₁) + 4`. -/
def zG (L : grid0.Coords) : S8x128.Idx → Elt F .i32 :=
  fun y => BitVec.ofNat 32 (32 * (1024 * (L 1).val + 128 * (y 0).val + (y 1).val) + 4)

/-- One stored piece agrees with `zG` on its rectangle. -/
theorem zP_agree (L : grid0.Coords) (r v c : ℕ) (hr : r < 8) (hv : v < 8) (hc : c = 16 * v) (c1 c2 : BitVec 32)
    (h1 : c1.toNat = 128 * r) (h2 : c2.toNat = 16 * v) (inb : ∀ a, (![r, c] : Fin 2 → ℕ) a + S1x16.size a ≤ S8x128.size a)
    (x : (Rect.unit (s := S8x128) ![r, c] S1x16.size inb).shape.Idx) :
    zVec (v2w L) c1 c2 x = zG (F := F) L ((Rect.unit (s := S8x128) ![r, c] S1x16.size inb).emb x) := by
  subst hc
  apply BitVec.eq_of_toNat_eq
  have hx1 : (x 1).val < 16 := (x 1).isLt
  have hx0 : (x 0).val = 0 := by have := (x 0).isLt; simpa using this
  rw [zVec_apply, Cert.WordFacts.zword_toNat _ _ _ (L 1).val r v (x 1).val (L 1).isLt hr hv hx1 (v2w_toNat L) h1 h2]
  have hw : (L 1).val < 16 := (L 1).isLt
  have e0 : ((Rect.unit (s := S8x128) ![r, 16 * v] S1x16.size inb).emb x 0).val = r := by
    rw [Rect.emb_apply]; simp [hx0]
  have e1 : ((Rect.unit (s := S8x128) ![r, 16 * v] S1x16.size inb).emb x 1).val = 16 * v + (x 1).val := by
    rw [Rect.emb_apply]; simp
  show _ = (BitVec.ofNat 32 _).toNat
  rw [BitVec.toNat_ofNat, e0, e1]
  omega

/-! ## Rows of a scratch buffer covered by sixteen-lane pieces -/

/-- A list of pieces that has, for each of the eight lane groups of row `r`, the piece over that group, covers row `r`. -/
theorem cover_row {Val : EltTy → Type} {e : EltTy} (Ls : List (View.Piece Val S8x128 e)) (r : ℕ)
    (h : ∀ v : Fin 8, ∃ p ∈ Ls, ∃ inb, p.1 = Rect.unit (s := S8x128) ![r, 16 * v.val] S1x16.size inb) :
    ∀ y : S8x128.Idx, (y 0).val = r → ∃ p ∈ Ls, y ∈ p.1.set := by
  intro y hy
  have hlt : (y 1).val < 128 := (y 1).isLt
  obtain ⟨p, hp, inb, hrect⟩ := h ⟨(y 1).val / 16, by omega⟩
  refine ⟨p, hp, ?_⟩
  rw [hrect, Rect.mem_set_unit]
  intro a
  fin_cases a
  · simp; omega
  · simp; omega

/-- Entry `x` of row `r` of a scratch buffer, named as the gathers name the row, is entry `(r, x)` of the buffer. -/
def rowIx (r : ℕ) (inb : ∀ a, (![r, 0] : Fin 2 → ℕ) a + S1x128.size a ≤ S8x128.size a) (x : S128.Idx) : S8x128.Idx :=
  (Rect.unit (s := S8x128) ![r, 0] S1x128.size inb).emb (Shape.reshapeEquiv squeezes_S1x128_S128.numel_eq x)

theorem rowIx_zero (r : ℕ) (inb) (x : S128.Idx) : ((rowIx r inb x) 0).val = r := by
  unfold rowIx; rw [Rect.emb_apply]
  have h0 : ((Shape.reshapeEquiv squeezes_S1x128_S128.numel_eq x) 0).val = 0 := by
    have := ((Shape.reshapeEquiv squeezes_S1x128_S128.numel_eq x) 0).isLt; simpa using this
  simp [h0]

theorem rowIx_one (r : ℕ) (inb) (x : S128.Idx) : ((rowIx r inb x) 1).val = (x 0).val := by
  unfold rowIx; rw [Rect.emb_apply]
  simp [reshape_col]

/-- The in-range fact of a gather out of flat `z` through row `r` of the first scratch buffer, from the pieces written. -/
theorem hinZ_of (L : grid0.Coords) (r : ℕ) (hr : r < 8) (inb : ∀ a, (![r, 0] : Fin 2 → ℕ) a + S1x128.size a ≤ S8x128.size a)
    (Ls : List (View.Piece (Elt F) S8x128 .i32)) (hag : ∀ p ∈ Ls, ∀ x, p.2 x = zG L (p.1.emb x))
    (hcov : ∀ v : Fin 8, ∃ p ∈ Ls, ∃ inb, p.1 = Rect.unit (s := S8x128) ![r, 16 * v.val] S1x16.size inb) :
    ∀ (g : (s0V).view.ty.Contents (Elt F)) (x : S128.Idx),
      (View.read (Elt F) (((s0V).slice (Rect.unit (s := S8x128) ![r, 0] S1x128.size inb) (fun _ => rfl)).squeeze S128 squeezes_S1x128_S128).view
        ((s0V).view.writes (Elt F) g Ls) x).toNat < 524288 := by
  intro g x
  have e : View.read (Elt F) (((s0V).slice (Rect.unit (s := S8x128) ![r, 0] S1x128.size inb) (fun _ => rfl)).squeeze S128 squeezes_S1x128_S128).view
        ((s0V).view.writes (Elt F) g Ls) x
      = View.read (Elt F) (s0V).view ((s0V).view.writes (Elt F) g Ls) (rowIx r inb x) := by
    rw [View.read_apply, View.read_apply]; rfl
  rw [e, View.read_writes_apply_of_pieces (s0V).view g (zG L) Ls hag (rowIx r inb x) (cover_row Ls r hcov _ (rowIx_zero r inb x))]
  have hw : (L 1).val < 16 := (L 1).isLt
  have h1 : ((rowIx r inb x) 1).val < 128 := ((rowIx r inb x) 1).isLt
  show (BitVec.ofNat 32 _).toNat < _
  rw [BitVec.toNat_ofNat, rowIx_zero]
  omega

/-! ## The lists, row by row -/

/-- The pieces written into the first scratch up to row 0, the last written first. -/
def zL0 (L : grid0.Coords) : List (View.Piece (Elt F) S8x128 .i32) :=
  ⟨Rect.unit (s := S8x128) ![0, 112] S1x16.size inb_S8x128_S1x16_0_112, zVec (v2w L) 0#32 112#32⟩ ::
  ⟨Rect.unit (s := S8x128) ![0, 96] S1x16.size inb_S8x128_S1x16_0_96, zVec (v2w L) 0#32 96#32⟩ ::
  ⟨Rect.unit (s := S8x128) ![0, 80] S1x16.size inb_S8x128_S1x16_0_80, zVec (v2w L) 0#32 80#32⟩ ::
  ⟨Rect.unit (s := S8x128) ![0, 64] S1x16.size inb_S8x128_S1x16_0_64, zVec (v2w L) 0#32 64#32⟩ ::
  ⟨Rect.unit (s := S8x128) ![0, 48] S1x16.size inb_S8x128_S1x16_0_48, zVec (v2w L) 0#32 48#32⟩ ::
  ⟨Rect.unit (s := S8x128) ![0, 32] S1x16.size inb_S8x128_S1x16_0_32, zVec (v2w L) 0#32 32#32⟩ ::
  ⟨Rect.unit (s := S8x128) ![0, 16] S1x16.size inb_S8x128_S1x16_0_16, zVec (v2w L) 0#32 16#32⟩ ::
  ⟨Rect.unit (s := S8x128) ![0, 0] S1x16.size inb_S8x128_S1x16_0_0, zVec (v2w L) 0#32 0#32⟩ :: []

theorem zL0_agree (L : grid0.Coords) : ∀ p ∈ zL0 (F := F) L, ∀ x, p.2 x = zG L (p.1.emb x) := by
  unfold zL0
  exact (List.forall_mem_cons.2 ⟨zP_agree L 0 7 112 (by decide) (by decide) rfl 0#32 112#32 (by decide) (by decide) inb_S8x128_S1x16_0_112, (List.forall_mem_cons.2 ⟨zP_agree L 0 6 96 (by decide) (by decide) rfl 0#32 96#32 (by decide) (by decide) inb_S8x128_S1x16_0_96, (List.forall_mem_cons.2 ⟨zP_agree L 0 5 80 (by decide) (by decide) rfl 0#32 80#32 (by decide) (by decide) inb_S8x128_S1x16_0_80, (List.forall_mem_cons.2 ⟨zP_agree L 0 4 64 (by decide) (by decide) rfl 0#32 64#32 (by decide) (by decide) inb_S8x128_S1x16_0_64, (List.forall_mem_cons.2 ⟨zP_agree L 0 3 48 (by decide) (by decide) rfl 0#32 48#32 (by decide) (by decide) inb_S8x128_S1x16_0_48, (List.forall_mem_cons.2 ⟨zP_agree L 0 2 32 (by decide) (by decide) rfl 0#32 32#32 (by decide) (by decide) inb_S8x128_S1x16_0_32, (List.forall_mem_cons.2 ⟨zP_agree L 0 1 16 (by decide) (by decide) rfl 0#32 16#32 (by decide) (by decide) inb_S8x128_S1x16_0_16, (List.forall_mem_cons.2 ⟨zP_agree L 0 0 0 (by decide) (by decide) rfl 0#32 0#32 (by decide) (by decide) inb_S8x128_S1x16_0_0, (fun _ hp => nomatch hp)⟩)⟩)⟩)⟩)⟩)⟩)⟩)⟩)

theorem zL0_cover (L : grid0.Coords) : ∀ v : Fin 8, ∃ p ∈ zL0 (F := F) L, ∃ inb, p.1 = Rect.unit (s := S8x128) ![0, 16 * v.val] S1x16.size inb := by
  unfold zL0
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_0_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_0_16, rfl⟩
  · exact ⟨_, List.mem_cons_of_mem _ (List.mem_cons_of_mem _ (List.mem_cons_of_mem _ (List.mem_cons_of_mem _ (List.mem_cons_of_mem _ (List.mem_cons_self))))), inb_S8x128_S1x16_0_32, rfl⟩
  · exact ⟨_, List.mem_cons_of_mem _ (List.mem_cons_of_mem _ (List.mem_cons_of_mem _ (List.mem_cons_of_mem _ (List.mem_cons_self)))), inb_S8x128_S1x16_0_48, rfl⟩
  · exact ⟨_, List.mem_cons_of_mem _ (List.mem_cons_of_mem _ (List.mem_cons_of_mem _ (List.mem_cons_self))), inb_S8x128_S1x16_0_64, rfl⟩
  · exact ⟨_, List.mem_cons_of_mem _ (List.mem_cons_of_mem _ (List.mem_cons_self)), inb_S8x128_S1x16_0_80, rfl⟩
  · exact ⟨_, List.mem_cons_of_mem _ (List.mem_cons_self), inb_S8x128_S1x16_0_96, rfl⟩
  · exact ⟨_, List.mem_cons_self, inb_S8x128_S1x16_0_112, rfl⟩

theorem hinZ0 (L : grid0.Coords) : ∀ (g : (s0V).view.ty.Contents (Elt F)) (x : S128.Idx),
    (View.read (Elt F) (((s0V).slice (Rect.unit (s := S8x128) ![0, 0] S1x128.size inb_S8x128_S1x128_0_0) (fun _ => rfl)).squeeze S128 squeezes_S1x128_S128).view ((s0V).view.writes (Elt F) g (zL0 (F := F) L)) x).toNat < 524288 :=
  hinZ_of L 0 (by decide) inb_S8x128_S1x128_0_0 (zL0 L) (zL0_agree L) (zL0_cover L)

/-- The pieces written into the first scratch up to row 1, the last written first. -/
def zL1 (L : grid0.Coords) : List (View.Piece (Elt F) S8x128 .i32) :=
  ⟨Rect.unit (s := S8x128) ![1, 112] S1x16.size inb_S8x128_S1x16_1_112, zVec (v2w L) 128#32 112#32⟩ ::
  ⟨Rect.unit (s := S8x128) ![1, 96] S1x16.size inb_S8x128_S1x16_1_96, zVec (v2w L) 128#32 96#32⟩ ::
  ⟨Rect.unit (s := S8x128) ![1, 80] S1x16.size inb_S8x128_S1x16_1_80, zVec (v2w L) 128#32 80#32⟩ ::
  ⟨Rect.unit (s := S8x128) ![1, 64] S1x16.size inb_S8x128_S1x16_1_64, zVec (v2w L) 128#32 64#32⟩ ::
  ⟨Rect.unit (s := S8x128) ![1, 48] S1x16.size inb_S8x128_S1x16_1_48, zVec (v2w L) 128#32 48#32⟩ ::
  ⟨Rect.unit (s := S8x128) ![1, 32] S1x16.size inb_S8x128_S1x16_1_32, zVec (v2w L) 128#32 32#32⟩ ::
  ⟨Rect.unit (s := S8x128) ![1, 16] S1x16.size inb_S8x128_S1x16_1_16, zVec (v2w L) 128#32 16#32⟩ ::
  ⟨Rect.unit (s := S8x128) ![1, 0] S1x16.size inb_S8x128_S1x16_1_0, zVec (v2w L) 128#32 0#32⟩ :: zL0 L

theorem zL1_agree (L : grid0.Coords) : ∀ p ∈ zL1 (F := F) L, ∀ x, p.2 x = zG L (p.1.emb x) := by
  unfold zL1
  exact (List.forall_mem_cons.2 ⟨zP_agree L 1 7 112 (by decide) (by decide) rfl 128#32 112#32 (by decide) (by decide) inb_S8x128_S1x16_1_112, (List.forall_mem_cons.2 ⟨zP_agree L 1 6 96 (by decide) (by decide) rfl 128#32 96#32 (by decide) (by decide) inb_S8x128_S1x16_1_96, (List.forall_mem_cons.2 ⟨zP_agree L 1 5 80 (by decide) (by decide) rfl 128#32 80#32 (by decide) (by decide) inb_S8x128_S1x16_1_80, (List.forall_mem_cons.2 ⟨zP_agree L 1 4 64 (by decide) (by decide) rfl 128#32 64#32 (by decide) (by decide) inb_S8x128_S1x16_1_64, (List.forall_mem_cons.2 ⟨zP_agree L 1 3 48 (by decide) (by decide) rfl 128#32 48#32 (by decide) (by decide) inb_S8x128_S1x16_1_48, (List.forall_mem_cons.2 ⟨zP_agree L 1 2 32 (by decide) (by decide) rfl 128#32 32#32 (by decide) (by decide) inb_S8x128_S1x16_1_32, (List.forall_mem_cons.2 ⟨zP_agree L 1 1 16 (by decide) (by decide) rfl 128#32 16#32 (by decide) (by decide) inb_S8x128_S1x16_1_16, (List.forall_mem_cons.2 ⟨zP_agree L 1 0 0 (by decide) (by decide) rfl 128#32 0#32 (by decide) (by decide) inb_S8x128_S1x16_1_0, (zL0_agree L)⟩)⟩)⟩)⟩)⟩)⟩)⟩)⟩)

theorem zL1_cover (L : grid0.Coords) : ∀ v : Fin 8, ∃ p ∈ zL1 (F := F) L, ∃ inb, p.1 = Rect.unit (s := S8x128) ![1, 16 * v.val] S1x16.size inb := by
  unfold zL1
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_1_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_1_16, rfl⟩
  · exact ⟨_, List.mem_cons_of_mem _ (List.mem_cons_of_mem _ (List.mem_cons_of_mem _ (List.mem_cons_of_mem _ (List.mem_cons_of_mem _ (List.mem_cons_self))))), inb_S8x128_S1x16_1_32, rfl⟩
  · exact ⟨_, List.mem_cons_of_mem _ (List.mem_cons_of_mem _ (List.mem_cons_of_mem _ (List.mem_cons_of_mem _ (List.mem_cons_self)))), inb_S8x128_S1x16_1_48, rfl⟩
  · exact ⟨_, List.mem_cons_of_mem _ (List.mem_cons_of_mem _ (List.mem_cons_of_mem _ (List.mem_cons_self))), inb_S8x128_S1x16_1_64, rfl⟩
  · exact ⟨_, List.mem_cons_of_mem _ (List.mem_cons_of_mem _ (List.mem_cons_self)), inb_S8x128_S1x16_1_80, rfl⟩
  · exact ⟨_, List.mem_cons_of_mem _ (List.mem_cons_self), inb_S8x128_S1x16_1_96, rfl⟩
  · exact ⟨_, List.mem_cons_self, inb_S8x128_S1x16_1_112, rfl⟩

theorem hinZ1 (L : grid0.Coords) : ∀ (g : (s0V).view.ty.Contents (Elt F)) (x : S128.Idx),
    (View.read (Elt F) (((s0V).slice (Rect.unit (s := S8x128) ![1, 0] S1x128.size inb_S8x128_S1x128_1_0) (fun _ => rfl)).squeeze S128 squeezes_S1x128_S128).view ((s0V).view.writes (Elt F) g (zL1 (F := F) L)) x).toNat < 524288 :=
  hinZ_of L 1 (by decide) inb_S8x128_S1x128_1_0 (zL1 L) (zL1_agree L) (zL1_cover L)

/-- The pieces written into the first scratch up to row 2, the last written first. -/
def zL2 (L : grid0.Coords) : List (View.Piece (Elt F) S8x128 .i32) :=
  ⟨Rect.unit (s := S8x128) ![2, 112] S1x16.size inb_S8x128_S1x16_2_112, zVec (v2w L) 256#32 112#32⟩ ::
  ⟨Rect.unit (s := S8x128) ![2, 96] S1x16.size inb_S8x128_S1x16_2_96, zVec (v2w L) 256#32 96#32⟩ ::
  ⟨Rect.unit (s := S8x128) ![2, 80] S1x16.size inb_S8x128_S1x16_2_80, zVec (v2w L) 256#32 80#32⟩ ::
  ⟨Rect.unit (s := S8x128) ![2, 64] S1x16.size inb_S8x128_S1x16_2_64, zVec (v2w L) 256#32 64#32⟩ ::
  ⟨Rect.unit (s := S8x128) ![2, 48] S1x16.size inb_S8x128_S1x16_2_48, zVec (v2w L) 256#32 48#32⟩ ::
  ⟨Rect.unit (s := S8x128) ![2, 32] S1x16.size inb_S8x128_S1x16_2_32, zVec (v2w L) 256#32 32#32⟩ ::
  ⟨Rect.unit (s := S8x128) ![2, 16] S1x16.size inb_S8x128_S1x16_2_16, zVec (v2w L) 256#32 16#32⟩ ::
  ⟨Rect.unit (s := S8x128) ![2, 0] S1x16.size inb_S8x128_S1x16_2_0, zVec (v2w L) 256#32 0#32⟩ :: zL1 L

theorem zL2_agree (L : grid0.Coords) : ∀ p ∈ zL2 (F := F) L, ∀ x, p.2 x = zG L (p.1.emb x) := by
  unfold zL2
  exact (List.forall_mem_cons.2 ⟨zP_agree L 2 7 112 (by decide) (by decide) rfl 256#32 112#32 (by decide) (by decide) inb_S8x128_S1x16_2_112, (List.forall_mem_cons.2 ⟨zP_agree L 2 6 96 (by decide) (by decide) rfl 256#32 96#32 (by decide) (by decide) inb_S8x128_S1x16_2_96, (List.forall_mem_cons.2 ⟨zP_agree L 2 5 80 (by decide) (by decide) rfl 256#32 80#32 (by decide) (by decide) inb_S8x128_S1x16_2_80, (List.forall_mem_cons.2 ⟨zP_agree L 2 4 64 (by decide) (by decide) rfl 256#32 64#32 (by decide) (by decide) inb_S8x128_S1x16_2_64, (List.forall_mem_cons.2 ⟨zP_agree L 2 3 48 (by decide) (by decide) rfl 256#32 48#32 (by decide) (by decide) inb_S8x128_S1x16_2_48, (List.forall_mem_cons.2 ⟨zP_agree L 2 2 32 (by decide) (by decide) rfl 256#32 32#32 (by decide) (by decide) inb_S8x128_S1x16_2_32, (List.forall_mem_cons.2 ⟨zP_agree L 2 1 16 (by decide) (by decide) rfl 256#32 16#32 (by decide) (by decide) inb_S8x128_S1x16_2_16, (List.forall_mem_cons.2 ⟨zP_agree L 2 0 0 (by decide) (by decide) rfl 256#32 0#32 (by decide) (by decide) inb_S8x128_S1x16_2_0, (zL1_agree L)⟩)⟩)⟩)⟩)⟩)⟩)⟩)⟩)

theorem zL2_cover (L : grid0.Coords) : ∀ v : Fin 8, ∃ p ∈ zL2 (F := F) L, ∃ inb, p.1 = Rect.unit (s := S8x128) ![2, 16 * v.val] S1x16.size inb := by
  unfold zL2
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_2_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_2_16, rfl⟩
  · exact ⟨_, List.mem_cons_of_mem _ (List.mem_cons_of_mem _ (List.mem_cons_of_mem _ (List.mem_cons_of_mem _ (List.mem_cons_of_mem _ (List.mem_cons_self))))), inb_S8x128_S1x16_2_32, rfl⟩
  · exact ⟨_, List.mem_cons_of_mem _ (List.mem_cons_of_mem _ (List.mem_cons_of_mem _ (List.mem_cons_of_mem _ (List.mem_cons_self)))), inb_S8x128_S1x16_2_48, rfl⟩
  · exact ⟨_, List.mem_cons_of_mem _ (List.mem_cons_of_mem _ (List.mem_cons_of_mem _ (List.mem_cons_self))), inb_S8x128_S1x16_2_64, rfl⟩
  · exact ⟨_, List.mem_cons_of_mem _ (List.mem_cons_of_mem _ (List.mem_cons_self)), inb_S8x128_S1x16_2_80, rfl⟩
  · exact ⟨_, List.mem_cons_of_mem _ (List.mem_cons_self), inb_S8x128_S1x16_2_96, rfl⟩
  · exact ⟨_, List.mem_cons_self, inb_S8x128_S1x16_2_112, rfl⟩

theorem hinZ2 (L : grid0.Coords) : ∀ (g : (s0V).view.ty.Contents (Elt F)) (x : S128.Idx),
    (View.read (Elt F) (((s0V).slice (Rect.unit (s := S8x128) ![2, 0] S1x128.size inb_S8x128_S1x128_2_0) (fun _ => rfl)).squeeze S128 squeezes_S1x128_S128).view ((s0V).view.writes (Elt F) g (zL2 (F := F) L)) x).toNat < 524288 :=
  hinZ_of L 2 (by decide) inb_S8x128_S1x128_2_0 (zL2 L) (zL2_agree L) (zL2_cover L)

/-- The pieces written into the first scratch up to row 3, the last written first. -/
def zL3 (L : grid0.Coords) : List (View.Piece (Elt F) S8x128 .i32) :=
  ⟨Rect.unit (s := S8x128) ![3, 112] S1x16.size inb_S8x128_S1x16_3_112, zVec (v2w L) 384#32 112#32⟩ ::
  ⟨Rect.unit (s := S8x128) ![3, 96] S1x16.size inb_S8x128_S1x16_3_96, zVec (v2w L) 384#32 96#32⟩ ::
  ⟨Rect.unit (s := S8x128) ![3, 80] S1x16.size inb_S8x128_S1x16_3_80, zVec (v2w L) 384#32 80#32⟩ ::
  ⟨Rect.unit (s := S8x128) ![3, 64] S1x16.size inb_S8x128_S1x16_3_64, zVec (v2w L) 384#32 64#32⟩ ::
  ⟨Rect.unit (s := S8x128) ![3, 48] S1x16.size inb_S8x128_S1x16_3_48, zVec (v2w L) 384#32 48#32⟩ ::
  ⟨Rect.unit (s := S8x128) ![3, 32] S1x16.size inb_S8x128_S1x16_3_32, zVec (v2w L) 384#32 32#32⟩ ::
  ⟨Rect.unit (s := S8x128) ![3, 16] S1x16.size inb_S8x128_S1x16_3_16, zVec (v2w L) 384#32 16#32⟩ ::
  ⟨Rect.unit (s := S8x128) ![3, 0] S1x16.size inb_S8x128_S1x16_3_0, zVec (v2w L) 384#32 0#32⟩ :: zL2 L

theorem zL3_agree (L : grid0.Coords) : ∀ p ∈ zL3 (F := F) L, ∀ x, p.2 x = zG L (p.1.emb x) := by
  unfold zL3
  exact (List.forall_mem_cons.2 ⟨zP_agree L 3 7 112 (by decide) (by decide) rfl 384#32 112#32 (by decide) (by decide) inb_S8x128_S1x16_3_112, (List.forall_mem_cons.2 ⟨zP_agree L 3 6 96 (by decide) (by decide) rfl 384#32 96#32 (by decide) (by decide) inb_S8x128_S1x16_3_96, (List.forall_mem_cons.2 ⟨zP_agree L 3 5 80 (by decide) (by decide) rfl 384#32 80#32 (by decide) (by decide) inb_S8x128_S1x16_3_80, (List.forall_mem_cons.2 ⟨zP_agree L 3 4 64 (by decide) (by decide) rfl 384#32 64#32 (by decide) (by decide) inb_S8x128_S1x16_3_64, (List.forall_mem_cons.2 ⟨zP_agree L 3 3 48 (by decide) (by decide) rfl 384#32 48#32 (by decide) (by decide) inb_S8x128_S1x16_3_48, (List.forall_mem_cons.2 ⟨zP_agree L 3 2 32 (by decide) (by decide) rfl 384#32 32#32 (by decide) (by decide) inb_S8x128_S1x16_3_32, (List.forall_mem_cons.2 ⟨zP_agree L 3 1 16 (by decide) (by decide) rfl 384#32 16#32 (by decide) (by decide) inb_S8x128_S1x16_3_16, (List.forall_mem_cons.2 ⟨zP_agree L 3 0 0 (by decide) (by decide) rfl 384#32 0#32 (by decide) (by decide) inb_S8x128_S1x16_3_0, (zL2_agree L)⟩)⟩)⟩)⟩)⟩)⟩)⟩)⟩)

theorem zL3_cover (L : grid0.Coords) : ∀ v : Fin 8, ∃ p ∈ zL3 (F := F) L, ∃ inb, p.1 = Rect.unit (s := S8x128) ![3, 16 * v.val] S1x16.size inb := by
  unfold zL3
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_3_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_3_16, rfl⟩
  · exact ⟨_, List.mem_cons_of_mem _ (List.mem_cons_of_mem _ (List.mem_cons_of_mem _ (List.mem_cons_of_mem _ (List.mem_cons_of_mem _ (List.mem_cons_self))))), inb_S8x128_S1x16_3_32, rfl⟩
  · exact ⟨_, List.mem_cons_of_mem _ (List.mem_cons_of_mem _ (List.mem_cons_of_mem _ (List.mem_cons_of_mem _ (List.mem_cons_self)))), inb_S8x128_S1x16_3_48, rfl⟩
  · exact ⟨_, List.mem_cons_of_mem _ (List.mem_cons_of_mem _ (List.mem_cons_of_mem _ (List.mem_cons_self))), inb_S8x128_S1x16_3_64, rfl⟩
  · exact ⟨_, List.mem_cons_of_mem _ (List.mem_cons_of_mem _ (List.mem_cons_self)), inb_S8x128_S1x16_3_80, rfl⟩
  · exact ⟨_, List.mem_cons_of_mem _ (List.mem_cons_self), inb_S8x128_S1x16_3_96, rfl⟩
  · exact ⟨_, List.mem_cons_self, inb_S8x128_S1x16_3_112, rfl⟩

theorem hinZ3 (L : grid0.Coords) : ∀ (g : (s0V).view.ty.Contents (Elt F)) (x : S128.Idx),
    (View.read (Elt F) (((s0V).slice (Rect.unit (s := S8x128) ![3, 0] S1x128.size inb_S8x128_S1x128_3_0) (fun _ => rfl)).squeeze S128 squeezes_S1x128_S128).view ((s0V).view.writes (Elt F) g (zL3 (F := F) L)) x).toNat < 524288 :=
  hinZ_of L 3 (by decide) inb_S8x128_S1x128_3_0 (zL3 L) (zL3_agree L) (zL3_cover L)

/-- The pieces written into the first scratch up to row 4, the last written first. -/
def zL4 (L : grid0.Coords) : List (View.Piece (Elt F) S8x128 .i32) :=
  ⟨Rect.unit (s := S8x128) ![4, 112] S1x16.size inb_S8x128_S1x16_4_112, zVec (v2w L) 512#32 112#32⟩ ::
  ⟨Rect.unit (s := S8x128) ![4, 96] S1x16.size inb_S8x128_S1x16_4_96, zVec (v2w L) 512#32 96#32⟩ ::
  ⟨Rect.unit (s := S8x128) ![4, 80] S1x16.size inb_S8x128_S1x16_4_80, zVec (v2w L) 512#32 80#32⟩ ::
  ⟨Rect.unit (s := S8x128) ![4, 64] S1x16.size inb_S8x128_S1x16_4_64, zVec (v2w L) 512#32 64#32⟩ ::
  ⟨Rect.unit (s := S8x128) ![4, 48] S1x16.size inb_S8x128_S1x16_4_48, zVec (v2w L) 512#32 48#32⟩ ::
  ⟨Rect.unit (s := S8x128) ![4, 32] S1x16.size inb_S8x128_S1x16_4_32, zVec (v2w L) 512#32 32#32⟩ ::
  ⟨Rect.unit (s := S8x128) ![4, 16] S1x16.size inb_S8x128_S1x16_4_16, zVec (v2w L) 512#32 16#32⟩ ::
  ⟨Rect.unit (s := S8x128) ![4, 0] S1x16.size inb_S8x128_S1x16_4_0, zVec (v2w L) 512#32 0#32⟩ :: zL3 L

theorem zL4_agree (L : grid0.Coords) : ∀ p ∈ zL4 (F := F) L, ∀ x, p.2 x = zG L (p.1.emb x) := by
  unfold zL4
  exact (List.forall_mem_cons.2 ⟨zP_agree L 4 7 112 (by decide) (by decide) rfl 512#32 112#32 (by decide) (by decide) inb_S8x128_S1x16_4_112, (List.forall_mem_cons.2 ⟨zP_agree L 4 6 96 (by decide) (by decide) rfl 512#32 96#32 (by decide) (by decide) inb_S8x128_S1x16_4_96, (List.forall_mem_cons.2 ⟨zP_agree L 4 5 80 (by decide) (by decide) rfl 512#32 80#32 (by decide) (by decide) inb_S8x128_S1x16_4_80, (List.forall_mem_cons.2 ⟨zP_agree L 4 4 64 (by decide) (by decide) rfl 512#32 64#32 (by decide) (by decide) inb_S8x128_S1x16_4_64, (List.forall_mem_cons.2 ⟨zP_agree L 4 3 48 (by decide) (by decide) rfl 512#32 48#32 (by decide) (by decide) inb_S8x128_S1x16_4_48, (List.forall_mem_cons.2 ⟨zP_agree L 4 2 32 (by decide) (by decide) rfl 512#32 32#32 (by decide) (by decide) inb_S8x128_S1x16_4_32, (List.forall_mem_cons.2 ⟨zP_agree L 4 1 16 (by decide) (by decide) rfl 512#32 16#32 (by decide) (by decide) inb_S8x128_S1x16_4_16, (List.forall_mem_cons.2 ⟨zP_agree L 4 0 0 (by decide) (by decide) rfl 512#32 0#32 (by decide) (by decide) inb_S8x128_S1x16_4_0, (zL3_agree L)⟩)⟩)⟩)⟩)⟩)⟩)⟩)⟩)

theorem zL4_cover (L : grid0.Coords) : ∀ v : Fin 8, ∃ p ∈ zL4 (F := F) L, ∃ inb, p.1 = Rect.unit (s := S8x128) ![4, 16 * v.val] S1x16.size inb := by
  unfold zL4
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_4_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_4_16, rfl⟩
  · exact ⟨_, List.mem_cons_of_mem _ (List.mem_cons_of_mem _ (List.mem_cons_of_mem _ (List.mem_cons_of_mem _ (List.mem_cons_of_mem _ (List.mem_cons_self))))), inb_S8x128_S1x16_4_32, rfl⟩
  · exact ⟨_, List.mem_cons_of_mem _ (List.mem_cons_of_mem _ (List.mem_cons_of_mem _ (List.mem_cons_of_mem _ (List.mem_cons_self)))), inb_S8x128_S1x16_4_48, rfl⟩
  · exact ⟨_, List.mem_cons_of_mem _ (List.mem_cons_of_mem _ (List.mem_cons_of_mem _ (List.mem_cons_self))), inb_S8x128_S1x16_4_64, rfl⟩
  · exact ⟨_, List.mem_cons_of_mem _ (List.mem_cons_of_mem _ (List.mem_cons_self)), inb_S8x128_S1x16_4_80, rfl⟩
  · exact ⟨_, List.mem_cons_of_mem _ (List.mem_cons_self), inb_S8x128_S1x16_4_96, rfl⟩
  · exact ⟨_, List.mem_cons_self, inb_S8x128_S1x16_4_112, rfl⟩

theorem hinZ4 (L : grid0.Coords) : ∀ (g : (s0V).view.ty.Contents (Elt F)) (x : S128.Idx),
    (View.read (Elt F) (((s0V).slice (Rect.unit (s := S8x128) ![4, 0] S1x128.size inb_S8x128_S1x128_4_0) (fun _ => rfl)).squeeze S128 squeezes_S1x128_S128).view ((s0V).view.writes (Elt F) g (zL4 (F := F) L)) x).toNat < 524288 :=
  hinZ_of L 4 (by decide) inb_S8x128_S1x128_4_0 (zL4 L) (zL4_agree L) (zL4_cover L)

/-- The pieces written into the first scratch up to row 5, the last written first. -/
def zL5 (L : grid0.Coords) : List (View.Piece (Elt F) S8x128 .i32) :=
  ⟨Rect.unit (s := S8x128) ![5, 112] S1x16.size inb_S8x128_S1x16_5_112, zVec (v2w L) 640#32 112#32⟩ ::
  ⟨Rect.unit (s := S8x128) ![5, 96] S1x16.size inb_S8x128_S1x16_5_96, zVec (v2w L) 640#32 96#32⟩ ::
  ⟨Rect.unit (s := S8x128) ![5, 80] S1x16.size inb_S8x128_S1x16_5_80, zVec (v2w L) 640#32 80#32⟩ ::
  ⟨Rect.unit (s := S8x128) ![5, 64] S1x16.size inb_S8x128_S1x16_5_64, zVec (v2w L) 640#32 64#32⟩ ::
  ⟨Rect.unit (s := S8x128) ![5, 48] S1x16.size inb_S8x128_S1x16_5_48, zVec (v2w L) 640#32 48#32⟩ ::
  ⟨Rect.unit (s := S8x128) ![5, 32] S1x16.size inb_S8x128_S1x16_5_32, zVec (v2w L) 640#32 32#32⟩ ::
  ⟨Rect.unit (s := S8x128) ![5, 16] S1x16.size inb_S8x128_S1x16_5_16, zVec (v2w L) 640#32 16#32⟩ ::
  ⟨Rect.unit (s := S8x128) ![5, 0] S1x16.size inb_S8x128_S1x16_5_0, zVec (v2w L) 640#32 0#32⟩ :: zL4 L

theorem zL5_agree (L : grid0.Coords) : ∀ p ∈ zL5 (F := F) L, ∀ x, p.2 x = zG L (p.1.emb x) := by
  unfold zL5
  exact (List.forall_mem_cons.2 ⟨zP_agree L 5 7 112 (by decide) (by decide) rfl 640#32 112#32 (by decide) (by decide) inb_S8x128_S1x16_5_112, (List.forall_mem_cons.2 ⟨zP_agree L 5 6 96 (by decide) (by decide) rfl 640#32 96#32 (by decide) (by decide) inb_S8x128_S1x16_5_96, (List.forall_mem_cons.2 ⟨zP_agree L 5 5 80 (by decide) (by decide) rfl 640#32 80#32 (by decide) (by decide) inb_S8x128_S1x16_5_80, (List.forall_mem_cons.2 ⟨zP_agree L 5 4 64 (by decide) (by decide) rfl 640#32 64#32 (by decide) (by decide) inb_S8x128_S1x16_5_64, (List.forall_mem_cons.2 ⟨zP_agree L 5 3 48 (by decide) (by decide) rfl 640#32 48#32 (by decide) (by decide) inb_S8x128_S1x16_5_48, (List.forall_mem_cons.2 ⟨zP_agree L 5 2 32 (by decide) (by decide) rfl 640#32 32#32 (by decide) (by decide) inb_S8x128_S1x16_5_32, (List.forall_mem_cons.2 ⟨zP_agree L 5 1 16 (by decide) (by decide) rfl 640#32 16#32 (by decide) (by decide) inb_S8x128_S1x16_5_16, (List.forall_mem_cons.2 ⟨zP_agree L 5 0 0 (by decide) (by decide) rfl 640#32 0#32 (by decide) (by decide) inb_S8x128_S1x16_5_0, (zL4_agree L)⟩)⟩)⟩)⟩)⟩)⟩)⟩)⟩)

theorem zL5_cover (L : grid0.Coords) : ∀ v : Fin 8, ∃ p ∈ zL5 (F := F) L, ∃ inb, p.1 = Rect.unit (s := S8x128) ![5, 16 * v.val] S1x16.size inb := by
  unfold zL5
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_5_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_5_16, rfl⟩
  · exact ⟨_, List.mem_cons_of_mem _ (List.mem_cons_of_mem _ (List.mem_cons_of_mem _ (List.mem_cons_of_mem _ (List.mem_cons_of_mem _ (List.mem_cons_self))))), inb_S8x128_S1x16_5_32, rfl⟩
  · exact ⟨_, List.mem_cons_of_mem _ (List.mem_cons_of_mem _ (List.mem_cons_of_mem _ (List.mem_cons_of_mem _ (List.mem_cons_self)))), inb_S8x128_S1x16_5_48, rfl⟩
  · exact ⟨_, List.mem_cons_of_mem _ (List.mem_cons_of_mem _ (List.mem_cons_of_mem _ (List.mem_cons_self))), inb_S8x128_S1x16_5_64, rfl⟩
  · exact ⟨_, List.mem_cons_of_mem _ (List.mem_cons_of_mem _ (List.mem_cons_self)), inb_S8x128_S1x16_5_80, rfl⟩
  · exact ⟨_, List.mem_cons_of_mem _ (List.mem_cons_self), inb_S8x128_S1x16_5_96, rfl⟩
  · exact ⟨_, List.mem_cons_self, inb_S8x128_S1x16_5_112, rfl⟩

theorem hinZ5 (L : grid0.Coords) : ∀ (g : (s0V).view.ty.Contents (Elt F)) (x : S128.Idx),
    (View.read (Elt F) (((s0V).slice (Rect.unit (s := S8x128) ![5, 0] S1x128.size inb_S8x128_S1x128_5_0) (fun _ => rfl)).squeeze S128 squeezes_S1x128_S128).view ((s0V).view.writes (Elt F) g (zL5 (F := F) L)) x).toNat < 524288 :=
  hinZ_of L 5 (by decide) inb_S8x128_S1x128_5_0 (zL5 L) (zL5_agree L) (zL5_cover L)

/-- The pieces written into the first scratch up to row 6, the last written first. -/
def zL6 (L : grid0.Coords) : List (View.Piece (Elt F) S8x128 .i32) :=
  ⟨Rect.unit (s := S8x128) ![6, 112] S1x16.size inb_S8x128_S1x16_6_112, zVec (v2w L) 768#32 112#32⟩ ::
  ⟨Rect.unit (s := S8x128) ![6, 96] S1x16.size inb_S8x128_S1x16_6_96, zVec (v2w L) 768#32 96#32⟩ ::
  ⟨Rect.unit (s := S8x128) ![6, 80] S1x16.size inb_S8x128_S1x16_6_80, zVec (v2w L) 768#32 80#32⟩ ::
  ⟨Rect.unit (s := S8x128) ![6, 64] S1x16.size inb_S8x128_S1x16_6_64, zVec (v2w L) 768#32 64#32⟩ ::
  ⟨Rect.unit (s := S8x128) ![6, 48] S1x16.size inb_S8x128_S1x16_6_48, zVec (v2w L) 768#32 48#32⟩ ::
  ⟨Rect.unit (s := S8x128) ![6, 32] S1x16.size inb_S8x128_S1x16_6_32, zVec (v2w L) 768#32 32#32⟩ ::
  ⟨Rect.unit (s := S8x128) ![6, 16] S1x16.size inb_S8x128_S1x16_6_16, zVec (v2w L) 768#32 16#32⟩ ::
  ⟨Rect.unit (s := S8x128) ![6, 0] S1x16.size inb_S8x128_S1x16_6_0, zVec (v2w L) 768#32 0#32⟩ :: zL5 L

theorem zL6_agree (L : grid0.Coords) : ∀ p ∈ zL6 (F := F) L, ∀ x, p.2 x = zG L (p.1.emb x) := by
  unfold zL6
  exact (List.forall_mem_cons.2 ⟨zP_agree L 6 7 112 (by decide) (by decide) rfl 768#32 112#32 (by decide) (by decide) inb_S8x128_S1x16_6_112, (List.forall_mem_cons.2 ⟨zP_agree L 6 6 96 (by decide) (by decide) rfl 768#32 96#32 (by decide) (by decide) inb_S8x128_S1x16_6_96, (List.forall_mem_cons.2 ⟨zP_agree L 6 5 80 (by decide) (by decide) rfl 768#32 80#32 (by decide) (by decide) inb_S8x128_S1x16_6_80, (List.forall_mem_cons.2 ⟨zP_agree L 6 4 64 (by decide) (by decide) rfl 768#32 64#32 (by decide) (by decide) inb_S8x128_S1x16_6_64, (List.forall_mem_cons.2 ⟨zP_agree L 6 3 48 (by decide) (by decide) rfl 768#32 48#32 (by decide) (by decide) inb_S8x128_S1x16_6_48, (List.forall_mem_cons.2 ⟨zP_agree L 6 2 32 (by decide) (by decide) rfl 768#32 32#32 (by decide) (by decide) inb_S8x128_S1x16_6_32, (List.forall_mem_cons.2 ⟨zP_agree L 6 1 16 (by decide) (by decide) rfl 768#32 16#32 (by decide) (by decide) inb_S8x128_S1x16_6_16, (List.forall_mem_cons.2 ⟨zP_agree L 6 0 0 (by decide) (by decide) rfl 768#32 0#32 (by decide) (by decide) inb_S8x128_S1x16_6_0, (zL5_agree L)⟩)⟩)⟩)⟩)⟩)⟩)⟩)⟩)

theorem zL6_cover (L : grid0.Coords) : ∀ v : Fin 8, ∃ p ∈ zL6 (F := F) L, ∃ inb, p.1 = Rect.unit (s := S8x128) ![6, 16 * v.val] S1x16.size inb := by
  unfold zL6
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_6_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_6_16, rfl⟩
  · exact ⟨_, List.mem_cons_of_mem _ (List.mem_cons_of_mem _ (List.mem_cons_of_mem _ (List.mem_cons_of_mem _ (List.mem_cons_of_mem _ (List.mem_cons_self))))), inb_S8x128_S1x16_6_32, rfl⟩
  · exact ⟨_, List.mem_cons_of_mem _ (List.mem_cons_of_mem _ (List.mem_cons_of_mem _ (List.mem_cons_of_mem _ (List.mem_cons_self)))), inb_S8x128_S1x16_6_48, rfl⟩
  · exact ⟨_, List.mem_cons_of_mem _ (List.mem_cons_of_mem _ (List.mem_cons_of_mem _ (List.mem_cons_self))), inb_S8x128_S1x16_6_64, rfl⟩
  · exact ⟨_, List.mem_cons_of_mem _ (List.mem_cons_of_mem _ (List.mem_cons_self)), inb_S8x128_S1x16_6_80, rfl⟩
  · exact ⟨_, List.mem_cons_of_mem _ (List.mem_cons_self), inb_S8x128_S1x16_6_96, rfl⟩
  · exact ⟨_, List.mem_cons_self, inb_S8x128_S1x16_6_112, rfl⟩

theorem hinZ6 (L : grid0.Coords) : ∀ (g : (s0V).view.ty.Contents (Elt F)) (x : S128.Idx),
    (View.read (Elt F) (((s0V).slice (Rect.unit (s := S8x128) ![6, 0] S1x128.size inb_S8x128_S1x128_6_0) (fun _ => rfl)).squeeze S128 squeezes_S1x128_S128).view ((s0V).view.writes (Elt F) g (zL6 (F := F) L)) x).toNat < 524288 :=
  hinZ_of L 6 (by decide) inb_S8x128_S1x128_6_0 (zL6 L) (zL6_agree L) (zL6_cover L)

/-- The pieces written into the first scratch up to row 7, the last written first. -/
def zL7 (L : grid0.Coords) : List (View.Piece (Elt F) S8x128 .i32) :=
  ⟨Rect.unit (s := S8x128) ![7, 112] S1x16.size inb_S8x128_S1x16_7_112, zVec (v2w L) 896#32 112#32⟩ ::
  ⟨Rect.unit (s := S8x128) ![7, 96] S1x16.size inb_S8x128_S1x16_7_96, zVec (v2w L) 896#32 96#32⟩ ::
  ⟨Rect.unit (s := S8x128) ![7, 80] S1x16.size inb_S8x128_S1x16_7_80, zVec (v2w L) 896#32 80#32⟩ ::
  ⟨Rect.unit (s := S8x128) ![7, 64] S1x16.size inb_S8x128_S1x16_7_64, zVec (v2w L) 896#32 64#32⟩ ::
  ⟨Rect.unit (s := S8x128) ![7, 48] S1x16.size inb_S8x128_S1x16_7_48, zVec (v2w L) 896#32 48#32⟩ ::
  ⟨Rect.unit (s := S8x128) ![7, 32] S1x16.size inb_S8x128_S1x16_7_32, zVec (v2w L) 896#32 32#32⟩ ::
  ⟨Rect.unit (s := S8x128) ![7, 16] S1x16.size inb_S8x128_S1x16_7_16, zVec (v2w L) 896#32 16#32⟩ ::
  ⟨Rect.unit (s := S8x128) ![7, 0] S1x16.size inb_S8x128_S1x16_7_0, zVec (v2w L) 896#32 0#32⟩ :: zL6 L

theorem zL7_agree (L : grid0.Coords) : ∀ p ∈ zL7 (F := F) L, ∀ x, p.2 x = zG L (p.1.emb x) := by
  unfold zL7
  exact (List.forall_mem_cons.2 ⟨zP_agree L 7 7 112 (by decide) (by decide) rfl 896#32 112#32 (by decide) (by decide) inb_S8x128_S1x16_7_112, (List.forall_mem_cons.2 ⟨zP_agree L 7 6 96 (by decide) (by decide) rfl 896#32 96#32 (by decide) (by decide) inb_S8x128_S1x16_7_96, (List.forall_mem_cons.2 ⟨zP_agree L 7 5 80 (by decide) (by decide) rfl 896#32 80#32 (by decide) (by decide) inb_S8x128_S1x16_7_80, (List.forall_mem_cons.2 ⟨zP_agree L 7 4 64 (by decide) (by decide) rfl 896#32 64#32 (by decide) (by decide) inb_S8x128_S1x16_7_64, (List.forall_mem_cons.2 ⟨zP_agree L 7 3 48 (by decide) (by decide) rfl 896#32 48#32 (by decide) (by decide) inb_S8x128_S1x16_7_48, (List.forall_mem_cons.2 ⟨zP_agree L 7 2 32 (by decide) (by decide) rfl 896#32 32#32 (by decide) (by decide) inb_S8x128_S1x16_7_32, (List.forall_mem_cons.2 ⟨zP_agree L 7 1 16 (by decide) (by decide) rfl 896#32 16#32 (by decide) (by decide) inb_S8x128_S1x16_7_16, (List.forall_mem_cons.2 ⟨zP_agree L 7 0 0 (by decide) (by decide) rfl 896#32 0#32 (by decide) (by decide) inb_S8x128_S1x16_7_0, (zL6_agree L)⟩)⟩)⟩)⟩)⟩)⟩)⟩)⟩)

theorem zL7_cover (L : grid0.Coords) : ∀ v : Fin 8, ∃ p ∈ zL7 (F := F) L, ∃ inb, p.1 = Rect.unit (s := S8x128) ![7, 16 * v.val] S1x16.size inb := by
  unfold zL7
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_7_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_7_16, rfl⟩
  · exact ⟨_, List.mem_cons_of_mem _ (List.mem_cons_of_mem _ (List.mem_cons_of_mem _ (List.mem_cons_of_mem _ (List.mem_cons_of_mem _ (List.mem_cons_self))))), inb_S8x128_S1x16_7_32, rfl⟩
  · exact ⟨_, List.mem_cons_of_mem _ (List.mem_cons_of_mem _ (List.mem_cons_of_mem _ (List.mem_cons_of_mem _ (List.mem_cons_self)))), inb_S8x128_S1x16_7_48, rfl⟩
  · exact ⟨_, List.mem_cons_of_mem _ (List.mem_cons_of_mem _ (List.mem_cons_of_mem _ (List.mem_cons_self))), inb_S8x128_S1x16_7_64, rfl⟩
  · exact ⟨_, List.mem_cons_of_mem _ (List.mem_cons_of_mem _ (List.mem_cons_self)), inb_S8x128_S1x16_7_80, rfl⟩
  · exact ⟨_, List.mem_cons_of_mem _ (List.mem_cons_self), inb_S8x128_S1x16_7_96, rfl⟩
  · exact ⟨_, List.mem_cons_self, inb_S8x128_S1x16_7_112, rfl⟩

theorem hinZ7 (L : grid0.Coords) : ∀ (g : (s0V).view.ty.Contents (Elt F)) (x : S128.Idx),
    (View.read (Elt F) (((s0V).slice (Rect.unit (s := S8x128) ![7, 0] S1x128.size inb_S8x128_S1x128_7_0) (fun _ => rfl)).squeeze S128 squeezes_S1x128_S128).view ((s0V).view.writes (Elt F) g (zL7 (F := F) L)) x).toNat < 524288 :=
  hinZ_of L 7 (by decide) inb_S8x128_S1x128_7_0 (zL7 L) (zL7_agree L) (zL7_cover L)

end Cert.KI

end
-- ==== Proof.BodyRowWrite.lean ====
/-
  Writing one whole row of an 8 × 128 scratch buffer and reading the buffer back.

  A gather delivers its 128 values through the view "row r' of the buffer, as a vector of 128". Read back through the
  whole buffer at index (p, q), the write shows the delivered value number q when p = r', and what the buffer held
  before at every other row: the row view's indices are exactly the indices (r', q), in order.
-/
import proofs.«207294_g27419071217675_cont_9to1_1737_29_alg».proof.Proof.Common

noncomputable section

namespace Cert.KI

open Cert.KernelIdeal Cert.KernelIdeal.Gen

open Idealize.ShloMosaic Idealize.ShloMosaic.ValueIdx

variable {F : FTy → Type}

/-- A write of a whole row `w` through row `r'` of the 8 × 128 buffer, read back at `y`: the row's entry at `y`'s column
    when `y` is in row `r'`, the earlier contents elsewhere. -/
theorem rowWrite1_read (C : (s1V).view.ty.Contents (Elt F)) (r' : ℕ)
    (inb' : ∀ a, (![r', 0] : Fin 2 → ℕ) a + S1x128.size a ≤ S8x128.size a)
    (w : S128.Idx → Elt F .f32) (y : S8x128.Idx) :
    View.read (Elt F) (s1V).view
        (View.write (Elt F) (((s1V).slice (Rect.unit (s := S8x128) ![r', 0] S1x128.size inb') (fun _ => rfl)).squeeze S128 squeezes_S1x128_S128).view C w Finset.univ) y
      = if (y 0).val = r' then w (ix1 (⟨(y 1).val, idx2_lt1 y⟩ : Fin 128)) else View.read (Elt F) (s1V).view C y := by
  show (((View.whole (cc0_scratch1 : Ref sig .scVector)).slice (Rect.unit (s := S8x128) ![r', 0] S1x128.size inb')).reshape S128 squeezes_S1x128_S128.numel_eq).write (Elt F) C w Finset.univ y
      = if (y 0).val = r' then w (ix1 (⟨(y 1).val, idx2_lt1 y⟩ : Fin 128)) else C y
  by_cases hy : (y 0).val = r'
  · rw [if_pos hy]
    have hre : Shape.reshapeEquiv squeezes_S1x128_S128.numel_eq (ix1 (⟨(y 1).val, idx2_lt1 y⟩ : Fin 128))
        = (ix2 (0 : Fin 1) (⟨(y 1).val, idx2_lt1 y⟩ : Fin 128) : S1x128.Idx) :=
      Shape.reshapeEquiv_eq_of_rowMajor _ (by rw [Shape.rowMajor_val_two, Shape.rowMajor_val_one]; simp)
    have hx : (((View.whole (cc0_scratch1 : Ref sig .scVector)).slice (Rect.unit (s := S8x128) ![r', 0] S1x128.size inb')).reshape S128 squeezes_S1x128_S128.numel_eq).emb
        (ix1 (⟨(y 1).val, idx2_lt1 y⟩ : Fin 128)) = y := by
      show (Rect.unit (s := S8x128) ![r', 0] S1x128.size inb').emb (Shape.reshapeEquiv squeezes_S1x128_S128.numel_eq (ix1 (⟨(y 1).val, idx2_lt1 y⟩ : Fin 128))) = y
      rw [hre]
      funext a
      apply Fin.ext
      rw [Rect.emb_apply]
      match a with
      | ⟨0, _⟩ => simp [hy]
      | ⟨1, _⟩ => simp
    calc _ = (((View.whole (cc0_scratch1 : Ref sig .scVector)).slice (Rect.unit (s := S8x128) ![r', 0] S1x128.size inb')).reshape S128 squeezes_S1x128_S128.numel_eq).write (Elt F) C w Finset.univ
              ((((View.whole (cc0_scratch1 : Ref sig .scVector)).slice (Rect.unit (s := S8x128) ![r', 0] S1x128.size inb')).reshape S128 squeezes_S1x128_S128.numel_eq).emb (ix1 (⟨(y 1).val, idx2_lt1 y⟩ : Fin 128))) := by rw [hx]
      _ = _ := (View.write_emb_of_mem _ _ (Finset.mem_univ _)).trans (cast_eq _ _)
  · rw [if_neg hy]
    refine View.write_of_not_mem _ _ _ ?_
    rw [View.setOn_univ, View.set_reshape, View.set_slice_whole, Rect.mem_set_unit]
    intro h
    have h0 := h 0
    simp at h0
    omega

/-- A write of a whole row `w` through row `r'` of the 8 × 128 buffer, read back at `y`: the row's entry at `y`'s column
    when `y` is in row `r'`, the earlier contents elsewhere. -/
theorem rowWrite3_read (C : (s3V).view.ty.Contents (Elt F)) (r' : ℕ)
    (inb' : ∀ a, (![r', 0] : Fin 2 → ℕ) a + S1x128.size a ≤ S8x128.size a)
    (w : S128.Idx → Elt F .f32) (y : S8x128.Idx) :
    View.read (Elt F) (s3V).view
        (View.write (Elt F) (((s3V).slice (Rect.unit (s := S8x128) ![r', 0] S1x128.size inb') (fun _ => rfl)).squeeze S128 squeezes_S1x128_S128).view C w Finset.univ) y
      = if (y 0).val = r' then w (ix1 (⟨(y 1).val, idx2_lt1 y⟩ : Fin 128)) else View.read (Elt F) (s3V).view C y := by
  show (((View.whole (cc0_scratch3 : Ref sig .scVector)).slice (Rect.unit (s := S8x128) ![r', 0] S1x128.size inb')).reshape S128 squeezes_S1x128_S128.numel_eq).write (Elt F) C w Finset.univ y
      = if (y 0).val = r' then w (ix1 (⟨(y 1).val, idx2_lt1 y⟩ : Fin 128)) else C y
  by_cases hy : (y 0).val = r'
  · rw [if_pos hy]
    have hre : Shape.reshapeEquiv squeezes_S1x128_S128.numel_eq (ix1 (⟨(y 1).val, idx2_lt1 y⟩ : Fin 128))
        = (ix2 (0 : Fin 1) (⟨(y 1).val, idx2_lt1 y⟩ : Fin 128) : S1x128.Idx) :=
      Shape.reshapeEquiv_eq_of_rowMajor _ (by rw [Shape.rowMajor_val_two, Shape.rowMajor_val_one]; simp)
    have hx : (((View.whole (cc0_scratch3 : Ref sig .scVector)).slice (Rect.unit (s := S8x128) ![r', 0] S1x128.size inb')).reshape S128 squeezes_S1x128_S128.numel_eq).emb
        (ix1 (⟨(y 1).val, idx2_lt1 y⟩ : Fin 128)) = y := by
      show (Rect.unit (s := S8x128) ![r', 0] S1x128.size inb').emb (Shape.reshapeEquiv squeezes_S1x128_S128.numel_eq (ix1 (⟨(y 1).val, idx2_lt1 y⟩ : Fin 128))) = y
      rw [hre]
      funext a
      apply Fin.ext
      rw [Rect.emb_apply]
      match a with
      | ⟨0, _⟩ => simp [hy]
      | ⟨1, _⟩ => simp
    calc _ = (((View.whole (cc0_scratch3 : Ref sig .scVector)).slice (Rect.unit (s := S8x128) ![r', 0] S1x128.size inb')).reshape S128 squeezes_S1x128_S128.numel_eq).write (Elt F) C w Finset.univ
              ((((View.whole (cc0_scratch3 : Ref sig .scVector)).slice (Rect.unit (s := S8x128) ![r', 0] S1x128.size inb')).reshape S128 squeezes_S1x128_S128.numel_eq).emb (ix1 (⟨(y 1).val, idx2_lt1 y⟩ : Fin 128))) := by rw [hx]
      _ = _ := (View.write_emb_of_mem _ _ (Finset.mem_univ _)).trans (cast_eq _ _)
  · rw [if_neg hy]
    refine View.write_of_not_mem _ _ _ ?_
    rw [View.setOn_univ, View.set_reshape, View.set_slice_whole, Rect.mem_set_unit]
    intro h
    have h0 := h 0
    simp at h0
    omega

end Cert.KI

end
-- ==== Proof.BodyGather.lean ====
/-
  An indirect gather's delivered row, entry by entry.

  A gather through an index list of 128 entries out of a flat array delivers, at entry x, the flat array's element at
  the position the list names at x: the list's entry k in row-major order is the entry at index k (the list has one
  axis), and the flat array read through the slice that covers all of it is the array itself.
-/
import proofs.«207294_g27419071217675_cont_9to1_1737_29_alg».proof.Proof.Common
import Idealize.ShloMosaic.Lib.ValueIdx

noncomputable section

namespace Cert.KI

open Cert.KernelIdeal Cert.KernelIdeal.Gen

open Idealize.ShloMosaic
open Idealize.ShloMosaic.SparseCore (S V T)
open Idealize.SL Idealize.SL.Sem

variable {F : FTy → Type}

/-- Entry k of a one-axis list of 128 index words, in row-major order, is the entry at the index whose coordinate is k. -/
theorem rows_at {o z : ℕ} (idx : S128.Idx → Elt F .i32) (hn : S128.numel = o) (hin : ∀ x, (idx x).toNat < z)
    (x : S128.Idx) (k : Fin o) (hk : k.val = (x 0).val) :
    SparseCore.rows idx hn hin k = ⟨(idx x).toNat, hin x⟩ := by
  unfold SparseCore.rows
  apply Fin.ext
  show (idx (S128.rowMajor.symm (k.cast hn.symm))).toNat = (idx x).toNat
  have e : S128.rowMajor.symm (k.cast hn.symm) = x := by
    rw [Equiv.symm_apply_eq]
    apply Fin.ext
    rw [Shape.rowMajor_val_one]
    exact hk
  rw [e]

variable [FloatOps F]

/-- The row gathered out of flat z, at entry x, is flat z at the position the list names at x. -/
theorem gatherZ_apply (d : Dev nD) (zf : Buf (Elt F) (zLoc d)) (idx : S128.Idx → Elt F .i32)
    (hn : S128.numel = S128.size gathers_S524288_S128.axis') (hin : ∀ x, (idx x).toNat < S524288.size gathers_S524288_S128.axis)
    (x : S128.Idx) :
    SparseCore.gatherPayload gathers_S524288_S128
        (View.read (Elt F) ((zV).slice (Rect.unit (s := S524288) ![0] S524288.size inb_S524288_S524288_0) (fun _ => rfl)).view zf)
        (SparseCore.rows idx hn hin) x
      = zf (ValueIdx.ix1 (⟨(idx x).toNat, hin x⟩ : Fin 524288)) := by
  unfold SparseCore.gatherPayload
  rw [View.read_apply]
  refine (cast_eq _ _).trans ?_
  refine congrArg zf (funext fun a => Fin.ext ?_)
  match a with
  | ⟨0, _⟩ =>
    show 0 + 1 * (gathers_S524288_S128.idx (SparseCore.rows idx hn hin) x gathers_S524288_S128.axis).val = (idx x).toNat
    rw [Shape.Gathers.idx_axis, rows_at idx hn hin x (x gathers_S524288_S128.axis') rfl]
    show 0 + 1 * (idx x).toNat = (idx x).toNat
    omega

/-- The row gathered out of flat a, at entry x, is flat a at the position the list names at x. -/
theorem gatherA_apply (d : Dev nD) (af : Buf (Elt F) (aLoc d)) (idx : S128.Idx → Elt F .i32)
    (hn : S128.numel = S128.size gathers_S2097152_S128.axis') (hin : ∀ x, (idx x).toNat < S2097152.size gathers_S2097152_S128.axis)
    (x : S128.Idx) :
    SparseCore.gatherPayload gathers_S2097152_S128
        (View.read (Elt F) ((aV).slice (Rect.unit (s := S2097152) ![0] S2097152.size inb_S2097152_S2097152_0) (fun _ => rfl)).view af)
        (SparseCore.rows idx hn hin) x
      = af (ValueIdx.ix1 (⟨(idx x).toNat, hin x⟩ : Fin 2097152)) := by
  unfold SparseCore.gatherPayload
  rw [View.read_apply]
  refine (cast_eq _ _).trans ?_
  refine congrArg af (funext fun a => Fin.ext ?_)
  match a with
  | ⟨0, _⟩ =>
    show 0 + 1 * (gathers_S2097152_S128.idx (SparseCore.rows idx hn hin) x gathers_S2097152_S128.axis).val = (idx x).toNat
    rw [Shape.Gathers.idx_axis, rows_at idx hn hin x (x gathers_S2097152_S128.axis') rfl]
    show 0 + 1 * (idx x).toNat = (idx x).toNat
    omega

end Cert.KI

end
-- ==== Proof.BodyA.lean ====
/-
  Phase two of a task, as data. The gather through row `r` of the first scratch buffer delivers, at entry `c` of row
  `r` of the second, flat `z` at the position listed: attribute slot 4 of result row `1024 w + 128 r + c`. Converted to a
  word it is that row's selecting word, below 128 by the precondition, so `128 · row + word` does not wrap and is the
  position in flat `a` of the selected entry: the index lists of the third scratch buffer, and the in-range fact each
  gather out of flat `a` needs.
-/
import proofs.«207294_g27419071217675_cont_9to1_1737_29_alg».proof.Proof.BodyZ
import proofs.«207294_g27419071217675_cont_9to1_1737_29_alg».proof.Proof.BodyRowWrite
import proofs.«207294_g27419071217675_cont_9to1_1737_29_alg».proof.Proof.BodyGather

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Result rows -/

/-- The result row entry `y` of a scratch buffer belongs to: `1024 w + 128 y₀ + y₁`. -/
def rowN (L : grid0.Coords) (y : S8x128.Idx) : ℕ := 1024 * (L 1).val + 128 * (y 0).val + (y 1).val

omit [FloatOps F] in
theorem rowN_lt (L : grid0.Coords) (y : S8x128.Idx) : rowN L y < 16384 := by
  have h1 : (L 1).val < 16 := (L 1).isLt
  have h2 := ValueIdx.idx2_lt0 y
  have h3 := ValueIdx.idx2_lt1 y
  unfold rowN; omega

def rowF (L : grid0.Coords) (y : S8x128.Idx) : Fin 16384 := ⟨rowN L y, rowN_lt L y⟩

omit [FloatOps F] in
theorem zG_toNat (L : grid0.Coords) (y : S8x128.Idx) : (zG (F := F) L y).toNat = (Cert.Spec.zPos (rowF L y)).val := by
  show (BitVec.ofNat 32 _).toNat = rowN L y * 32 + 4
  rw [BitVec.toNat_ofNat]
  have := rowN_lt L y
  unfold rowN at *; omega

omit [FloatOps F] in
theorem zPos_row_eq (L : grid0.Coords) (y' y : S8x128.Idx) (h0 : (y' 0).val = (y 0).val) (h1 : (y' 1).val = (y 1).val) :
    (Cert.Spec.zPos (rowF L y')).val = (Cert.Spec.zPos (rowF L y)).val := by
  show rowN L y' * 32 + 4 = rowN L y * 32 + 4
  unfold rowN; rw [h0, h1]

omit [FloatOps F] in
/-- Entry `x` of row `r` of the first scratch buffer after the listed writes: the intended word. -/
theorem zread_of (L : grid0.Coords) (r : ℕ) (inb : ∀ a, (![r, 0] : Fin 2 → ℕ) a + S1x128.size a ≤ S8x128.size a)
    (Ls : List (View.Piece (Elt F) S8x128 .i32)) (hag : ∀ p ∈ Ls, ∀ x, p.2 x = zG L (p.1.emb x))
    (hcov : ∀ v : Fin 8, ∃ p ∈ Ls, ∃ inb, p.1 = Rect.unit (s := S8x128) ![r, 16 * v.val] S1x16.size inb)
    (g : (s0V).view.ty.Contents (Elt F)) (x : S128.Idx) :
    View.read (Elt F) (((s0V).slice (Rect.unit (s := S8x128) ![r, 0] S1x128.size inb) (fun _ => rfl)).squeeze S128 squeezes_S1x128_S128).view
        ((s0V).view.writes (Elt F) g Ls) x = zG L (rowIx r inb x) := by
  have e : View.read (Elt F) (((s0V).slice (Rect.unit (s := S8x128) ![r, 0] S1x128.size inb) (fun _ => rfl)).squeeze S128 squeezes_S1x128_S128).view
        ((s0V).view.writes (Elt F) g Ls) x
      = View.read (Elt F) (s0V).view ((s0V).view.writes (Elt F) g Ls) (rowIx r inb x) := by
    rw [View.read_apply, View.read_apply]; rfl
  rw [e, View.read_writes_apply_of_pieces (s0V).view g (zG L) Ls hag (rowIx r inb x) (cover_row Ls r hcov _ (rowIx_zero r inb x))]

/-! ## What the gathers out of flat `z` deliver -/

/-- Flat `z` as the gathers read it. -/
def zsrc (zf : (zV).view.ty.Contents (Elt F)) : S524288.Idx → Elt F .f32 :=
  View.read (Elt F) ((zV).slice (Rect.unit (s := S524288) ![0] S524288.size inb_S524288_S524288_0) (fun _ => rfl)).view zf

/-- What the gather through row 0 of the first scratch buffer delivers. -/
def gz0 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![0, 0] S1x128.size inb_S8x128_S1x128_0_0) (fun _ => rfl)).squeeze S128 squeezes_S1x128_S128).view ((s0V).view.writes (Elt F) f0 (zL0 L))) rfl (hinZ0 L f0))

/-- What the gather through row 1 of the first scratch buffer delivers. -/
def gz1 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![1, 0] S1x128.size inb_S8x128_S1x128_1_0) (fun _ => rfl)).squeeze S128 squeezes_S1x128_S128).view ((s0V).view.writes (Elt F) f0 (zL1 L))) rfl (hinZ1 L f0))

/-- What the gather through row 2 of the first scratch buffer delivers. -/
def gz2 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![2, 0] S1x128.size inb_S8x128_S1x128_2_0) (fun _ => rfl)).squeeze S128 squeezes_S1x128_S128).view ((s0V).view.writes (Elt F) f0 (zL2 L))) rfl (hinZ2 L f0))

/-- What the gather through row 3 of the first scratch buffer delivers. -/
def gz3 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![3, 0] S1x128.size inb_S8x128_S1x128_3_0) (fun _ => rfl)).squeeze S128 squeezes_S1x128_S128).view ((s0V).view.writes (Elt F) f0 (zL3 L))) rfl (hinZ3 L f0))

/-- What the gather through row 4 of the first scratch buffer delivers. -/
def gz4 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![4, 0] S1x128.size inb_S8x128_S1x128_4_0) (fun _ => rfl)).squeeze S128 squeezes_S1x128_S128).view ((s0V).view.writes (Elt F) f0 (zL4 L))) rfl (hinZ4 L f0))

/-- What the gather through row 5 of the first scratch buffer delivers. -/
def gz5 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![5, 0] S1x128.size inb_S8x128_S1x128_5_0) (fun _ => rfl)).squeeze S128 squeezes_S1x128_S128).view ((s0V).view.writes (Elt F) f0 (zL5 L))) rfl (hinZ5 L f0))

/-- What the gather through row 6 of the first scratch buffer delivers. -/
def gz6 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![6, 0] S1x128.size inb_S8x128_S1x128_6_0) (fun _ => rfl)).squeeze S128 squeezes_S1x128_S128).view ((s0V).view.writes (Elt F) f0 (zL6 L))) rfl (hinZ6 L f0))

/-- What the gather through row 7 of the first scratch buffer delivers. -/
def gz7 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![7, 0] S1x128.size inb_S8x128_S1x128_7_0) (fun _ => rfl)).squeeze S128 squeezes_S1x128_S128).view ((s0V).view.writes (Elt F) f0 (zL7 L))) rfl (hinZ7 L f0))

/-- The second scratch buffer once the eight gathers out of flat `z` are issued: row `r` written with gather `r`'s delivery. -/
def c1 (L : grid0.Coords) (zf : (zV).view.ty.Contents (Elt F)) (f0 : (s0V).view.ty.Contents (Elt F)) (f1 : (s1V).view.ty.Contents (Elt F)) : (s1V).view.ty.Contents (Elt F) :=
  (View.write (Elt F) (((s1V).slice (Rect.unit (s := S8x128) ![7, 0] S1x128.size inb_S8x128_S1x128_7_0) (fun _ => rfl)).squeeze S128 squeezes_S1x128_S128).view (View.write (Elt F) (((s1V).slice (Rect.unit (s := S8x128) ![6, 0] S1x128.size inb_S8x128_S1x128_6_0) (fun _ => rfl)).squeeze S128 squeezes_S1x128_S128).view (View.write (Elt F) (((s1V).slice (Rect.unit (s := S8x128) ![5, 0] S1x128.size inb_S8x128_S1x128_5_0) (fun _ => rfl)).squeeze S128 squeezes_S1x128_S128).view (View.write (Elt F) (((s1V).slice (Rect.unit (s := S8x128) ![4, 0] S1x128.size inb_S8x128_S1x128_4_0) (fun _ => rfl)).squeeze S128 squeezes_S1x128_S128).view (View.write (Elt F) (((s1V).slice (Rect.unit (s := S8x128) ![3, 0] S1x128.size inb_S8x128_S1x128_3_0) (fun _ => rfl)).squeeze S128 squeezes_S1x128_S128).view (View.write (Elt F) (((s1V).slice (Rect.unit (s := S8x128) ![2, 0] S1x128.size inb_S8x128_S1x128_2_0) (fun _ => rfl)).squeeze S128 squeezes_S1x128_S128).view (View.write (Elt F) (((s1V).slice (Rect.unit (s := S8x128) ![1, 0] S1x128.size inb_S8x128_S1x128_1_0) (fun _ => rfl)).squeeze S128 squeezes_S1x128_S128).view (View.write (Elt F) (((s1V).slice (Rect.unit (s := S8x128) ![0, 0] S1x128.size inb_S8x128_S1x128_0_0) (fun _ => rfl)).squeeze S128 squeezes_S1x128_S128).view f1 (gz0 L zf f0) Finset.univ) (gz1 L zf f0) Finset.univ) (gz2 L zf f0) Finset.univ) (gz3 L zf f0) Finset.univ) (gz4 L zf f0) Finset.univ) (gz5 L zf f0) Finset.univ) (gz6 L zf f0) Finset.univ) (gz7 L zf f0) Finset.univ)

/-- Sixteen lanes of the second scratch buffer. -/
def zld (L : grid0.Coords) (zf : (zV).view.ty.Contents (Elt F)) (f0 : (s0V).view.ty.Contents (Elt F)) (f1 : (s1V).view.ty.Contents (Elt F)) (r c : ℕ)
    (inb : ∀ a, (![r, c] : Fin 2 → ℕ) a + S1x16.size a ≤ S8x128.size a) : Vec F S1x16 .f32 :=
  View.readAt (Elt F) (s1V).view (Rect.unit (s := S8x128) ![r, c] S1x16.size inb).toLoadRect (c1 L zf f0 f1)

/-- Sixteen consecutive positions in flat `a`: lane `l` holds `128 · (b + c₁ + c₂ + l)` plus the converted lane of `u`. -/
def aVec (b c1 c2 : BitVec 32) (u : Vec F S1x16 .f32) : IVec S1x16 32 :=
  shapeCast S1x16 (addi (muli (addi (iota .scVector S16 32 [0] iota_S16_d0_w32_scVector) (broadcast S16 (Scalar.addi (Scalar.addi b c1) c2)))
    (broadcast S16 128#32)) (fptosi 32 (shapeCast S16 u shapeCasts_S1x16_S16))) shapeCasts_S16_S1x16

/-- The pieces written into the third scratch buffer up to row 0, the last written first. -/
def aL0 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![0, 112] S1x16.size inb_S8x128_S1x16_0_112, aVec (v2w L) 0#32 112#32 (zld L zf f0 f1 0 112 inb_S8x128_S1x16_0_112)⟩ ::
  ⟨Rect.unit (s := S8x128) ![0, 96] S1x16.size inb_S8x128_S1x16_0_96, aVec (v2w L) 0#32 96#32 (zld L zf f0 f1 0 96 inb_S8x128_S1x16_0_96)⟩ ::
  ⟨Rect.unit (s := S8x128) ![0, 80] S1x16.size inb_S8x128_S1x16_0_80, aVec (v2w L) 0#32 80#32 (zld L zf f0 f1 0 80 inb_S8x128_S1x16_0_80)⟩ ::
  ⟨Rect.unit (s := S8x128) ![0, 64] S1x16.size inb_S8x128_S1x16_0_64, aVec (v2w L) 0#32 64#32 (zld L zf f0 f1 0 64 inb_S8x128_S1x16_0_64)⟩ ::
  ⟨Rect.unit (s := S8x128) ![0, 48] S1x16.size inb_S8x128_S1x16_0_48, aVec (v2w L) 0#32 48#32 (zld L zf f0 f1 0 48 inb_S8x128_S1x16_0_48)⟩ ::
  ⟨Rect.unit (s := S8x128) ![0, 32] S1x16.size inb_S8x128_S1x16_0_32, aVec (v2w L) 0#32 32#32 (zld L zf f0 f1 0 32 inb_S8x128_S1x16_0_32)⟩ ::
  ⟨Rect.unit (s := S8x128) ![0, 16] S1x16.size inb_S8x128_S1x16_0_16, aVec (v2w L) 0#32 16#32 (zld L zf f0 f1 0 16 inb_S8x128_S1x16_0_16)⟩ ::
  ⟨Rect.unit (s := S8x128) ![0, 0] S1x16.size inb_S8x128_S1x16_0_0, aVec (v2w L) 0#32 0#32 (zld L zf f0 f1 0 0 inb_S8x128_S1x16_0_0)⟩ :: []

/-- The pieces written into the third scratch buffer up to row 1, the last written first. -/
def aL1 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![1, 112] S1x16.size inb_S8x128_S1x16_1_112, aVec (v2w L) 128#32 112#32 (zld L zf f0 f1 1 112 inb_S8x128_S1x16_1_112)⟩ ::
  ⟨Rect.unit (s := S8x128) ![1, 96] S1x16.size inb_S8x128_S1x16_1_96, aVec (v2w L) 128#32 96#32 (zld L zf f0 f1 1 96 inb_S8x128_S1x16_1_96)⟩ ::
  ⟨Rect.unit (s := S8x128) ![1, 80] S1x16.size inb_S8x128_S1x16_1_80, aVec (v2w L) 128#32 80#32 (zld L zf f0 f1 1 80 inb_S8x128_S1x16_1_80)⟩ ::
  ⟨Rect.unit (s := S8x128) ![1, 64] S1x16.size inb_S8x128_S1x16_1_64, aVec (v2w L) 128#32 64#32 (zld L zf f0 f1 1 64 inb_S8x128_S1x16_1_64)⟩ ::
  ⟨Rect.unit (s := S8x128) ![1, 48] S1x16.size inb_S8x128_S1x16_1_48, aVec (v2w L) 128#32 48#32 (zld L zf f0 f1 1 48 inb_S8x128_S1x16_1_48)⟩ ::
  ⟨Rect.unit (s := S8x128) ![1, 32] S1x16.size inb_S8x128_S1x16_1_32, aVec (v2w L) 128#32 32#32 (zld L zf f0 f1 1 32 inb_S8x128_S1x16_1_32)⟩ ::
  ⟨Rect.unit (s := S8x128) ![1, 16] S1x16.size inb_S8x128_S1x16_1_16, aVec (v2w L) 128#32 16#32 (zld L zf f0 f1 1 16 inb_S8x128_S1x16_1_16)⟩ ::
  ⟨Rect.unit (s := S8x128) ![1, 0] S1x16.size inb_S8x128_S1x16_1_0, aVec (v2w L) 128#32 0#32 (zld L zf f0 f1 1 0 inb_S8x128_S1x16_1_0)⟩ :: aL0 L zf f0 f1

/-- The pieces written into the third scratch buffer up to row 2, the last written first. -/
def aL2 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![2, 112] S1x16.size inb_S8x128_S1x16_2_112, aVec (v2w L) 256#32 112#32 (zld L zf f0 f1 2 112 inb_S8x128_S1x16_2_112)⟩ ::
  ⟨Rect.unit (s := S8x128) ![2, 96] S1x16.size inb_S8x128_S1x16_2_96, aVec (v2w L) 256#32 96#32 (zld L zf f0 f1 2 96 inb_S8x128_S1x16_2_96)⟩ ::
  ⟨Rect.unit (s := S8x128) ![2, 80] S1x16.size inb_S8x128_S1x16_2_80, aVec (v2w L) 256#32 80#32 (zld L zf f0 f1 2 80 inb_S8x128_S1x16_2_80)⟩ ::
  ⟨Rect.unit (s := S8x128) ![2, 64] S1x16.size inb_S8x128_S1x16_2_64, aVec (v2w L) 256#32 64#32 (zld L zf f0 f1 2 64 inb_S8x128_S1x16_2_64)⟩ ::
  ⟨Rect.unit (s := S8x128) ![2, 48] S1x16.size inb_S8x128_S1x16_2_48, aVec (v2w L) 256#32 48#32 (zld L zf f0 f1 2 48 inb_S8x128_S1x16_2_48)⟩ ::
  ⟨Rect.unit (s := S8x128) ![2, 32] S1x16.size inb_S8x128_S1x16_2_32, aVec (v2w L) 256#32 32#32 (zld L zf f0 f1 2 32 inb_S8x128_S1x16_2_32)⟩ ::
  ⟨Rect.unit (s := S8x128) ![2, 16] S1x16.size inb_S8x128_S1x16_2_16, aVec (v2w L) 256#32 16#32 (zld L zf f0 f1 2 16 inb_S8x128_S1x16_2_16)⟩ ::
  ⟨Rect.unit (s := S8x128) ![2, 0] S1x16.size inb_S8x128_S1x16_2_0, aVec (v2w L) 256#32 0#32 (zld L zf f0 f1 2 0 inb_S8x128_S1x16_2_0)⟩ :: aL1 L zf f0 f1

/-- The pieces written into the third scratch buffer up to row 3, the last written first. -/
def aL3 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![3, 112] S1x16.size inb_S8x128_S1x16_3_112, aVec (v2w L) 384#32 112#32 (zld L zf f0 f1 3 112 inb_S8x128_S1x16_3_112)⟩ ::
  ⟨Rect.unit (s := S8x128) ![3, 96] S1x16.size inb_S8x128_S1x16_3_96, aVec (v2w L) 384#32 96#32 (zld L zf f0 f1 3 96 inb_S8x128_S1x16_3_96)⟩ ::
  ⟨Rect.unit (s := S8x128) ![3, 80] S1x16.size inb_S8x128_S1x16_3_80, aVec (v2w L) 384#32 80#32 (zld L zf f0 f1 3 80 inb_S8x128_S1x16_3_80)⟩ ::
  ⟨Rect.unit (s := S8x128) ![3, 64] S1x16.size inb_S8x128_S1x16_3_64, aVec (v2w L) 384#32 64#32 (zld L zf f0 f1 3 64 inb_S8x128_S1x16_3_64)⟩ ::
  ⟨Rect.unit (s := S8x128) ![3, 48] S1x16.size inb_S8x128_S1x16_3_48, aVec (v2w L) 384#32 48#32 (zld L zf f0 f1 3 48 inb_S8x128_S1x16_3_48)⟩ ::
  ⟨Rect.unit (s := S8x128) ![3, 32] S1x16.size inb_S8x128_S1x16_3_32, aVec (v2w L) 384#32 32#32 (zld L zf f0 f1 3 32 inb_S8x128_S1x16_3_32)⟩ ::
  ⟨Rect.unit (s := S8x128) ![3, 16] S1x16.size inb_S8x128_S1x16_3_16, aVec (v2w L) 384#32 16#32 (zld L zf f0 f1 3 16 inb_S8x128_S1x16_3_16)⟩ ::
  ⟨Rect.unit (s := S8x128) ![3, 0] S1x16.size inb_S8x128_S1x16_3_0, aVec (v2w L) 384#32 0#32 (zld L zf f0 f1 3 0 inb_S8x128_S1x16_3_0)⟩ :: aL2 L zf f0 f1

/-- The pieces written into the third scratch buffer up to row 4, the last written first. -/
def aL4 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![4, 112] S1x16.size inb_S8x128_S1x16_4_112, aVec (v2w L) 512#32 112#32 (zld L zf f0 f1 4 112 inb_S8x128_S1x16_4_112)⟩ ::
  ⟨Rect.unit (s := S8x128) ![4, 96] S1x16.size inb_S8x128_S1x16_4_96, aVec (v2w L) 512#32 96#32 (zld L zf f0 f1 4 96 inb_S8x128_S1x16_4_96)⟩ ::
  ⟨Rect.unit (s := S8x128) ![4, 80] S1x16.size inb_S8x128_S1x16_4_80, aVec (v2w L) 512#32 80#32 (zld L zf f0 f1 4 80 inb_S8x128_S1x16_4_80)⟩ ::
  ⟨Rect.unit (s := S8x128) ![4, 64] S1x16.size inb_S8x128_S1x16_4_64, aVec (v2w L) 512#32 64#32 (zld L zf f0 f1 4 64 inb_S8x128_S1x16_4_64)⟩ ::
  ⟨Rect.unit (s := S8x128) ![4, 48] S1x16.size inb_S8x128_S1x16_4_48, aVec (v2w L) 512#32 48#32 (zld L zf f0 f1 4 48 inb_S8x128_S1x16_4_48)⟩ ::
  ⟨Rect.unit (s := S8x128) ![4, 32] S1x16.size inb_S8x128_S1x16_4_32, aVec (v2w L) 512#32 32#32 (zld L zf f0 f1 4 32 inb_S8x128_S1x16_4_32)⟩ ::
  ⟨Rect.unit (s := S8x128) ![4, 16] S1x16.size inb_S8x128_S1x16_4_16, aVec (v2w L) 512#32 16#32 (zld L zf f0 f1 4 16 inb_S8x128_S1x16_4_16)⟩ ::
  ⟨Rect.unit (s := S8x128) ![4, 0] S1x16.size inb_S8x128_S1x16_4_0, aVec (v2w L) 512#32 0#32 (zld L zf f0 f1 4 0 inb_S8x128_S1x16_4_0)⟩ :: aL3 L zf f0 f1

/-- The pieces written into the third scratch buffer up to row 5, the last written first. -/
def aL5 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![5, 112] S1x16.size inb_S8x128_S1x16_5_112, aVec (v2w L) 640#32 112#32 (zld L zf f0 f1 5 112 inb_S8x128_S1x16_5_112)⟩ ::
  ⟨Rect.unit (s := S8x128) ![5, 96] S1x16.size inb_S8x128_S1x16_5_96, aVec (v2w L) 640#32 96#32 (zld L zf f0 f1 5 96 inb_S8x128_S1x16_5_96)⟩ ::
  ⟨Rect.unit (s := S8x128) ![5, 80] S1x16.size inb_S8x128_S1x16_5_80, aVec (v2w L) 640#32 80#32 (zld L zf f0 f1 5 80 inb_S8x128_S1x16_5_80)⟩ ::
  ⟨Rect.unit (s := S8x128) ![5, 64] S1x16.size inb_S8x128_S1x16_5_64, aVec (v2w L) 640#32 64#32 (zld L zf f0 f1 5 64 inb_S8x128_S1x16_5_64)⟩ ::
  ⟨Rect.unit (s := S8x128) ![5, 48] S1x16.size inb_S8x128_S1x16_5_48, aVec (v2w L) 640#32 48#32 (zld L zf f0 f1 5 48 inb_S8x128_S1x16_5_48)⟩ ::
  ⟨Rect.unit (s := S8x128) ![5, 32] S1x16.size inb_S8x128_S1x16_5_32, aVec (v2w L) 640#32 32#32 (zld L zf f0 f1 5 32 inb_S8x128_S1x16_5_32)⟩ ::
  ⟨Rect.unit (s := S8x128) ![5, 16] S1x16.size inb_S8x128_S1x16_5_16, aVec (v2w L) 640#32 16#32 (zld L zf f0 f1 5 16 inb_S8x128_S1x16_5_16)⟩ ::
  ⟨Rect.unit (s := S8x128) ![5, 0] S1x16.size inb_S8x128_S1x16_5_0, aVec (v2w L) 640#32 0#32 (zld L zf f0 f1 5 0 inb_S8x128_S1x16_5_0)⟩ :: aL4 L zf f0 f1

/-- The pieces written into the third scratch buffer up to row 6, the last written first. -/
def aL6 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![6, 112] S1x16.size inb_S8x128_S1x16_6_112, aVec (v2w L) 768#32 112#32 (zld L zf f0 f1 6 112 inb_S8x128_S1x16_6_112)⟩ ::
  ⟨Rect.unit (s := S8x128) ![6, 96] S1x16.size inb_S8x128_S1x16_6_96, aVec (v2w L) 768#32 96#32 (zld L zf f0 f1 6 96 inb_S8x128_S1x16_6_96)⟩ ::
  ⟨Rect.unit (s := S8x128) ![6, 80] S1x16.size inb_S8x128_S1x16_6_80, aVec (v2w L) 768#32 80#32 (zld L zf f0 f1 6 80 inb_S8x128_S1x16_6_80)⟩ ::
  ⟨Rect.unit (s := S8x128) ![6, 64] S1x16.size inb_S8x128_S1x16_6_64, aVec (v2w L) 768#32 64#32 (zld L zf f0 f1 6 64 inb_S8x128_S1x16_6_64)⟩ ::
  ⟨Rect.unit (s := S8x128) ![6, 48] S1x16.size inb_S8x128_S1x16_6_48, aVec (v2w L) 768#32 48#32 (zld L zf f0 f1 6 48 inb_S8x128_S1x16_6_48)⟩ ::
  ⟨Rect.unit (s := S8x128) ![6, 32] S1x16.size inb_S8x128_S1x16_6_32, aVec (v2w L) 768#32 32#32 (zld L zf f0 f1 6 32 inb_S8x128_S1x16_6_32)⟩ ::
  ⟨Rect.unit (s := S8x128) ![6, 16] S1x16.size inb_S8x128_S1x16_6_16, aVec (v2w L) 768#32 16#32 (zld L zf f0 f1 6 16 inb_S8x128_S1x16_6_16)⟩ ::
  ⟨Rect.unit (s := S8x128) ![6, 0] S1x16.size inb_S8x128_S1x16_6_0, aVec (v2w L) 768#32 0#32 (zld L zf f0 f1 6 0 inb_S8x128_S1x16_6_0)⟩ :: aL5 L zf f0 f1

/-- The pieces written into the third scratch buffer up to row 7, the last written first. -/
def aL7 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![7, 112] S1x16.size inb_S8x128_S1x16_7_112, aVec (v2w L) 896#32 112#32 (zld L zf f0 f1 7 112 inb_S8x128_S1x16_7_112)⟩ ::
  ⟨Rect.unit (s := S8x128) ![7, 96] S1x16.size inb_S8x128_S1x16_7_96, aVec (v2w L) 896#32 96#32 (zld L zf f0 f1 7 96 inb_S8x128_S1x16_7_96)⟩ ::
  ⟨Rect.unit (s := S8x128) ![7, 80] S1x16.size inb_S8x128_S1x16_7_80, aVec (v2w L) 896#32 80#32 (zld L zf f0 f1 7 80 inb_S8x128_S1x16_7_80)⟩ ::
  ⟨Rect.unit (s := S8x128) ![7, 64] S1x16.size inb_S8x128_S1x16_7_64, aVec (v2w L) 896#32 64#32 (zld L zf f0 f1 7 64 inb_S8x128_S1x16_7_64)⟩ ::
  ⟨Rect.unit (s := S8x128) ![7, 48] S1x16.size inb_S8x128_S1x16_7_48, aVec (v2w L) 896#32 48#32 (zld L zf f0 f1 7 48 inb_S8x128_S1x16_7_48)⟩ ::
  ⟨Rect.unit (s := S8x128) ![7, 32] S1x16.size inb_S8x128_S1x16_7_32, aVec (v2w L) 896#32 32#32 (zld L zf f0 f1 7 32 inb_S8x128_S1x16_7_32)⟩ ::
  ⟨Rect.unit (s := S8x128) ![7, 16] S1x16.size inb_S8x128_S1x16_7_16, aVec (v2w L) 896#32 16#32 (zld L zf f0 f1 7 16 inb_S8x128_S1x16_7_16)⟩ ::
  ⟨Rect.unit (s := S8x128) ![7, 0] S1x16.size inb_S8x128_S1x16_7_0, aVec (v2w L) 896#32 0#32 (zld L zf f0 f1 7 0 inb_S8x128_S1x16_7_0)⟩ :: aL6 L zf f0 f1

theorem aVec_apply (b c1 c2 : BitVec 32) (u : Vec F S1x16 .f32) (j : S1x16.Idx) :
    aVec b c1 c2 u j = IntOp.addi (IntOp.muli (IntOp.addi (BitVec.ofNat 32 (j 1).val) (Scalar.addi (Scalar.addi b c1) c2)) 128#32)
      (FloatOps.fptosi 32 (u j)) := by
  unfold aVec shapeCast addi muli iota broadcast fptosi
  simp only [List.foldl, Nat.zero_mul, Nat.zero_add]
  rw [reshape_lane, Shape.reshapeEquiv_reshapeEquiv, Shape.reshapeEquiv_self]

theorem c1_read0 (L : grid0.Coords) (zf : (zV).view.ty.Contents (Elt F)) (f0 : (s0V).view.ty.Contents (Elt F)) (f1 : (s1V).view.ty.Contents (Elt F)) (y : S8x128.Idx) (hy : (y 0).val = 0) :
    View.read (Elt F) (s1V).view (c1 L zf f0 f1) y = gz0 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_neg (by omega),
    rowWrite1_read, if_neg (by omega),
    rowWrite1_read, if_neg (by omega),
    rowWrite1_read, if_pos hy]

theorem c1_read1 (L : grid0.Coords) (zf : (zV).view.ty.Contents (Elt F)) (f0 : (s0V).view.ty.Contents (Elt F)) (f1 : (s1V).view.ty.Contents (Elt F)) (y : S8x128.Idx) (hy : (y 0).val = 1) :
    View.read (Elt F) (s1V).view (c1 L zf f0 f1) y = gz1 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_neg (by omega),
    rowWrite1_read, if_neg (by omega),
    rowWrite1_read, if_pos hy]

theorem c1_read2 (L : grid0.Coords) (zf : (zV).view.ty.Contents (Elt F)) (f0 : (s0V).view.ty.Contents (Elt F)) (f1 : (s1V).view.ty.Contents (Elt F)) (y : S8x128.Idx) (hy : (y 0).val = 2) :
    View.read (Elt F) (s1V).view (c1 L zf f0 f1) y = gz2 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_neg (by omega),
    rowWrite1_read, if_pos hy]

theorem c1_read3 (L : grid0.Coords) (zf : (zV).view.ty.Contents (Elt F)) (f0 : (s0V).view.ty.Contents (Elt F)) (f1 : (s1V).view.ty.Contents (Elt F)) (y : S8x128.Idx) (hy : (y 0).val = 3) :
    View.read (Elt F) (s1V).view (c1 L zf f0 f1) y = gz3 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_pos hy]

theorem c1_read4 (L : grid0.Coords) (zf : (zV).view.ty.Contents (Elt F)) (f0 : (s0V).view.ty.Contents (Elt F)) (f1 : (s1V).view.ty.Contents (Elt F)) (y : S8x128.Idx) (hy : (y 0).val = 4) :
    View.read (Elt F) (s1V).view (c1 L zf f0 f1) y = gz4 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_pos hy]

theorem c1_read5 (L : grid0.Coords) (zf : (zV).view.ty.Contents (Elt F)) (f0 : (s0V).view.ty.Contents (Elt F)) (f1 : (s1V).view.ty.Contents (Elt F)) (y : S8x128.Idx) (hy : (y 0).val = 5) :
    View.read (Elt F) (s1V).view (c1 L zf f0 f1) y = gz5 L zf f0 (ValueIdx.ix1 (⟨(y 1).val, ValueIdx.idx2_lt1 y⟩ : Fin 128)) := by
  unfold c1
  rw [rowWrite1_read, if_neg (by omega),
    rowWrite1_read, if_neg (by omega),
    rowWrite1_read, if_pos hy]

theorem c1_read6 (L : grid0.Coords) (zf : (zV).view.ty.Contents (Elt F)) (f0 : (s0V).view.ty.Contents (Elt F)) (f1 : (s1V).view.ty.Contents (Elt F)) (y : S8x128.Idx) (hy : (y 0).val = 6) :
    View.read (Elt F) (s1V).view (c1 L zf f0 f1) y = gz6 L zf f0 (ValueIdx.ix1 (⟨(y 1).val, ValueIdx.idx2_lt1 y⟩ : Fin 128)) := by
  unfold c1
  rw [rowWrite1_read, if_neg (by omega),
    rowWrite1_read, if_pos hy]

theorem c1_read7 (L : grid0.Coords) (zf : (zV).view.ty.Contents (Elt F)) (f0 : (s0V).view.ty.Contents (Elt F)) (f1 : (s1V).view.ty.Contents (Elt F)) (y : S8x128.Idx) (hy : (y 0).val = 7) :
    View.read (Elt F) (s1V).view (c1 L zf f0 f1) y = gz7 L zf f0 (ValueIdx.ix1 (⟨(y 1).val, ValueIdx.idx2_lt1 y⟩ : Fin 128)) := by
  unfold c1
  rw [rowWrite1_read, if_pos hy]

theorem gz0_at (d : Dev nD) (L : grid0.Coords) (zf : Buf (Elt F) (zLoc d)) (f0 : (s0V).view.ty.Contents (Elt F)) (y : S8x128.Idx) (hy : (y 0).val = 0) :
    gz0 L zf f0 (ValueIdx.ix1 (⟨(y 1).val, ValueIdx.idx2_lt1 y⟩ : Fin 128)) = zf (ValueIdx.ix1 (Cert.Spec.zPos (rowF L y))) := by
  unfold gz0 zsrc
  rw [gatherZ_apply d zf _ rfl (hinZ0 L f0)]
  refine congrArg zf (congrArg ValueIdx.ix1 (Fin.ext ?_))
  have e := zread_of L 0 inb_S8x128_S1x128_0_0 (zL0 L) (zL0_agree L) (zL0_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row0 (d : Dev nD) (L : grid0.Coords) (zf : Buf (Elt F) (zLoc d)) (f0 : (s0V).view.ty.Contents (Elt F)) (f1 : (s1V).view.ty.Contents (Elt F)) (y : S8x128.Idx) (hy : (y 0).val = 0) :
    View.read (Elt F) (s1V).view (c1 L zf f0 f1) y = zf (ValueIdx.ix1 (Cert.Spec.zPos (rowF L y))) :=
  (c1_read0 L zf f0 f1 y hy).trans (gz0_at d L zf f0 y hy)

theorem gz1_at (d : Dev nD) (L : grid0.Coords) (zf : Buf (Elt F) (zLoc d)) (f0 : (s0V).view.ty.Contents (Elt F)) (y : S8x128.Idx) (hy : (y 0).val = 1) :
    gz1 L zf f0 (ValueIdx.ix1 (⟨(y 1).val, ValueIdx.idx2_lt1 y⟩ : Fin 128)) = zf (ValueIdx.ix1 (Cert.Spec.zPos (rowF L y))) := by
  unfold gz1 zsrc
  rw [gatherZ_apply d zf _ rfl (hinZ1 L f0)]
  refine congrArg zf (congrArg ValueIdx.ix1 (Fin.ext ?_))
  have e := zread_of L 1 inb_S8x128_S1x128_1_0 (zL1 L) (zL1_agree L) (zL1_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row1 (d : Dev nD) (L : grid0.Coords) (zf : Buf (Elt F) (zLoc d)) (f0 : (s0V).view.ty.Contents (Elt F)) (f1 : (s1V).view.ty.Contents (Elt F)) (y : S8x128.Idx) (hy : (y 0).val = 1) :
    View.read (Elt F) (s1V).view (c1 L zf f0 f1) y = zf (ValueIdx.ix1 (Cert.Spec.zPos (rowF L y))) :=
  (c1_read1 L zf f0 f1 y hy).trans (gz1_at d L zf f0 y hy)

theorem gz2_at (d : Dev nD) (L : grid0.Coords) (zf : Buf (Elt F) (zLoc d)) (f0 : (s0V).view.ty.Contents (Elt F)) (y : S8x128.Idx) (hy : (y 0).val = 2) :
    gz2 L zf f0 (ValueIdx.ix1 (⟨(y 1).val, ValueIdx.idx2_lt1 y⟩ : Fin 128)) = zf (ValueIdx.ix1 (Cert.Spec.zPos (rowF L y))) := by
  unfold gz2 zsrc
  rw [gatherZ_apply d zf _ rfl (hinZ2 L f0)]
  refine congrArg zf (congrArg ValueIdx.ix1 (Fin.ext ?_))
  have e := zread_of L 2 inb_S8x128_S1x128_2_0 (zL2 L) (zL2_agree L) (zL2_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row2 (d : Dev nD) (L : grid0.Coords) (zf : Buf (Elt F) (zLoc d)) (f0 : (s0V).view.ty.Contents (Elt F)) (f1 : (s1V).view.ty.Contents (Elt F)) (y : S8x128.Idx) (hy : (y 0).val = 2) :
    View.read (Elt F) (s1V).view (c1 L zf f0 f1) y = zf (ValueIdx.ix1 (Cert.Spec.zPos (rowF L y))) :=
  (c1_read2 L zf f0 f1 y hy).trans (gz2_at d L zf f0 y hy)

theorem gz3_at (d : Dev nD) (L : grid0.Coords) (zf : Buf (Elt F) (zLoc d)) (f0 : (s0V).view.ty.Contents (Elt F)) (y : S8x128.Idx) (hy : (y 0).val = 3) :
    gz3 L zf f0 (ValueIdx.ix1 (⟨(y 1).val, ValueIdx.idx2_lt1 y⟩ : Fin 128)) = zf (ValueIdx.ix1 (Cert.Spec.zPos (rowF L y))) := by
  unfold gz3 zsrc
  rw [gatherZ_apply d zf _ rfl (hinZ3 L f0)]
  refine congrArg zf (congrArg ValueIdx.ix1 (Fin.ext ?_))
  have e := zread_of L 3 inb_S8x128_S1x128_3_0 (zL3 L) (zL3_agree L) (zL3_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row3 (d : Dev nD) (L : grid0.Coords) (zf : Buf (Elt F) (zLoc d)) (f0 : (s0V).view.ty.Contents (Elt F)) (f1 : (s1V).view.ty.Contents (Elt F)) (y : S8x128.Idx) (hy : (y 0).val = 3) :
    View.read (Elt F) (s1V).view (c1 L zf f0 f1) y = zf (ValueIdx.ix1 (Cert.Spec.zPos (rowF L y))) :=
  (c1_read3 L zf f0 f1 y hy).trans (gz3_at d L zf f0 y hy)

theorem gz4_at (d : Dev nD) (L : grid0.Coords) (zf : Buf (Elt F) (zLoc d)) (f0 : (s0V).view.ty.Contents (Elt F)) (y : S8x128.Idx) (hy : (y 0).val = 4) :
    gz4 L zf f0 (ValueIdx.ix1 (⟨(y 1).val, ValueIdx.idx2_lt1 y⟩ : Fin 128)) = zf (ValueIdx.ix1 (Cert.Spec.zPos (rowF L y))) := by
  unfold gz4 zsrc
  rw [gatherZ_apply d zf _ rfl (hinZ4 L f0)]
  refine congrArg zf (congrArg ValueIdx.ix1 (Fin.ext ?_))
  have e := zread_of L 4 inb_S8x128_S1x128_4_0 (zL4 L) (zL4_agree L) (zL4_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row4 (d : Dev nD) (L : grid0.Coords) (zf : Buf (Elt F) (zLoc d)) (f0 : (s0V).view.ty.Contents (Elt F)) (f1 : (s1V).view.ty.Contents (Elt F)) (y : S8x128.Idx) (hy : (y 0).val = 4) :
    View.read (Elt F) (s1V).view (c1 L zf f0 f1) y = zf (ValueIdx.ix1 (Cert.Spec.zPos (rowF L y))) :=
  (c1_read4 L zf f0 f1 y hy).trans (gz4_at d L zf f0 y hy)

theorem gz5_at (d : Dev nD) (L : grid0.Coords) (zf : Buf (Elt F) (zLoc d)) (f0 : (s0V).view.ty.Contents (Elt F)) (y : S8x128.Idx) (hy : (y 0).val = 5) :
    gz5 L zf f0 (ValueIdx.ix1 (⟨(y 1).val, ValueIdx.idx2_lt1 y⟩ : Fin 128)) = zf (ValueIdx.ix1 (Cert.Spec.zPos (rowF L y))) := by
  unfold gz5 zsrc
  rw [gatherZ_apply d zf _ rfl (hinZ5 L f0)]
  refine congrArg zf (congrArg ValueIdx.ix1 (Fin.ext ?_))
  have e := zread_of L 5 inb_S8x128_S1x128_5_0 (zL5 L) (zL5_agree L) (zL5_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row5 (d : Dev nD) (L : grid0.Coords) (zf : Buf (Elt F) (zLoc d)) (f0 : (s0V).view.ty.Contents (Elt F)) (f1 : (s1V).view.ty.Contents (Elt F)) (y : S8x128.Idx) (hy : (y 0).val = 5) :
    View.read (Elt F) (s1V).view (c1 L zf f0 f1) y = zf (ValueIdx.ix1 (Cert.Spec.zPos (rowF L y))) :=
  (c1_read5 L zf f0 f1 y hy).trans (gz5_at d L zf f0 y hy)

theorem gz6_at (d : Dev nD) (L : grid0.Coords) (zf : Buf (Elt F) (zLoc d)) (f0 : (s0V).view.ty.Contents (Elt F)) (y : S8x128.Idx) (hy : (y 0).val = 6) :
    gz6 L zf f0 (ValueIdx.ix1 (⟨(y 1).val, ValueIdx.idx2_lt1 y⟩ : Fin 128)) = zf (ValueIdx.ix1 (Cert.Spec.zPos (rowF L y))) := by
  unfold gz6 zsrc
  rw [gatherZ_apply d zf _ rfl (hinZ6 L f0)]
  refine congrArg zf (congrArg ValueIdx.ix1 (Fin.ext ?_))
  have e := zread_of L 6 inb_S8x128_S1x128_6_0 (zL6 L) (zL6_agree L) (zL6_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row6 (d : Dev nD) (L : grid0.Coords) (zf : Buf (Elt F) (zLoc d)) (f0 : (s0V).view.ty.Contents (Elt F)) (f1 : (s1V).view.ty.Contents (Elt F)) (y : S8x128.Idx) (hy : (y 0).val = 6) :
    View.read (Elt F) (s1V).view (c1 L zf f0 f1) y = zf (ValueIdx.ix1 (Cert.Spec.zPos (rowF L y))) :=
  (c1_read6 L zf f0 f1 y hy).trans (gz6_at d L zf f0 y hy)

theorem gz7_at (d : Dev nD) (L : grid0.Coords) (zf : Buf (Elt F) (zLoc d)) (f0 : (s0V).view.ty.Contents (Elt F)) (y : S8x128.Idx) (hy : (y 0).val = 7) :
    gz7 L zf f0 (ValueIdx.ix1 (⟨(y 1).val, ValueIdx.idx2_lt1 y⟩ : Fin 128)) = zf (ValueIdx.ix1 (Cert.Spec.zPos (rowF L y))) := by
  unfold gz7 zsrc
  rw [gatherZ_apply d zf _ rfl (hinZ7 L f0)]
  refine congrArg zf (congrArg ValueIdx.ix1 (Fin.ext ?_))
  have e := zread_of L 7 inb_S8x128_S1x128_7_0 (zL7 L) (zL7_agree L) (zL7_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row7 (d : Dev nD) (L : grid0.Coords) (zf : Buf (Elt F) (zLoc d)) (f0 : (s0V).view.ty.Contents (Elt F)) (f1 : (s1V).view.ty.Contents (Elt F)) (y : S8x128.Idx) (hy : (y 0).val = 7) :
    View.read (Elt F) (s1V).view (c1 L zf f0 f1) y = zf (ValueIdx.ix1 (Cert.Spec.zPos (rowF L y))) :=
  (c1_read7 L zf f0 f1 y hy).trans (gz7_at d L zf f0 y hy)

/-! ## The words of the third scratch buffer -/

/-- What entry `y` of the third scratch buffer is to hold: `128 · row` plus the row's selecting word. -/
def aG (L : grid0.Coords) (zf : FVec F Cert.Spec.SZf .f32) : S8x128.Idx → Elt F .i32 :=
  fun y => BitVec.ofNat 32 (128 * rowN L y + (Cert.Spec.colWordF zf (rowF L y)).toNat)

theorem aG_toNat (L : grid0.Coords) (zf : FVec F Cert.Spec.SZf .f32) (hpre : Cert.Spec.InRangeF (F := F) zf) (y : S8x128.Idx) :
    (aG L zf y).toNat = (Cert.Spec.aPos zf (rowF L y)).val := by
  show (BitVec.ofNat 32 _).toNat = rowN L y * 128 + (Cert.Spec.colWordF zf (rowF L y)).toNat % 128
  have h := hpre (rowF L y)
  have := rowN_lt L y
  rw [BitVec.toNat_ofNat, Nat.mod_eq_of_lt h]
  omega

theorem aG_lt (L : grid0.Coords) (zf : FVec F Cert.Spec.SZf .f32) (hpre : Cert.Spec.InRangeF (F := F) zf) (y : S8x128.Idx) :
    (aG L zf y).toNat < 2097152 := by
  rw [aG_toNat L zf hpre]; exact (Cert.Spec.aPos zf (rowF L y)).isLt

/-- One stored piece agrees with `aG` on its rectangle. -/
theorem aP_agree (d : Dev nD) (L : grid0.Coords) (zf : Buf (Elt F) (zLoc d)) (f0 : (s0V).view.ty.Contents (Elt F)) (f1 : (s1V).view.ty.Contents (Elt F)) (hpre : Cert.Spec.InRangeF (F := F) zf)
    (r v c : ℕ) (hr : r < 8) (hv : v < 8) (hc : c = 16 * v) (c1w c2w : BitVec 32)
    (h1 : c1w.toNat = 128 * r) (h2 : c2w.toNat = 16 * v) (inb : ∀ a, (![r, c] : Fin 2 → ℕ) a + S1x16.size a ≤ S8x128.size a)
    (hrow : ∀ y : S8x128.Idx, (y 0).val = r → View.read (Elt F) (s1V).view (c1 L zf f0 f1) y = zf (ValueIdx.ix1 (Cert.Spec.zPos (rowF L y))))
    (x : (Rect.unit (s := S8x128) ![r, c] S1x16.size inb).shape.Idx) :
    aVec (v2w L) c1w c2w (zld L zf f0 f1 r c inb) x = aG L zf ((Rect.unit (s := S8x128) ![r, c] S1x16.size inb).emb x) := by
  subst hc
  apply BitVec.eq_of_toNat_eq
  have hx1 : (x 1).val < 16 := (x 1).isLt
  have hx0 : (x 0).val = 0 := by have := (x 0).isLt; simpa using this
  have e0 : ((Rect.unit (s := S8x128) ![r, 16 * v] S1x16.size inb).emb x 0).val = r := by
    rw [Rect.emb_apply]; simp [hx0]
  have e1 : ((Rect.unit (s := S8x128) ![r, 16 * v] S1x16.size inb).emb x 1).val = 16 * v + (x 1).val := by
    rw [Rect.emb_apply]; simp
  have hu : zld L zf f0 f1 r (16 * v) inb x
      = zf (ValueIdx.ix1 (Cert.Spec.zPos (rowF L ((Rect.unit (s := S8x128) ![r, 16 * v] S1x16.size inb).emb x)))) := by
    unfold zld; rw [View.readAt_apply]; exact hrow _ e0
  have hcw := hpre (rowF L ((Rect.unit (s := S8x128) ![r, 16 * v] S1x16.size inb).emb x))
  unfold Cert.Spec.colWordF at hcw
  rw [aVec_apply, hu, Cert.WordFacts.aword_toNat _ _ _ _ (L 1).val r v (x 1).val (L 1).isLt hr hv hx1 (v2w_toNat L) h1 h2 hcw]
  show _ = (BitVec.ofNat 32 _).toNat
  have hw : (L 1).val < 16 := (L 1).isLt
  rw [BitVec.toNat_ofNat]
  unfold Cert.Spec.colWordF rowN
  rw [e0, e1]
  omega

/-- Entry `x` of row `r` of the third scratch buffer after the listed writes: the intended word. -/
theorem aread_of (L : grid0.Coords) (zf : FVec F Cert.Spec.SZf .f32) (r : ℕ) (inb : ∀ a, (![r, 0] : Fin 2 → ℕ) a + S1x128.size a ≤ S8x128.size a)
    (Ls : List (View.Piece (Elt F) S8x128 .i32)) (hag : ∀ p ∈ Ls, ∀ x, p.2 x = aG L zf (p.1.emb x))
    (hcov : ∀ v : Fin 8, ∃ p ∈ Ls, ∃ inb, p.1 = Rect.unit (s := S8x128) ![r, 16 * v.val] S1x16.size inb)
    (g : (s2V).view.ty.Contents (Elt F)) (x : S128.Idx) :
    View.read (Elt F) (((s2V).slice (Rect.unit (s := S8x128) ![r, 0] S1x128.size inb) (fun _ => rfl)).squeeze S128 squeezes_S1x128_S128).view
        ((s2V).view.writes (Elt F) g Ls) x = aG L zf (rowIx r inb x) := by
  have e : View.read (Elt F) (((s2V).slice (Rect.unit (s := S8x128) ![r, 0] S1x128.size inb) (fun _ => rfl)).squeeze S128 squeezes_S1x128_S128).view
        ((s2V).view.writes (Elt F) g Ls) x
      = View.read (Elt F) (s2V).view ((s2V).view.writes (Elt F) g Ls) (rowIx r inb x) := by
    rw [View.read_apply, View.read_apply]; rfl
  rw [e, View.read_writes_apply_of_pieces (s2V).view g (aG L zf) Ls hag (rowIx r inb x) (cover_row Ls r hcov _ (rowIx_zero r inb x))]

/-! ## The lists, row by row -/

theorem aL0_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL0 (F := F) L zf f0 f1, ∀ x, p.2 x = aG L zf (p.1.emb x) := by
  unfold aL0
  exact (List.forall_mem_cons.2 ⟨aP_agree d L zf f0 f1 hpre 0 7 112 (by decide) (by decide) rfl 0#32 112#32 (by decide) (by decide) inb_S8x128_S1x16_0_112 (c1_row0 d L zf f0 f1), (List.forall_mem_cons.2 ⟨aP_agree d L zf f0 f1 hpre 0 6 96 (by decide) (by decide) rfl 0#32 96#32 (by decide) (by decide) inb_S8x128_S1x16_0_96 (c1_row0 d L zf f0 f1), (List.forall_mem_cons.2 ⟨aP_agree d L zf f0 f1 hpre 0 5 80 (by decide) (by decide) rfl 0#32 80#32 (by decide) (by decide) inb_S8x128_S1x16_0_80 (c1_row0 d L zf f0 f1), (List.forall_mem_cons.2 ⟨aP_agree d L zf f0 f1 hpre 0 4 64 (by decide) (by decide) rfl 0#32 64#32 (by decide) (by decide) inb_S8x128_S1x16_0_64 (c1_row0 d L zf f0 f1), (List.forall_mem_cons.2 ⟨aP_agree d L zf f0 f1 hpre 0 3 48 (by decide) (by decide) rfl 0#32 48#32 (by decide) (by decide) inb_S8x128_S1x16_0_48 (c1_row0 d L zf f0 f1), (List.forall_mem_cons.2 ⟨aP_agree d L zf f0 f1 hpre 0 2 32 (by decide) (by decide) rfl 0#32 32#32 (by decide) (by decide) inb_S8x128_S1x16_0_32 (c1_row0 d L zf f0 f1), (List.forall_mem_cons.2 ⟨aP_agree d L zf f0 f1 hpre 0 1 16 (by decide) (by decide) rfl 0#32 16#32 (by decide) (by decide) inb_S8x128_S1x16_0_16 (c1_row0 d L zf f0 f1), (List.forall_mem_cons.2 ⟨aP_agree d L zf f0 f1 hpre 0 0 0 (by decide) (by decide) rfl 0#32 0#32 (by decide) (by decide) inb_S8x128_S1x16_0_0 (c1_row0 d L zf f0 f1), (fun _ hp => nomatch hp)⟩)⟩)⟩)⟩)⟩)⟩)⟩)⟩)

theorem aL0_cover (L : grid0.Coords) (zf : (zV).view.ty.Contents (Elt F)) (f0 : (s0V).view.ty.Contents (Elt F)) (f1 : (s1V).view.ty.Contents (Elt F)) :
    ∀ v : Fin 8, ∃ p ∈ aL0 (F := F) L zf f0 f1, ∃ inb, p.1 = Rect.unit (s := S8x128) ![0, 16 * v.val] S1x16.size inb := by
  unfold aL0
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_0_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_0_16, rfl⟩
  · exact ⟨_, List.mem_cons_of_mem _ (List.mem_cons_of_mem _ (List.mem_cons_of_mem _ (List.mem_cons_of_mem _ (List.mem_cons_of_mem _ (List.mem_cons_self))))), inb_S8x128_S1x16_0_32, rfl⟩
  · exact ⟨_, List.mem_cons_of_mem _ (List.mem_cons_of_mem _ (List.mem_cons_of_mem _ (List.mem_cons_of_mem _ (List.mem_cons_self)))), inb_S8x128_S1x16_0_48, rfl⟩
  · exact ⟨_, List.mem_cons_of_mem _ (List.mem_cons_of_mem _ (List.mem_cons_of_mem _ (List.mem_cons_self))), inb_S8x128_S1x16_0_64, rfl⟩
  · exact ⟨_, List.mem_cons_of_mem _ (List.mem_cons_of_mem _ (List.mem_cons_self)), inb_S8x128_S1x16_0_80, rfl⟩
  · exact ⟨_, List.mem_cons_of_mem _ (List.mem_cons_self), inb_S8x128_S1x16_0_96, rfl⟩
  · exact ⟨_, List.mem_cons_self, inb_S8x128_S1x16_0_112, rfl⟩

theorem aread0 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![0, 0] S1x128.size inb_S8x128_S1x128_0_0) (fun _ => rfl)).squeeze S128 squeezes_S1x128_S128).view ((s2V).view.writes (Elt F) g (aL0 (F := F) L zf f0 f1)) x = aG L zf (rowIx 0 inb_S8x128_S1x128_0_0 x) :=
  aread_of L zf 0 inb_S8x128_S1x128_0_0 (aL0 L zf f0 f1) (aL0_agree d L zf f0 f1 hpre) (aL0_cover L zf f0 f1) g x

theorem hinA0 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![0, 0] S1x128.size inb_S8x128_S1x128_0_0) (fun _ => rfl)).squeeze S128 squeezes_S1x128_S128).view ((s2V).view.writes (Elt F) g (aL0 (F := F) L zf f0 f1)) x).toNat < 2097152 := by
  intro g x
  rw [aread0 d L zf f0 f1 hpre]
  exact aG_lt L zf hpre _

theorem aL1_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL1 (F := F) L zf f0 f1, ∀ x, p.2 x = aG L zf (p.1.emb x) := by
  unfold aL1
  exact (List.forall_mem_cons.2 ⟨aP_agree d L zf f0 f1 hpre 1 7 112 (by decide) (by decide) rfl 128#32 112#32 (by decide) (by decide) inb_S8x128_S1x16_1_112 (c1_row1 d L zf f0 f1), (List.forall_mem_cons.2 ⟨aP_agree d L zf f0 f1 hpre 1 6 96 (by decide) (by decide) rfl 128#32 96#32 (by decide) (by decide) inb_S8x128_S1x16_1_96 (c1_row1 d L zf f0 f1), (List.forall_mem_cons.2 ⟨aP_agree d L zf f0 f1 hpre 1 5 80 (by decide) (by decide) rfl 128#32 80#32 (by decide) (by decide) inb_S8x128_S1x16_1_80 (c1_row1 d L zf f0 f1), (List.forall_mem_cons.2 ⟨aP_agree d L zf f0 f1 hpre 1 4 64 (by decide) (by decide) rfl 128#32 64#32 (by decide) (by decide) inb_S8x128_S1x16_1_64 (c1_row1 d L zf f0 f1), (List.forall_mem_cons.2 ⟨aP_agree d L zf f0 f1 hpre 1 3 48 (by decide) (by decide) rfl 128#32 48#32 (by decide) (by decide) inb_S8x128_S1x16_1_48 (c1_row1 d L zf f0 f1), (List.forall_mem_cons.2 ⟨aP_agree d L zf f0 f1 hpre 1 2 32 (by decide) (by decide) rfl 128#32 32#32 (by decide) (by decide) inb_S8x128_S1x16_1_32 (c1_row1 d L zf f0 f1), (List.forall_mem_cons.2 ⟨aP_agree d L zf f0 f1 hpre 1 1 16 (by decide) (by decide) rfl 128#32 16#32 (by decide) (by decide) inb_S8x128_S1x16_1_16 (c1_row1 d L zf f0 f1), (List.forall_mem_cons.2 ⟨aP_agree d L zf f0 f1 hpre 1 0 0 (by decide) (by decide) rfl 128#32 0#32 (by decide) (by decide) inb_S8x128_S1x16_1_0 (c1_row1 d L zf f0 f1), (aL0_agree d L zf f0 f1 hpre)⟩)⟩)⟩)⟩)⟩)⟩)⟩)⟩)

theorem aL1_cover (L : grid0.Coords) (zf : (zV).view.ty.Contents (Elt F)) (f0 : (s0V).view.ty.Contents (Elt F)) (f1 : (s1V).view.ty.Contents (Elt F)) :
    ∀ v : Fin 8, ∃ p ∈ aL1 (F := F) L zf f0 f1, ∃ inb, p.1 = Rect.unit (s := S8x128) ![1, 16 * v.val] S1x16.size inb := by
  unfold aL1
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_1_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_1_16, rfl⟩
  · exact ⟨_, List.mem_cons_of_mem _ (List.mem_cons_of_mem _ (List.mem_cons_of_mem _ (List.mem_cons_of_mem _ (List.mem_cons_of_mem _ (List.mem_cons_self))))), inb_S8x128_S1x16_1_32, rfl⟩
  · exact ⟨_, List.mem_cons_of_mem _ (List.mem_cons_of_mem _ (List.mem_cons_of_mem _ (List.mem_cons_of_mem _ (List.mem_cons_self)))), inb_S8x128_S1x16_1_48, rfl⟩
  · exact ⟨_, List.mem_cons_of_mem _ (List.mem_cons_of_mem _ (List.mem_cons_of_mem _ (List.mem_cons_self))), inb_S8x128_S1x16_1_64, rfl⟩
  · exact ⟨_, List.mem_cons_of_mem _ (List.mem_cons_of_mem _ (List.mem_cons_self)), inb_S8x128_S1x16_1_80, rfl⟩
  · exact ⟨_, List.mem_cons_of_mem _ (List.mem_cons_self), inb_S8x128_S1x16_1_96, rfl⟩
  · exact ⟨_, List.mem_cons_self, inb_S8x128_S1x16_1_112, rfl⟩

theorem aread1 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![1, 0] S1x128.size inb_S8x128_S1x128_1_0) (fun _ => rfl)).squeeze S128 squeezes_S1x128_S128).view ((s2V).view.writes (Elt F) g (aL1 (F := F) L zf f0 f1)) x = aG L zf (rowIx 1 inb_S8x128_S1x128_1_0 x) :=
  aread_of L zf 1 inb_S8x128_S1x128_1_0 (aL1 L zf f0 f1) (aL1_agree d L zf f0 f1 hpre) (aL1_cover L zf f0 f1) g x

theorem hinA1 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![1, 0] S1x128.size inb_S8x128_S1x128_1_0) (fun _ => rfl)).squeeze S128 squeezes_S1x128_S128).view ((s2V).view.writes (Elt F) g (aL1 (F := F) L zf f0 f1)) x).toNat < 2097152 := by
  intro g x
  rw [aread1 d L zf f0 f1 hpre]
  exact aG_lt L zf hpre _

theorem aL2_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL2 (F := F) L zf f0 f1, ∀ x, p.2 x = aG L zf (p.1.emb x) := by
  unfold aL2
  exact (List.forall_mem_cons.2 ⟨aP_agree d L zf f0 f1 hpre 2 7 112 (by decide) (by decide) rfl 256#32 112#32 (by decide) (by decide) inb_S8x128_S1x16_2_112 (c1_row2 d L zf f0 f1), (List.forall_mem_cons.2 ⟨aP_agree d L zf f0 f1 hpre 2 6 96 (by decide) (by decide) rfl 256#32 96#32 (by decide) (by decide) inb_S8x128_S1x16_2_96 (c1_row2 d L zf f0 f1), (List.forall_mem_cons.2 ⟨aP_agree d L zf f0 f1 hpre 2 5 80 (by decide) (by decide) rfl 256#32 80#32 (by decide) (by decide) inb_S8x128_S1x16_2_80 (c1_row2 d L zf f0 f1), (List.forall_mem_cons.2 ⟨aP_agree d L zf f0 f1 hpre 2 4 64 (by decide) (by decide) rfl 256#32 64#32 (by decide) (by decide) inb_S8x128_S1x16_2_64 (c1_row2 d L zf f0 f1), (List.forall_mem_cons.2 ⟨aP_agree d L zf f0 f1 hpre 2 3 48 (by decide) (by decide) rfl 256#32 48#32 (by decide) (by decide) inb_S8x128_S1x16_2_48 (c1_row2 d L zf f0 f1), (List.forall_mem_cons.2 ⟨aP_agree d L zf f0 f1 hpre 2 2 32 (by decide) (by decide) rfl 256#32 32#32 (by decide) (by decide) inb_S8x128_S1x16_2_32 (c1_row2 d L zf f0 f1), (List.forall_mem_cons.2 ⟨aP_agree d L zf f0 f1 hpre 2 1 16 (by decide) (by decide) rfl 256#32 16#32 (by decide) (by decide) inb_S8x128_S1x16_2_16 (c1_row2 d L zf f0 f1), (List.forall_mem_cons.2 ⟨aP_agree d L zf f0 f1 hpre 2 0 0 (by decide) (by decide) rfl 256#32 0#32 (by decide) (by decide) inb_S8x128_S1x16_2_0 (c1_row2 d L zf f0 f1), (aL1_agree d L zf f0 f1 hpre)⟩)⟩)⟩)⟩)⟩)⟩)⟩)⟩)

theorem aL2_cover (L : grid0.Coords) (zf : (zV).view.ty.Contents (Elt F)) (f0 : (s0V).view.ty.Contents (Elt F)) (f1 : (s1V).view.ty.Contents (Elt F)) :
    ∀ v : Fin 8, ∃ p ∈ aL2 (F := F) L zf f0 f1, ∃ inb, p.1 = Rect.unit (s := S8x128) ![2, 16 * v.val] S1x16.size inb := by
  unfold aL2
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_2_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_2_16, rfl⟩
  · exact ⟨_, List.mem_cons_of_mem _ (List.mem_cons_of_mem _ (List.mem_cons_of_mem _ (List.mem_cons_of_mem _ (List.mem_cons_of_mem _ (List.mem_cons_self))))), inb_S8x128_S1x16_2_32, rfl⟩
  · exact ⟨_, List.mem_cons_of_mem _ (List.mem_cons_of_mem _ (List.mem_cons_of_mem _ (List.mem_cons_of_mem _ (List.mem_cons_self)))), inb_S8x128_S1x16_2_48, rfl⟩
  · exact ⟨_, List.mem_cons_of_mem _ (List.mem_cons_of_mem _ (List.mem_cons_of_mem _ (List.mem_cons_self))), inb_S8x128_S1x16_2_64, rfl⟩
  · exact ⟨_, List.mem_cons_of_mem _ (List.mem_cons_of_mem _ (List.mem_cons_self)), inb_S8x128_S1x16_2_80, rfl⟩
  · exact ⟨_, List.mem_cons_of_mem _ (List.mem_cons_self), inb_S8x128_S1x16_2_96, rfl⟩
  · exact ⟨_, List.mem_cons_self, inb_S8x128_S1x16_2_112, rfl⟩

theorem aread2 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![2, 0] S1x128.size inb_S8x128_S1x128_2_0) (fun _ => rfl)).squeeze S128 squeezes_S1x128_S128).view ((s2V).view.writes (Elt F) g (aL2 (F := F) L zf f0 f1)) x = aG L zf (rowIx 2 inb_S8x128_S1x128_2_0 x) :=
  aread_of L zf 2 inb_S8x128_S1x128_2_0 (aL2 L zf f0 f1) (aL2_agree d L zf f0 f1 hpre) (aL2_cover L zf f0 f1) g x

theorem hinA2 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![2, 0] S1x128.size inb_S8x128_S1x128_2_0) (fun _ => rfl)).squeeze S128 squeezes_S1x128_S128).view ((s2V).view.writes (Elt F) g (aL2 (F := F) L zf f0 f1)) x).toNat < 2097152 := by
  intro g x
  rw [aread2 d L zf f0 f1 hpre]
  exact aG_lt L zf hpre _

theorem aL3_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL3 (F := F) L zf f0 f1, ∀ x, p.2 x = aG L zf (p.1.emb x) := by
  unfold aL3
  exact (List.forall_mem_cons.2 ⟨aP_agree d L zf f0 f1 hpre 3 7 112 (by decide) (by decide) rfl 384#32 112#32 (by decide) (by decide) inb_S8x128_S1x16_3_112 (c1_row3 d L zf f0 f1), (List.forall_mem_cons.2 ⟨aP_agree d L zf f0 f1 hpre 3 6 96 (by decide) (by decide) rfl 384#32 96#32 (by decide) (by decide) inb_S8x128_S1x16_3_96 (c1_row3 d L zf f0 f1), (List.forall_mem_cons.2 ⟨aP_agree d L zf f0 f1 hpre 3 5 80 (by decide) (by decide) rfl 384#32 80#32 (by decide) (by decide) inb_S8x128_S1x16_3_80 (c1_row3 d L zf f0 f1), (List.forall_mem_cons.2 ⟨aP_agree d L zf f0 f1 hpre 3 4 64 (by decide) (by decide) rfl 384#32 64#32 (by decide) (by decide) inb_S8x128_S1x16_3_64 (c1_row3 d L zf f0 f1), (List.forall_mem_cons.2 ⟨aP_agree d L zf f0 f1 hpre 3 3 48 (by decide) (by decide) rfl 384#32 48#32 (by decide) (by decide) inb_S8x128_S1x16_3_48 (c1_row3 d L zf f0 f1), (List.forall_mem_cons.2 ⟨aP_agree d L zf f0 f1 hpre 3 2 32 (by decide) (by decide) rfl 384#32 32#32 (by decide) (by decide) inb_S8x128_S1x16_3_32 (c1_row3 d L zf f0 f1), (List.forall_mem_cons.2 ⟨aP_agree d L zf f0 f1 hpre 3 1 16 (by decide) (by decide) rfl 384#32 16#32 (by decide) (by decide) inb_S8x128_S1x16_3_16 (c1_row3 d L zf f0 f1), (List.forall_mem_cons.2 ⟨aP_agree d L zf f0 f1 hpre 3 0 0 (by decide) (by decide) rfl 384#32 0#32 (by decide) (by decide) inb_S8x128_S1x16_3_0 (c1_row3 d L zf f0 f1), (aL2_agree d L zf f0 f1 hpre)⟩)⟩)⟩)⟩)⟩)⟩)⟩)⟩)

theorem aL3_cover (L : grid0.Coords) (zf : (zV).view.ty.Contents (Elt F)) (f0 : (s0V).view.ty.Contents (Elt F)) (f1 : (s1V).view.ty.Contents (Elt F)) :
    ∀ v : Fin 8, ∃ p ∈ aL3 (F := F) L zf f0 f1, ∃ inb, p.1 = Rect.unit (s := S8x128) ![3, 16 * v.val] S1x16.size inb := by
  unfold aL3
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_3_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_3_16, rfl⟩
  · exact ⟨_, List.mem_cons_of_mem _ (List.mem_cons_of_mem _ (List.mem_cons_of_mem _ (List.mem_cons_of_mem _ (List.mem_cons_of_mem _ (List.mem_cons_self))))), inb_S8x128_S1x16_3_32, rfl⟩
  · exact ⟨_, List.mem_cons_of_mem _ (List.mem_cons_of_mem _ (List.mem_cons_of_mem _ (List.mem_cons_of_mem _ (List.mem_cons_self)))), inb_S8x128_S1x16_3_48, rfl⟩
  · exact ⟨_, List.mem_cons_of_mem _ (List.mem_cons_of_mem _ (List.mem_cons_of_mem _ (List.mem_cons_self))), inb_S8x128_S1x16_3_64, rfl⟩
  · exact ⟨_, List.mem_cons_of_mem _ (List.mem_cons_of_mem _ (List.mem_cons_self)), inb_S8x128_S1x16_3_80, rfl⟩
  · exact ⟨_, List.mem_cons_of_mem _ (List.mem_cons_self), inb_S8x128_S1x16_3_96, rfl⟩
  · exact ⟨_, List.mem_cons_self, inb_S8x128_S1x16_3_112, rfl⟩

theorem aread3 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![3, 0] S1x128.size inb_S8x128_S1x128_3_0) (fun _ => rfl)).squeeze S128 squeezes_S1x128_S128).view ((s2V).view.writes (Elt F) g (aL3 (F := F) L zf f0 f1)) x = aG L zf (rowIx 3 inb_S8x128_S1x128_3_0 x) :=
  aread_of L zf 3 inb_S8x128_S1x128_3_0 (aL3 L zf f0 f1) (aL3_agree d L zf f0 f1 hpre) (aL3_cover L zf f0 f1) g x

theorem hinA3 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![3, 0] S1x128.size inb_S8x128_S1x128_3_0) (fun _ => rfl)).squeeze S128 squeezes_S1x128_S128).view ((s2V).view.writes (Elt F) g (aL3 (F := F) L zf f0 f1)) x).toNat < 2097152 := by
  intro g x
  rw [aread3 d L zf f0 f1 hpre]
  exact aG_lt L zf hpre _

theorem aL4_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL4 (F := F) L zf f0 f1, ∀ x, p.2 x = aG L zf (p.1.emb x) := by
  unfold aL4
  exact (List.forall_mem_cons.2 ⟨aP_agree d L zf f0 f1 hpre 4 7 112 (by decide) (by decide) rfl 512#32 112#32 (by decide) (by decide) inb_S8x128_S1x16_4_112 (c1_row4 d L zf f0 f1), (List.forall_mem_cons.2 ⟨aP_agree d L zf f0 f1 hpre 4 6 96 (by decide) (by decide) rfl 512#32 96#32 (by decide) (by decide) inb_S8x128_S1x16_4_96 (c1_row4 d L zf f0 f1), (List.forall_mem_cons.2 ⟨aP_agree d L zf f0 f1 hpre 4 5 80 (by decide) (by decide) rfl 512#32 80#32 (by decide) (by decide) inb_S8x128_S1x16_4_80 (c1_row4 d L zf f0 f1), (List.forall_mem_cons.2 ⟨aP_agree d L zf f0 f1 hpre 4 4 64 (by decide) (by decide) rfl 512#32 64#32 (by decide) (by decide) inb_S8x128_S1x16_4_64 (c1_row4 d L zf f0 f1), (List.forall_mem_cons.2 ⟨aP_agree d L zf f0 f1 hpre 4 3 48 (by decide) (by decide) rfl 512#32 48#32 (by decide) (by decide) inb_S8x128_S1x16_4_48 (c1_row4 d L zf f0 f1), (List.forall_mem_cons.2 ⟨aP_agree d L zf f0 f1 hpre 4 2 32 (by decide) (by decide) rfl 512#32 32#32 (by decide) (by decide) inb_S8x128_S1x16_4_32 (c1_row4 d L zf f0 f1), (List.forall_mem_cons.2 ⟨aP_agree d L zf f0 f1 hpre 4 1 16 (by decide) (by decide) rfl 512#32 16#32 (by decide) (by decide) inb_S8x128_S1x16_4_16 (c1_row4 d L zf f0 f1), (List.forall_mem_cons.2 ⟨aP_agree d L zf f0 f1 hpre 4 0 0 (by decide) (by decide) rfl 512#32 0#32 (by decide) (by decide) inb_S8x128_S1x16_4_0 (c1_row4 d L zf f0 f1), (aL3_agree d L zf f0 f1 hpre)⟩)⟩)⟩)⟩)⟩)⟩)⟩)⟩)

theorem aL4_cover (L : grid0.Coords) (zf : (zV).view.ty.Contents (Elt F)) (f0 : (s0V).view.ty.Contents (Elt F)) (f1 : (s1V).view.ty.Contents (Elt F)) :
    ∀ v : Fin 8, ∃ p ∈ aL4 (F := F) L zf f0 f1, ∃ inb, p.1 = Rect.unit (s := S8x128) ![4, 16 * v.val] S1x16.size inb := by
  unfold aL4
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_4_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_4_16, rfl⟩
  · exact ⟨_, List.mem_cons_of_mem _ (List.mem_cons_of_mem _ (List.mem_cons_of_mem _ (List.mem_cons_of_mem _ (List.mem_cons_of_mem _ (List.mem_cons_self))))), inb_S8x128_S1x16_4_32, rfl⟩
  · exact ⟨_, List.mem_cons_of_mem _ (List.mem_cons_of_mem _ (List.mem_cons_of_mem _ (List.mem_cons_of_mem _ (List.mem_cons_self)))), inb_S8x128_S1x16_4_48, rfl⟩
  · exact ⟨_, List.mem_cons_of_mem _ (List.mem_cons_of_mem _ (List.mem_cons_of_mem _ (List.mem_cons_self))), inb_S8x128_S1x16_4_64, rfl⟩
  · exact ⟨_, List.mem_cons_of_mem _ (List.mem_cons_of_mem _ (List.mem_cons_self)), inb_S8x128_S1x16_4_80, rfl⟩
  · exact ⟨_, List.mem_cons_of_mem _ (List.mem_cons_self), inb_S8x128_S1x16_4_96, rfl⟩
  · exact ⟨_, List.mem_cons_self, inb_S8x128_S1x16_4_112, rfl⟩

theorem aread4 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![4, 0] S1x128.size inb_S8x128_S1x128_4_0) (fun _ => rfl)).squeeze S128 squeezes_S1x128_S128).view ((s2V).view.writes (Elt F) g (aL4 (F := F) L zf f0 f1)) x = aG L zf (rowIx 4 inb_S8x128_S1x128_4_0 x) :=
  aread_of L zf 4 inb_S8x128_S1x128_4_0 (aL4 L zf f0 f1) (aL4_agree d L zf f0 f1 hpre) (aL4_cover L zf f0 f1) g x

theorem hinA4 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![4, 0] S1x128.size inb_S8x128_S1x128_4_0) (fun _ => rfl)).squeeze S128 squeezes_S1x128_S128).view ((s2V).view.writes (Elt F) g (aL4 (F := F) L zf f0 f1)) x).toNat < 2097152 := by
  intro g x
  rw [aread4 d L zf f0 f1 hpre]
  exact aG_lt L zf hpre _

theorem aL5_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL5 (F := F) L zf f0 f1, ∀ x, p.2 x = aG L zf (p.1.emb x) := by
  unfold aL5
  exact (List.forall_mem_cons.2 ⟨aP_agree d L zf f0 f1 hpre 5 7 112 (by decide) (by decide) rfl 640#32 112#32 (by decide) (by decide) inb_S8x128_S1x16_5_112 (c1_row5 d L zf f0 f1), (List.forall_mem_cons.2 ⟨aP_agree d L zf f0 f1 hpre 5 6 96 (by decide) (by decide) rfl 640#32 96#32 (by decide) (by decide) inb_S8x128_S1x16_5_96 (c1_row5 d L zf f0 f1), (List.forall_mem_cons.2 ⟨aP_agree d L zf f0 f1 hpre 5 5 80 (by decide) (by decide) rfl 640#32 80#32 (by decide) (by decide) inb_S8x128_S1x16_5_80 (c1_row5 d L zf f0 f1), (List.forall_mem_cons.2 ⟨aP_agree d L zf f0 f1 hpre 5 4 64 (by decide) (by decide) rfl 640#32 64#32 (by decide) (by decide) inb_S8x128_S1x16_5_64 (c1_row5 d L zf f0 f1), (List.forall_mem_cons.2 ⟨aP_agree d L zf f0 f1 hpre 5 3 48 (by decide) (by decide) rfl 640#32 48#32 (by decide) (by decide) inb_S8x128_S1x16_5_48 (c1_row5 d L zf f0 f1), (List.forall_mem_cons.2 ⟨aP_agree d L zf f0 f1 hpre 5 2 32 (by decide) (by decide) rfl 640#32 32#32 (by decide) (by decide) inb_S8x128_S1x16_5_32 (c1_row5 d L zf f0 f1), (List.forall_mem_cons.2 ⟨aP_agree d L zf f0 f1 hpre 5 1 16 (by decide) (by decide) rfl 640#32 16#32 (by decide) (by decide) inb_S8x128_S1x16_5_16 (c1_row5 d L zf f0 f1), (List.forall_mem_cons.2 ⟨aP_agree d L zf f0 f1 hpre 5 0 0 (by decide) (by decide) rfl 640#32 0#32 (by decide) (by decide) inb_S8x128_S1x16_5_0 (c1_row5 d L zf f0 f1), (aL4_agree d L zf f0 f1 hpre)⟩)⟩)⟩)⟩)⟩)⟩)⟩)⟩)

theorem aL5_cover (L : grid0.Coords) (zf : (zV).view.ty.Contents (Elt F)) (f0 : (s0V).view.ty.Contents (Elt F)) (f1 : (s1V).view.ty.Contents (Elt F)) :
    ∀ v : Fin 8, ∃ p ∈ aL5 (F := F) L zf f0 f1, ∃ inb, p.1 = Rect.unit (s := S8x128) ![5, 16 * v.val] S1x16.size inb := by
  unfold aL5
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_5_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_5_16, rfl⟩
  · exact ⟨_, List.mem_cons_of_mem _ (List.mem_cons_of_mem _ (List.mem_cons_of_mem _ (List.mem_cons_of_mem _ (List.mem_cons_of_mem _ (List.mem_cons_self))))), inb_S8x128_S1x16_5_32, rfl⟩
  · exact ⟨_, List.mem_cons_of_mem _ (List.mem_cons_of_mem _ (List.mem_cons_of_mem _ (List.mem_cons_of_mem _ (List.mem_cons_self)))), inb_S8x128_S1x16_5_48, rfl⟩
  · exact ⟨_, List.mem_cons_of_mem _ (List.mem_cons_of_mem _ (List.mem_cons_of_mem _ (List.mem_cons_self))), inb_S8x128_S1x16_5_64, rfl⟩
  · exact ⟨_, List.mem_cons_of_mem _ (List.mem_cons_of_mem _ (List.mem_cons_self)), inb_S8x128_S1x16_5_80, rfl⟩
  · exact ⟨_, List.mem_cons_of_mem _ (List.mem_cons_self), inb_S8x128_S1x16_5_96, rfl⟩
  · exact ⟨_, List.mem_cons_self, inb_S8x128_S1x16_5_112, rfl⟩

theorem aread5 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![5, 0] S1x128.size inb_S8x128_S1x128_5_0) (fun _ => rfl)).squeeze S128 squeezes_S1x128_S128).view ((s2V).view.writes (Elt F) g (aL5 (F := F) L zf f0 f1)) x = aG L zf (rowIx 5 inb_S8x128_S1x128_5_0 x) :=
  aread_of L zf 5 inb_S8x128_S1x128_5_0 (aL5 L zf f0 f1) (aL5_agree d L zf f0 f1 hpre) (aL5_cover L zf f0 f1) g x

theorem hinA5 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![5, 0] S1x128.size inb_S8x128_S1x128_5_0) (fun _ => rfl)).squeeze S128 squeezes_S1x128_S128).view ((s2V).view.writes (Elt F) g (aL5 (F := F) L zf f0 f1)) x).toNat < 2097152 := by
  intro g x
  rw [aread5 d L zf f0 f1 hpre]
  exact aG_lt L zf hpre _

theorem aL6_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL6 (F := F) L zf f0 f1, ∀ x, p.2 x = aG L zf (p.1.emb x) := by
  unfold aL6
  exact (List.forall_mem_cons.2 ⟨aP_agree d L zf f0 f1 hpre 6 7 112 (by decide) (by decide) rfl 768#32 112#32 (by decide) (by decide) inb_S8x128_S1x16_6_112 (c1_row6 d L zf f0 f1), (List.forall_mem_cons.2 ⟨aP_agree d L zf f0 f1 hpre 6 6 96 (by decide) (by decide) rfl 768#32 96#32 (by decide) (by decide) inb_S8x128_S1x16_6_96 (c1_row6 d L zf f0 f1), (List.forall_mem_cons.2 ⟨aP_agree d L zf f0 f1 hpre 6 5 80 (by decide) (by decide) rfl 768#32 80#32 (by decide) (by decide) inb_S8x128_S1x16_6_80 (c1_row6 d L zf f0 f1), (List.forall_mem_cons.2 ⟨aP_agree d L zf f0 f1 hpre 6 4 64 (by decide) (by decide) rfl 768#32 64#32 (by decide) (by decide) inb_S8x128_S1x16_6_64 (c1_row6 d L zf f0 f1), (List.forall_mem_cons.2 ⟨aP_agree d L zf f0 f1 hpre 6 3 48 (by decide) (by decide) rfl 768#32 48#32 (by decide) (by decide) inb_S8x128_S1x16_6_48 (c1_row6 d L zf f0 f1), (List.forall_mem_cons.2 ⟨aP_agree d L zf f0 f1 hpre 6 2 32 (by decide) (by decide) rfl 768#32 32#32 (by decide) (by decide) inb_S8x128_S1x16_6_32 (c1_row6 d L zf f0 f1), (List.forall_mem_cons.2 ⟨aP_agree d L zf f0 f1 hpre 6 1 16 (by decide) (by decide) rfl 768#32 16#32 (by decide) (by decide) inb_S8x128_S1x16_6_16 (c1_row6 d L zf f0 f1), (List.forall_mem_cons.2 ⟨aP_agree d L zf f0 f1 hpre 6 0 0 (by decide) (by decide) rfl 768#32 0#32 (by decide) (by decide) inb_S8x128_S1x16_6_0 (c1_row6 d L zf f0 f1), (aL5_agree d L zf f0 f1 hpre)⟩)⟩)⟩)⟩)⟩)⟩)⟩)⟩)

theorem aL6_cover (L : grid0.Coords) (zf : (zV).view.ty.Contents (Elt F)) (f0 : (s0V).view.ty.Contents (Elt F)) (f1 : (s1V).view.ty.Contents (Elt F)) :
    ∀ v : Fin 8, ∃ p ∈ aL6 (F := F) L zf f0 f1, ∃ inb, p.1 = Rect.unit (s := S8x128) ![6, 16 * v.val] S1x16.size inb := by
  unfold aL6
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_6_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_6_16, rfl⟩
  · exact ⟨_, List.mem_cons_of_mem _ (List.mem_cons_of_mem _ (List.mem_cons_of_mem _ (List.mem_cons_of_mem _ (List.mem_cons_of_mem _ (List.mem_cons_self))))), inb_S8x128_S1x16_6_32, rfl⟩
  · exact ⟨_, List.mem_cons_of_mem _ (List.mem_cons_of_mem _ (List.mem_cons_of_mem _ (List.mem_cons_of_mem _ (List.mem_cons_self)))), inb_S8x128_S1x16_6_48, rfl⟩
  · exact ⟨_, List.mem_cons_of_mem _ (List.mem_cons_of_mem _ (List.mem_cons_of_mem _ (List.mem_cons_self))), inb_S8x128_S1x16_6_64, rfl⟩
  · exact ⟨_, List.mem_cons_of_mem _ (List.mem_cons_of_mem _ (List.mem_cons_self)), inb_S8x128_S1x16_6_80, rfl⟩
  · exact ⟨_, List.mem_cons_of_mem _ (List.mem_cons_self), inb_S8x128_S1x16_6_96, rfl⟩
  · exact ⟨_, List.mem_cons_self, inb_S8x128_S1x16_6_112, rfl⟩

theorem aread6 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![6, 0] S1x128.size inb_S8x128_S1x128_6_0) (fun _ => rfl)).squeeze S128 squeezes_S1x128_S128).view ((s2V).view.writes (Elt F) g (aL6 (F := F) L zf f0 f1)) x = aG L zf (rowIx 6 inb_S8x128_S1x128_6_0 x) :=
  aread_of L zf 6 inb_S8x128_S1x128_6_0 (aL6 L zf f0 f1) (aL6_agree d L zf f0 f1 hpre) (aL6_cover L zf f0 f1) g x

theorem hinA6 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![6, 0] S1x128.size inb_S8x128_S1x128_6_0) (fun _ => rfl)).squeeze S128 squeezes_S1x128_S128).view ((s2V).view.writes (Elt F) g (aL6 (F := F) L zf f0 f1)) x).toNat < 2097152 := by
  intro g x
  rw [aread6 d L zf f0 f1 hpre]
  exact aG_lt L zf hpre _

theorem aL7_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL7 (F := F) L zf f0 f1, ∀ x, p.2 x = aG L zf (p.1.emb x) := by
  unfold aL7
  exact (List.forall_mem_cons.2 ⟨aP_agree d L zf f0 f1 hpre 7 7 112 (by decide) (by decide) rfl 896#32 112#32 (by decide) (by decide) inb_S8x128_S1x16_7_112 (c1_row7 d L zf f0 f1), (List.forall_mem_cons.2 ⟨aP_agree d L zf f0 f1 hpre 7 6 96 (by decide) (by decide) rfl 896#32 96#32 (by decide) (by decide) inb_S8x128_S1x16_7_96 (c1_row7 d L zf f0 f1), (List.forall_mem_cons.2 ⟨aP_agree d L zf f0 f1 hpre 7 5 80 (by decide) (by decide) rfl 896#32 80#32 (by decide) (by decide) inb_S8x128_S1x16_7_80 (c1_row7 d L zf f0 f1), (List.forall_mem_cons.2 ⟨aP_agree d L zf f0 f1 hpre 7 4 64 (by decide) (by decide) rfl 896#32 64#32 (by decide) (by decide) inb_S8x128_S1x16_7_64 (c1_row7 d L zf f0 f1), (List.forall_mem_cons.2 ⟨aP_agree d L zf f0 f1 hpre 7 3 48 (by decide) (by decide) rfl 896#32 48#32 (by decide) (by decide) inb_S8x128_S1x16_7_48 (c1_row7 d L zf f0 f1), (List.forall_mem_cons.2 ⟨aP_agree d L zf f0 f1 hpre 7 2 32 (by decide) (by decide) rfl 896#32 32#32 (by decide) (by decide) inb_S8x128_S1x16_7_32 (c1_row7 d L zf f0 f1), (List.forall_mem_cons.2 ⟨aP_agree d L zf f0 f1 hpre 7 1 16 (by decide) (by decide) rfl 896#32 16#32 (by decide) (by decide) inb_S8x128_S1x16_7_16 (c1_row7 d L zf f0 f1), (List.forall_mem_cons.2 ⟨aP_agree d L zf f0 f1 hpre 7 0 0 (by decide) (by decide) rfl 896#32 0#32 (by decide) (by decide) inb_S8x128_S1x16_7_0 (c1_row7 d L zf f0 f1), (aL6_agree d L zf f0 f1 hpre)⟩)⟩)⟩)⟩)⟩)⟩)⟩)⟩)

theorem aL7_cover (L : grid0.Coords) (zf : (zV).view.ty.Contents (Elt F)) (f0 : (s0V).view.ty.Contents (Elt F)) (f1 : (s1V).view.ty.Contents (Elt F)) :
    ∀ v : Fin 8, ∃ p ∈ aL7 (F := F) L zf f0 f1, ∃ inb, p.1 = Rect.unit (s := S8x128) ![7, 16 * v.val] S1x16.size inb := by
  unfold aL7
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_7_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_7_16, rfl⟩
  · exact ⟨_, List.mem_cons_of_mem _ (List.mem_cons_of_mem _ (List.mem_cons_of_mem _ (List.mem_cons_of_mem _ (List.mem_cons_of_mem _ (List.mem_cons_self))))), inb_S8x128_S1x16_7_32, rfl⟩
  · exact ⟨_, List.mem_cons_of_mem _ (List.mem_cons_of_mem _ (List.mem_cons_of_mem _ (List.mem_cons_of_mem _ (List.mem_cons_self)))), inb_S8x128_S1x16_7_48, rfl⟩
  · exact ⟨_, List.mem_cons_of_mem _ (List.mem_cons_of_mem _ (List.mem_cons_of_mem _ (List.mem_cons_self))), inb_S8x128_S1x16_7_64, rfl⟩
  · exact ⟨_, List.mem_cons_of_mem _ (List.mem_cons_of_mem _ (List.mem_cons_self)), inb_S8x128_S1x16_7_80, rfl⟩
  · exact ⟨_, List.mem_cons_of_mem _ (List.mem_cons_self), inb_S8x128_S1x16_7_96, rfl⟩
  · exact ⟨_, List.mem_cons_self, inb_S8x128_S1x16_7_112, rfl⟩

theorem aread7 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![7, 0] S1x128.size inb_S8x128_S1x128_7_0) (fun _ => rfl)).squeeze S128 squeezes_S1x128_S128).view ((s2V).view.writes (Elt F) g (aL7 (F := F) L zf f0 f1)) x = aG L zf (rowIx 7 inb_S8x128_S1x128_7_0 x) :=
  aread_of L zf 7 inb_S8x128_S1x128_7_0 (aL7 L zf f0 f1) (aL7_agree d L zf f0 f1 hpre) (aL7_cover L zf f0 f1) g x

theorem hinA7 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![7, 0] S1x128.size inb_S8x128_S1x128_7_0) (fun _ => rfl)).squeeze S128 squeezes_S1x128_S128).view ((s2V).view.writes (Elt F) g (aL7 (F := F) L zf f0 f1)) x).toNat < 2097152 := by
  intro g x
  rw [aread7 d L zf f0 f1 hpre]
  exact aG_lt L zf hpre _

end Cert.KI

end
-- ==== Proof.BodyS.lean ====
/-
  Phase three of a task, as data. The gather through row `r` of the third scratch buffer delivers, at entry `c` of row
  `r` of the fourth, flat `a` at the position listed: the selected entry of result row `1024 w + 128 r + c`. The task then
  scales the fourth buffer sixteen lanes at a time; what reading it back gives, row by row, is stated here for any
  contents the scaling stores were made over.
-/
import proofs.«207294_g27419071217675_cont_9to1_1737_29_alg».proof.Proof.BodyA

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the gathers out of flat `a` deliver -/

/-- Flat `a` as the gathers read it. -/
def asrc {d : Dev nD} (af : Buf (Elt F) (aLoc d)) : S2097152.Idx → Elt F .f32 :=
  View.read (Elt F) ((aV).slice (Rect.unit (s := S2097152) ![0] S2097152.size inb_S2097152_S2097152_0) (fun _ => rfl)).view af

/-- What the gather through row 0 of the third scratch buffer delivers. -/
def ga0 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![0, 0] S1x128.size inb_S8x128_S1x128_0_0) (fun _ => rfl)).squeeze S128 squeezes_S1x128_S128).view ((s2V).view.writes (Elt F) f2 (aL0 L zf f0 f1))) rfl (hinA0 d L zf f0 f1 hpre f2))

/-- What the gather through row 1 of the third scratch buffer delivers. -/
def ga1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![1, 0] S1x128.size inb_S8x128_S1x128_1_0) (fun _ => rfl)).squeeze S128 squeezes_S1x128_S128).view ((s2V).view.writes (Elt F) f2 (aL1 L zf f0 f1))) rfl (hinA1 d L zf f0 f1 hpre f2))

/-- What the gather through row 2 of the third scratch buffer delivers. -/
def ga2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![2, 0] S1x128.size inb_S8x128_S1x128_2_0) (fun _ => rfl)).squeeze S128 squeezes_S1x128_S128).view ((s2V).view.writes (Elt F) f2 (aL2 L zf f0 f1))) rfl (hinA2 d L zf f0 f1 hpre f2))

/-- What the gather through row 3 of the third scratch buffer delivers. -/
def ga3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![3, 0] S1x128.size inb_S8x128_S1x128_3_0) (fun _ => rfl)).squeeze S128 squeezes_S1x128_S128).view ((s2V).view.writes (Elt F) f2 (aL3 L zf f0 f1))) rfl (hinA3 d L zf f0 f1 hpre f2))

/-- What the gather through row 4 of the third scratch buffer delivers. -/
def ga4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![4, 0] S1x128.size inb_S8x128_S1x128_4_0) (fun _ => rfl)).squeeze S128 squeezes_S1x128_S128).view ((s2V).view.writes (Elt F) f2 (aL4 L zf f0 f1))) rfl (hinA4 d L zf f0 f1 hpre f2))

/-- What the gather through row 5 of the third scratch buffer delivers. -/
def ga5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![5, 0] S1x128.size inb_S8x128_S1x128_5_0) (fun _ => rfl)).squeeze S128 squeezes_S1x128_S128).view ((s2V).view.writes (Elt F) f2 (aL5 L zf f0 f1))) rfl (hinA5 d L zf f0 f1 hpre f2))

/-- What the gather through row 6 of the third scratch buffer delivers. -/
def ga6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![6, 0] S1x128.size inb_S8x128_S1x128_6_0) (fun _ => rfl)).squeeze S128 squeezes_S1x128_S128).view ((s2V).view.writes (Elt F) f2 (aL6 L zf f0 f1))) rfl (hinA6 d L zf f0 f1 hpre f2))

/-- What the gather through row 7 of the third scratch buffer delivers. -/
def ga7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![7, 0] S1x128.size inb_S8x128_S1x128_7_0) (fun _ => rfl)).squeeze S128 squeezes_S1x128_S128).view ((s2V).view.writes (Elt F) f2 (aL7 L zf f0 f1))) rfl (hinA7 d L zf f0 f1 hpre f2))

/-- The fourth scratch buffer once the eight gathers out of flat `a` are issued: row `r` written with gather `r`'s delivery. -/
def c3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![7, 0] S1x128.size inb_S8x128_S1x128_7_0) (fun _ => rfl)).squeeze S128 squeezes_S1x128_S128).view (View.write (Elt F) (((s3V).slice (Rect.unit (s := S8x128) ![6, 0] S1x128.size inb_S8x128_S1x128_6_0) (fun _ => rfl)).squeeze S128 squeezes_S1x128_S128).view (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ) (ga6 d L zf af f0 f1 f2 hpre) Finset.univ) (ga7 d L zf af f0 f1 f2 hpre) Finset.univ)

theorem aPos_row_eq (L : grid0.Coords) (zf : FVec F Cert.Spec.SZf .f32) (y' y : S8x128.Idx) (h0 : (y' 0).val = (y 0).val) (h1 : (y' 1).val = (y 1).val) :
    (Cert.Spec.aPos zf (rowF L y')).val = (Cert.Spec.aPos zf (rowF L y)).val := by
  have e : rowF L y' = rowF L y := Fin.ext (by show rowN L y' = rowN L y; unfold rowN; rw [h0, h1])
  rw [e]

theorem c3_read0 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 0) :
    View.read (Elt F) (s3V).view (c3 d L zf af f0 f1 f2 f3 hpre) y = ga0 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_neg (by omega),
    rowWrite3_read, if_neg (by omega),
    rowWrite3_read, if_neg (by omega),
    rowWrite3_read, if_pos hy]

theorem ga0_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 0) :
    ga0 d L zf af f0 f1 f2 hpre (ValueIdx.ix1 (⟨(y 1).val, ValueIdx.idx2_lt1 y⟩ : Fin 128)) = af (ValueIdx.ix1 (Cert.Spec.aPos zf (rowF L y))) := by
  unfold ga0 asrc
  rw [gatherA_apply d af _ rfl (hinA0 d L zf f0 f1 hpre f2)]
  refine congrArg af (congrArg ValueIdx.ix1 (Fin.ext ?_))
  have e := aread0 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row0 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 0) :
    View.read (Elt F) (s3V).view (c3 d L zf af f0 f1 f2 f3 hpre) y = af (ValueIdx.ix1 (Cert.Spec.aPos zf (rowF L y))) :=
  (c3_read0 d L zf af f0 f1 f2 f3 hpre y hy).trans (ga0_at d L zf af f0 f1 f2 hpre y hy)

theorem c3_read1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 1) :
    View.read (Elt F) (s3V).view (c3 d L zf af f0 f1 f2 f3 hpre) y = ga1 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_neg (by omega),
    rowWrite3_read, if_neg (by omega),
    rowWrite3_read, if_pos hy]

theorem ga1_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 1) :
    ga1 d L zf af f0 f1 f2 hpre (ValueIdx.ix1 (⟨(y 1).val, ValueIdx.idx2_lt1 y⟩ : Fin 128)) = af (ValueIdx.ix1 (Cert.Spec.aPos zf (rowF L y))) := by
  unfold ga1 asrc
  rw [gatherA_apply d af _ rfl (hinA1 d L zf f0 f1 hpre f2)]
  refine congrArg af (congrArg ValueIdx.ix1 (Fin.ext ?_))
  have e := aread1 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 1) :
    View.read (Elt F) (s3V).view (c3 d L zf af f0 f1 f2 f3 hpre) y = af (ValueIdx.ix1 (Cert.Spec.aPos zf (rowF L y))) :=
  (c3_read1 d L zf af f0 f1 f2 f3 hpre y hy).trans (ga1_at d L zf af f0 f1 f2 hpre y hy)

theorem c3_read2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 2) :
    View.read (Elt F) (s3V).view (c3 d L zf af f0 f1 f2 f3 hpre) y = ga2 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_neg (by omega),
    rowWrite3_read, if_pos hy]

theorem ga2_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 2) :
    ga2 d L zf af f0 f1 f2 hpre (ValueIdx.ix1 (⟨(y 1).val, ValueIdx.idx2_lt1 y⟩ : Fin 128)) = af (ValueIdx.ix1 (Cert.Spec.aPos zf (rowF L y))) := by
  unfold ga2 asrc
  rw [gatherA_apply d af _ rfl (hinA2 d L zf f0 f1 hpre f2)]
  refine congrArg af (congrArg ValueIdx.ix1 (Fin.ext ?_))
  have e := aread2 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 2) :
    View.read (Elt F) (s3V).view (c3 d L zf af f0 f1 f2 f3 hpre) y = af (ValueIdx.ix1 (Cert.Spec.aPos zf (rowF L y))) :=
  (c3_read2 d L zf af f0 f1 f2 f3 hpre y hy).trans (ga2_at d L zf af f0 f1 f2 hpre y hy)

theorem c3_read3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 3) :
    View.read (Elt F) (s3V).view (c3 d L zf af f0 f1 f2 f3 hpre) y = ga3 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_pos hy]

theorem ga3_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 3) :
    ga3 d L zf af f0 f1 f2 hpre (ValueIdx.ix1 (⟨(y 1).val, ValueIdx.idx2_lt1 y⟩ : Fin 128)) = af (ValueIdx.ix1 (Cert.Spec.aPos zf (rowF L y))) := by
  unfold ga3 asrc
  rw [gatherA_apply d af _ rfl (hinA3 d L zf f0 f1 hpre f2)]
  refine congrArg af (congrArg ValueIdx.ix1 (Fin.ext ?_))
  have e := aread3 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 3) :
    View.read (Elt F) (s3V).view (c3 d L zf af f0 f1 f2 f3 hpre) y = af (ValueIdx.ix1 (Cert.Spec.aPos zf (rowF L y))) :=
  (c3_read3 d L zf af f0 f1 f2 f3 hpre y hy).trans (ga3_at d L zf af f0 f1 f2 hpre y hy)

theorem c3_read4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 4) :
    View.read (Elt F) (s3V).view (c3 d L zf af f0 f1 f2 f3 hpre) y = ga4 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_pos hy]

theorem ga4_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 4) :
    ga4 d L zf af f0 f1 f2 hpre (ValueIdx.ix1 (⟨(y 1).val, ValueIdx.idx2_lt1 y⟩ : Fin 128)) = af (ValueIdx.ix1 (Cert.Spec.aPos zf (rowF L y))) := by
  unfold ga4 asrc
  rw [gatherA_apply d af _ rfl (hinA4 d L zf f0 f1 hpre f2)]
  refine congrArg af (congrArg ValueIdx.ix1 (Fin.ext ?_))
  have e := aread4 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 4) :
    View.read (Elt F) (s3V).view (c3 d L zf af f0 f1 f2 f3 hpre) y = af (ValueIdx.ix1 (Cert.Spec.aPos zf (rowF L y))) :=
  (c3_read4 d L zf af f0 f1 f2 f3 hpre y hy).trans (ga4_at d L zf af f0 f1 f2 hpre y hy)

theorem c3_read5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 5) :
    View.read (Elt F) (s3V).view (c3 d L zf af f0 f1 f2 f3 hpre) y = ga5 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_pos hy]

theorem ga5_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 5) :
    ga5 d L zf af f0 f1 f2 hpre (ValueIdx.ix1 (⟨(y 1).val, ValueIdx.idx2_lt1 y⟩ : Fin 128)) = af (ValueIdx.ix1 (Cert.Spec.aPos zf (rowF L y))) := by
  unfold ga5 asrc
  rw [gatherA_apply d af _ rfl (hinA5 d L zf f0 f1 hpre f2)]
  refine congrArg af (congrArg ValueIdx.ix1 (Fin.ext ?_))
  have e := aread5 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 5) :
    View.read (Elt F) (s3V).view (c3 d L zf af f0 f1 f2 f3 hpre) y = af (ValueIdx.ix1 (Cert.Spec.aPos zf (rowF L y))) :=
  (c3_read5 d L zf af f0 f1 f2 f3 hpre y hy).trans (ga5_at d L zf af f0 f1 f2 hpre y hy)

theorem c3_read6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 6) :
    View.read (Elt F) (s3V).view (c3 d L zf af f0 f1 f2 f3 hpre) y = ga6 d L zf af f0 f1 f2 hpre (ValueIdx.ix1 (⟨(y 1).val, ValueIdx.idx2_lt1 y⟩ : Fin 128)) := by
  unfold c3
  rw [rowWrite3_read, if_neg (by omega),
    rowWrite3_read, if_pos hy]

theorem ga6_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 6) :
    ga6 d L zf af f0 f1 f2 hpre (ValueIdx.ix1 (⟨(y 1).val, ValueIdx.idx2_lt1 y⟩ : Fin 128)) = af (ValueIdx.ix1 (Cert.Spec.aPos zf (rowF L y))) := by
  unfold ga6 asrc
  rw [gatherA_apply d af _ rfl (hinA6 d L zf f0 f1 hpre f2)]
  refine congrArg af (congrArg ValueIdx.ix1 (Fin.ext ?_))
  have e := aread6 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 6) :
    View.read (Elt F) (s3V).view (c3 d L zf af f0 f1 f2 f3 hpre) y = af (ValueIdx.ix1 (Cert.Spec.aPos zf (rowF L y))) :=
  (c3_read6 d L zf af f0 f1 f2 f3 hpre y hy).trans (ga6_at d L zf af f0 f1 f2 hpre y hy)

theorem c3_read7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 7) :
    View.read (Elt F) (s3V).view (c3 d L zf af f0 f1 f2 f3 hpre) y = ga7 d L zf af f0 f1 f2 hpre (ValueIdx.ix1 (⟨(y 1).val, ValueIdx.idx2_lt1 y⟩ : Fin 128)) := by
  unfold c3
  rw [rowWrite3_read, if_pos hy]

theorem ga7_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 7) :
    ga7 d L zf af f0 f1 f2 hpre (ValueIdx.ix1 (⟨(y 1).val, ValueIdx.idx2_lt1 y⟩ : Fin 128)) = af (ValueIdx.ix1 (Cert.Spec.aPos zf (rowF L y))) := by
  unfold ga7 asrc
  rw [gatherA_apply d af _ rfl (hinA7 d L zf f0 f1 hpre f2)]
  refine congrArg af (congrArg ValueIdx.ix1 (Fin.ext ?_))
  have e := aread7 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 7) :
    View.read (Elt F) (s3V).view (c3 d L zf af f0 f1 f2 f3 hpre) y = af (ValueIdx.ix1 (Cert.Spec.aPos zf (rowF L y))) :=
  (c3_read7 d L zf af f0 f1 f2 f3 hpre y hy).trans (ga7_at d L zf af f0 f1 f2 hpre y hy)

/-! ## Scaling -/

/-- The scaling constant as a sixteen-lane vector, as the program builds it. -/
def scaleVec : FVec F S16 .f32 := broadcast S16 (Scalar.ofBits .f32 0x3F7FBE77#32)

/-- Sixteen lanes scaled. -/
def sVec (u : Vec F S1x16 .f32) : FVec F S1x16 .f32 :=
  shapeCast S1x16 (mulf (shapeCast S16 u shapeCasts_S1x16_S16) (scaleVec (F := F))) shapeCasts_S16_S1x16

theorem sVec_apply (u : Vec F S1x16 .f32) (j : S1x16.Idx) : sVec u j = FloatOps.mulf (u j) (Cert.Spec.scale (F := F)) := by
  unfold sVec scaleVec shapeCast mulf broadcast Cert.Spec.scale
  dsimp only
  rw [Shape.reshapeEquiv_reshapeEquiv, Shape.reshapeEquiv_self]

/-- A piece that scales what it loads from contents `J` agrees, on its rectangle, with `J` scaled entry by entry. -/
theorem sP_agree (J : (s3V).view.ty.Contents (Elt F)) (r c : ℕ) (inb : ∀ a, (![r, c] : Fin 2 → ℕ) a + S1x16.size a ≤ S8x128.size a)
    (x : (Rect.unit (s := S8x128) ![r, c] S1x16.size inb).shape.Idx) :
    sVec (View.readAt (Elt F) (s3V).view (Rect.unit (s := S8x128) ![r, c] S1x16.size inb).toLoadRect J) x
      = (fun y => FloatOps.mulf (View.read (Elt F) (s3V).view J y) (Cert.Spec.scale (F := F))) ((Rect.unit (s := S8x128) ![r, c] S1x16.size inb).emb x) := by
  rw [sVec_apply, View.readAt_apply]; rfl

/-- Pieces over sixteen-lane rectangles of rows `rs` leave every entry of another row as it was. -/
theorem not_mem_of_row {Val : EltTy → Type} {e : EltTy} (Ls : List (View.Piece Val S8x128 e)) (rs : List ℕ)
    (h : ∀ p ∈ Ls, ∃ r ∈ rs, ∃ c inb, p.1 = Rect.unit (s := S8x128) ![r, c] S1x16.size inb)
    (y : S8x128.Idx) (hy : (y 0).val ∉ rs) : ∀ p ∈ Ls, y ∉ p.1.set := by
  intro p hp hm
  obtain ⟨r, hr, c, inb, hrect⟩ := h p hp
  rw [hrect, Rect.mem_set_unit] at hm
  have h0 := hm 0
  simp at h0
  have : (y 0).val = r := by omega
  exact hy (this ▸ hr)

/-- Scaling stores over rows `rs` of contents `J`, each piece scaling what it loads from `J`: the rows `rs` read `J` scaled,
    the other rows read `J`. -/
theorem read_scaled (J : (s3V).view.ty.Contents (Elt F)) (Ls : List (View.Piece (Elt F) S8x128 .f32)) (rs : List ℕ)
    (hag : ∀ p ∈ Ls, ∀ x, p.2 x = (fun y => FloatOps.mulf (View.read (Elt F) (s3V).view J y) (Cert.Spec.scale (F := F))) (p.1.emb x))
    (hcov : ∀ r ∈ rs, ∀ v : Fin 8, ∃ p ∈ Ls, ∃ inb, p.1 = Rect.unit (s := S8x128) ![r, 16 * v.val] S1x16.size inb)
    (hrows : ∀ p ∈ Ls, ∃ r ∈ rs, ∃ c inb, p.1 = Rect.unit (s := S8x128) ![r, c] S1x16.size inb)
    (y : S8x128.Idx) :
    View.read (Elt F) (s3V).view ((s3V).view.writes (Elt F) J Ls) y
      = if (y 0).val ∈ rs then FloatOps.mulf (View.read (Elt F) (s3V).view J y) (Cert.Spec.scale (F := F)) else View.read (Elt F) (s3V).view J y := by
  split
  · next hy =>
    exact View.read_writes_apply_of_pieces (s3V).view J (fun y => FloatOps.mulf (View.read (Elt F) (s3V).view J y) (Cert.Spec.scale (F := F))) Ls hag y (cover_row Ls (y 0).val (hcov _ hy) y rfl)
  · next hy =>
    exact View.read_writes_apply_of_forall_not_mem (s3V).view J y Ls (not_mem_of_row Ls rs hrows y hy)

/-- A delivered row put back: row `r` reads the delivery, the other rows what was held. -/
theorem read_joined (g fs : (s3V).view.ty.Contents (Elt F)) (r : ℕ) (inb : ∀ a, (![r, 0] : Fin 2 → ℕ) a + S1x128.size a ≤ S8x128.size a)
    (y : S8x128.Idx) :
    View.read (Elt F) (s3V).view (View.write (Elt F) (((s3V).slice (Rect.unit (s := S8x128) ![r, 0] S1x128.size inb) (fun _ => rfl)).squeeze S128 squeezes_S1x128_S128).view g
        (View.read (Elt F) (((s3V).slice (Rect.unit (s := S8x128) ![r, 0] S1x128.size inb) (fun _ => rfl)).squeeze S128 squeezes_S1x128_S128).view fs) Finset.univ) y
      = if (y 0).val = r then View.read (Elt F) (s3V).view fs y else View.read (Elt F) (s3V).view g y := by
  rw [rowWrite3_read]
  split
  · next hy =>
    rw [View.read_apply, View.read_apply]
    have : (((s3V).slice (Rect.unit (s := S8x128) ![r, 0] S1x128.size inb) (fun _ => rfl)).squeeze S128 squeezes_S1x128_S128).view.emb
        (ValueIdx.ix1 (⟨(y 1).val, ValueIdx.idx2_lt1 y⟩ : Fin 128)) = (s3V).view.emb y := by
      show (s3V).view.emb (rowIx r inb (ValueIdx.ix1 (⟨(y 1).val, ValueIdx.idx2_lt1 y⟩ : Fin 128))) = _
      congr 1
      funext a
      fin_cases a
      · exact Fin.ext ((rowIx_zero r inb _).trans hy.symm)
      · exact Fin.ext (rowIx_one r inb _)
    rw [this]
  · rfl

end Cert.KI

end
-- ==== Proof.BodyV.lean ====
/-
  The fourth scratch buffer through phase three, level by level, and what it reads at the end: every entry the selected
  entry of flat `a` for its result row, scaled — the specified result.
-/
import proofs.«207294_g27419071217675_cont_9to1_1737_29_alg».proof.Proof.BodyS

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## One level of the scaling -/

/-- Row `r` joins the scaled rows: from "rows below `r` scaled, the others as delivered" to the same for `r + 1`. -/
theorem level_step (r y0 : ℕ) (sc : F .f32 → F .f32) (cv fsv kpv : F .f32) (hfs : y0 = r → fsv = cv)
    (hkp : kpv = if y0 < r then sc cv else cv) :
    (if y0 ∈ [r] then sc (if y0 = r then fsv else kpv) else (if y0 = r then fsv else kpv)) = if y0 < r + 1 then sc cv else cv := by
  by_cases h : y0 = r
  · have h1 : y0 < r + 1 := by omega
    simp only [List.mem_singleton, h, if_true, h1, if_true, hfs h]
    simp
  · have hm : ¬ (y0 ∈ [r]) := by simpa using h
    rw [if_neg hm, if_neg h, hkp]
    by_cases h2 : y0 < r
    · have : y0 < r + 1 := by omega
      rw [if_pos h2, if_pos this]
    · have : ¬ y0 < r + 1 := by omega
      rw [if_neg h2, if_neg this]

/-! ## The levels -/

/-- The fourth scratch buffer when gather 2 out of flat `a` is issued: rows 0 … 2 written with their deliveries. -/
def c3u2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ)

theorem c3u2_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 2) :
    View.read (Elt F) (s3V).view (c3u2 d L zf af f0 f1 f2 f3 hpre) y = View.read (Elt F) (s3V).view (c3 d L zf af f0 f1 f2 f3 hpre) y := by
  unfold c3u2
  rw [rowWrite3_read, if_pos hy]
  exact (c3_read2 d L zf af f0 f1 f2 f3 hpre y hy).symm

/-- The fourth scratch buffer when gather 3 out of flat `a` is issued: rows 0 … 3 written with their deliveries. -/
def c3u3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ)

theorem c3u3_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 3) :
    View.read (Elt F) (s3V).view (c3u3 d L zf af f0 f1 f2 f3 hpre) y = View.read (Elt F) (s3V).view (c3 d L zf af f0 f1 f2 f3 hpre) y := by
  unfold c3u3
  rw [rowWrite3_read, if_pos hy]
  exact (c3_read3 d L zf af f0 f1 f2 f3 hpre y hy).symm

/-- The fourth scratch buffer when gather 4 out of flat `a` is issued: rows 0 … 4 written with their deliveries. -/
def c3u4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ)

theorem c3u4_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 4) :
    View.read (Elt F) (s3V).view (c3u4 d L zf af f0 f1 f2 f3 hpre) y = View.read (Elt F) (s3V).view (c3 d L zf af f0 f1 f2 f3 hpre) y := by
  unfold c3u4
  rw [rowWrite3_read, if_pos hy]
  exact (c3_read4 d L zf af f0 f1 f2 f3 hpre y hy).symm

/-- The fourth scratch buffer when gather 5 out of flat `a` is issued: rows 0 … 5 written with their deliveries. -/
def c3u5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ)

theorem c3u5_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 5) :
    View.read (Elt F) (s3V).view (c3u5 d L zf af f0 f1 f2 f3 hpre) y = View.read (Elt F) (s3V).view (c3 d L zf af f0 f1 f2 f3 hpre) y := by
  unfold c3u5
  rw [rowWrite3_read, if_pos hy]
  exact (c3_read5 d L zf af f0 f1 f2 f3 hpre y hy).symm

/-- The fourth scratch buffer when gather 6 out of flat `a` is issued: rows 0 … 6 written with their deliveries. -/
def c3u6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![6, 0] S1x128.size inb_S8x128_S1x128_6_0) (fun _ => rfl)).squeeze S128 squeezes_S1x128_S128).view (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ) (ga6 d L zf af f0 f1 f2 hpre) Finset.univ)

theorem c3u6_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 6) :
    View.read (Elt F) (s3V).view (c3u6 d L zf af f0 f1 f2 f3 hpre) y = View.read (Elt F) (s3V).view (c3 d L zf af f0 f1 f2 f3 hpre) y := by
  unfold c3u6
  rw [rowWrite3_read, if_pos hy]
  exact (c3_read6 d L zf af f0 f1 f2 f3 hpre y hy).symm

/-- The fourth scratch buffer when gather 7 out of flat `a` is issued: rows 0 … 7 written with their deliveries. -/
def c3u7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![7, 0] S1x128.size inb_S8x128_S1x128_7_0) (fun _ => rfl)).squeeze S128 squeezes_S1x128_S128).view (View.write (Elt F) (((s3V).slice (Rect.unit (s := S8x128) ![6, 0] S1x128.size inb_S8x128_S1x128_6_0) (fun _ => rfl)).squeeze S128 squeezes_S1x128_S128).view (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ) (ga6 d L zf af f0 f1 f2 hpre) Finset.univ) (ga7 d L zf af f0 f1 f2 hpre) Finset.univ)

theorem c3u7_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 7) :
    View.read (Elt F) (s3V).view (c3u7 d L zf af f0 f1 f2 f3 hpre) y = View.read (Elt F) (s3V).view (c3 d L zf af f0 f1 f2 f3 hpre) y := by
  unfold c3u7
  rw [rowWrite3_read, if_pos hy]
  exact (c3_read7 d L zf af f0 f1 f2 f3 hpre y hy).symm

/-- The scaling stores of rows 0 and 1, the last first. -/
def sL01 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![1, 112] S1x16.size inb_S8x128_S1x16_1_112, sVec (View.readAt (Elt F) (s3V).view (Rect.unit (s := S8x128) ![1, 112] S1x16.size inb_S8x128_S1x16_1_112).toLoadRect (c3 d L zf af f0 f1 f2 f3 hpre))⟩ ::
  ⟨Rect.unit (s := S8x128) ![1, 96] S1x16.size inb_S8x128_S1x16_1_96, sVec (View.readAt (Elt F) (s3V).view (Rect.unit (s := S8x128) ![1, 96] S1x16.size inb_S8x128_S1x16_1_96).toLoadRect (c3 d L zf af f0 f1 f2 f3 hpre))⟩ ::
  ⟨Rect.unit (s := S8x128) ![1, 80] S1x16.size inb_S8x128_S1x16_1_80, sVec (View.readAt (Elt F) (s3V).view (Rect.unit (s := S8x128) ![1, 80] S1x16.size inb_S8x128_S1x16_1_80).toLoadRect (c3 d L zf af f0 f1 f2 f3 hpre))⟩ ::
  ⟨Rect.unit (s := S8x128) ![1, 64] S1x16.size inb_S8x128_S1x16_1_64, sVec (View.readAt (Elt F) (s3V).view (Rect.unit (s := S8x128) ![1, 64] S1x16.size inb_S8x128_S1x16_1_64).toLoadRect (c3 d L zf af f0 f1 f2 f3 hpre))⟩ ::
  ⟨Rect.unit (s := S8x128) ![1, 48] S1x16.size inb_S8x128_S1x16_1_48, sVec (View.readAt (Elt F) (s3V).view (Rect.unit (s := S8x128) ![1, 48] S1x16.size inb_S8x128_S1x16_1_48).toLoadRect (c3 d L zf af f0 f1 f2 f3 hpre))⟩ ::
  ⟨Rect.unit (s := S8x128) ![1, 32] S1x16.size inb_S8x128_S1x16_1_32, sVec (View.readAt (Elt F) (s3V).view (Rect.unit (s := S8x128) ![1, 32] S1x16.size inb_S8x128_S1x16_1_32).toLoadRect (c3 d L zf af f0 f1 f2 f3 hpre))⟩ ::
  ⟨Rect.unit (s := S8x128) ![1, 16] S1x16.size inb_S8x128_S1x16_1_16, sVec (View.readAt (Elt F) (s3V).view (Rect.unit (s := S8x128) ![1, 16] S1x16.size inb_S8x128_S1x16_1_16).toLoadRect (c3 d L zf af f0 f1 f2 f3 hpre))⟩ ::
  ⟨Rect.unit (s := S8x128) ![1, 0] S1x16.size inb_S8x128_S1x16_1_0, sVec (View.readAt (Elt F) (s3V).view (Rect.unit (s := S8x128) ![1, 0] S1x16.size inb_S8x128_S1x16_1_0).toLoadRect (c3 d L zf af f0 f1 f2 f3 hpre))⟩ ::
  ⟨Rect.unit (s := S8x128) ![0, 112] S1x16.size inb_S8x128_S1x16_0_112, sVec (View.readAt (Elt F) (s3V).view (Rect.unit (s := S8x128) ![0, 112] S1x16.size inb_S8x128_S1x16_0_112).toLoadRect (c3 d L zf af f0 f1 f2 f3 hpre))⟩ ::
  ⟨Rect.unit (s := S8x128) ![0, 96] S1x16.size inb_S8x128_S1x16_0_96, sVec (View.readAt (Elt F) (s3V).view (Rect.unit (s := S8x128) ![0, 96] S1x16.size inb_S8x128_S1x16_0_96).toLoadRect (c3 d L zf af f0 f1 f2 f3 hpre))⟩ ::
  ⟨Rect.unit (s := S8x128) ![0, 80] S1x16.size inb_S8x128_S1x16_0_80, sVec (View.readAt (Elt F) (s3V).view (Rect.unit (s := S8x128) ![0, 80] S1x16.size inb_S8x128_S1x16_0_80).toLoadRect (c3 d L zf af f0 f1 f2 f3 hpre))⟩ ::
  ⟨Rect.unit (s := S8x128) ![0, 64] S1x16.size inb_S8x128_S1x16_0_64, sVec (View.readAt (Elt F) (s3V).view (Rect.unit (s := S8x128) ![0, 64] S1x16.size inb_S8x128_S1x16_0_64).toLoadRect (c3 d L zf af f0 f1 f2 f3 hpre))⟩ ::
  ⟨Rect.unit (s := S8x128) ![0, 48] S1x16.size inb_S8x128_S1x16_0_48, sVec (View.readAt (Elt F) (s3V).view (Rect.unit (s := S8x128) ![0, 48] S1x16.size inb_S8x128_S1x16_0_48).toLoadRect (c3 d L zf af f0 f1 f2 f3 hpre))⟩ ::
  ⟨Rect.unit (s := S8x128) ![0, 32] S1x16.size inb_S8x128_S1x16_0_32, sVec (View.readAt (Elt F) (s3V).view (Rect.unit (s := S8x128) ![0, 32] S1x16.size inb_S8x128_S1x16_0_32).toLoadRect (c3 d L zf af f0 f1 f2 f3 hpre))⟩ ::
  ⟨Rect.unit (s := S8x128) ![0, 16] S1x16.size inb_S8x128_S1x16_0_16, sVec (View.readAt (Elt F) (s3V).view (Rect.unit (s := S8x128) ![0, 16] S1x16.size inb_S8x128_S1x16_0_16).toLoadRect (c3 d L zf af f0 f1 f2 f3 hpre))⟩ ::
  ⟨Rect.unit (s := S8x128) ![0, 0] S1x16.size inb_S8x128_S1x16_0_0, sVec (View.readAt (Elt F) (s3V).view (Rect.unit (s := S8x128) ![0, 0] S1x16.size inb_S8x128_S1x16_0_0).toLoadRect (c3 d L zf af f0 f1 f2 f3 hpre))⟩ :: []

def K1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (c3 d L zf af f0 f1 f2 f3 hpre) (sL01 d L zf af f0 f1 f2 f3 hpre)

theorem K1_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K1 d L zf af f0 f1 f2 f3 hpre) y
      = if (y 0).val < 1 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL01 d L zf af f0 f1 f2 f3 hpre, ∀ x, p.2 x = (fun y => FloatOps.mulf (View.read (Elt F) (s3V).view (c3 d L zf af f0 f1 f2 f3 hpre) y) (Cert.Spec.scale (F := F))) (p.1.emb x) := by
    unfold sL01
    exact (List.forall_mem_cons.2 ⟨sP_agree (c3 d L zf af f0 f1 f2 f3 hpre) 1 112 inb_S8x128_S1x16_1_112, (List.forall_mem_cons.2 ⟨sP_agree (c3 d L zf af f0 f1 f2 f3 hpre) 1 96 inb_S8x128_S1x16_1_96, (List.forall_mem_cons.2 ⟨sP_agree (c3 d L zf af f0 f1 f2 f3 hpre) 1 80 inb_S8x128_S1x16_1_80, (List.forall_mem_cons.2 ⟨sP_agree (c3 d L zf af f0 f1 f2 f3 hpre) 1 64 inb_S8x128_S1x16_1_64, (List.forall_mem_cons.2 ⟨sP_agree (c3 d L zf af f0 f1 f2 f3 hpre) 1 48 inb_S8x128_S1x16_1_48, (List.forall_mem_cons.2 ⟨sP_agree (c3 d L zf af f0 f1 f2 f3 hpre) 1 32 inb_S8x128_S1x16_1_32, (List.forall_mem_cons.2 ⟨sP_agree (c3 d L zf af f0 f1 f2 f3 hpre) 1 16 inb_S8x128_S1x16_1_16, (List.forall_mem_cons.2 ⟨sP_agree (c3 d L zf af f0 f1 f2 f3 hpre) 1 0 inb_S8x128_S1x16_1_0, (List.forall_mem_cons.2 ⟨sP_agree (c3 d L zf af f0 f1 f2 f3 hpre) 0 112 inb_S8x128_S1x16_0_112, (List.forall_mem_cons.2 ⟨sP_agree (c3 d L zf af f0 f1 f2 f3 hpre) 0 96 inb_S8x128_S1x16_0_96, (List.forall_mem_cons.2 ⟨sP_agree (c3 d L zf af f0 f1 f2 f3 hpre) 0 80 inb_S8x128_S1x16_0_80, (List.forall_mem_cons.2 ⟨sP_agree (c3 d L zf af f0 f1 f2 f3 hpre) 0 64 inb_S8x128_S1x16_0_64, (List.forall_mem_cons.2 ⟨sP_agree (c3 d L zf af f0 f1 f2 f3 hpre) 0 48 inb_S8x128_S1x16_0_48, (List.forall_mem_cons.2 ⟨sP_agree (c3 d L zf af f0 f1 f2 f3 hpre) 0 32 inb_S8x128_S1x16_0_32, (List.forall_mem_cons.2 ⟨sP_agree (c3 d L zf af f0 f1 f2 f3 hpre) 0 16 inb_S8x128_S1x16_0_16, (List.forall_mem_cons.2 ⟨sP_agree (c3 d L zf af f0 f1 f2 f3 hpre) 0 0 inb_S8x128_S1x16_0_0, (fun _ hp => nomatch hp)⟩)⟩)⟩)⟩)⟩)⟩)⟩)⟩)⟩)⟩)⟩)⟩)⟩)⟩)⟩)⟩)
  have hcov : ∀ r ∈ [0, 1], ∀ v : Fin 8, ∃ p ∈ sL01 d L zf af f0 f1 f2 f3 hpre, ∃ inb, p.1 = Rect.unit (s := S8x128) ![r, 16 * v.val] S1x16.size inb := by
    unfold sL01
    intro r hr
    simp only [List.mem_cons, List.not_mem_nil, or_false] at hr
    rcases hr with rfl | rfl
    · intro v; fin_cases v
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), inb_S8x128_S1x16_0_0, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), inb_S8x128_S1x16_0_16, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), inb_S8x128_S1x16_0_32, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), inb_S8x128_S1x16_0_48, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), inb_S8x128_S1x16_0_64, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), inb_S8x128_S1x16_0_80, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), inb_S8x128_S1x16_0_96, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), inb_S8x128_S1x16_0_112, rfl⟩
    · intro v; fin_cases v
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_1_0, rfl⟩
      · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_1_16, rfl⟩
      · exact ⟨_, List.mem_cons_of_mem _ (List.mem_cons_of_mem _ (List.mem_cons_of_mem _ (List.mem_cons_of_mem _ (List.mem_cons_of_mem _ (List.mem_cons_self))))), inb_S8x128_S1x16_1_32, rfl⟩
      · exact ⟨_, List.mem_cons_of_mem _ (List.mem_cons_of_mem _ (List.mem_cons_of_mem _ (List.mem_cons_of_mem _ (List.mem_cons_self)))), inb_S8x128_S1x16_1_48, rfl⟩
      · exact ⟨_, List.mem_cons_of_mem _ (List.mem_cons_of_mem _ (List.mem_cons_of_mem _ (List.mem_cons_self))), inb_S8x128_S1x16_1_64, rfl⟩
      · exact ⟨_, List.mem_cons_of_mem _ (List.mem_cons_of_mem _ (List.mem_cons_self)), inb_S8x128_S1x16_1_80, rfl⟩
      · exact ⟨_, List.mem_cons_of_mem _ (List.mem_cons_self), inb_S8x128_S1x16_1_96, rfl⟩
      · exact ⟨_, List.mem_cons_self, inb_S8x128_S1x16_1_112, rfl⟩
  have hrows : ∀ p ∈ sL01 d L zf af f0 f1 f2 f3 hpre, ∃ r ∈ [0, 1], ∃ c inb, p.1 = Rect.unit (s := S8x128) ![r, c] S1x16.size inb := by
    unfold sL01
    exact (List.forall_mem_cons.2 ⟨⟨1, by decide, 112, inb_S8x128_S1x16_1_112, rfl⟩, (List.forall_mem_cons.2 ⟨⟨1, by decide, 96, inb_S8x128_S1x16_1_96, rfl⟩, (List.forall_mem_cons.2 ⟨⟨1, by decide, 80, inb_S8x128_S1x16_1_80, rfl⟩, (List.forall_mem_cons.2 ⟨⟨1, by decide, 64, inb_S8x128_S1x16_1_64, rfl⟩, (List.forall_mem_cons.2 ⟨⟨1, by decide, 48, inb_S8x128_S1x16_1_48, rfl⟩, (List.forall_mem_cons.2 ⟨⟨1, by decide, 32, inb_S8x128_S1x16_1_32, rfl⟩, (List.forall_mem_cons.2 ⟨⟨1, by decide, 16, inb_S8x128_S1x16_1_16, rfl⟩, (List.forall_mem_cons.2 ⟨⟨1, by decide, 0, inb_S8x128_S1x16_1_0, rfl⟩, (List.forall_mem_cons.2 ⟨⟨0, by decide, 112, inb_S8x128_S1x16_0_112, rfl⟩, (List.forall_mem_cons.2 ⟨⟨0, by decide, 96, inb_S8x128_S1x16_0_96, rfl⟩, (List.forall_mem_cons.2 ⟨⟨0, by decide, 80, inb_S8x128_S1x16_0_80, rfl⟩, (List.forall_mem_cons.2 ⟨⟨0, by decide, 64, inb_S8x128_S1x16_0_64, rfl⟩, (List.forall_mem_cons.2 ⟨⟨0, by decide, 48, inb_S8x128_S1x16_0_48, rfl⟩, (List.forall_mem_cons.2 ⟨⟨0, by decide, 32, inb_S8x128_S1x16_0_32, rfl⟩, (List.forall_mem_cons.2 ⟨⟨0, by decide, 16, inb_S8x128_S1x16_0_16, rfl⟩, (List.forall_mem_cons.2 ⟨⟨0, by decide, 0, inb_S8x128_S1x16_0_0, rfl⟩, (fun _ hp => nomatch hp)⟩)⟩)⟩)⟩)⟩)⟩)⟩)⟩)⟩)⟩)⟩)⟩)⟩)⟩)⟩)⟩)
  unfold K1
  rw [read_scaled (c3 d L zf af f0 f1 f2 f3 hpre) (sL01 d L zf af f0 f1 f2 f3 hpre) [0, 1] hag hcov hrows y]
  by_cases h : (y 0).val < 1 + 1
  · have hm : (y 0).val ∈ [0, 1] := by simp; omega
    rw [if_pos h, if_pos hm]
  · have hm : ¬ (y 0).val ∈ [0, 1] := by simp; omega
    rw [if_neg h, if_neg hm]

/-- Row 2 put back once its gather is waited for. -/
def J2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![2, 0] S1x128.size inb_S8x128_S1x128_2_0) (fun _ => rfl)).squeeze S128 squeezes_S1x128_S128).view (K1 d L zf af f0 f1 f2 f3 hpre) (View.read (Elt F) (((s3V).slice (Rect.unit (s := S8x128) ![2, 0] S1x128.size inb_S8x128_S1x128_2_0) (fun _ => rfl)).squeeze S128 squeezes_S1x128_S128).view (c3u2 d L zf af f0 f1 f2 f3 hpre)) Finset.univ

/-- The scaling stores of row 2, the last first. -/
def sL2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![2, 112] S1x16.size inb_S8x128_S1x16_2_112, sVec (View.readAt (Elt F) (s3V).view (Rect.unit (s := S8x128) ![2, 112] S1x16.size inb_S8x128_S1x16_2_112).toLoadRect (J2 d L zf af f0 f1 f2 f3 hpre))⟩ ::
  ⟨Rect.unit (s := S8x128) ![2, 96] S1x16.size inb_S8x128_S1x16_2_96, sVec (View.readAt (Elt F) (s3V).view (Rect.unit (s := S8x128) ![2, 96] S1x16.size inb_S8x128_S1x16_2_96).toLoadRect (J2 d L zf af f0 f1 f2 f3 hpre))⟩ ::
  ⟨Rect.unit (s := S8x128) ![2, 80] S1x16.size inb_S8x128_S1x16_2_80, sVec (View.readAt (Elt F) (s3V).view (Rect.unit (s := S8x128) ![2, 80] S1x16.size inb_S8x128_S1x16_2_80).toLoadRect (J2 d L zf af f0 f1 f2 f3 hpre))⟩ ::
  ⟨Rect.unit (s := S8x128) ![2, 64] S1x16.size inb_S8x128_S1x16_2_64, sVec (View.readAt (Elt F) (s3V).view (Rect.unit (s := S8x128) ![2, 64] S1x16.size inb_S8x128_S1x16_2_64).toLoadRect (J2 d L zf af f0 f1 f2 f3 hpre))⟩ ::
  ⟨Rect.unit (s := S8x128) ![2, 48] S1x16.size inb_S8x128_S1x16_2_48, sVec (View.readAt (Elt F) (s3V).view (Rect.unit (s := S8x128) ![2, 48] S1x16.size inb_S8x128_S1x16_2_48).toLoadRect (J2 d L zf af f0 f1 f2 f3 hpre))⟩ ::
  ⟨Rect.unit (s := S8x128) ![2, 32] S1x16.size inb_S8x128_S1x16_2_32, sVec (View.readAt (Elt F) (s3V).view (Rect.unit (s := S8x128) ![2, 32] S1x16.size inb_S8x128_S1x16_2_32).toLoadRect (J2 d L zf af f0 f1 f2 f3 hpre))⟩ ::
  ⟨Rect.unit (s := S8x128) ![2, 16] S1x16.size inb_S8x128_S1x16_2_16, sVec (View.readAt (Elt F) (s3V).view (Rect.unit (s := S8x128) ![2, 16] S1x16.size inb_S8x128_S1x16_2_16).toLoadRect (J2 d L zf af f0 f1 f2 f3 hpre))⟩ ::
  ⟨Rect.unit (s := S8x128) ![2, 0] S1x16.size inb_S8x128_S1x16_2_0, sVec (View.readAt (Elt F) (s3V).view (Rect.unit (s := S8x128) ![2, 0] S1x16.size inb_S8x128_S1x16_2_0).toLoadRect (J2 d L zf af f0 f1 f2 f3 hpre))⟩ :: []

def K2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J2 d L zf af f0 f1 f2 f3 hpre) (sL2 d L zf af f0 f1 f2 f3 hpre)

theorem K2_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K2 d L zf af f0 f1 f2 f3 hpre) y
      = if (y 0).val < 2 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL2 d L zf af f0 f1 f2 f3 hpre, ∀ x, p.2 x = (fun y => FloatOps.mulf (View.read (Elt F) (s3V).view (J2 d L zf af f0 f1 f2 f3 hpre) y) (Cert.Spec.scale (F := F))) (p.1.emb x) := by
    unfold sL2
    exact (List.forall_mem_cons.2 ⟨sP_agree (J2 d L zf af f0 f1 f2 f3 hpre) 2 112 inb_S8x128_S1x16_2_112, (List.forall_mem_cons.2 ⟨sP_agree (J2 d L zf af f0 f1 f2 f3 hpre) 2 96 inb_S8x128_S1x16_2_96, (List.forall_mem_cons.2 ⟨sP_agree (J2 d L zf af f0 f1 f2 f3 hpre) 2 80 inb_S8x128_S1x16_2_80, (List.forall_mem_cons.2 ⟨sP_agree (J2 d L zf af f0 f1 f2 f3 hpre) 2 64 inb_S8x128_S1x16_2_64, (List.forall_mem_cons.2 ⟨sP_agree (J2 d L zf af f0 f1 f2 f3 hpre) 2 48 inb_S8x128_S1x16_2_48, (List.forall_mem_cons.2 ⟨sP_agree (J2 d L zf af f0 f1 f2 f3 hpre) 2 32 inb_S8x128_S1x16_2_32, (List.forall_mem_cons.2 ⟨sP_agree (J2 d L zf af f0 f1 f2 f3 hpre) 2 16 inb_S8x128_S1x16_2_16, (List.forall_mem_cons.2 ⟨sP_agree (J2 d L zf af f0 f1 f2 f3 hpre) 2 0 inb_S8x128_S1x16_2_0, (fun _ hp => nomatch hp)⟩)⟩)⟩)⟩)⟩)⟩)⟩)⟩)
  have hcov : ∀ r ∈ [2], ∀ v : Fin 8, ∃ p ∈ sL2 d L zf af f0 f1 f2 f3 hpre, ∃ inb, p.1 = Rect.unit (s := S8x128) ![r, 16 * v.val] S1x16.size inb := by
    unfold sL2
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_2_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_2_16, rfl⟩
    · exact ⟨_, List.mem_cons_of_mem _ (List.mem_cons_of_mem _ (List.mem_cons_of_mem _ (List.mem_cons_of_mem _ (List.mem_cons_of_mem _ (List.mem_cons_self))))), inb_S8x128_S1x16_2_32, rfl⟩
    · exact ⟨_, List.mem_cons_of_mem _ (List.mem_cons_of_mem _ (List.mem_cons_of_mem _ (List.mem_cons_of_mem _ (List.mem_cons_self)))), inb_S8x128_S1x16_2_48, rfl⟩
    · exact ⟨_, List.mem_cons_of_mem _ (List.mem_cons_of_mem _ (List.mem_cons_of_mem _ (List.mem_cons_self))), inb_S8x128_S1x16_2_64, rfl⟩
    · exact ⟨_, List.mem_cons_of_mem _ (List.mem_cons_of_mem _ (List.mem_cons_self)), inb_S8x128_S1x16_2_80, rfl⟩
    · exact ⟨_, List.mem_cons_of_mem _ (List.mem_cons_self), inb_S8x128_S1x16_2_96, rfl⟩
    · exact ⟨_, List.mem_cons_self, inb_S8x128_S1x16_2_112, rfl⟩
  have hrows : ∀ p ∈ sL2 d L zf af f0 f1 f2 f3 hpre, ∃ r ∈ [2], ∃ c inb, p.1 = Rect.unit (s := S8x128) ![r, c] S1x16.size inb := by
    unfold sL2
    exact (List.forall_mem_cons.2 ⟨⟨2, by decide, 112, inb_S8x128_S1x16_2_112, rfl⟩, (List.forall_mem_cons.2 ⟨⟨2, by decide, 96, inb_S8x128_S1x16_2_96, rfl⟩, (List.forall_mem_cons.2 ⟨⟨2, by decide, 80, inb_S8x128_S1x16_2_80, rfl⟩, (List.forall_mem_cons.2 ⟨⟨2, by decide, 64, inb_S8x128_S1x16_2_64, rfl⟩, (List.forall_mem_cons.2 ⟨⟨2, by decide, 48, inb_S8x128_S1x16_2_48, rfl⟩, (List.forall_mem_cons.2 ⟨⟨2, by decide, 32, inb_S8x128_S1x16_2_32, rfl⟩, (List.forall_mem_cons.2 ⟨⟨2, by decide, 16, inb_S8x128_S1x16_2_16, rfl⟩, (List.forall_mem_cons.2 ⟨⟨2, by decide, 0, inb_S8x128_S1x16_2_0, rfl⟩, (fun _ hp => nomatch hp)⟩)⟩)⟩)⟩)⟩)⟩)⟩)⟩)
  unfold K2
  rw [read_scaled (J2 d L zf af f0 f1 f2 f3 hpre) (sL2 d L zf af f0 f1 f2 f3 hpre) [2] hag hcov hrows y]
  unfold J2
  rw [read_joined]
  exact level_step 2 (y 0).val (fun t => FloatOps.mulf t (Cert.Spec.scale (F := F))) _ _ _
    (fun hy => c3u2_read d L zf af f0 f1 f2 f3 hpre y hy) (K1_read d L zf af f0 f1 f2 f3 hpre y)

/-- Row 3 put back once its gather is waited for. -/
def J3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![3, 0] S1x128.size inb_S8x128_S1x128_3_0) (fun _ => rfl)).squeeze S128 squeezes_S1x128_S128).view (K2 d L zf af f0 f1 f2 f3 hpre) (View.read (Elt F) (((s3V).slice (Rect.unit (s := S8x128) ![3, 0] S1x128.size inb_S8x128_S1x128_3_0) (fun _ => rfl)).squeeze S128 squeezes_S1x128_S128).view (c3u3 d L zf af f0 f1 f2 f3 hpre)) Finset.univ

/-- The scaling stores of row 3, the last first. -/
def sL3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![3, 112] S1x16.size inb_S8x128_S1x16_3_112, sVec (View.readAt (Elt F) (s3V).view (Rect.unit (s := S8x128) ![3, 112] S1x16.size inb_S8x128_S1x16_3_112).toLoadRect (J3 d L zf af f0 f1 f2 f3 hpre))⟩ ::
  ⟨Rect.unit (s := S8x128) ![3, 96] S1x16.size inb_S8x128_S1x16_3_96, sVec (View.readAt (Elt F) (s3V).view (Rect.unit (s := S8x128) ![3, 96] S1x16.size inb_S8x128_S1x16_3_96).toLoadRect (J3 d L zf af f0 f1 f2 f3 hpre))⟩ ::
  ⟨Rect.unit (s := S8x128) ![3, 80] S1x16.size inb_S8x128_S1x16_3_80, sVec (View.readAt (Elt F) (s3V).view (Rect.unit (s := S8x128) ![3, 80] S1x16.size inb_S8x128_S1x16_3_80).toLoadRect (J3 d L zf af f0 f1 f2 f3 hpre))⟩ ::
  ⟨Rect.unit (s := S8x128) ![3, 64] S1x16.size inb_S8x128_S1x16_3_64, sVec (View.readAt (Elt F) (s3V).view (Rect.unit (s := S8x128) ![3, 64] S1x16.size inb_S8x128_S1x16_3_64).toLoadRect (J3 d L zf af f0 f1 f2 f3 hpre))⟩ ::
  ⟨Rect.unit (s := S8x128) ![3, 48] S1x16.size inb_S8x128_S1x16_3_48, sVec (View.readAt (Elt F) (s3V).view (Rect.unit (s := S8x128) ![3, 48] S1x16.size inb_S8x128_S1x16_3_48).toLoadRect (J3 d L zf af f0 f1 f2 f3 hpre))⟩ ::
  ⟨Rect.unit (s := S8x128) ![3, 32] S1x16.size inb_S8x128_S1x16_3_32, sVec (View.readAt (Elt F) (s3V).view (Rect.unit (s := S8x128) ![3, 32] S1x16.size inb_S8x128_S1x16_3_32).toLoadRect (J3 d L zf af f0 f1 f2 f3 hpre))⟩ ::
  ⟨Rect.unit (s := S8x128) ![3, 16] S1x16.size inb_S8x128_S1x16_3_16, sVec (View.readAt (Elt F) (s3V).view (Rect.unit (s := S8x128) ![3, 16] S1x16.size inb_S8x128_S1x16_3_16).toLoadRect (J3 d L zf af f0 f1 f2 f3 hpre))⟩ ::
  ⟨Rect.unit (s := S8x128) ![3, 0] S1x16.size inb_S8x128_S1x16_3_0, sVec (View.readAt (Elt F) (s3V).view (Rect.unit (s := S8x128) ![3, 0] S1x16.size inb_S8x128_S1x16_3_0).toLoadRect (J3 d L zf af f0 f1 f2 f3 hpre))⟩ :: []

def K3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J3 d L zf af f0 f1 f2 f3 hpre) (sL3 d L zf af f0 f1 f2 f3 hpre)

theorem K3_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K3 d L zf af f0 f1 f2 f3 hpre) y
      = if (y 0).val < 3 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL3 d L zf af f0 f1 f2 f3 hpre, ∀ x, p.2 x = (fun y => FloatOps.mulf (View.read (Elt F) (s3V).view (J3 d L zf af f0 f1 f2 f3 hpre) y) (Cert.Spec.scale (F := F))) (p.1.emb x) := by
    unfold sL3
    exact (List.forall_mem_cons.2 ⟨sP_agree (J3 d L zf af f0 f1 f2 f3 hpre) 3 112 inb_S8x128_S1x16_3_112, (List.forall_mem_cons.2 ⟨sP_agree (J3 d L zf af f0 f1 f2 f3 hpre) 3 96 inb_S8x128_S1x16_3_96, (List.forall_mem_cons.2 ⟨sP_agree (J3 d L zf af f0 f1 f2 f3 hpre) 3 80 inb_S8x128_S1x16_3_80, (List.forall_mem_cons.2 ⟨sP_agree (J3 d L zf af f0 f1 f2 f3 hpre) 3 64 inb_S8x128_S1x16_3_64, (List.forall_mem_cons.2 ⟨sP_agree (J3 d L zf af f0 f1 f2 f3 hpre) 3 48 inb_S8x128_S1x16_3_48, (List.forall_mem_cons.2 ⟨sP_agree (J3 d L zf af f0 f1 f2 f3 hpre) 3 32 inb_S8x128_S1x16_3_32, (List.forall_mem_cons.2 ⟨sP_agree (J3 d L zf af f0 f1 f2 f3 hpre) 3 16 inb_S8x128_S1x16_3_16, (List.forall_mem_cons.2 ⟨sP_agree (J3 d L zf af f0 f1 f2 f3 hpre) 3 0 inb_S8x128_S1x16_3_0, (fun _ hp => nomatch hp)⟩)⟩)⟩)⟩)⟩)⟩)⟩)⟩)
  have hcov : ∀ r ∈ [3], ∀ v : Fin 8, ∃ p ∈ sL3 d L zf af f0 f1 f2 f3 hpre, ∃ inb, p.1 = Rect.unit (s := S8x128) ![r, 16 * v.val] S1x16.size inb := by
    unfold sL3
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_3_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_3_16, rfl⟩
    · exact ⟨_, List.mem_cons_of_mem _ (List.mem_cons_of_mem _ (List.mem_cons_of_mem _ (List.mem_cons_of_mem _ (List.mem_cons_of_mem _ (List.mem_cons_self))))), inb_S8x128_S1x16_3_32, rfl⟩
    · exact ⟨_, List.mem_cons_of_mem _ (List.mem_cons_of_mem _ (List.mem_cons_of_mem _ (List.mem_cons_of_mem _ (List.mem_cons_self)))), inb_S8x128_S1x16_3_48, rfl⟩
    · exact ⟨_, List.mem_cons_of_mem _ (List.mem_cons_of_mem _ (List.mem_cons_of_mem _ (List.mem_cons_self))), inb_S8x128_S1x16_3_64, rfl⟩
    · exact ⟨_, List.mem_cons_of_mem _ (List.mem_cons_of_mem _ (List.mem_cons_self)), inb_S8x128_S1x16_3_80, rfl⟩
    · exact ⟨_, List.mem_cons_of_mem _ (List.mem_cons_self), inb_S8x128_S1x16_3_96, rfl⟩
    · exact ⟨_, List.mem_cons_self, inb_S8x128_S1x16_3_112, rfl⟩
  have hrows : ∀ p ∈ sL3 d L zf af f0 f1 f2 f3 hpre, ∃ r ∈ [3], ∃ c inb, p.1 = Rect.unit (s := S8x128) ![r, c] S1x16.size inb := by
    unfold sL3
    exact (List.forall_mem_cons.2 ⟨⟨3, by decide, 112, inb_S8x128_S1x16_3_112, rfl⟩, (List.forall_mem_cons.2 ⟨⟨3, by decide, 96, inb_S8x128_S1x16_3_96, rfl⟩, (List.forall_mem_cons.2 ⟨⟨3, by decide, 80, inb_S8x128_S1x16_3_80, rfl⟩, (List.forall_mem_cons.2 ⟨⟨3, by decide, 64, inb_S8x128_S1x16_3_64, rfl⟩, (List.forall_mem_cons.2 ⟨⟨3, by decide, 48, inb_S8x128_S1x16_3_48, rfl⟩, (List.forall_mem_cons.2 ⟨⟨3, by decide, 32, inb_S8x128_S1x16_3_32, rfl⟩, (List.forall_mem_cons.2 ⟨⟨3, by decide, 16, inb_S8x128_S1x16_3_16, rfl⟩, (List.forall_mem_cons.2 ⟨⟨3, by decide, 0, inb_S8x128_S1x16_3_0, rfl⟩, (fun _ hp => nomatch hp)⟩)⟩)⟩)⟩)⟩)⟩)⟩)⟩)
  unfold K3
  rw [read_scaled (J3 d L zf af f0 f1 f2 f3 hpre) (sL3 d L zf af f0 f1 f2 f3 hpre) [3] hag hcov hrows y]
  unfold J3
  rw [read_joined]
  exact level_step 3 (y 0).val (fun t => FloatOps.mulf t (Cert.Spec.scale (F := F))) _ _ _
    (fun hy => c3u3_read d L zf af f0 f1 f2 f3 hpre y hy) (K2_read d L zf af f0 f1 f2 f3 hpre y)

/-- Row 4 put back once its gather is waited for. -/
def J4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![4, 0] S1x128.size inb_S8x128_S1x128_4_0) (fun _ => rfl)).squeeze S128 squeezes_S1x128_S128).view (K3 d L zf af f0 f1 f2 f3 hpre) (View.read (Elt F) (((s3V).slice (Rect.unit (s := S8x128) ![4, 0] S1x128.size inb_S8x128_S1x128_4_0) (fun _ => rfl)).squeeze S128 squeezes_S1x128_S128).view (c3u4 d L zf af f0 f1 f2 f3 hpre)) Finset.univ

/-- The scaling stores of row 4, the last first. -/
def sL4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![4, 112] S1x16.size inb_S8x128_S1x16_4_112, sVec (View.readAt (Elt F) (s3V).view (Rect.unit (s := S8x128) ![4, 112] S1x16.size inb_S8x128_S1x16_4_112).toLoadRect (J4 d L zf af f0 f1 f2 f3 hpre))⟩ ::
  ⟨Rect.unit (s := S8x128) ![4, 96] S1x16.size inb_S8x128_S1x16_4_96, sVec (View.readAt (Elt F) (s3V).view (Rect.unit (s := S8x128) ![4, 96] S1x16.size inb_S8x128_S1x16_4_96).toLoadRect (J4 d L zf af f0 f1 f2 f3 hpre))⟩ ::
  ⟨Rect.unit (s := S8x128) ![4, 80] S1x16.size inb_S8x128_S1x16_4_80, sVec (View.readAt (Elt F) (s3V).view (Rect.unit (s := S8x128) ![4, 80] S1x16.size inb_S8x128_S1x16_4_80).toLoadRect (J4 d L zf af f0 f1 f2 f3 hpre))⟩ ::
  ⟨Rect.unit (s := S8x128) ![4, 64] S1x16.size inb_S8x128_S1x16_4_64, sVec (View.readAt (Elt F) (s3V).view (Rect.unit (s := S8x128) ![4, 64] S1x16.size inb_S8x128_S1x16_4_64).toLoadRect (J4 d L zf af f0 f1 f2 f3 hpre))⟩ ::
  ⟨Rect.unit (s := S8x128) ![4, 48] S1x16.size inb_S8x128_S1x16_4_48, sVec (View.readAt (Elt F) (s3V).view (Rect.unit (s := S8x128) ![4, 48] S1x16.size inb_S8x128_S1x16_4_48).toLoadRect (J4 d L zf af f0 f1 f2 f3 hpre))⟩ ::
  ⟨Rect.unit (s := S8x128) ![4, 32] S1x16.size inb_S8x128_S1x16_4_32, sVec (View.readAt (Elt F) (s3V).view (Rect.unit (s := S8x128) ![4, 32] S1x16.size inb_S8x128_S1x16_4_32).toLoadRect (J4 d L zf af f0 f1 f2 f3 hpre))⟩ ::
  ⟨Rect.unit (s := S8x128) ![4, 16] S1x16.size inb_S8x128_S1x16_4_16, sVec (View.readAt (Elt F) (s3V).view (Rect.unit (s := S8x128) ![4, 16] S1x16.size inb_S8x128_S1x16_4_16).toLoadRect (J4 d L zf af f0 f1 f2 f3 hpre))⟩ ::
  ⟨Rect.unit (s := S8x128) ![4, 0] S1x16.size inb_S8x128_S1x16_4_0, sVec (View.readAt (Elt F) (s3V).view (Rect.unit (s := S8x128) ![4, 0] S1x16.size inb_S8x128_S1x16_4_0).toLoadRect (J4 d L zf af f0 f1 f2 f3 hpre))⟩ :: []

def K4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J4 d L zf af f0 f1 f2 f3 hpre) (sL4 d L zf af f0 f1 f2 f3 hpre)

theorem K4_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K4 d L zf af f0 f1 f2 f3 hpre) y
      = if (y 0).val < 4 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL4 d L zf af f0 f1 f2 f3 hpre, ∀ x, p.2 x = (fun y => FloatOps.mulf (View.read (Elt F) (s3V).view (J4 d L zf af f0 f1 f2 f3 hpre) y) (Cert.Spec.scale (F := F))) (p.1.emb x) := by
    unfold sL4
    exact (List.forall_mem_cons.2 ⟨sP_agree (J4 d L zf af f0 f1 f2 f3 hpre) 4 112 inb_S8x128_S1x16_4_112, (List.forall_mem_cons.2 ⟨sP_agree (J4 d L zf af f0 f1 f2 f3 hpre) 4 96 inb_S8x128_S1x16_4_96, (List.forall_mem_cons.2 ⟨sP_agree (J4 d L zf af f0 f1 f2 f3 hpre) 4 80 inb_S8x128_S1x16_4_80, (List.forall_mem_cons.2 ⟨sP_agree (J4 d L zf af f0 f1 f2 f3 hpre) 4 64 inb_S8x128_S1x16_4_64, (List.forall_mem_cons.2 ⟨sP_agree (J4 d L zf af f0 f1 f2 f3 hpre) 4 48 inb_S8x128_S1x16_4_48, (List.forall_mem_cons.2 ⟨sP_agree (J4 d L zf af f0 f1 f2 f3 hpre) 4 32 inb_S8x128_S1x16_4_32, (List.forall_mem_cons.2 ⟨sP_agree (J4 d L zf af f0 f1 f2 f3 hpre) 4 16 inb_S8x128_S1x16_4_16, (List.forall_mem_cons.2 ⟨sP_agree (J4 d L zf af f0 f1 f2 f3 hpre) 4 0 inb_S8x128_S1x16_4_0, (fun _ hp => nomatch hp)⟩)⟩)⟩)⟩)⟩)⟩)⟩)⟩)
  have hcov : ∀ r ∈ [4], ∀ v : Fin 8, ∃ p ∈ sL4 d L zf af f0 f1 f2 f3 hpre, ∃ inb, p.1 = Rect.unit (s := S8x128) ![r, 16 * v.val] S1x16.size inb := by
    unfold sL4
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_4_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_4_16, rfl⟩
    · exact ⟨_, List.mem_cons_of_mem _ (List.mem_cons_of_mem _ (List.mem_cons_of_mem _ (List.mem_cons_of_mem _ (List.mem_cons_of_mem _ (List.mem_cons_self))))), inb_S8x128_S1x16_4_32, rfl⟩
    · exact ⟨_, List.mem_cons_of_mem _ (List.mem_cons_of_mem _ (List.mem_cons_of_mem _ (List.mem_cons_of_mem _ (List.mem_cons_self)))), inb_S8x128_S1x16_4_48, rfl⟩
    · exact ⟨_, List.mem_cons_of_mem _ (List.mem_cons_of_mem _ (List.mem_cons_of_mem _ (List.mem_cons_self))), inb_S8x128_S1x16_4_64, rfl⟩
    · exact ⟨_, List.mem_cons_of_mem _ (List.mem_cons_of_mem _ (List.mem_cons_self)), inb_S8x128_S1x16_4_80, rfl⟩
    · exact ⟨_, List.mem_cons_of_mem _ (List.mem_cons_self), inb_S8x128_S1x16_4_96, rfl⟩
    · exact ⟨_, List.mem_cons_self, inb_S8x128_S1x16_4_112, rfl⟩
  have hrows : ∀ p ∈ sL4 d L zf af f0 f1 f2 f3 hpre, ∃ r ∈ [4], ∃ c inb, p.1 = Rect.unit (s := S8x128) ![r, c] S1x16.size inb := by
    unfold sL4
    exact (List.forall_mem_cons.2 ⟨⟨4, by decide, 112, inb_S8x128_S1x16_4_112, rfl⟩, (List.forall_mem_cons.2 ⟨⟨4, by decide, 96, inb_S8x128_S1x16_4_96, rfl⟩, (List.forall_mem_cons.2 ⟨⟨4, by decide, 80, inb_S8x128_S1x16_4_80, rfl⟩, (List.forall_mem_cons.2 ⟨⟨4, by decide, 64, inb_S8x128_S1x16_4_64, rfl⟩, (List.forall_mem_cons.2 ⟨⟨4, by decide, 48, inb_S8x128_S1x16_4_48, rfl⟩, (List.forall_mem_cons.2 ⟨⟨4, by decide, 32, inb_S8x128_S1x16_4_32, rfl⟩, (List.forall_mem_cons.2 ⟨⟨4, by decide, 16, inb_S8x128_S1x16_4_16, rfl⟩, (List.forall_mem_cons.2 ⟨⟨4, by decide, 0, inb_S8x128_S1x16_4_0, rfl⟩, (fun _ hp => nomatch hp)⟩)⟩)⟩)⟩)⟩)⟩)⟩)⟩)
  unfold K4
  rw [read_scaled (J4 d L zf af f0 f1 f2 f3 hpre) (sL4 d L zf af f0 f1 f2 f3 hpre) [4] hag hcov hrows y]
  unfold J4
  rw [read_joined]
  exact level_step 4 (y 0).val (fun t => FloatOps.mulf t (Cert.Spec.scale (F := F))) _ _ _
    (fun hy => c3u4_read d L zf af f0 f1 f2 f3 hpre y hy) (K3_read d L zf af f0 f1 f2 f3 hpre y)

/-- Row 5 put back once its gather is waited for. -/
def J5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![5, 0] S1x128.size inb_S8x128_S1x128_5_0) (fun _ => rfl)).squeeze S128 squeezes_S1x128_S128).view (K4 d L zf af f0 f1 f2 f3 hpre) (View.read (Elt F) (((s3V).slice (Rect.unit (s := S8x128) ![5, 0] S1x128.size inb_S8x128_S1x128_5_0) (fun _ => rfl)).squeeze S128 squeezes_S1x128_S128).view (c3u5 d L zf af f0 f1 f2 f3 hpre)) Finset.univ

/-- The scaling stores of row 5, the last first. -/
def sL5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![5, 112] S1x16.size inb_S8x128_S1x16_5_112, sVec (View.readAt (Elt F) (s3V).view (Rect.unit (s := S8x128) ![5, 112] S1x16.size inb_S8x128_S1x16_5_112).toLoadRect (J5 d L zf af f0 f1 f2 f3 hpre))⟩ ::
  ⟨Rect.unit (s := S8x128) ![5, 96] S1x16.size inb_S8x128_S1x16_5_96, sVec (View.readAt (Elt F) (s3V).view (Rect.unit (s := S8x128) ![5, 96] S1x16.size inb_S8x128_S1x16_5_96).toLoadRect (J5 d L zf af f0 f1 f2 f3 hpre))⟩ ::
  ⟨Rect.unit (s := S8x128) ![5, 80] S1x16.size inb_S8x128_S1x16_5_80, sVec (View.readAt (Elt F) (s3V).view (Rect.unit (s := S8x128) ![5, 80] S1x16.size inb_S8x128_S1x16_5_80).toLoadRect (J5 d L zf af f0 f1 f2 f3 hpre))⟩ ::
  ⟨Rect.unit (s := S8x128) ![5, 64] S1x16.size inb_S8x128_S1x16_5_64, sVec (View.readAt (Elt F) (s3V).view (Rect.unit (s := S8x128) ![5, 64] S1x16.size inb_S8x128_S1x16_5_64).toLoadRect (J5 d L zf af f0 f1 f2 f3 hpre))⟩ ::
  ⟨Rect.unit (s := S8x128) ![5, 48] S1x16.size inb_S8x128_S1x16_5_48, sVec (View.readAt (Elt F) (s3V).view (Rect.unit (s := S8x128) ![5, 48] S1x16.size inb_S8x128_S1x16_5_48).toLoadRect (J5 d L zf af f0 f1 f2 f3 hpre))⟩ ::
  ⟨Rect.unit (s := S8x128) ![5, 32] S1x16.size inb_S8x128_S1x16_5_32, sVec (View.readAt (Elt F) (s3V).view (Rect.unit (s := S8x128) ![5, 32] S1x16.size inb_S8x128_S1x16_5_32).toLoadRect (J5 d L zf af f0 f1 f2 f3 hpre))⟩ ::
  ⟨Rect.unit (s := S8x128) ![5, 16] S1x16.size inb_S8x128_S1x16_5_16, sVec (View.readAt (Elt F) (s3V).view (Rect.unit (s := S8x128) ![5, 16] S1x16.size inb_S8x128_S1x16_5_16).toLoadRect (J5 d L zf af f0 f1 f2 f3 hpre))⟩ ::
  ⟨Rect.unit (s := S8x128) ![5, 0] S1x16.size inb_S8x128_S1x16_5_0, sVec (View.readAt (Elt F) (s3V).view (Rect.unit (s := S8x128) ![5, 0] S1x16.size inb_S8x128_S1x16_5_0).toLoadRect (J5 d L zf af f0 f1 f2 f3 hpre))⟩ :: []

def K5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J5 d L zf af f0 f1 f2 f3 hpre) (sL5 d L zf af f0 f1 f2 f3 hpre)

theorem K5_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K5 d L zf af f0 f1 f2 f3 hpre) y
      = if (y 0).val < 5 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL5 d L zf af f0 f1 f2 f3 hpre, ∀ x, p.2 x = (fun y => FloatOps.mulf (View.read (Elt F) (s3V).view (J5 d L zf af f0 f1 f2 f3 hpre) y) (Cert.Spec.scale (F := F))) (p.1.emb x) := by
    unfold sL5
    exact (List.forall_mem_cons.2 ⟨sP_agree (J5 d L zf af f0 f1 f2 f3 hpre) 5 112 inb_S8x128_S1x16_5_112, (List.forall_mem_cons.2 ⟨sP_agree (J5 d L zf af f0 f1 f2 f3 hpre) 5 96 inb_S8x128_S1x16_5_96, (List.forall_mem_cons.2 ⟨sP_agree (J5 d L zf af f0 f1 f2 f3 hpre) 5 80 inb_S8x128_S1x16_5_80, (List.forall_mem_cons.2 ⟨sP_agree (J5 d L zf af f0 f1 f2 f3 hpre) 5 64 inb_S8x128_S1x16_5_64, (List.forall_mem_cons.2 ⟨sP_agree (J5 d L zf af f0 f1 f2 f3 hpre) 5 48 inb_S8x128_S1x16_5_48, (List.forall_mem_cons.2 ⟨sP_agree (J5 d L zf af f0 f1 f2 f3 hpre) 5 32 inb_S8x128_S1x16_5_32, (List.forall_mem_cons.2 ⟨sP_agree (J5 d L zf af f0 f1 f2 f3 hpre) 5 16 inb_S8x128_S1x16_5_16, (List.forall_mem_cons.2 ⟨sP_agree (J5 d L zf af f0 f1 f2 f3 hpre) 5 0 inb_S8x128_S1x16_5_0, (fun _ hp => nomatch hp)⟩)⟩)⟩)⟩)⟩)⟩)⟩)⟩)
  have hcov : ∀ r ∈ [5], ∀ v : Fin 8, ∃ p ∈ sL5 d L zf af f0 f1 f2 f3 hpre, ∃ inb, p.1 = Rect.unit (s := S8x128) ![r, 16 * v.val] S1x16.size inb := by
    unfold sL5
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_5_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_5_16, rfl⟩
    · exact ⟨_, List.mem_cons_of_mem _ (List.mem_cons_of_mem _ (List.mem_cons_of_mem _ (List.mem_cons_of_mem _ (List.mem_cons_of_mem _ (List.mem_cons_self))))), inb_S8x128_S1x16_5_32, rfl⟩
    · exact ⟨_, List.mem_cons_of_mem _ (List.mem_cons_of_mem _ (List.mem_cons_of_mem _ (List.mem_cons_of_mem _ (List.mem_cons_self)))), inb_S8x128_S1x16_5_48, rfl⟩
    · exact ⟨_, List.mem_cons_of_mem _ (List.mem_cons_of_mem _ (List.mem_cons_of_mem _ (List.mem_cons_self))), inb_S8x128_S1x16_5_64, rfl⟩
    · exact ⟨_, List.mem_cons_of_mem _ (List.mem_cons_of_mem _ (List.mem_cons_self)), inb_S8x128_S1x16_5_80, rfl⟩
    · exact ⟨_, List.mem_cons_of_mem _ (List.mem_cons_self), inb_S8x128_S1x16_5_96, rfl⟩
    · exact ⟨_, List.mem_cons_self, inb_S8x128_S1x16_5_112, rfl⟩
  have hrows : ∀ p ∈ sL5 d L zf af f0 f1 f2 f3 hpre, ∃ r ∈ [5], ∃ c inb, p.1 = Rect.unit (s := S8x128) ![r, c] S1x16.size inb := by
    unfold sL5
    exact (List.forall_mem_cons.2 ⟨⟨5, by decide, 112, inb_S8x128_S1x16_5_112, rfl⟩, (List.forall_mem_cons.2 ⟨⟨5, by decide, 96, inb_S8x128_S1x16_5_96, rfl⟩, (List.forall_mem_cons.2 ⟨⟨5, by decide, 80, inb_S8x128_S1x16_5_80, rfl⟩, (List.forall_mem_cons.2 ⟨⟨5, by decide, 64, inb_S8x128_S1x16_5_64, rfl⟩, (List.forall_mem_cons.2 ⟨⟨5, by decide, 48, inb_S8x128_S1x16_5_48, rfl⟩, (List.forall_mem_cons.2 ⟨⟨5, by decide, 32, inb_S8x128_S1x16_5_32, rfl⟩, (List.forall_mem_cons.2 ⟨⟨5, by decide, 16, inb_S8x128_S1x16_5_16, rfl⟩, (List.forall_mem_cons.2 ⟨⟨5, by decide, 0, inb_S8x128_S1x16_5_0, rfl⟩, (fun _ hp => nomatch hp)⟩)⟩)⟩)⟩)⟩)⟩)⟩)⟩)
  unfold K5
  rw [read_scaled (J5 d L zf af f0 f1 f2 f3 hpre) (sL5 d L zf af f0 f1 f2 f3 hpre) [5] hag hcov hrows y]
  unfold J5
  rw [read_joined]
  exact level_step 5 (y 0).val (fun t => FloatOps.mulf t (Cert.Spec.scale (F := F))) _ _ _
    (fun hy => c3u5_read d L zf af f0 f1 f2 f3 hpre y hy) (K4_read d L zf af f0 f1 f2 f3 hpre y)

/-- Row 6 put back once its gather is waited for. -/
def J6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![6, 0] S1x128.size inb_S8x128_S1x128_6_0) (fun _ => rfl)).squeeze S128 squeezes_S1x128_S128).view (K5 d L zf af f0 f1 f2 f3 hpre) (View.read (Elt F) (((s3V).slice (Rect.unit (s := S8x128) ![6, 0] S1x128.size inb_S8x128_S1x128_6_0) (fun _ => rfl)).squeeze S128 squeezes_S1x128_S128).view (c3u6 d L zf af f0 f1 f2 f3 hpre)) Finset.univ

/-- The scaling stores of row 6, the last first. -/
def sL6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![6, 112] S1x16.size inb_S8x128_S1x16_6_112, sVec (View.readAt (Elt F) (s3V).view (Rect.unit (s := S8x128) ![6, 112] S1x16.size inb_S8x128_S1x16_6_112).toLoadRect (J6 d L zf af f0 f1 f2 f3 hpre))⟩ ::
  ⟨Rect.unit (s := S8x128) ![6, 96] S1x16.size inb_S8x128_S1x16_6_96, sVec (View.readAt (Elt F) (s3V).view (Rect.unit (s := S8x128) ![6, 96] S1x16.size inb_S8x128_S1x16_6_96).toLoadRect (J6 d L zf af f0 f1 f2 f3 hpre))⟩ ::
  ⟨Rect.unit (s := S8x128) ![6, 80] S1x16.size inb_S8x128_S1x16_6_80, sVec (View.readAt (Elt F) (s3V).view (Rect.unit (s := S8x128) ![6, 80] S1x16.size inb_S8x128_S1x16_6_80).toLoadRect (J6 d L zf af f0 f1 f2 f3 hpre))⟩ ::
  ⟨Rect.unit (s := S8x128) ![6, 64] S1x16.size inb_S8x128_S1x16_6_64, sVec (View.readAt (Elt F) (s3V).view (Rect.unit (s := S8x128) ![6, 64] S1x16.size inb_S8x128_S1x16_6_64).toLoadRect (J6 d L zf af f0 f1 f2 f3 hpre))⟩ ::
  ⟨Rect.unit (s := S8x128) ![6, 48] S1x16.size inb_S8x128_S1x16_6_48, sVec (View.readAt (Elt F) (s3V).view (Rect.unit (s := S8x128) ![6, 48] S1x16.size inb_S8x128_S1x16_6_48).toLoadRect (J6 d L zf af f0 f1 f2 f3 hpre))⟩ ::
  ⟨Rect.unit (s := S8x128) ![6, 32] S1x16.size inb_S8x128_S1x16_6_32, sVec (View.readAt (Elt F) (s3V).view (Rect.unit (s := S8x128) ![6, 32] S1x16.size inb_S8x128_S1x16_6_32).toLoadRect (J6 d L zf af f0 f1 f2 f3 hpre))⟩ ::
  ⟨Rect.unit (s := S8x128) ![6, 16] S1x16.size inb_S8x128_S1x16_6_16, sVec (View.readAt (Elt F) (s3V).view (Rect.unit (s := S8x128) ![6, 16] S1x16.size inb_S8x128_S1x16_6_16).toLoadRect (J6 d L zf af f0 f1 f2 f3 hpre))⟩ ::
  ⟨Rect.unit (s := S8x128) ![6, 0] S1x16.size inb_S8x128_S1x16_6_0, sVec (View.readAt (Elt F) (s3V).view (Rect.unit (s := S8x128) ![6, 0] S1x16.size inb_S8x128_S1x16_6_0).toLoadRect (J6 d L zf af f0 f1 f2 f3 hpre))⟩ :: []

def K6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J6 d L zf af f0 f1 f2 f3 hpre) (sL6 d L zf af f0 f1 f2 f3 hpre)

theorem K6_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K6 d L zf af f0 f1 f2 f3 hpre) y
      = if (y 0).val < 6 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL6 d L zf af f0 f1 f2 f3 hpre, ∀ x, p.2 x = (fun y => FloatOps.mulf (View.read (Elt F) (s3V).view (J6 d L zf af f0 f1 f2 f3 hpre) y) (Cert.Spec.scale (F := F))) (p.1.emb x) := by
    unfold sL6
    exact (List.forall_mem_cons.2 ⟨sP_agree (J6 d L zf af f0 f1 f2 f3 hpre) 6 112 inb_S8x128_S1x16_6_112, (List.forall_mem_cons.2 ⟨sP_agree (J6 d L zf af f0 f1 f2 f3 hpre) 6 96 inb_S8x128_S1x16_6_96, (List.forall_mem_cons.2 ⟨sP_agree (J6 d L zf af f0 f1 f2 f3 hpre) 6 80 inb_S8x128_S1x16_6_80, (List.forall_mem_cons.2 ⟨sP_agree (J6 d L zf af f0 f1 f2 f3 hpre) 6 64 inb_S8x128_S1x16_6_64, (List.forall_mem_cons.2 ⟨sP_agree (J6 d L zf af f0 f1 f2 f3 hpre) 6 48 inb_S8x128_S1x16_6_48, (List.forall_mem_cons.2 ⟨sP_agree (J6 d L zf af f0 f1 f2 f3 hpre) 6 32 inb_S8x128_S1x16_6_32, (List.forall_mem_cons.2 ⟨sP_agree (J6 d L zf af f0 f1 f2 f3 hpre) 6 16 inb_S8x128_S1x16_6_16, (List.forall_mem_cons.2 ⟨sP_agree (J6 d L zf af f0 f1 f2 f3 hpre) 6 0 inb_S8x128_S1x16_6_0, (fun _ hp => nomatch hp)⟩)⟩)⟩)⟩)⟩)⟩)⟩)⟩)
  have hcov : ∀ r ∈ [6], ∀ v : Fin 8, ∃ p ∈ sL6 d L zf af f0 f1 f2 f3 hpre, ∃ inb, p.1 = Rect.unit (s := S8x128) ![r, 16 * v.val] S1x16.size inb := by
    unfold sL6
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_6_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_6_16, rfl⟩
    · exact ⟨_, List.mem_cons_of_mem _ (List.mem_cons_of_mem _ (List.mem_cons_of_mem _ (List.mem_cons_of_mem _ (List.mem_cons_of_mem _ (List.mem_cons_self))))), inb_S8x128_S1x16_6_32, rfl⟩
    · exact ⟨_, List.mem_cons_of_mem _ (List.mem_cons_of_mem _ (List.mem_cons_of_mem _ (List.mem_cons_of_mem _ (List.mem_cons_self)))), inb_S8x128_S1x16_6_48, rfl⟩
    · exact ⟨_, List.mem_cons_of_mem _ (List.mem_cons_of_mem _ (List.mem_cons_of_mem _ (List.mem_cons_self))), inb_S8x128_S1x16_6_64, rfl⟩
    · exact ⟨_, List.mem_cons_of_mem _ (List.mem_cons_of_mem _ (List.mem_cons_self)), inb_S8x128_S1x16_6_80, rfl⟩
    · exact ⟨_, List.mem_cons_of_mem _ (List.mem_cons_self), inb_S8x128_S1x16_6_96, rfl⟩
    · exact ⟨_, List.mem_cons_self, inb_S8x128_S1x16_6_112, rfl⟩
  have hrows : ∀ p ∈ sL6 d L zf af f0 f1 f2 f3 hpre, ∃ r ∈ [6], ∃ c inb, p.1 = Rect.unit (s := S8x128) ![r, c] S1x16.size inb := by
    unfold sL6
    exact (List.forall_mem_cons.2 ⟨⟨6, by decide, 112, inb_S8x128_S1x16_6_112, rfl⟩, (List.forall_mem_cons.2 ⟨⟨6, by decide, 96, inb_S8x128_S1x16_6_96, rfl⟩, (List.forall_mem_cons.2 ⟨⟨6, by decide, 80, inb_S8x128_S1x16_6_80, rfl⟩, (List.forall_mem_cons.2 ⟨⟨6, by decide, 64, inb_S8x128_S1x16_6_64, rfl⟩, (List.forall_mem_cons.2 ⟨⟨6, by decide, 48, inb_S8x128_S1x16_6_48, rfl⟩, (List.forall_mem_cons.2 ⟨⟨6, by decide, 32, inb_S8x128_S1x16_6_32, rfl⟩, (List.forall_mem_cons.2 ⟨⟨6, by decide, 16, inb_S8x128_S1x16_6_16, rfl⟩, (List.forall_mem_cons.2 ⟨⟨6, by decide, 0, inb_S8x128_S1x16_6_0, rfl⟩, (fun _ hp => nomatch hp)⟩)⟩)⟩)⟩)⟩)⟩)⟩)⟩)
  unfold K6
  rw [read_scaled (J6 d L zf af f0 f1 f2 f3 hpre) (sL6 d L zf af f0 f1 f2 f3 hpre) [6] hag hcov hrows y]
  unfold J6
  rw [read_joined]
  exact level_step 6 (y 0).val (fun t => FloatOps.mulf t (Cert.Spec.scale (F := F))) _ _ _
    (fun hy => c3u6_read d L zf af f0 f1 f2 f3 hpre y hy) (K5_read d L zf af f0 f1 f2 f3 hpre y)

/-- Row 7 put back once its gather is waited for. -/
def J7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![7, 0] S1x128.size inb_S8x128_S1x128_7_0) (fun _ => rfl)).squeeze S128 squeezes_S1x128_S128).view (K6 d L zf af f0 f1 f2 f3 hpre) (View.read (Elt F) (((s3V).slice (Rect.unit (s := S8x128) ![7, 0] S1x128.size inb_S8x128_S1x128_7_0) (fun _ => rfl)).squeeze S128 squeezes_S1x128_S128).view (c3u7 d L zf af f0 f1 f2 f3 hpre)) Finset.univ

/-- The scaling stores of row 7, the last first. -/
def sL7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![7, 112] S1x16.size inb_S8x128_S1x16_7_112, sVec (View.readAt (Elt F) (s3V).view (Rect.unit (s := S8x128) ![7, 112] S1x16.size inb_S8x128_S1x16_7_112).toLoadRect (J7 d L zf af f0 f1 f2 f3 hpre))⟩ ::
  ⟨Rect.unit (s := S8x128) ![7, 96] S1x16.size inb_S8x128_S1x16_7_96, sVec (View.readAt (Elt F) (s3V).view (Rect.unit (s := S8x128) ![7, 96] S1x16.size inb_S8x128_S1x16_7_96).toLoadRect (J7 d L zf af f0 f1 f2 f3 hpre))⟩ ::
  ⟨Rect.unit (s := S8x128) ![7, 80] S1x16.size inb_S8x128_S1x16_7_80, sVec (View.readAt (Elt F) (s3V).view (Rect.unit (s := S8x128) ![7, 80] S1x16.size inb_S8x128_S1x16_7_80).toLoadRect (J7 d L zf af f0 f1 f2 f3 hpre))⟩ ::
  ⟨Rect.unit (s := S8x128) ![7, 64] S1x16.size inb_S8x128_S1x16_7_64, sVec (View.readAt (Elt F) (s3V).view (Rect.unit (s := S8x128) ![7, 64] S1x16.size inb_S8x128_S1x16_7_64).toLoadRect (J7 d L zf af f0 f1 f2 f3 hpre))⟩ ::
  ⟨Rect.unit (s := S8x128) ![7, 48] S1x16.size inb_S8x128_S1x16_7_48, sVec (View.readAt (Elt F) (s3V).view (Rect.unit (s := S8x128) ![7, 48] S1x16.size inb_S8x128_S1x16_7_48).toLoadRect (J7 d L zf af f0 f1 f2 f3 hpre))⟩ ::
  ⟨Rect.unit (s := S8x128) ![7, 32] S1x16.size inb_S8x128_S1x16_7_32, sVec (View.readAt (Elt F) (s3V).view (Rect.unit (s := S8x128) ![7, 32] S1x16.size inb_S8x128_S1x16_7_32).toLoadRect (J7 d L zf af f0 f1 f2 f3 hpre))⟩ ::
  ⟨Rect.unit (s := S8x128) ![7, 16] S1x16.size inb_S8x128_S1x16_7_16, sVec (View.readAt (Elt F) (s3V).view (Rect.unit (s := S8x128) ![7, 16] S1x16.size inb_S8x128_S1x16_7_16).toLoadRect (J7 d L zf af f0 f1 f2 f3 hpre))⟩ ::
  ⟨Rect.unit (s := S8x128) ![7, 0] S1x16.size inb_S8x128_S1x16_7_0, sVec (View.readAt (Elt F) (s3V).view (Rect.unit (s := S8x128) ![7, 0] S1x16.size inb_S8x128_S1x16_7_0).toLoadRect (J7 d L zf af f0 f1 f2 f3 hpre))⟩ :: []

def K7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J7 d L zf af f0 f1 f2 f3 hpre) (sL7 d L zf af f0 f1 f2 f3 hpre)

theorem K7_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K7 d L zf af f0 f1 f2 f3 hpre) y
      = if (y 0).val < 7 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL7 d L zf af f0 f1 f2 f3 hpre, ∀ x, p.2 x = (fun y => FloatOps.mulf (View.read (Elt F) (s3V).view (J7 d L zf af f0 f1 f2 f3 hpre) y) (Cert.Spec.scale (F := F))) (p.1.emb x) := by
    unfold sL7
    exact (List.forall_mem_cons.2 ⟨sP_agree (J7 d L zf af f0 f1 f2 f3 hpre) 7 112 inb_S8x128_S1x16_7_112, (List.forall_mem_cons.2 ⟨sP_agree (J7 d L zf af f0 f1 f2 f3 hpre) 7 96 inb_S8x128_S1x16_7_96, (List.forall_mem_cons.2 ⟨sP_agree (J7 d L zf af f0 f1 f2 f3 hpre) 7 80 inb_S8x128_S1x16_7_80, (List.forall_mem_cons.2 ⟨sP_agree (J7 d L zf af f0 f1 f2 f3 hpre) 7 64 inb_S8x128_S1x16_7_64, (List.forall_mem_cons.2 ⟨sP_agree (J7 d L zf af f0 f1 f2 f3 hpre) 7 48 inb_S8x128_S1x16_7_48, (List.forall_mem_cons.2 ⟨sP_agree (J7 d L zf af f0 f1 f2 f3 hpre) 7 32 inb_S8x128_S1x16_7_32, (List.forall_mem_cons.2 ⟨sP_agree (J7 d L zf af f0 f1 f2 f3 hpre) 7 16 inb_S8x128_S1x16_7_16, (List.forall_mem_cons.2 ⟨sP_agree (J7 d L zf af f0 f1 f2 f3 hpre) 7 0 inb_S8x128_S1x16_7_0, (fun _ hp => nomatch hp)⟩)⟩)⟩)⟩)⟩)⟩)⟩)⟩)
  have hcov : ∀ r ∈ [7], ∀ v : Fin 8, ∃ p ∈ sL7 d L zf af f0 f1 f2 f3 hpre, ∃ inb, p.1 = Rect.unit (s := S8x128) ![r, 16 * v.val] S1x16.size inb := by
    unfold sL7
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_7_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_7_16, rfl⟩
    · exact ⟨_, List.mem_cons_of_mem _ (List.mem_cons_of_mem _ (List.mem_cons_of_mem _ (List.mem_cons_of_mem _ (List.mem_cons_of_mem _ (List.mem_cons_self))))), inb_S8x128_S1x16_7_32, rfl⟩
    · exact ⟨_, List.mem_cons_of_mem _ (List.mem_cons_of_mem _ (List.mem_cons_of_mem _ (List.mem_cons_of_mem _ (List.mem_cons_self)))), inb_S8x128_S1x16_7_48, rfl⟩
    · exact ⟨_, List.mem_cons_of_mem _ (List.mem_cons_of_mem _ (List.mem_cons_of_mem _ (List.mem_cons_self))), inb_S8x128_S1x16_7_64, rfl⟩
    · exact ⟨_, List.mem_cons_of_mem _ (List.mem_cons_of_mem _ (List.mem_cons_self)), inb_S8x128_S1x16_7_80, rfl⟩
    · exact ⟨_, List.mem_cons_of_mem _ (List.mem_cons_self), inb_S8x128_S1x16_7_96, rfl⟩
    · exact ⟨_, List.mem_cons_self, inb_S8x128_S1x16_7_112, rfl⟩
  have hrows : ∀ p ∈ sL7 d L zf af f0 f1 f2 f3 hpre, ∃ r ∈ [7], ∃ c inb, p.1 = Rect.unit (s := S8x128) ![r, c] S1x16.size inb := by
    unfold sL7
    exact (List.forall_mem_cons.2 ⟨⟨7, by decide, 112, inb_S8x128_S1x16_7_112, rfl⟩, (List.forall_mem_cons.2 ⟨⟨7, by decide, 96, inb_S8x128_S1x16_7_96, rfl⟩, (List.forall_mem_cons.2 ⟨⟨7, by decide, 80, inb_S8x128_S1x16_7_80, rfl⟩, (List.forall_mem_cons.2 ⟨⟨7, by decide, 64, inb_S8x128_S1x16_7_64, rfl⟩, (List.forall_mem_cons.2 ⟨⟨7, by decide, 48, inb_S8x128_S1x16_7_48, rfl⟩, (List.forall_mem_cons.2 ⟨⟨7, by decide, 32, inb_S8x128_S1x16_7_32, rfl⟩, (List.forall_mem_cons.2 ⟨⟨7, by decide, 16, inb_S8x128_S1x16_7_16, rfl⟩, (List.forall_mem_cons.2 ⟨⟨7, by decide, 0, inb_S8x128_S1x16_7_0, rfl⟩, (fun _ hp => nomatch hp)⟩)⟩)⟩)⟩)⟩)⟩)⟩)⟩)
  unfold K7
  rw [read_scaled (J7 d L zf af f0 f1 f2 f3 hpre) (sL7 d L zf af f0 f1 f2 f3 hpre) [7] hag hcov hrows y]
  unfold J7
  rw [read_joined]
  exact level_step 7 (y 0).val (fun t => FloatOps.mulf t (Cert.Spec.scale (F := F))) _ _ _
    (fun hy => c3u7_read d L zf af f0 f1 f2 f3 hpre y hy) (K6_read d L zf af f0 f1 f2 f3 hpre y)

/-! ## What the task copies out -/

theorem c3_row_all (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (c3 d L zf af f0 f1 f2 f3 hpre) y = af (ValueIdx.ix1 (Cert.Spec.aPos zf (rowF L y))) := by
  have h := ValueIdx.idx2_lt0 y
  obtain h0 | h0 | h0 | h0 | h0 | h0 | h0 | h0 : (y 0).val = 0 ∨ (y 0).val = 1 ∨ (y 0).val = 2 ∨ (y 0).val = 3 ∨ (y 0).val = 4 ∨ (y 0).val = 5
      ∨ (y 0).val = 6 ∨ (y 0).val = 7 := by omega
  · exact c3_row0 d L zf af f0 f1 f2 f3 hpre y h0
  · exact c3_row1 d L zf af f0 f1 f2 f3 hpre y h0
  · exact c3_row2 d L zf af f0 f1 f2 f3 hpre y h0
  · exact c3_row3 d L zf af f0 f1 f2 f3 hpre y h0
  · exact c3_row4 d L zf af f0 f1 f2 f3 hpre y h0
  · exact c3_row5 d L zf af f0 f1 f2 f3 hpre y h0
  · exact c3_row6 d L zf af f0 f1 f2 f3 hpre y h0
  · exact c3_row7 d L zf af f0 f1 f2 f3 hpre y h0

/-- Every entry of the fourth scratch buffer, at the end, is the specified result of its row. -/
theorem K7_value (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K7 d L zf af f0 f1 f2 f3 hpre) y = Cert.Spec.outAtF zf af (rowF L y) := by
  have h := ValueIdx.idx2_lt0 y
  rw [K7_read, if_pos (by omega), c3_row_all]
  rfl

end Cert.KI

end
-- ==== Proof.BodyO.lean ====
/-
  The task's copy out: its eight rows of the block, written whole with what the fourth scratch buffer reads at the end,
  hold the specified block there — block entry (8 w + y₀, y₁) is the result of row 1024 w + 128 y₀ + y₁.
-/
import proofs.«207294_g27419071217675_cont_9to1_1737_29_alg».proof.Proof.BodyV

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The result row of block entry (8 w + y₀, y₁). -/
theorem rowOf_emb (L : grid0.Coords) (y : S8x128.Idx) :
    Cert.Spec.rowOf (((oRowK L).view.emb y) 0) (((oRowK L).view.emb y) 1) = rowF L y := by
  apply Fin.ext
  have h0 : (L 0).val = 0 := by have := (L 0).isLt; simpa using this
  have e0 : (((oRowK L).view.emb y) 0).val = 8 * (L 1).val + (y 0).val := by
    show ((orowK L).emb y 0).val = _
    rw [Rect.emb_apply]
    simp [orowK, k0_off1_eq, h0]
  have e1 : (((oRowK L).view.emb y) 1).val = (y 1).val := by
    show ((orowK L).emb y 1).val = _
    rw [Rect.emb_apply]
    simp [orowK, k0_off1_eq]
  show (((oRowK L).view.emb y) 0).val * 128 + (((oRowK L).view.emb y) 1).val = rowN L y
  rw [e0, e1]; unfold rowN; omega

/-- The block's rows after the copy, from what the copy carried. -/
theorem block_rows (d : Dev nD) (L : grid0.Coords) (zf : Buf (Elt F) (zLoc d)) (af : Buf (Elt F) (aLoc d)) (o : Buf (Elt F) (oLoc d))
    (pay : S8x128.Idx → Elt F .f32) (hpay : ∀ y, pay y = Cert.Spec.outAtF zf af (rowF L y)) :
    ((oRowK L).view.loc (V d (cV L) (jV L)) ↦[(oRowK L).view.set]{fullShare} ((oRowK L).view.writes (Elt F) o [⟨Rect.whole S8x128, pay⟩]) : sProp 𝕄)
      ⊢ oLoc d ↦[oRowSet (jL L)]{fullShare} (outBlk d zf af) := by
  rw [← pts_oRowK (F := F) d L]
  refine Entails.of_eq (pointsTo_congr fun i hi => ?_)
  obtain ⟨y, -, rfl⟩ := Finset.mem_map.mp hi
  have hr := congrFun (View.read_writes_whole (oRowK L).view o pay) y
  rw [View.read_apply] at hr
  have hv : ((oRowK L).view.writes (Elt F) o [⟨Rect.whole S8x128, pay⟩]) ((oRowK L).view.emb y) = pay y := by
    simpa using hr
  rw [hv, hpay]
  show _ = Cert.Spec.outAtF zf af (Cert.Spec.rowOf (((oRowK L).view.emb y) 0) (((oRowK L).view.emb y) 1))
  rw [rowOf_emb]

end Cert.KI

end
-- ==== Proof.BodyJoin.lean ====
/-
  Putting a delivered row back into the buffer it is a row of.

  While a copy into one row of a scratch buffer is in flight the row's elements are held apart from the rest of the
  buffer. Afterwards the rest (at contents `g`) and the row (at contents `fs`, the delivered values in place) are
  again one assertion about the buffer: at the contents "g, overwritten on the row by what `fs` holds there", which is
  the write through the row's view of the row read from `fs`. Only the values on the held elements matter.
-/
import proofs.«207294_g27419071217675_cont_9to1_1737_29_alg».proof.Proof.Common

noncomputable section

namespace Cert.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The write through a view `rv` of what `fs` holds on the view, over `g`: `fs` on the view's elements, `g` elsewhere. -/
theorem write_read_piecewise {κ : Kind} {sp : Space} {s : Shape} {e : EltTy} (rv : View sig κ sp s e)
    (g fs : rv.ty.Contents (Elt F)) (i : rv.ty.Idx) :
    View.write (Elt F) rv g (View.read (Elt F) rv fs) Finset.univ i = (rv.set).piecewise fs g i := by
  by_cases hi : i ∈ rv.set
  · rw [Finset.piecewise_eq_of_mem _ _ _ hi]
    obtain ⟨x, -, rfl⟩ := Finset.mem_map.mp hi
    rw [View.write_emb_of_mem _ _ (Finset.mem_univ _), View.read_apply, cast_cast, cast_eq]
  · rw [Finset.piecewise_eq_of_notMem _ _ _ hi, View.write_of_not_mem _ _ _ (by rwa [View.setOn_univ])]

/-- The rest of a buffer at `g` and a view's elements at `fs` are the buffer's elements `X` (which contain the view's)
    at the write through the view of what `fs` holds there, over `g`. -/
theorem join_view (c : Thread nD τ) {sp : Space} {s : Shape} {e : EltTy} (rv : View sig c.2.kind sp s e)
    (X : Finset (Idx (rv.loc c))) (hIX : rv.set ⊆ X) (g fs : Buf (Elt F) (rv.loc c)) :
    iprop((rv.loc c ↦[X \ rv.set]{fullShare} g) ∗ (rv.loc c ↦[rv.set]{fullShare} fs))
      ⊢ (rv.loc c ↦[X]{fullShare} (View.write (Elt F) rv g (View.read (Elt F) rv fs) Finset.univ) : sProp 𝕄) := by
  refine (sep_comm.1.trans (pointsTo_join_subset hIX)).trans (Entails.of_eq (pointsTo_congr fun i _ => ?_))
  exact (write_read_piecewise rv g fs i).symm

end Cert.KI

end
-- ==== Proof.BodyRows8.lean ====
/-
  The eight rows of an 8 × 128 scratch buffer are pairwise disjoint, and a row held apart can be put back under any
  number of later rows still held apart.

  Row r's elements are the indices (r, q); two different rows share none. If the rest of a buffer is held on "everything
  but row r and then but some other sets W₁, …, Wₙ", each disjoint from row r, then together with row r it is the
  buffer held on "everything but W₁, …, Wₙ": removing sets one after another does not depend on the order, and a set
  disjoint from all the removed ones survives every removal.
-/
import proofs.«207294_g27419071217675_cont_9to1_1737_29_alg».proof.Proof.BodyJoin

noncomputable section

namespace Cert.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Two different rows of an 8 × 128 buffer, each addressed as a vector of 128, have no element in common. -/
theorem rows_disjoint {e : EltTy} (m : Memref sig .scVector .vmem S8x128 e) (r k : ℕ) (h : r ≠ k)
    (inb : ∀ a, (![r, 0] : Fin 2 → ℕ) a + S1x128.size a ≤ S8x128.size a)
    (inb' : ∀ a, (![k, 0] : Fin 2 → ℕ) a + S1x128.size a ≤ S8x128.size a) :
    Disjoint ((m.slice (Rect.unit (s := S8x128) ![r, 0] S1x128.size inb) (fun _ => rfl)).squeeze S128 squeezes_S1x128_S128).view.set
      ((m.slice (Rect.unit (s := S8x128) ![k, 0] S1x128.size inb') (fun _ => rfl)).squeeze S128 squeezes_S1x128_S128).view.set := by
  show Disjoint ((m.view.slice (Rect.unit (s := S8x128) ![r, 0] S1x128.size inb)).reshape S128 squeezes_S1x128_S128.numel_eq).set
    ((m.view.slice (Rect.unit (s := S8x128) ![k, 0] S1x128.size inb')).reshape S128 squeezes_S1x128_S128.numel_eq).set
  rw [View.set_reshape, View.set_reshape, View.set_slice, View.set_slice, Finset.disjoint_map]
  refine Rect.unit_disjoint 0 ?_
  show r + 1 ≤ k ∨ k + 1 ≤ r
  omega

/-- Removing a list of sets one after another: one more set removed first may as well be removed last. -/
theorem foldl_sdiff_first {α : Type} [DecidableEq α] (Ws : List (Finset α)) (A B : Finset α) :
    Ws.foldl (· \ ·) (A \ B) = (Ws.foldl (· \ ·) A) \ B := by
  induction Ws generalizing A with
  | nil => rfl
  | cons W Ws ih =>
    show Ws.foldl (· \ ·) ((A \ B) \ W) = (Ws.foldl (· \ ·) (A \ W)) \ B
    rw [sdiff_right_comm, ih]

/-- A set disjoint from every removed set survives all the removals. -/
theorem subset_foldl_sdiff {α : Type} [DecidableEq α] (Ws : List (Finset α)) (S A : Finset α) (hSA : S ⊆ A)
    (hdis : ∀ W ∈ Ws, Disjoint S W) : S ⊆ Ws.foldl (· \ ·) A := by
  induction Ws generalizing A with
  | nil => exact hSA
  | cons W Ws ih =>
    exact ih (A \ W) (Finset.subset_sdiff.mpr ⟨hSA, hdis W (List.mem_cons_self ..)⟩) fun W' hW' => hdis W' (List.mem_cons_of_mem _ hW')

/-- The rest of a buffer, held on everything but a view's elements and then but the sets `Ws`, and the view's elements,
    are the buffer held on everything but the sets `Ws` — when each of them is disjoint from the view's elements. -/
theorem join_layer (c : Thread nD τ) {sp : Space} {s : Shape} {e : EltTy} (rv : View sig c.2.kind sp s e)
    (Ws : List (Finset (Idx (rv.loc c)))) (hdis : ∀ W ∈ Ws, Disjoint rv.set W) (g fs : Buf (Elt F) (rv.loc c)) :
    iprop((rv.loc c ↦[Ws.foldl (· \ ·) (Finset.univ \ rv.set)]{fullShare} g) ∗ (rv.loc c ↦[rv.set]{fullShare} fs))
      ⊢ (rv.loc c ↦[Ws.foldl (· \ ·) Finset.univ]{fullShare} (View.write (Elt F) rv g (View.read (Elt F) rv fs) Finset.univ) : sProp 𝕄) := by
  rw [foldl_sdiff_first]
  exact join_view c rv _ (subset_foldl_sdiff Ws _ _ (Finset.subset_univ _) hdis) g fs

end Cert.KI

end
-- ==== Proof.BodyJoin3.lean ====
/-
  A delivered row of the fourth scratch buffer put back among the rows the task holds, while later rows are still
  lent to the gathers that fill them: one statement per row, the later rows' sets spelt out.
-/
import proofs.«207294_g27419071217675_cont_9to1_1737_29_alg».proof.Proof.BodySetup
import proofs.«207294_g27419071217675_cont_9to1_1737_29_alg».proof.Proof.BodyRows8

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem join3_2 (d : Dev nD) (L : grid0.Coords) (g fs : Buf (Elt F) ((s3V).view.loc (V d (cV L) (jV L)))) :
    iprop((View.loc (V d (cV L) (jV L)) (s3V).view ↦[((((((Finset.univ \ (((s3V).slice (Rect.unit (s := S8x128) ![2, 0] S1x128.size inb_S8x128_S1x128_2_0) (fun _ => rfl)).squeeze S128 squeezes_S1x128_S128).view.set) \ (((s3V).slice (Rect.unit (s := S8x128) ![3, 0] S1x128.size inb_S8x128_S1x128_3_0) (fun _ => rfl)).squeeze S128 squeezes_S1x128_S128).view.set) \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![2, 0] S1x128.size inb_S8x128_S1x128_2_0) (fun _ => rfl)).squeeze S128 squeezes_S1x128_S128).view.set]{fullShare} fs))
      ⊢ (View.loc (V d (cV L) (jV L)) (s3V).view ↦[(((((Finset.univ \ (((s3V).slice (Rect.unit (s := S8x128) ![3, 0] S1x128.size inb_S8x128_S1x128_3_0) (fun _ => rfl)).squeeze S128 squeezes_S1x128_S128).view.set) \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![2, 0] S1x128.size inb_S8x128_S1x128_2_0) (fun _ => rfl)).squeeze S128 squeezes_S1x128_S128).view g (View.read (Elt F) (((s3V).slice (Rect.unit (s := S8x128) ![2, 0] S1x128.size inb_S8x128_S1x128_2_0) (fun _ => rfl)).squeeze S128 squeezes_S1x128_S128).view fs) Finset.univ) : sProp 𝕄) :=
  join_layer (F := F) (V d (cV L) (jV L)) (((s3V).slice (Rect.unit (s := S8x128) ![2, 0] S1x128.size inb_S8x128_S1x128_2_0) (fun _ => rfl)).squeeze S128 squeezes_S1x128_S128).view [(((s3V).slice (Rect.unit (s := S8x128) ![3, 0] S1x128.size inb_S8x128_S1x128_3_0) (fun _ => rfl)).squeeze S128 squeezes_S1x128_S128).view.set, (((s3V).slice (Rect.unit (s := S8x128) ![4, 0] S1x128.size inb_S8x128_S1x128_4_0) (fun _ => rfl)).squeeze S128 squeezes_S1x128_S128).view.set, (((s3V).slice (Rect.unit (s := S8x128) ![5, 0] S1x128.size inb_S8x128_S1x128_5_0) (fun _ => rfl)).squeeze S128 squeezes_S1x128_S128).view.set, (((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl | rfl | rfl | rfl
    · exact rows_disjoint (s3V) 2 3 (by decide) _ _
    · exact rows_disjoint (s3V) 2 4 (by decide) _ _
    · exact rows_disjoint (s3V) 2 5 (by decide) _ _
    · exact rows_disjoint (s3V) 2 6 (by decide) _ _
    · exact rows_disjoint (s3V) 2 7 (by decide) _ _) g fs

theorem join3_3 (d : Dev nD) (L : grid0.Coords) (g fs : Buf (Elt F) ((s3V).view.loc (V d (cV L) (jV L)))) :
    iprop((View.loc (V d (cV L) (jV L)) (s3V).view ↦[(((((Finset.univ \ (((s3V).slice (Rect.unit (s := S8x128) ![3, 0] S1x128.size inb_S8x128_S1x128_3_0) (fun _ => rfl)).squeeze S128 squeezes_S1x128_S128).view.set) \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![3, 0] S1x128.size inb_S8x128_S1x128_3_0) (fun _ => rfl)).squeeze S128 squeezes_S1x128_S128).view.set]{fullShare} fs))
      ⊢ (View.loc (V d (cV L) (jV L)) (s3V).view ↦[((((Finset.univ \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![3, 0] S1x128.size inb_S8x128_S1x128_3_0) (fun _ => rfl)).squeeze S128 squeezes_S1x128_S128).view g (View.read (Elt F) (((s3V).slice (Rect.unit (s := S8x128) ![3, 0] S1x128.size inb_S8x128_S1x128_3_0) (fun _ => rfl)).squeeze S128 squeezes_S1x128_S128).view fs) Finset.univ) : sProp 𝕄) :=
  join_layer (F := F) (V d (cV L) (jV L)) (((s3V).slice (Rect.unit (s := S8x128) ![3, 0] S1x128.size inb_S8x128_S1x128_3_0) (fun _ => rfl)).squeeze S128 squeezes_S1x128_S128).view [(((s3V).slice (Rect.unit (s := S8x128) ![4, 0] S1x128.size inb_S8x128_S1x128_4_0) (fun _ => rfl)).squeeze S128 squeezes_S1x128_S128).view.set, (((s3V).slice (Rect.unit (s := S8x128) ![5, 0] S1x128.size inb_S8x128_S1x128_5_0) (fun _ => rfl)).squeeze S128 squeezes_S1x128_S128).view.set, (((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl | rfl | rfl
    · exact rows_disjoint (s3V) 3 4 (by decide) _ _
    · exact rows_disjoint (s3V) 3 5 (by decide) _ _
    · exact rows_disjoint (s3V) 3 6 (by decide) _ _
    · exact rows_disjoint (s3V) 3 7 (by decide) _ _) g fs

theorem join3_4 (d : Dev nD) (L : grid0.Coords) (g fs : Buf (Elt F) ((s3V).view.loc (V d (cV L) (jV L)))) :
    iprop((View.loc (V d (cV L) (jV L)) (s3V).view ↦[((((Finset.univ \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![4, 0] S1x128.size inb_S8x128_S1x128_4_0) (fun _ => rfl)).squeeze S128 squeezes_S1x128_S128).view.set]{fullShare} fs))
      ⊢ (View.loc (V d (cV L) (jV L)) (s3V).view ↦[(((Finset.univ \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![4, 0] S1x128.size inb_S8x128_S1x128_4_0) (fun _ => rfl)).squeeze S128 squeezes_S1x128_S128).view g (View.read (Elt F) (((s3V).slice (Rect.unit (s := S8x128) ![4, 0] S1x128.size inb_S8x128_S1x128_4_0) (fun _ => rfl)).squeeze S128 squeezes_S1x128_S128).view fs) Finset.univ) : sProp 𝕄) :=
  join_layer (F := F) (V d (cV L) (jV L)) (((s3V).slice (Rect.unit (s := S8x128) ![4, 0] S1x128.size inb_S8x128_S1x128_4_0) (fun _ => rfl)).squeeze S128 squeezes_S1x128_S128).view [(((s3V).slice (Rect.unit (s := S8x128) ![5, 0] S1x128.size inb_S8x128_S1x128_5_0) (fun _ => rfl)).squeeze S128 squeezes_S1x128_S128).view.set, (((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl | rfl
    · exact rows_disjoint (s3V) 4 5 (by decide) _ _
    · exact rows_disjoint (s3V) 4 6 (by decide) _ _
    · exact rows_disjoint (s3V) 4 7 (by decide) _ _) g fs

theorem join3_5 (d : Dev nD) (L : grid0.Coords) (g fs : Buf (Elt F) ((s3V).view.loc (V d (cV L) (jV L)))) :
    iprop((View.loc (V d (cV L) (jV L)) (s3V).view ↦[(((Finset.univ \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![5, 0] S1x128.size inb_S8x128_S1x128_5_0) (fun _ => rfl)).squeeze S128 squeezes_S1x128_S128).view.set]{fullShare} fs))
      ⊢ (View.loc (V d (cV L) (jV L)) (s3V).view ↦[((Finset.univ \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![5, 0] S1x128.size inb_S8x128_S1x128_5_0) (fun _ => rfl)).squeeze S128 squeezes_S1x128_S128).view g (View.read (Elt F) (((s3V).slice (Rect.unit (s := S8x128) ![5, 0] S1x128.size inb_S8x128_S1x128_5_0) (fun _ => rfl)).squeeze S128 squeezes_S1x128_S128).view fs) Finset.univ) : sProp 𝕄) :=
  join_layer (F := F) (V d (cV L) (jV L)) (((s3V).slice (Rect.unit (s := S8x128) ![5, 0] S1x128.size inb_S8x128_S1x128_5_0) (fun _ => rfl)).squeeze S128 squeezes_S1x128_S128).view [(((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl
    · exact rows_disjoint (s3V) 5 6 (by decide) _ _
    · exact rows_disjoint (s3V) 5 7 (by decide) _ _) g fs

theorem join3_6 (d : Dev nD) (L : grid0.Coords) (g fs : Buf (Elt F) ((s3V).view.loc (V d (cV L) (jV L)))) :
    iprop((View.loc (V d (cV L) (jV L)) (s3V).view ↦[((Finset.univ \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![6, 0] S1x128.size inb_S8x128_S1x128_6_0) (fun _ => rfl)).squeeze S128 squeezes_S1x128_S128).view.set]{fullShare} fs))
      ⊢ (View.loc (V d (cV L) (jV L)) (s3V).view ↦[(Finset.univ \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![6, 0] S1x128.size inb_S8x128_S1x128_6_0) (fun _ => rfl)).squeeze S128 squeezes_S1x128_S128).view g (View.read (Elt F) (((s3V).slice (Rect.unit (s := S8x128) ![6, 0] S1x128.size inb_S8x128_S1x128_6_0) (fun _ => rfl)).squeeze S128 squeezes_S1x128_S128).view fs) Finset.univ) : sProp 𝕄) :=
  join_layer (F := F) (V d (cV L) (jV L)) (((s3V).slice (Rect.unit (s := S8x128) ![6, 0] S1x128.size inb_S8x128_S1x128_6_0) (fun _ => rfl)).squeeze S128 squeezes_S1x128_S128).view [(((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl
    · exact rows_disjoint (s3V) 6 7 (by decide) _ _) g fs

theorem join3_7 (d : Dev nD) (L : grid0.Coords) (g fs : Buf (Elt F) ((s3V).view.loc (V d (cV L) (jV L)))) :
    iprop((View.loc (V d (cV L) (jV L)) (s3V).view ↦[(Finset.univ \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![7, 0] S1x128.size inb_S8x128_S1x128_7_0) (fun _ => rfl)).squeeze S128 squeezes_S1x128_S128).view.set]{fullShare} fs))
      ⊢ (View.loc (V d (cV L) (jV L)) (s3V).view ↦[Finset.univ]{fullShare}
          (View.write (Elt F) (((s3V).slice (Rect.unit (s := S8x128) ![7, 0] S1x128.size inb_S8x128_S1x128_7_0) (fun _ => rfl)).squeeze S128 squeezes_S1x128_S128).view g (View.read (Elt F) (((s3V).slice (Rect.unit (s := S8x128) ![7, 0] S1x128.size inb_S8x128_S1x128_7_0) (fun _ => rfl)).squeeze S128 squeezes_S1x128_S128).view fs) Finset.univ) : sProp 𝕄) :=
  join_layer (F := F) (V d (cV L) (jV L)) (((s3V).slice (Rect.unit (s := S8x128) ![7, 0] S1x128.size inb_S8x128_S1x128_7_0) (fun _ => rfl)).squeeze S128 squeezes_S1x128_S128).view [] (by intro W hW; exact absurd hW List.not_mem_nil) g fs

end Cert.KI

end
-- ==== Proof.BodyJoinL.lean ====
/-
  The list windows of the first and third scratch buffers put back among the rows the task holds, once every gather
  is waited for: rows 0 … 5 of each are held apart at the end, one statement per row.
-/
import proofs.«207294_g27419071217675_cont_9to1_1737_29_alg».proof.Proof.BodySetup
import proofs.«207294_g27419071217675_cont_9to1_1737_29_alg».proof.Proof.BodyRows8

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem join0m5_0 (d : Dev nD) (L : grid0.Coords) (g fs : Buf (Elt F) ((s0V).view.loc (V d (cV L) (jV L)))) :
    iprop((View.loc (V d (cV L) (jV L)) (s0V).view ↦[((((((Finset.univ \ (((s0V).slice (Rect.unit (s := S8x128) ![0, 0] S1x128.size inb_S8x128_S1x128_0_0) (fun _ => rfl)).squeeze S128 squeezes_S1x128_S128).view.set) \ (((s0V).slice (Rect.unit (s := S8x128) ![1, 0] S1x128.size inb_S8x128_S1x128_1_0) (fun _ => rfl)).squeeze S128 squeezes_S1x128_S128).view.set) \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![0, 0] S1x128.size inb_S8x128_S1x128_0_0) (fun _ => rfl)).squeeze S128 squeezes_S1x128_S128).view.set]{fullShare} fs))
      ⊢ (View.loc (V d (cV L) (jV L)) (s0V).view ↦[(((((Finset.univ \ (((s0V).slice (Rect.unit (s := S8x128) ![1, 0] S1x128.size inb_S8x128_S1x128_1_0) (fun _ => rfl)).squeeze S128 squeezes_S1x128_S128).view.set) \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![0, 0] S1x128.size inb_S8x128_S1x128_0_0) (fun _ => rfl)).squeeze S128 squeezes_S1x128_S128).view g (View.read (Elt F) (((s0V).slice (Rect.unit (s := S8x128) ![0, 0] S1x128.size inb_S8x128_S1x128_0_0) (fun _ => rfl)).squeeze S128 squeezes_S1x128_S128).view fs) Finset.univ) : sProp 𝕄) :=
  join_layer (F := F) (V d (cV L) (jV L)) (((s0V).slice (Rect.unit (s := S8x128) ![0, 0] S1x128.size inb_S8x128_S1x128_0_0) (fun _ => rfl)).squeeze S128 squeezes_S1x128_S128).view [(((s0V).slice (Rect.unit (s := S8x128) ![1, 0] S1x128.size inb_S8x128_S1x128_1_0) (fun _ => rfl)).squeeze S128 squeezes_S1x128_S128).view.set, (((s0V).slice (Rect.unit (s := S8x128) ![2, 0] S1x128.size inb_S8x128_S1x128_2_0) (fun _ => rfl)).squeeze S128 squeezes_S1x128_S128).view.set, (((s0V).slice (Rect.unit (s := S8x128) ![3, 0] S1x128.size inb_S8x128_S1x128_3_0) (fun _ => rfl)).squeeze S128 squeezes_S1x128_S128).view.set, (((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl | rfl
    · exact rows_disjoint (s0V) 0 1 (by decide) _ _
    · exact rows_disjoint (s0V) 0 2 (by decide) _ _
    · exact rows_disjoint (s0V) 0 3 (by decide) _ _
    · exact rows_disjoint (s0V) 0 4 (by decide) _ _
    · exact rows_disjoint (s0V) 0 5 (by decide) _ _) g fs

theorem join0m5_1 (d : Dev nD) (L : grid0.Coords) (g fs : Buf (Elt F) ((s0V).view.loc (V d (cV L) (jV L)))) :
    iprop((View.loc (V d (cV L) (jV L)) (s0V).view ↦[(((((Finset.univ \ (((s0V).slice (Rect.unit (s := S8x128) ![1, 0] S1x128.size inb_S8x128_S1x128_1_0) (fun _ => rfl)).squeeze S128 squeezes_S1x128_S128).view.set) \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![1, 0] S1x128.size inb_S8x128_S1x128_1_0) (fun _ => rfl)).squeeze S128 squeezes_S1x128_S128).view.set]{fullShare} fs))
      ⊢ (View.loc (V d (cV L) (jV L)) (s0V).view ↦[((((Finset.univ \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![1, 0] S1x128.size inb_S8x128_S1x128_1_0) (fun _ => rfl)).squeeze S128 squeezes_S1x128_S128).view g (View.read (Elt F) (((s0V).slice (Rect.unit (s := S8x128) ![1, 0] S1x128.size inb_S8x128_S1x128_1_0) (fun _ => rfl)).squeeze S128 squeezes_S1x128_S128).view fs) Finset.univ) : sProp 𝕄) :=
  join_layer (F := F) (V d (cV L) (jV L)) (((s0V).slice (Rect.unit (s := S8x128) ![1, 0] S1x128.size inb_S8x128_S1x128_1_0) (fun _ => rfl)).squeeze S128 squeezes_S1x128_S128).view [(((s0V).slice (Rect.unit (s := S8x128) ![2, 0] S1x128.size inb_S8x128_S1x128_2_0) (fun _ => rfl)).squeeze S128 squeezes_S1x128_S128).view.set, (((s0V).slice (Rect.unit (s := S8x128) ![3, 0] S1x128.size inb_S8x128_S1x128_3_0) (fun _ => rfl)).squeeze S128 squeezes_S1x128_S128).view.set, (((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl
    · exact rows_disjoint (s0V) 1 2 (by decide) _ _
    · exact rows_disjoint (s0V) 1 3 (by decide) _ _
    · exact rows_disjoint (s0V) 1 4 (by decide) _ _
    · exact rows_disjoint (s0V) 1 5 (by decide) _ _) g fs

theorem join0m5_2 (d : Dev nD) (L : grid0.Coords) (g fs : Buf (Elt F) ((s0V).view.loc (V d (cV L) (jV L)))) :
    iprop((View.loc (V d (cV L) (jV L)) (s0V).view ↦[((((Finset.univ \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![2, 0] S1x128.size inb_S8x128_S1x128_2_0) (fun _ => rfl)).squeeze S128 squeezes_S1x128_S128).view.set]{fullShare} fs))
      ⊢ (View.loc (V d (cV L) (jV L)) (s0V).view ↦[(((Finset.univ \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![2, 0] S1x128.size inb_S8x128_S1x128_2_0) (fun _ => rfl)).squeeze S128 squeezes_S1x128_S128).view g (View.read (Elt F) (((s0V).slice (Rect.unit (s := S8x128) ![2, 0] S1x128.size inb_S8x128_S1x128_2_0) (fun _ => rfl)).squeeze S128 squeezes_S1x128_S128).view fs) Finset.univ) : sProp 𝕄) :=
  join_layer (F := F) (V d (cV L) (jV L)) (((s0V).slice (Rect.unit (s := S8x128) ![2, 0] S1x128.size inb_S8x128_S1x128_2_0) (fun _ => rfl)).squeeze S128 squeezes_S1x128_S128).view [(((s0V).slice (Rect.unit (s := S8x128) ![3, 0] S1x128.size inb_S8x128_S1x128_3_0) (fun _ => rfl)).squeeze S128 squeezes_S1x128_S128).view.set, (((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl
    · exact rows_disjoint (s0V) 2 3 (by decide) _ _
    · exact rows_disjoint (s0V) 2 4 (by decide) _ _
    · exact rows_disjoint (s0V) 2 5 (by decide) _ _) g fs

theorem join0m5_3 (d : Dev nD) (L : grid0.Coords) (g fs : Buf (Elt F) ((s0V).view.loc (V d (cV L) (jV L)))) :
    iprop((View.loc (V d (cV L) (jV L)) (s0V).view ↦[(((Finset.univ \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![3, 0] S1x128.size inb_S8x128_S1x128_3_0) (fun _ => rfl)).squeeze S128 squeezes_S1x128_S128).view.set]{fullShare} fs))
      ⊢ (View.loc (V d (cV L) (jV L)) (s0V).view ↦[((Finset.univ \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![3, 0] S1x128.size inb_S8x128_S1x128_3_0) (fun _ => rfl)).squeeze S128 squeezes_S1x128_S128).view g (View.read (Elt F) (((s0V).slice (Rect.unit (s := S8x128) ![3, 0] S1x128.size inb_S8x128_S1x128_3_0) (fun _ => rfl)).squeeze S128 squeezes_S1x128_S128).view fs) Finset.univ) : sProp 𝕄) :=
  join_layer (F := F) (V d (cV L) (jV L)) (((s0V).slice (Rect.unit (s := S8x128) ![3, 0] S1x128.size inb_S8x128_S1x128_3_0) (fun _ => rfl)).squeeze S128 squeezes_S1x128_S128).view [(((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl
    · exact rows_disjoint (s0V) 3 4 (by decide) _ _
    · exact rows_disjoint (s0V) 3 5 (by decide) _ _) g fs

theorem join0m5_4 (d : Dev nD) (L : grid0.Coords) (g fs : Buf (Elt F) ((s0V).view.loc (V d (cV L) (jV L)))) :
    iprop((View.loc (V d (cV L) (jV L)) (s0V).view ↦[((Finset.univ \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![4, 0] S1x128.size inb_S8x128_S1x128_4_0) (fun _ => rfl)).squeeze S128 squeezes_S1x128_S128).view.set]{fullShare} fs))
      ⊢ (View.loc (V d (cV L) (jV L)) (s0V).view ↦[(Finset.univ \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![4, 0] S1x128.size inb_S8x128_S1x128_4_0) (fun _ => rfl)).squeeze S128 squeezes_S1x128_S128).view g (View.read (Elt F) (((s0V).slice (Rect.unit (s := S8x128) ![4, 0] S1x128.size inb_S8x128_S1x128_4_0) (fun _ => rfl)).squeeze S128 squeezes_S1x128_S128).view fs) Finset.univ) : sProp 𝕄) :=
  join_layer (F := F) (V d (cV L) (jV L)) (((s0V).slice (Rect.unit (s := S8x128) ![4, 0] S1x128.size inb_S8x128_S1x128_4_0) (fun _ => rfl)).squeeze S128 squeezes_S1x128_S128).view [(((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl
    · exact rows_disjoint (s0V) 4 5 (by decide) _ _) g fs

theorem join0m5_5 (d : Dev nD) (L : grid0.Coords) (g fs : Buf (Elt F) ((s0V).view.loc (V d (cV L) (jV L)))) :
    iprop((View.loc (V d (cV L) (jV L)) (s0V).view ↦[(Finset.univ \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![5, 0] S1x128.size inb_S8x128_S1x128_5_0) (fun _ => rfl)).squeeze S128 squeezes_S1x128_S128).view.set]{fullShare} fs))
      ⊢ (View.loc (V d (cV L) (jV L)) (s0V).view ↦[Finset.univ]{fullShare}
          (View.write (Elt F) (((s0V).slice (Rect.unit (s := S8x128) ![5, 0] S1x128.size inb_S8x128_S1x128_5_0) (fun _ => rfl)).squeeze S128 squeezes_S1x128_S128).view g (View.read (Elt F) (((s0V).slice (Rect.unit (s := S8x128) ![5, 0] S1x128.size inb_S8x128_S1x128_5_0) (fun _ => rfl)).squeeze S128 squeezes_S1x128_S128).view fs) Finset.univ) : sProp 𝕄) :=
  join_layer (F := F) (V d (cV L) (jV L)) (((s0V).slice (Rect.unit (s := S8x128) ![5, 0] S1x128.size inb_S8x128_S1x128_5_0) (fun _ => rfl)).squeeze S128 squeezes_S1x128_S128).view [] (by intro W hW; exact absurd hW List.not_mem_nil) g fs

theorem join2m5_0 (d : Dev nD) (L : grid0.Coords) (g fs : Buf (Elt F) ((s2V).view.loc (V d (cV L) (jV L)))) :
    iprop((View.loc (V d (cV L) (jV L)) (s2V).view ↦[((((((Finset.univ \ (((s2V).slice (Rect.unit (s := S8x128) ![0, 0] S1x128.size inb_S8x128_S1x128_0_0) (fun _ => rfl)).squeeze S128 squeezes_S1x128_S128).view.set) \ (((s2V).slice (Rect.unit (s := S8x128) ![1, 0] S1x128.size inb_S8x128_S1x128_1_0) (fun _ => rfl)).squeeze S128 squeezes_S1x128_S128).view.set) \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![0, 0] S1x128.size inb_S8x128_S1x128_0_0) (fun _ => rfl)).squeeze S128 squeezes_S1x128_S128).view.set]{fullShare} fs))
      ⊢ (View.loc (V d (cV L) (jV L)) (s2V).view ↦[(((((Finset.univ \ (((s2V).slice (Rect.unit (s := S8x128) ![1, 0] S1x128.size inb_S8x128_S1x128_1_0) (fun _ => rfl)).squeeze S128 squeezes_S1x128_S128).view.set) \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![0, 0] S1x128.size inb_S8x128_S1x128_0_0) (fun _ => rfl)).squeeze S128 squeezes_S1x128_S128).view g (View.read (Elt F) (((s2V).slice (Rect.unit (s := S8x128) ![0, 0] S1x128.size inb_S8x128_S1x128_0_0) (fun _ => rfl)).squeeze S128 squeezes_S1x128_S128).view fs) Finset.univ) : sProp 𝕄) :=
  join_layer (F := F) (V d (cV L) (jV L)) (((s2V).slice (Rect.unit (s := S8x128) ![0, 0] S1x128.size inb_S8x128_S1x128_0_0) (fun _ => rfl)).squeeze S128 squeezes_S1x128_S128).view [(((s2V).slice (Rect.unit (s := S8x128) ![1, 0] S1x128.size inb_S8x128_S1x128_1_0) (fun _ => rfl)).squeeze S128 squeezes_S1x128_S128).view.set, (((s2V).slice (Rect.unit (s := S8x128) ![2, 0] S1x128.size inb_S8x128_S1x128_2_0) (fun _ => rfl)).squeeze S128 squeezes_S1x128_S128).view.set, (((s2V).slice (Rect.unit (s := S8x128) ![3, 0] S1x128.size inb_S8x128_S1x128_3_0) (fun _ => rfl)).squeeze S128 squeezes_S1x128_S128).view.set, (((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl | rfl
    · exact rows_disjoint (s2V) 0 1 (by decide) _ _
    · exact rows_disjoint (s2V) 0 2 (by decide) _ _
    · exact rows_disjoint (s2V) 0 3 (by decide) _ _
    · exact rows_disjoint (s2V) 0 4 (by decide) _ _
    · exact rows_disjoint (s2V) 0 5 (by decide) _ _) g fs

theorem join2m5_1 (d : Dev nD) (L : grid0.Coords) (g fs : Buf (Elt F) ((s2V).view.loc (V d (cV L) (jV L)))) :
    iprop((View.loc (V d (cV L) (jV L)) (s2V).view ↦[(((((Finset.univ \ (((s2V).slice (Rect.unit (s := S8x128) ![1, 0] S1x128.size inb_S8x128_S1x128_1_0) (fun _ => rfl)).squeeze S128 squeezes_S1x128_S128).view.set) \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![1, 0] S1x128.size inb_S8x128_S1x128_1_0) (fun _ => rfl)).squeeze S128 squeezes_S1x128_S128).view.set]{fullShare} fs))
      ⊢ (View.loc (V d (cV L) (jV L)) (s2V).view ↦[((((Finset.univ \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![1, 0] S1x128.size inb_S8x128_S1x128_1_0) (fun _ => rfl)).squeeze S128 squeezes_S1x128_S128).view g (View.read (Elt F) (((s2V).slice (Rect.unit (s := S8x128) ![1, 0] S1x128.size inb_S8x128_S1x128_1_0) (fun _ => rfl)).squeeze S128 squeezes_S1x128_S128).view fs) Finset.univ) : sProp 𝕄) :=
  join_layer (F := F) (V d (cV L) (jV L)) (((s2V).slice (Rect.unit (s := S8x128) ![1, 0] S1x128.size inb_S8x128_S1x128_1_0) (fun _ => rfl)).squeeze S128 squeezes_S1x128_S128).view [(((s2V).slice (Rect.unit (s := S8x128) ![2, 0] S1x128.size inb_S8x128_S1x128_2_0) (fun _ => rfl)).squeeze S128 squeezes_S1x128_S128).view.set, (((s2V).slice (Rect.unit (s := S8x128) ![3, 0] S1x128.size inb_S8x128_S1x128_3_0) (fun _ => rfl)).squeeze S128 squeezes_S1x128_S128).view.set, (((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl
    · exact rows_disjoint (s2V) 1 2 (by decide) _ _
    · exact rows_disjoint (s2V) 1 3 (by decide) _ _
    · exact rows_disjoint (s2V) 1 4 (by decide) _ _
    · exact rows_disjoint (s2V) 1 5 (by decide) _ _) g fs

theorem join2m5_2 (d : Dev nD) (L : grid0.Coords) (g fs : Buf (Elt F) ((s2V).view.loc (V d (cV L) (jV L)))) :
    iprop((View.loc (V d (cV L) (jV L)) (s2V).view ↦[((((Finset.univ \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![2, 0] S1x128.size inb_S8x128_S1x128_2_0) (fun _ => rfl)).squeeze S128 squeezes_S1x128_S128).view.set]{fullShare} fs))
      ⊢ (View.loc (V d (cV L) (jV L)) (s2V).view ↦[(((Finset.univ \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![2, 0] S1x128.size inb_S8x128_S1x128_2_0) (fun _ => rfl)).squeeze S128 squeezes_S1x128_S128).view g (View.read (Elt F) (((s2V).slice (Rect.unit (s := S8x128) ![2, 0] S1x128.size inb_S8x128_S1x128_2_0) (fun _ => rfl)).squeeze S128 squeezes_S1x128_S128).view fs) Finset.univ) : sProp 𝕄) :=
  join_layer (F := F) (V d (cV L) (jV L)) (((s2V).slice (Rect.unit (s := S8x128) ![2, 0] S1x128.size inb_S8x128_S1x128_2_0) (fun _ => rfl)).squeeze S128 squeezes_S1x128_S128).view [(((s2V).slice (Rect.unit (s := S8x128) ![3, 0] S1x128.size inb_S8x128_S1x128_3_0) (fun _ => rfl)).squeeze S128 squeezes_S1x128_S128).view.set, (((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl
    · exact rows_disjoint (s2V) 2 3 (by decide) _ _
    · exact rows_disjoint (s2V) 2 4 (by decide) _ _
    · exact rows_disjoint (s2V) 2 5 (by decide) _ _) g fs

theorem join2m5_3 (d : Dev nD) (L : grid0.Coords) (g fs : Buf (Elt F) ((s2V).view.loc (V d (cV L) (jV L)))) :
    iprop((View.loc (V d (cV L) (jV L)) (s2V).view ↦[(((Finset.univ \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![3, 0] S1x128.size inb_S8x128_S1x128_3_0) (fun _ => rfl)).squeeze S128 squeezes_S1x128_S128).view.set]{fullShare} fs))
      ⊢ (View.loc (V d (cV L) (jV L)) (s2V).view ↦[((Finset.univ \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![3, 0] S1x128.size inb_S8x128_S1x128_3_0) (fun _ => rfl)).squeeze S128 squeezes_S1x128_S128).view g (View.read (Elt F) (((s2V).slice (Rect.unit (s := S8x128) ![3, 0] S1x128.size inb_S8x128_S1x128_3_0) (fun _ => rfl)).squeeze S128 squeezes_S1x128_S128).view fs) Finset.univ) : sProp 𝕄) :=
  join_layer (F := F) (V d (cV L) (jV L)) (((s2V).slice (Rect.unit (s := S8x128) ![3, 0] S1x128.size inb_S8x128_S1x128_3_0) (fun _ => rfl)).squeeze S128 squeezes_S1x128_S128).view [(((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl
    · exact rows_disjoint (s2V) 3 4 (by decide) _ _
    · exact rows_disjoint (s2V) 3 5 (by decide) _ _) g fs

theorem join2m5_4 (d : Dev nD) (L : grid0.Coords) (g fs : Buf (Elt F) ((s2V).view.loc (V d (cV L) (jV L)))) :
    iprop((View.loc (V d (cV L) (jV L)) (s2V).view ↦[((Finset.univ \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![4, 0] S1x128.size inb_S8x128_S1x128_4_0) (fun _ => rfl)).squeeze S128 squeezes_S1x128_S128).view.set]{fullShare} fs))
      ⊢ (View.loc (V d (cV L) (jV L)) (s2V).view ↦[(Finset.univ \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![4, 0] S1x128.size inb_S8x128_S1x128_4_0) (fun _ => rfl)).squeeze S128 squeezes_S1x128_S128).view g (View.read (Elt F) (((s2V).slice (Rect.unit (s := S8x128) ![4, 0] S1x128.size inb_S8x128_S1x128_4_0) (fun _ => rfl)).squeeze S128 squeezes_S1x128_S128).view fs) Finset.univ) : sProp 𝕄) :=
  join_layer (F := F) (V d (cV L) (jV L)) (((s2V).slice (Rect.unit (s := S8x128) ![4, 0] S1x128.size inb_S8x128_S1x128_4_0) (fun _ => rfl)).squeeze S128 squeezes_S1x128_S128).view [(((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl
    · exact rows_disjoint (s2V) 4 5 (by decide) _ _) g fs

theorem join2m5_5 (d : Dev nD) (L : grid0.Coords) (g fs : Buf (Elt F) ((s2V).view.loc (V d (cV L) (jV L)))) :
    iprop((View.loc (V d (cV L) (jV L)) (s2V).view ↦[(Finset.univ \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![5, 0] S1x128.size inb_S8x128_S1x128_5_0) (fun _ => rfl)).squeeze S128 squeezes_S1x128_S128).view.set]{fullShare} fs))
      ⊢ (View.loc (V d (cV L) (jV L)) (s2V).view ↦[Finset.univ]{fullShare}
          (View.write (Elt F) (((s2V).slice (Rect.unit (s := S8x128) ![5, 0] S1x128.size inb_S8x128_S1x128_5_0) (fun _ => rfl)).squeeze S128 squeezes_S1x128_S128).view g (View.read (Elt F) (((s2V).slice (Rect.unit (s := S8x128) ![5, 0] S1x128.size inb_S8x128_S1x128_5_0) (fun _ => rfl)).squeeze S128 squeezes_S1x128_S128).view fs) Finset.univ) : sProp 𝕄) :=
  join_layer (F := F) (V d (cV L) (jV L)) (((s2V).slice (Rect.unit (s := S8x128) ![5, 0] S1x128.size inb_S8x128_S1x128_5_0) (fun _ => rfl)).squeeze S128 squeezes_S1x128_S128).view [] (by intro W hW; exact absurd hW List.not_mem_nil) g fs

end Cert.KI

end
-- ==== Proof.Body.lean ====
/-
  One task of the kernel, at a symbolic vector subcore: from its read shares of flat `z` and flat `a`, its eight rows of
  the result block, its scratch buffers and its semaphores, the task runs to the end and leaves its rows of the block at
  the specified values, everything else as it was.

  Phase one fills the first scratch buffer with positions of flat `z` (one list per row) and issues a gather per row
  into the second; phase two waits for each, turns the gathered selecting words into positions of flat `a` in the third
  scratch buffer and issues a gather per row into the fourth; phase three waits for each, scales the row, and the whole
  fourth buffer is copied into the task's rows of the block. Each gather needs its list's entries in range when it is
  issued: those facts are stated over the lists written so far (rows of the lists are never written again). Up to eight
  gathers read one flat array at once: each array is held as one read token per semaphore. A row of the fourth buffer
  delivered after sixteen or more later stores is put back among the held rows by a separate statement. At the end the
  tokens are joined, the list rows still held apart are joined under some contents, and the copied rows are the
  specified block because the fourth buffer reads, entry by entry, the scaled selected entry of its result row.
-/
import proofs.«207294_g27419071217675_cont_9to1_1737_29_alg».proof.Proof.BodyO
import proofs.«207294_g27419071217675_cont_9to1_1737_29_alg».proof.Proof.BodyJoin3
import proofs.«207294_g27419071217675_cont_9to1_1737_29_alg».proof.Proof.BodyJoinL

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 64000000 in
set_option maxRecDepth 65536 in
theorem tile_body : TileBodySpec (F := F) := by
  unfold TileBodySpec
  intro hF d L zf af o hpre O W hO
  unfold taskProg
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hz, Ha, Ho⟩, ⟨⟨%f0, Hs0⟩, ⟨%f1, Hs1⟩, ⟨%f2, Hs2⟩, ⟨%f3, Hs3⟩, Hbufs⟩, ⟨Hc0, Hc1, Hc2, Hc3, Hc4, Hc5, Hc6, Hc7, Hc8, Hc9, Hc10, Hc11, Hc12, Hc13, Hc14, Hc15, Hcs, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Ho' := (Entails.of_eq (pts_oRowK (F := F) d L _).symm) $$ Ho
  ihave Hs0' := (Entails.of_eq (pts_s0V (F := F) d L _).symm) $$ Hs0
  ihave Hs1' := (Entails.of_eq (pts_s1V (F := F) d L _).symm) $$ Hs1
  ihave Hs2' := (Entails.of_eq (pts_s2V (F := F) d L _).symm) $$ Hs2
  ihave Hs3' := (Entails.of_eq (pts_s3V (F := F) d L _).symm) $$ Hs3
  ihave Hzd0 := (Entails.of_eq (show (zLoc d ↦{rq (jL L)} zf : sProp 𝕄) = ((zV).view.loc (V d (cV L) (jV L)) ↦{Transfers.shareDrop (rq (jL L)) 0} zf) from rfl)) $$ Hz
  ihave Hzs0 := (tok_step (F := F) (ℓ := (zV).view.loc (V d (cV L) (jV L))) (I := Finset.univ) (f := zf) (rq (jL L)) 0).1 $$ Hzd0
  icases Hzs0 with ⟨Hzd1, Hzt0⟩
  ihave Hzs1 := (tok_step (F := F) (ℓ := (zV).view.loc (V d (cV L) (jV L))) (I := Finset.univ) (f := zf) (rq (jL L)) 1).1 $$ Hzd1
  icases Hzs1 with ⟨Hzd2, Hzt1⟩
  ihave Hzs2 := (tok_step (F := F) (ℓ := (zV).view.loc (V d (cV L) (jV L))) (I := Finset.univ) (f := zf) (rq (jL L)) 2).1 $$ Hzd2
  icases Hzs2 with ⟨Hzd3, Hzt2⟩
  ihave Hzs3 := (tok_step (F := F) (ℓ := (zV).view.loc (V d (cV L) (jV L))) (I := Finset.univ) (f := zf) (rq (jL L)) 3).1 $$ Hzd3
  icases Hzs3 with ⟨Hzd4, Hzt3⟩
  ihave Hzs4 := (tok_step (F := F) (ℓ := (zV).view.loc (V d (cV L) (jV L))) (I := Finset.univ) (f := zf) (rq (jL L)) 4).1 $$ Hzd4
  icases Hzs4 with ⟨Hzd5, Hzt4⟩
  ihave Hzs5 := (tok_step (F := F) (ℓ := (zV).view.loc (V d (cV L) (jV L))) (I := Finset.univ) (f := zf) (rq (jL L)) 5).1 $$ Hzd5
  icases Hzs5 with ⟨Hzd6, Hzt5⟩
  ihave Hzs6 := (tok_step (F := F) (ℓ := (zV).view.loc (V d (cV L) (jV L))) (I := Finset.univ) (f := zf) (rq (jL L)) 6).1 $$ Hzd6
  icases Hzs6 with ⟨Hzd7, Hzt6⟩
  ihave Hzs7 := (tok_step (F := F) (ℓ := (zV).view.loc (V d (cV L) (jV L))) (I := Finset.univ) (f := zf) (rq (jL L)) 7).1 $$ Hzd7
  icases Hzs7 with ⟨Hzd8, Hzt7⟩
  ihave Had0 := (Entails.of_eq (show (aLoc d ↦{rq (jL L)} af : sProp 𝕄) = ((aV).view.loc (V d (cV L) (jV L)) ↦{Transfers.shareDrop (rq (jL L)) 0} af) from rfl)) $$ Ha
  ihave Has0 := (tok_step (F := F) (ℓ := (aV).view.loc (V d (cV L) (jV L))) (I := Finset.univ) (f := af) (rq (jL L)) 0).1 $$ Had0
  icases Has0 with ⟨Had1, Hat0⟩
  ihave Has1 := (tok_step (F := F) (ℓ := (aV).view.loc (V d (cV L) (jV L))) (I := Finset.univ) (f := af) (rq (jL L)) 1).1 $$ Had1
  icases Has1 with ⟨Had2, Hat1⟩
  ihave Has2 := (tok_step (F := F) (ℓ := (aV).view.loc (V d (cV L) (jV L))) (I := Finset.univ) (f := af) (rq (jL L)) 2).1 $$ Had2
  icases Has2 with ⟨Had3, Hat2⟩
  ihave Has3 := (tok_step (F := F) (ℓ := (aV).view.loc (V d (cV L) (jV L))) (I := Finset.univ) (f := af) (rq (jL L)) 3).1 $$ Had3
  icases Has3 with ⟨Had4, Hat3⟩
  ihave Has4 := (tok_step (F := F) (ℓ := (aV).view.loc (V d (cV L) (jV L))) (I := Finset.univ) (f := af) (rq (jL L)) 4).1 $$ Had4
  icases Has4 with ⟨Had5, Hat4⟩
  ihave Has5 := (tok_step (F := F) (ℓ := (aV).view.loc (V d (cV L) (jV L))) (I := Finset.univ) (f := af) (rq (jL L)) 5).1 $$ Had5
  icases Has5 with ⟨Had6, Hat5⟩
  ihave Has6 := (tok_step (F := F) (ℓ := (aV).view.loc (V d (cV L) (jV L))) (I := Finset.univ) (f := af) (rq (jL L)) 6).1 $$ Had6
  icases Has6 with ⟨Had7, Hat6⟩
  ihave Has7 := (tok_step (F := F) (ℓ := (aV).view.loc (V d (cV L) (jV L))) (I := Finset.univ) (f := af) (rq (jL L)) 7).1 $$ Had7
  icases Has7 with ⟨Had8, Hat7⟩
  ihave Has8 := (tok_step (F := F) (ℓ := (aV).view.loc (V d (cV L) (jV L))) (I := Finset.univ) (f := af) (rq (jL L)) 8).1 $$ Had8
  icases Has8 with ⟨Had9, Hat8⟩
  ihave Has9 := (tok_step (F := F) (ℓ := (aV).view.loc (V d (cV L) (jV L))) (I := Finset.univ) (f := af) (rq (jL L)) 9).1 $$ Had9
  icases Has9 with ⟨Had10, Hat9⟩
  ihave Has10 := (tok_step (F := F) (ℓ := (aV).view.loc (V d (cV L) (jV L))) (I := Finset.univ) (f := af) (rq (jL L)) 10).1 $$ Had10
  icases Has10 with ⟨Had11, Hat10⟩
  ihave Has11 := (tok_step (F := F) (ℓ := (aV).view.loc (V d (cV L) (jV L))) (I := Finset.univ) (f := af) (rq (jL L)) 11).1 $$ Had11
  icases Has11 with ⟨Had12, Hat11⟩
  ihave Has12 := (tok_step (F := F) (ℓ := (aV).view.loc (V d (cV L) (jV L))) (I := Finset.univ) (f := af) (rq (jL L)) 12).1 $$ Had12
  icases Has12 with ⟨Had13, Hat12⟩
  ihave Has13 := (tok_step (F := F) (ℓ := (aV).view.loc (V d (cV L) (jV L))) (I := Finset.univ) (f := af) (rq (jL L)) 13).1 $$ Had13
  icases Has13 with ⟨Had14, Hat13⟩
  ihave Has14 := (tok_step (F := F) (ℓ := (aV).view.loc (V d (cV L) (jV L))) (I := Finset.univ) (f := af) (rq (jL L)) 14).1 $$ Had14
  icases Has14 with ⟨Had15, Hat14⟩
  ihave Has15 := (tok_step (F := F) (ℓ := (aV).view.loc (V d (cV L) (jV L))) (I := Finset.univ) (f := af) (rq (jL L)) 15).1 $$ Had15
  icases Has15 with ⟨Had16, Hat15⟩
  have hinZ0' := hinZ0 (F := F) L
  have hinZ1' := hinZ1 (F := F) L
  have hinZ2' := hinZ2 (F := F) L
  have hinZ3' := hinZ3 (F := F) L
  have hinZ4' := hinZ4 (F := F) L
  have hinZ5' := hinZ5 (F := F) L
  have hinZ6' := hinZ6 (F := F) L
  have hinZ7' := hinZ7 (F := F) L
  have hinA0' := hinA0 (F := F) d L zf f0 f1 hpre
  have hinA1' := hinA1 (F := F) d L zf f0 f1 hpre
  have hinA2' := hinA2 (F := F) d L zf f0 f1 hpre
  have hinA3' := hinA3 (F := F) d L zf f0 f1 hpre
  have hinA4' := hinA4 (F := F) d L zf f0 f1 hpre
  have hinA5' := hinA5 (F := F) d L zf f0 f1 hpre
  have hinA6' := hinA6 (F := F) d L zf f0 f1 hpre
  have hinA7' := hinA7 (F := F) d L zf f0 f1 hpre
  sl_exec_parts
  ihave Hj2 := (join3_2 (F := F) d L _ _) $$ [Hs3' Hs3'_2]
  · isplitl [Hs3'] <;> iassumption
  sl_exec_parts
  ihave Hj3 := (join3_3 (F := F) d L _ _) $$ [Hj2 Hs3']
  · isplitl [Hj2] <;> iassumption
  sl_exec_parts
  ihave Hj4 := (join3_4 (F := F) d L _ _) $$ [Hj3 Hs3']
  · isplitl [Hj3] <;> iassumption
  sl_exec_parts
  ihave Hj5 := (join3_5 (F := F) d L _ _) $$ [Hj4 Hs3']
  · isplitl [Hj4] <;> iassumption
  sl_exec_parts
  ihave Hj6 := (join3_6 (F := F) d L _ _) $$ [Hj5 Hs3']
  · isplitl [Hj5] <;> iassumption
  sl_exec_parts
  ihave Hj7 := (join3_7 (F := F) d L _ _) $$ [Hj6 Hs3']
  · isplitl [Hj6] <;> iassumption
  sl_exec_parts
  sl_step
  ihave Hzj7 := (tok_step (F := F) (ℓ := (zV).view.loc (V d (cV L) (jV L))) (I := Finset.univ) (f := zf) (rq (jL L)) 7).2 $$ [Hzd8 Hzt7]
  · isplitl [Hzd8] <;> iassumption
  ihave Hzj6 := (tok_step (F := F) (ℓ := (zV).view.loc (V d (cV L) (jV L))) (I := Finset.univ) (f := zf) (rq (jL L)) 6).2 $$ [Hzj7 Hzt6]
  · isplitl [Hzj7] <;> iassumption
  ihave Hzj5 := (tok_step (F := F) (ℓ := (zV).view.loc (V d (cV L) (jV L))) (I := Finset.univ) (f := zf) (rq (jL L)) 5).2 $$ [Hzj6 Hzt5]
  · isplitl [Hzj6] <;> iassumption
  ihave Hzj4 := (tok_step (F := F) (ℓ := (zV).view.loc (V d (cV L) (jV L))) (I := Finset.univ) (f := zf) (rq (jL L)) 4).2 $$ [Hzj5 Hzt4]
  · isplitl [Hzj5] <;> iassumption
  ihave Hzj3 := (tok_step (F := F) (ℓ := (zV).view.loc (V d (cV L) (jV L))) (I := Finset.univ) (f := zf) (rq (jL L)) 3).2 $$ [Hzj4 Hzt3]
  · isplitl [Hzj4] <;> iassumption
  ihave Hzj2 := (tok_step (F := F) (ℓ := (zV).view.loc (V d (cV L) (jV L))) (I := Finset.univ) (f := zf) (rq (jL L)) 2).2 $$ [Hzj3 Hzt2]
  · isplitl [Hzj3] <;> iassumption
  ihave Hzj1 := (tok_step (F := F) (ℓ := (zV).view.loc (V d (cV L) (jV L))) (I := Finset.univ) (f := zf) (rq (jL L)) 1).2 $$ [Hzj2 Hzt1]
  · isplitl [Hzj2] <;> iassumption
  ihave Hzj0 := (tok_step (F := F) (ℓ := (zV).view.loc (V d (cV L) (jV L))) (I := Finset.univ) (f := zf) (rq (jL L)) 0).2 $$ [Hzj1 Hzt0]
  · isplitl [Hzj1] <;> iassumption
  ihave Haj15 := (tok_step (F := F) (ℓ := (aV).view.loc (V d (cV L) (jV L))) (I := Finset.univ) (f := af) (rq (jL L)) 15).2 $$ [Had16 Hat15]
  · isplitl [Had16] <;> iassumption
  ihave Haj14 := (tok_step (F := F) (ℓ := (aV).view.loc (V d (cV L) (jV L))) (I := Finset.univ) (f := af) (rq (jL L)) 14).2 $$ [Haj15 Hat14]
  · isplitl [Haj15] <;> iassumption
  ihave Haj13 := (tok_step (F := F) (ℓ := (aV).view.loc (V d (cV L) (jV L))) (I := Finset.univ) (f := af) (rq (jL L)) 13).2 $$ [Haj14 Hat13]
  · isplitl [Haj14] <;> iassumption
  ihave Haj12 := (tok_step (F := F) (ℓ := (aV).view.loc (V d (cV L) (jV L))) (I := Finset.univ) (f := af) (rq (jL L)) 12).2 $$ [Haj13 Hat12]
  · isplitl [Haj13] <;> iassumption
  ihave Haj11 := (tok_step (F := F) (ℓ := (aV).view.loc (V d (cV L) (jV L))) (I := Finset.univ) (f := af) (rq (jL L)) 11).2 $$ [Haj12 Hat11]
  · isplitl [Haj12] <;> iassumption
  ihave Haj10 := (tok_step (F := F) (ℓ := (aV).view.loc (V d (cV L) (jV L))) (I := Finset.univ) (f := af) (rq (jL L)) 10).2 $$ [Haj11 Hat10]
  · isplitl [Haj11] <;> iassumption
  ihave Haj9 := (tok_step (F := F) (ℓ := (aV).view.loc (V d (cV L) (jV L))) (I := Finset.univ) (f := af) (rq (jL L)) 9).2 $$ [Haj10 Hat9]
  · isplitl [Haj10] <;> iassumption
  ihave Haj8 := (tok_step (F := F) (ℓ := (aV).view.loc (V d (cV L) (jV L))) (I := Finset.univ) (f := af) (rq (jL L)) 8).2 $$ [Haj9 Hat8]
  · isplitl [Haj9] <;> iassumption
  ihave Haj7 := (tok_step (F := F) (ℓ := (aV).view.loc (V d (cV L) (jV L))) (I := Finset.univ) (f := af) (rq (jL L)) 7).2 $$ [Haj8 Hat7]
  · isplitl [Haj8] <;> iassumption
  ihave Haj6 := (tok_step (F := F) (ℓ := (aV).view.loc (V d (cV L) (jV L))) (I := Finset.univ) (f := af) (rq (jL L)) 6).2 $$ [Haj7 Hat6]
  · isplitl [Haj7] <;> iassumption
  ihave Haj5 := (tok_step (F := F) (ℓ := (aV).view.loc (V d (cV L) (jV L))) (I := Finset.univ) (f := af) (rq (jL L)) 5).2 $$ [Haj6 Hat5]
  · isplitl [Haj6] <;> iassumption
  ihave Haj4 := (tok_step (F := F) (ℓ := (aV).view.loc (V d (cV L) (jV L))) (I := Finset.univ) (f := af) (rq (jL L)) 4).2 $$ [Haj5 Hat4]
  · isplitl [Haj5] <;> iassumption
  ihave Haj3 := (tok_step (F := F) (ℓ := (aV).view.loc (V d (cV L) (jV L))) (I := Finset.univ) (f := af) (rq (jL L)) 3).2 $$ [Haj4 Hat3]
  · isplitl [Haj4] <;> iassumption
  ihave Haj2 := (tok_step (F := F) (ℓ := (aV).view.loc (V d (cV L) (jV L))) (I := Finset.univ) (f := af) (rq (jL L)) 2).2 $$ [Haj3 Hat2]
  · isplitl [Haj3] <;> iassumption
  ihave Haj1 := (tok_step (F := F) (ℓ := (aV).view.loc (V d (cV L) (jV L))) (I := Finset.univ) (f := af) (rq (jL L)) 1).2 $$ [Haj2 Hat1]
  · isplitl [Haj2] <;> iassumption
  ihave Haj0 := (tok_step (F := F) (ℓ := (aV).view.loc (V d (cV L) (jV L))) (I := Finset.univ) (f := af) (rq (jL L)) 0).2 $$ [Haj1 Hat0]
  · isplitl [Haj1] <;> iassumption
  have hpay : ∀ y, (tile_body.sl.dma24 d L zf af f0 f1 f2 f3 hinZ0' hinZ1' hinZ2' hinZ3' hinZ4' hinZ5' hinZ6' hinZ7' hinA0' hinA1' hinA2' hinA3' hinA4' hinA5' hinA6' hinA7') y = Cert.Spec.outAtF zf af (rowF L y) :=
    fun y => K7_value d L zf af f0 f1 f2 f3 hpre y
  ihave Hob := (block_rows (F := F) d L zf af o _ hpay) $$ Ho'
  ihave Hq0 := (join0m5_0 (F := F) d L _ _) $$ [Hs0' Hs0'_2]
  · isplitl [Hs0'] <;> iassumption
  ihave Hq1 := (join0m5_1 (F := F) d L _ _) $$ [Hq0 Hs0'_3]
  · isplitl [Hq0] <;> iassumption
  ihave Hq2 := (join0m5_2 (F := F) d L _ _) $$ [Hq1 Hs0'_4]
  · isplitl [Hq1] <;> iassumption
  ihave Hq3 := (join0m5_3 (F := F) d L _ _) $$ [Hq2 Hs0'_5]
  · isplitl [Hq2] <;> iassumption
  ihave Hq4 := (join0m5_4 (F := F) d L _ _) $$ [Hq3 Hs0'_6]
  · isplitl [Hq3] <;> iassumption
  ihave Hq5 := (join0m5_5 (F := F) d L _ _) $$ [Hq4 Hs0'_7]
  · isplitl [Hq4] <;> iassumption
  ihave Hr0 := (join2m5_0 (F := F) d L _ _) $$ [Hs2' Hs2'_2]
  · isplitl [Hs2'] <;> iassumption
  ihave Hr1 := (join2m5_1 (F := F) d L _ _) $$ [Hr0 Hs2'_3]
  · isplitl [Hr0] <;> iassumption
  ihave Hr2 := (join2m5_2 (F := F) d L _ _) $$ [Hr1 Hs2'_4]
  · isplitl [Hr1] <;> iassumption
  ihave Hr3 := (join2m5_3 (F := F) d L _ _) $$ [Hr2 Hs2'_5]
  · isplitl [Hr2] <;> iassumption
  ihave Hr4 := (join2m5_4 (F := F) d L _ _) $$ [Hr3 Hs2'_6]
  · isplitl [Hr3] <;> iassumption
  ihave Hr5 := (join2m5_5 (F := F) d L _ _) $$ [Hr4 Hs2'_7]
  · isplitl [Hr4] <;> iassumption
  isplitl [Hzj0 Haj0 Hob]
  · isplitl [Hzj0]; · iexact Hzj0
    isplitl [Haj0]; · iexact Haj0
    iexact Hob
  isplitl [Hq5 Hs1' Hr5 Hj7 Hbufs]
  · isplitl [Hq5]; · iexists _; iexact Hq5
    isplitl [Hs1']; · iexists _; iexact Hs1'
    isplitl [Hr5]; · iexists _; iexact Hr5
    isplitl [Hj7]; · iexists _; iexact Hj7
    iexact Hbufs
  isplitl [Hc0 Hc1 Hc2 Hc3 Hc4 Hc5 Hc6 Hc7 Hc8 Hc9 Hc10 Hc11 Hc12 Hc13 Hc14 Hc15 Hcs Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hcs]; · iexact Hcs
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KI

end
-- ==== Proof.BodySetupB.lean ====
/-
  One task's hold on its own memory, named: the four scratch buffers it uses among the subcore's own buffers,
  the seventeen semaphore cells it uses among the subcore's own cells (one per gather out of flat `z`, one per
  gather out of flat `a`, one for the copy of the result rows), the task's rows of the block as the program
  slices them, and the read share of a flat array cut into one token per cell that reads it.
-/
import proofs.«207294_g27419071217675_cont_9to1_1737_29_alg».proof.Proof.CommonB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The cells -/

/-- The cell of DMA semaphore `s` on vector subcore `(c, i)` of device `d`. -/
abbrev cell (d : Dev nD) (c : Fin τ.nSC) (i : Fin τ.nSub) (s : DmaSems sig S_) : GSem nD τ sig := (V d c i, .dma s.sem)

theorem cell_ne (d : Dev nD) (c : Fin τ.nSC) (i : Fin τ.nSub) {s t : DmaSems sig S_} (h : s.sem ≠ t.sem) :
    cell d c i s ≠ cell d c i t := by
  intro e; exact h (by simpa [cell] using e)

theorem cell_mem (d : Dev nD) (c : Fin τ.nSC) (i : Fin τ.nSub) (s : DmaSems sig S_)
    (h : (SemLoc.dma s.sem : SemLoc sig).isScoped .scVector = true) : cell d c i s ∈ ownCells (V d c i) :=
  (mem_ownCells (g := cell d c i s)).mpr ⟨rfl, h⟩

/-- The subcore's own cells but the seventeen the task uses. -/
abbrev restCells (d : Dev nD) (c : Fin τ.nSC) (i : Fin τ.nSub) : Finset (GSem nD τ sig) :=
  ((((((((((((((((((ownCells (V d c i)).erase (cell d c i cc0_scratch4)).erase (cell d c i cc0_scratch5)).erase (cell d c i cc0_scratch6)).erase (cell d c i cc0_scratch7)).erase (cell d c i cc0_scratch8)).erase (cell d c i cc0_scratch9)).erase (cell d c i cc0_scratch10)).erase (cell d c i cc0_scratch11)).erase (cell d c i cc0_scratch12)).erase (cell d c i cc0_scratch13)).erase (cell d c i cc0_scratch14)).erase (cell d c i cc0_scratch15)).erase (cell d c i cc0_scratch16)).erase (cell d c i cc0_scratch17)).erase (cell d c i cc0_scratch18)).erase (cell d c i cc0_scratch19)).erase (cell d c i cc0_scoped0))

/-- The subcore's own semaphores at zero: the seventeen the task uses, each at zero, and the others. -/
theorem ownSems0_V (d : Dev nD) (c : Fin τ.nSC) (i : Fin τ.nSub) :
    (ownSems0 (V d c i) : sProp 𝕄)
      = iprop(semVal (cell d c i cc0_scratch4) 0
          ∗ semVal (cell d c i cc0_scratch5) 0
          ∗ semVal (cell d c i cc0_scratch6) 0
          ∗ semVal (cell d c i cc0_scratch7) 0
          ∗ semVal (cell d c i cc0_scratch8) 0
          ∗ semVal (cell d c i cc0_scratch9) 0
          ∗ semVal (cell d c i cc0_scratch10) 0
          ∗ semVal (cell d c i cc0_scratch11) 0
          ∗ semVal (cell d c i cc0_scratch12) 0
          ∗ semVal (cell d c i cc0_scratch13) 0
          ∗ semVal (cell d c i cc0_scratch14) 0
          ∗ semVal (cell d c i cc0_scratch15) 0
          ∗ semVal (cell d c i cc0_scratch16) 0
          ∗ semVal (cell d c i cc0_scratch17) 0
          ∗ semVal (cell d c i cc0_scratch18) 0
          ∗ semVal (cell d c i cc0_scratch19) 0
          ∗ semVal (cell d c i cc0_scoped0) 0
          ∗ bigSep (restCells d c i) fun g => semVal g 0) := by
  unfold SparseCore.Cfg.ownSems0
  rw [SparseCore.bigSep_erase' (cell_mem d c i cc0_scratch4 (by decide)),
    SparseCore.bigSep_erase' (Finset.mem_erase.mpr ⟨cell_ne d c i (by decide), cell_mem d c i cc0_scratch5 (by decide)⟩),
    SparseCore.bigSep_erase' (Finset.mem_erase.mpr ⟨cell_ne d c i (by decide), Finset.mem_erase.mpr ⟨cell_ne d c i (by decide), cell_mem d c i cc0_scratch6 (by decide)⟩⟩),
    SparseCore.bigSep_erase' (Finset.mem_erase.mpr ⟨cell_ne d c i (by decide), Finset.mem_erase.mpr ⟨cell_ne d c i (by decide), Finset.mem_erase.mpr ⟨cell_ne d c i (by decide), cell_mem d c i cc0_scratch7 (by decide)⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch8 (by decide)⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch9 (by decide)⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch10 (by decide)⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch11 (by decide)⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch12 (by decide)⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch13 (by decide)⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch14 (by decide)⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch15 (by decide)⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch16 (by decide)⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch17 (by decide)⟩⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch18 (by decide)⟩⟩⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scratch19 (by decide)⟩⟩⟩⟩⟩⟩⟩⟩⟩⟩⟩⟩⟩⟩⟩),
    SparseCore.bigSep_erase' (Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), Finset.mem_erase.mpr ⟨cell_ne d c i (by decide), cell_mem d c i cc0_scoped0 (by decide)⟩⟩⟩⟩⟩⟩⟩⟩⟩⟩⟩⟩⟩⟩⟩⟩)]

/-! ## The scratch buffers -/

/-- The subcore's own buffers: the four scratch buffers, each at some contents, and the others. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (((((ownRefs (τ := τ) (.scVector c i)).erase ((Proc.scVector c i).devRef cc0_scratch0)).erase
              ((Proc.scVector c i).devRef cc0_scratch1)).erase ((Proc.scVector c i).devRef cc0_scratch2)).erase
              ((Proc.scVector c i).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector c i) (b := (Proc.scVector c i).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector c i) (b := (Proc.scVector c i).devRef cc0_scratch3) rfl⟩⟩⟩)]

/-! ## The arrays as the task's program names them -/

section Tile

variable (d : Dev nD) (L : grid0.Coords)

/-- The task's eight rows of the block, as the program slices them. -/
abbrev orowK (L : grid0.Coords) : Rect S128x128 := Rect.unit (s := S128x128) (k0_off1 L) S8x128.size (k0_off1_inb L)
abbrev oRowK (L : grid0.Coords) : Memref sig .scVector .hbm S8x128 .f32 := (oV).slice (orowK L) (fun _ => rfl)

theorem orowK_eq : orowK L = orow (jL L) := by
  unfold orowK orow Rect.part Rect.block
  have h0 : (L 0).val = 0 := by have := (L 0).isLt; simpa using this
  congr 1 <;> funext a
  · rw [k0_off1_eq]
    match a with
    | 0 => simp [Shape.partIx, Shape.partSize, h0]; omega
    | 1 => simp [Shape.partIx, Shape.partSize]
  · match a with
    | 0 => simp [Shape.partSize]
    | 1 => simp [Shape.partSize]

theorem set_oRowK : (oRowK L).view.set = oRowSet (jL L) := by
  show ((oV).view.slice (orowK L)).set = ((oV).view.slice (orow (jL L))).set
  rw [orowK_eq]

theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
theorem pts_zV (q : PosShare TreeShare) (f : Buf (Elt F) (zLoc d)) :
    ((zV).view.loc (V d (cV L) (jV L)) ↦{q} f : sProp 𝕄) = zLoc d ↦{q} f := rfl
theorem pts_aV (q : PosShare TreeShare) (f : Buf (Elt F) (aLoc d)) :
    ((aV).view.loc (V d (cV L) (jV L)) ↦{q} f : sProp 𝕄) = aLoc d ↦{q} f := rfl
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl

end Tile

/-! ## A read share cut into tokens, one at a time -/

/-- What remains of a share after `k` tokens is what remains after `k + 1` and the `k`-th token. -/
theorem tok_step {ℓ : Loc nD τ sig} {I : Finset (Idx ℓ)} {f : Buf (Elt F) ℓ} (q : PosShare TreeShare) (k : ℕ) :
    (ℓ ↦[I]{Transfers.shareDrop q k} f : sProp 𝕄)
      ⊣⊢ iprop((ℓ ↦[I]{Transfers.shareDrop q (k + 1)} f) ∗ ℓ ↦[I]{Transfers.shareTokN q k} f) :=
  pointsTo_share (PosShare.mem_left_op_right _)

end Cert.KB

end
-- ==== Proof.BodyZB.lean ====
/-
  Phase one of a task, as data: the index lists the task writes into its first scratch buffer. Row `r`, lane group
  `v`, lane `l` of the buffer receives the position in flat `z` of attribute slot 4 of result row
  `1024 w + 128 r + 16 v + l`, that is `32 · row + 4`; the word arithmetic does not wrap, so every list entry is a
  position of flat `z`: the in-range fact each gather out of flat `z` needs, at the list's contents when it is issued.
-/
import proofs.«207294_g27419071217675_cont_9to1_1737_29_alg».proof.Proof.BodySetupB
import proofs.«207294_g27419071217675_cont_9to1_1737_29_alg».proof.Proof.WordFacts

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The words -/

/-- The task's first result index, as the program computes it: `1024 w`. -/
def v2w (L : grid0.Coords) : BitVec 32 :=
  Scalar.muli (Scalar.addi (Scalar.muli (BitVec.ofNat 32 (L 1).val) 1#32) (BitVec.ofNat 32 (L 0).val)) 1024#32

theorem v2w_toNat (L : grid0.Coords) : (v2w L).toNat = 1024 * (L 1).val := by
  have h0 : (L 0).val = 0 := by have := (L 0).isLt; simpa using this
  unfold v2w; rw [h0]; exact Cert.WordFacts.base_toNat _ (L 1).isLt

/-- Sixteen consecutive positions in flat `z`: lane `l` holds `32 · (b + c₁ + c₂ + l) + 4`. -/
def zVec (b c1 c2 : BitVec 32) : IVec S1x16 32 :=
  shapeCast S1x16 (addi (muli (addi (iota .scVector S16 32 [0] iota_S16_d0_w32_scVector) (broadcast S16 (Scalar.addi (Scalar.addi b c1) c2)))
    (broadcast S16 32#32)) (broadcast S16 4#32)) shapeCasts_S16_S1x16

/-- A 1 × 16 index read as a 16-index: the lane. -/
theorem reshape_lane (h : S1x16.numel = S16.numel) (j : S1x16.Idx) : ((Shape.reshapeEquiv h j) 0).val = (j 1).val := by
  have e := Shape.rowMajor_reshapeEquiv h j
  rw [Shape.rowMajor_val_one, Shape.rowMajor_val_two] at e
  have h0 : (j 0).val = 0 := by have := (j 0).isLt; simpa using this
  rw [h0] at e; simpa using e

/-- A 128-index read as a 1 × 128 index: row 0, the same column. -/
theorem reshape_col (h : S128.numel = S1x128.numel) (x : S128.Idx) : ((Shape.reshapeEquiv h x) 1).val = (x 0).val := by
  have e := Shape.rowMajor_reshapeEquiv h x
  rw [Shape.rowMajor_val_one, Shape.rowMajor_val_two] at e
  have h0 : ((Shape.reshapeEquiv h x) 0).val = 0 := by have := ((Shape.reshapeEquiv h x) 0).isLt; simpa using this
  rw [h0] at e; simpa using e

theorem zVec_apply (b c1 c2 : BitVec 32) (j : S1x16.Idx) :
    zVec b c1 c2 j = IntOp.addi (IntOp.muli (IntOp.addi (BitVec.ofNat 32 (j 1).val) (Scalar.addi (Scalar.addi b c1) c2)) 32#32) 4#32 := by
  unfold zVec shapeCast addi muli iota broadcast
  simp only [List.foldl, Nat.zero_mul, Nat.zero_add]
  rw [reshape_lane]

/-- What entry `y` of the first scratch buffer is to hold: `32 · (1024 w + 128 y₀ + y₁) + 4`. -/
def zG (L : grid0.Coords) : S8x128.Idx → Elt F .i32 :=
  fun y => BitVec.ofNat 32 (32 * (1024 * (L 1).val + 128 * (y 0).val + (y 1).val) + 4)

/-- One stored piece agrees with `zG` on its rectangle. -/
theorem zP_agree (L : grid0.Coords) (r v c : ℕ) (hr : r < 8) (hv : v < 8) (hc : c = 16 * v) (c1 c2 : BitVec 32)
    (h1 : c1.toNat = 128 * r) (h2 : c2.toNat = 16 * v) (inb : ∀ a, (![r, c] : Fin 2 → ℕ) a + S1x16.size a ≤ S8x128.size a)
    (x : (Rect.unit (s := S8x128) ![r, c] S1x16.size inb).shape.Idx) :
    zVec (v2w L) c1 c2 x = zG (F := F) L ((Rect.unit (s := S8x128) ![r, c] S1x16.size inb).emb x) := by
  subst hc
  apply BitVec.eq_of_toNat_eq
  have hx1 : (x 1).val < 16 := (x 1).isLt
  have hx0 : (x 0).val = 0 := by have := (x 0).isLt; simpa using this
  rw [zVec_apply, Cert.WordFacts.zword_toNat _ _ _ (L 1).val r v (x 1).val (L 1).isLt hr hv hx1 (v2w_toNat L) h1 h2]
  have hw : (L 1).val < 16 := (L 1).isLt
  have e0 : ((Rect.unit (s := S8x128) ![r, 16 * v] S1x16.size inb).emb x 0).val = r := by
    rw [Rect.emb_apply]; simp [hx0]
  have e1 : ((Rect.unit (s := S8x128) ![r, 16 * v] S1x16.size inb).emb x 1).val = 16 * v + (x 1).val := by
    rw [Rect.emb_apply]; simp
  show _ = (BitVec.ofNat 32 _).toNat
  rw [BitVec.toNat_ofNat, e0, e1]
  omega

/-! ## Rows of a scratch buffer covered by sixteen-lane pieces -/

/-- A list of pieces that has, for each of the eight lane groups of row `r`, the piece over that group, covers row `r`. -/
theorem cover_row {Val : EltTy → Type} {e : EltTy} (Ls : List (View.Piece Val S8x128 e)) (r : ℕ)
    (h : ∀ v : Fin 8, ∃ p ∈ Ls, ∃ inb, p.1 = Rect.unit (s := S8x128) ![r, 16 * v.val] S1x16.size inb) :
    ∀ y : S8x128.Idx, (y 0).val = r → ∃ p ∈ Ls, y ∈ p.1.set := by
  intro y hy
  have hlt : (y 1).val < 128 := (y 1).isLt
  obtain ⟨p, hp, inb, hrect⟩ := h ⟨(y 1).val / 16, by omega⟩
  refine ⟨p, hp, ?_⟩
  rw [hrect, Rect.mem_set_unit]
  intro a
  fin_cases a
  · simp; omega
  · simp; omega

/-- Entry `x` of row `r` of a scratch buffer, named as the gathers name the row, is entry `(r, x)` of the buffer. -/
def rowIx (r : ℕ) (inb : ∀ a, (![r, 0] : Fin 2 → ℕ) a + S1x128.size a ≤ S8x128.size a) (x : S128.Idx) : S8x128.Idx :=
  (Rect.unit (s := S8x128) ![r, 0] S1x128.size inb).emb (Shape.reshapeEquiv squeezes_S1x128_S128.numel_eq x)

theorem rowIx_zero (r : ℕ) (inb) (x : S128.Idx) : ((rowIx r inb x) 0).val = r := by
  unfold rowIx; rw [Rect.emb_apply]
  have h0 : ((Shape.reshapeEquiv squeezes_S1x128_S128.numel_eq x) 0).val = 0 := by
    have := ((Shape.reshapeEquiv squeezes_S1x128_S128.numel_eq x) 0).isLt; simpa using this
  simp [h0]

theorem rowIx_one (r : ℕ) (inb) (x : S128.Idx) : ((rowIx r inb x) 1).val = (x 0).val := by
  unfold rowIx; rw [Rect.emb_apply]
  simp [reshape_col]

/-- The in-range fact of a gather out of flat `z` through row `r` of the first scratch buffer, from the pieces written. -/
theorem hinZ_of (L : grid0.Coords) (r : ℕ) (hr : r < 8) (inb : ∀ a, (![r, 0] : Fin 2 → ℕ) a + S1x128.size a ≤ S8x128.size a)
    (Ls : List (View.Piece (Elt F) S8x128 .i32)) (hag : ∀ p ∈ Ls, ∀ x, p.2 x = zG L (p.1.emb x))
    (hcov : ∀ v : Fin 8, ∃ p ∈ Ls, ∃ inb, p.1 = Rect.unit (s := S8x128) ![r, 16 * v.val] S1x16.size inb) :
    ∀ (g : (s0V).view.ty.Contents (Elt F)) (x : S128.Idx),
      (View.read (Elt F) (((s0V).slice (Rect.unit (s := S8x128) ![r, 0] S1x128.size inb) (fun _ => rfl)).squeeze S128 squeezes_S1x128_S128).view
        ((s0V).view.writes (Elt F) g Ls) x).toNat < 524288 := by
  intro g x
  have e : View.read (Elt F) (((s0V).slice (Rect.unit (s := S8x128) ![r, 0] S1x128.size inb) (fun _ => rfl)).squeeze S128 squeezes_S1x128_S128).view
        ((s0V).view.writes (Elt F) g Ls) x
      = View.read (Elt F) (s0V).view ((s0V).view.writes (Elt F) g Ls) (rowIx r inb x) := by
    rw [View.read_apply, View.read_apply]; rfl
  rw [e, View.read_writes_apply_of_pieces (s0V).view g (zG L) Ls hag (rowIx r inb x) (cover_row Ls r hcov _ (rowIx_zero r inb x))]
  have hw : (L 1).val < 16 := (L 1).isLt
  have h1 : ((rowIx r inb x) 1).val < 128 := ((rowIx r inb x) 1).isLt
  show (BitVec.ofNat 32 _).toNat < _
  rw [BitVec.toNat_ofNat, rowIx_zero]
  omega

/-! ## The lists, row by row -/

/-- The pieces written into the first scratch up to row 0, the last written first. -/
def zL0 (L : grid0.Coords) : List (View.Piece (Elt F) S8x128 .i32) :=
  ⟨Rect.unit (s := S8x128) ![0, 112] S1x16.size inb_S8x128_S1x16_0_112, zVec (v2w L) 0#32 112#32⟩ ::
  ⟨Rect.unit (s := S8x128) ![0, 96] S1x16.size inb_S8x128_S1x16_0_96, zVec (v2w L) 0#32 96#32⟩ ::
  ⟨Rect.unit (s := S8x128) ![0, 80] S1x16.size inb_S8x128_S1x16_0_80, zVec (v2w L) 0#32 80#32⟩ ::
  ⟨Rect.unit (s := S8x128) ![0, 64] S1x16.size inb_S8x128_S1x16_0_64, zVec (v2w L) 0#32 64#32⟩ ::
  ⟨Rect.unit (s := S8x128) ![0, 48] S1x16.size inb_S8x128_S1x16_0_48, zVec (v2w L) 0#32 48#32⟩ ::
  ⟨Rect.unit (s := S8x128) ![0, 32] S1x16.size inb_S8x128_S1x16_0_32, zVec (v2w L) 0#32 32#32⟩ ::
  ⟨Rect.unit (s := S8x128) ![0, 16] S1x16.size inb_S8x128_S1x16_0_16, zVec (v2w L) 0#32 16#32⟩ ::
  ⟨Rect.unit (s := S8x128) ![0, 0] S1x16.size inb_S8x128_S1x16_0_0, zVec (v2w L) 0#32 0#32⟩ :: []

theorem zL0_agree (L : grid0.Coords) : ∀ p ∈ zL0 (F := F) L, ∀ x, p.2 x = zG L (p.1.emb x) := by
  unfold zL0
  exact (List.forall_mem_cons.2 ⟨zP_agree L 0 7 112 (by decide) (by decide) rfl 0#32 112#32 (by decide) (by decide) inb_S8x128_S1x16_0_112, (List.forall_mem_cons.2 ⟨zP_agree L 0 6 96 (by decide) (by decide) rfl 0#32 96#32 (by decide) (by decide) inb_S8x128_S1x16_0_96, (List.forall_mem_cons.2 ⟨zP_agree L 0 5 80 (by decide) (by decide) rfl 0#32 80#32 (by decide) (by decide) inb_S8x128_S1x16_0_80, (List.forall_mem_cons.2 ⟨zP_agree L 0 4 64 (by decide) (by decide) rfl 0#32 64#32 (by decide) (by decide) inb_S8x128_S1x16_0_64, (List.forall_mem_cons.2 ⟨zP_agree L 0 3 48 (by decide) (by decide) rfl 0#32 48#32 (by decide) (by decide) inb_S8x128_S1x16_0_48, (List.forall_mem_cons.2 ⟨zP_agree L 0 2 32 (by decide) (by decide) rfl 0#32 32#32 (by decide) (by decide) inb_S8x128_S1x16_0_32, (List.forall_mem_cons.2 ⟨zP_agree L 0 1 16 (by decide) (by decide) rfl 0#32 16#32 (by decide) (by decide) inb_S8x128_S1x16_0_16, (List.forall_mem_cons.2 ⟨zP_agree L 0 0 0 (by decide) (by decide) rfl 0#32 0#32 (by decide) (by decide) inb_S8x128_S1x16_0_0, (fun _ hp => nomatch hp)⟩)⟩)⟩)⟩)⟩)⟩)⟩)⟩)

theorem zL0_cover (L : grid0.Coords) : ∀ v : Fin 8, ∃ p ∈ zL0 (F := F) L, ∃ inb, p.1 = Rect.unit (s := S8x128) ![0, 16 * v.val] S1x16.size inb := by
  unfold zL0
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_0_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_0_16, rfl⟩
  · exact ⟨_, List.mem_cons_of_mem _ (List.mem_cons_of_mem _ (List.mem_cons_of_mem _ (List.mem_cons_of_mem _ (List.mem_cons_of_mem _ (List.mem_cons_self))))), inb_S8x128_S1x16_0_32, rfl⟩
  · exact ⟨_, List.mem_cons_of_mem _ (List.mem_cons_of_mem _ (List.mem_cons_of_mem _ (List.mem_cons_of_mem _ (List.mem_cons_self)))), inb_S8x128_S1x16_0_48, rfl⟩
  · exact ⟨_, List.mem_cons_of_mem _ (List.mem_cons_of_mem _ (List.mem_cons_of_mem _ (List.mem_cons_self))), inb_S8x128_S1x16_0_64, rfl⟩
  · exact ⟨_, List.mem_cons_of_mem _ (List.mem_cons_of_mem _ (List.mem_cons_self)), inb_S8x128_S1x16_0_80, rfl⟩
  · exact ⟨_, List.mem_cons_of_mem _ (List.mem_cons_self), inb_S8x128_S1x16_0_96, rfl⟩
  · exact ⟨_, List.mem_cons_self, inb_S8x128_S1x16_0_112, rfl⟩

theorem hinZ0 (L : grid0.Coords) : ∀ (g : (s0V).view.ty.Contents (Elt F)) (x : S128.Idx),
    (View.read (Elt F) (((s0V).slice (Rect.unit (s := S8x128) ![0, 0] S1x128.size inb_S8x128_S1x128_0_0) (fun _ => rfl)).squeeze S128 squeezes_S1x128_S128).view ((s0V).view.writes (Elt F) g (zL0 (F := F) L)) x).toNat < 524288 :=
  hinZ_of L 0 (by decide) inb_S8x128_S1x128_0_0 (zL0 L) (zL0_agree L) (zL0_cover L)

/-- The pieces written into the first scratch up to row 1, the last written first. -/
def zL1 (L : grid0.Coords) : List (View.Piece (Elt F) S8x128 .i32) :=
  ⟨Rect.unit (s := S8x128) ![1, 112] S1x16.size inb_S8x128_S1x16_1_112, zVec (v2w L) 128#32 112#32⟩ ::
  ⟨Rect.unit (s := S8x128) ![1, 96] S1x16.size inb_S8x128_S1x16_1_96, zVec (v2w L) 128#32 96#32⟩ ::
  ⟨Rect.unit (s := S8x128) ![1, 80] S1x16.size inb_S8x128_S1x16_1_80, zVec (v2w L) 128#32 80#32⟩ ::
  ⟨Rect.unit (s := S8x128) ![1, 64] S1x16.size inb_S8x128_S1x16_1_64, zVec (v2w L) 128#32 64#32⟩ ::
  ⟨Rect.unit (s := S8x128) ![1, 48] S1x16.size inb_S8x128_S1x16_1_48, zVec (v2w L) 128#32 48#32⟩ ::
  ⟨Rect.unit (s := S8x128) ![1, 32] S1x16.size inb_S8x128_S1x16_1_32, zVec (v2w L) 128#32 32#32⟩ ::
  ⟨Rect.unit (s := S8x128) ![1, 16] S1x16.size inb_S8x128_S1x16_1_16, zVec (v2w L) 128#32 16#32⟩ ::
  ⟨Rect.unit (s := S8x128) ![1, 0] S1x16.size inb_S8x128_S1x16_1_0, zVec (v2w L) 128#32 0#32⟩ :: zL0 L

theorem zL1_agree (L : grid0.Coords) : ∀ p ∈ zL1 (F := F) L, ∀ x, p.2 x = zG L (p.1.emb x) := by
  unfold zL1
  exact (List.forall_mem_cons.2 ⟨zP_agree L 1 7 112 (by decide) (by decide) rfl 128#32 112#32 (by decide) (by decide) inb_S8x128_S1x16_1_112, (List.forall_mem_cons.2 ⟨zP_agree L 1 6 96 (by decide) (by decide) rfl 128#32 96#32 (by decide) (by decide) inb_S8x128_S1x16_1_96, (List.forall_mem_cons.2 ⟨zP_agree L 1 5 80 (by decide) (by decide) rfl 128#32 80#32 (by decide) (by decide) inb_S8x128_S1x16_1_80, (List.forall_mem_cons.2 ⟨zP_agree L 1 4 64 (by decide) (by decide) rfl 128#32 64#32 (by decide) (by decide) inb_S8x128_S1x16_1_64, (List.forall_mem_cons.2 ⟨zP_agree L 1 3 48 (by decide) (by decide) rfl 128#32 48#32 (by decide) (by decide) inb_S8x128_S1x16_1_48, (List.forall_mem_cons.2 ⟨zP_agree L 1 2 32 (by decide) (by decide) rfl 128#32 32#32 (by decide) (by decide) inb_S8x128_S1x16_1_32, (List.forall_mem_cons.2 ⟨zP_agree L 1 1 16 (by decide) (by decide) rfl 128#32 16#32 (by decide) (by decide) inb_S8x128_S1x16_1_16, (List.forall_mem_cons.2 ⟨zP_agree L 1 0 0 (by decide) (by decide) rfl 128#32 0#32 (by decide) (by decide) inb_S8x128_S1x16_1_0, (zL0_agree L)⟩)⟩)⟩)⟩)⟩)⟩)⟩)⟩)

theorem zL1_cover (L : grid0.Coords) : ∀ v : Fin 8, ∃ p ∈ zL1 (F := F) L, ∃ inb, p.1 = Rect.unit (s := S8x128) ![1, 16 * v.val] S1x16.size inb := by
  unfold zL1
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_1_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_1_16, rfl⟩
  · exact ⟨_, List.mem_cons_of_mem _ (List.mem_cons_of_mem _ (List.mem_cons_of_mem _ (List.mem_cons_of_mem _ (List.mem_cons_of_mem _ (List.mem_cons_self))))), inb_S8x128_S1x16_1_32, rfl⟩
  · exact ⟨_, List.mem_cons_of_mem _ (List.mem_cons_of_mem _ (List.mem_cons_of_mem _ (List.mem_cons_of_mem _ (List.mem_cons_self)))), inb_S8x128_S1x16_1_48, rfl⟩
  · exact ⟨_, List.mem_cons_of_mem _ (List.mem_cons_of_mem _ (List.mem_cons_of_mem _ (List.mem_cons_self))), inb_S8x128_S1x16_1_64, rfl⟩
  · exact ⟨_, List.mem_cons_of_mem _ (List.mem_cons_of_mem _ (List.mem_cons_self)), inb_S8x128_S1x16_1_80, rfl⟩
  · exact ⟨_, List.mem_cons_of_mem _ (List.mem_cons_self), inb_S8x128_S1x16_1_96, rfl⟩
  · exact ⟨_, List.mem_cons_self, inb_S8x128_S1x16_1_112, rfl⟩

theorem hinZ1 (L : grid0.Coords) : ∀ (g : (s0V).view.ty.Contents (Elt F)) (x : S128.Idx),
    (View.read (Elt F) (((s0V).slice (Rect.unit (s := S8x128) ![1, 0] S1x128.size inb_S8x128_S1x128_1_0) (fun _ => rfl)).squeeze S128 squeezes_S1x128_S128).view ((s0V).view.writes (Elt F) g (zL1 (F := F) L)) x).toNat < 524288 :=
  hinZ_of L 1 (by decide) inb_S8x128_S1x128_1_0 (zL1 L) (zL1_agree L) (zL1_cover L)

/-- The pieces written into the first scratch up to row 2, the last written first. -/
def zL2 (L : grid0.Coords) : List (View.Piece (Elt F) S8x128 .i32) :=
  ⟨Rect.unit (s := S8x128) ![2, 112] S1x16.size inb_S8x128_S1x16_2_112, zVec (v2w L) 256#32 112#32⟩ ::
  ⟨Rect.unit (s := S8x128) ![2, 96] S1x16.size inb_S8x128_S1x16_2_96, zVec (v2w L) 256#32 96#32⟩ ::
  ⟨Rect.unit (s := S8x128) ![2, 80] S1x16.size inb_S8x128_S1x16_2_80, zVec (v2w L) 256#32 80#32⟩ ::
  ⟨Rect.unit (s := S8x128) ![2, 64] S1x16.size inb_S8x128_S1x16_2_64, zVec (v2w L) 256#32 64#32⟩ ::
  ⟨Rect.unit (s := S8x128) ![2, 48] S1x16.size inb_S8x128_S1x16_2_48, zVec (v2w L) 256#32 48#32⟩ ::
  ⟨Rect.unit (s := S8x128) ![2, 32] S1x16.size inb_S8x128_S1x16_2_32, zVec (v2w L) 256#32 32#32⟩ ::
  ⟨Rect.unit (s := S8x128) ![2, 16] S1x16.size inb_S8x128_S1x16_2_16, zVec (v2w L) 256#32 16#32⟩ ::
  ⟨Rect.unit (s := S8x128) ![2, 0] S1x16.size inb_S8x128_S1x16_2_0, zVec (v2w L) 256#32 0#32⟩ :: zL1 L

theorem zL2_agree (L : grid0.Coords) : ∀ p ∈ zL2 (F := F) L, ∀ x, p.2 x = zG L (p.1.emb x) := by
  unfold zL2
  exact (List.forall_mem_cons.2 ⟨zP_agree L 2 7 112 (by decide) (by decide) rfl 256#32 112#32 (by decide) (by decide) inb_S8x128_S1x16_2_112, (List.forall_mem_cons.2 ⟨zP_agree L 2 6 96 (by decide) (by decide) rfl 256#32 96#32 (by decide) (by decide) inb_S8x128_S1x16_2_96, (List.forall_mem_cons.2 ⟨zP_agree L 2 5 80 (by decide) (by decide) rfl 256#32 80#32 (by decide) (by decide) inb_S8x128_S1x16_2_80, (List.forall_mem_cons.2 ⟨zP_agree L 2 4 64 (by decide) (by decide) rfl 256#32 64#32 (by decide) (by decide) inb_S8x128_S1x16_2_64, (List.forall_mem_cons.2 ⟨zP_agree L 2 3 48 (by decide) (by decide) rfl 256#32 48#32 (by decide) (by decide) inb_S8x128_S1x16_2_48, (List.forall_mem_cons.2 ⟨zP_agree L 2 2 32 (by decide) (by decide) rfl 256#32 32#32 (by decide) (by decide) inb_S8x128_S1x16_2_32, (List.forall_mem_cons.2 ⟨zP_agree L 2 1 16 (by decide) (by decide) rfl 256#32 16#32 (by decide) (by decide) inb_S8x128_S1x16_2_16, (List.forall_mem_cons.2 ⟨zP_agree L 2 0 0 (by decide) (by decide) rfl 256#32 0#32 (by decide) (by decide) inb_S8x128_S1x16_2_0, (zL1_agree L)⟩)⟩)⟩)⟩)⟩)⟩)⟩)⟩)

theorem zL2_cover (L : grid0.Coords) : ∀ v : Fin 8, ∃ p ∈ zL2 (F := F) L, ∃ inb, p.1 = Rect.unit (s := S8x128) ![2, 16 * v.val] S1x16.size inb := by
  unfold zL2
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_2_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_2_16, rfl⟩
  · exact ⟨_, List.mem_cons_of_mem _ (List.mem_cons_of_mem _ (List.mem_cons_of_mem _ (List.mem_cons_of_mem _ (List.mem_cons_of_mem _ (List.mem_cons_self))))), inb_S8x128_S1x16_2_32, rfl⟩
  · exact ⟨_, List.mem_cons_of_mem _ (List.mem_cons_of_mem _ (List.mem_cons_of_mem _ (List.mem_cons_of_mem _ (List.mem_cons_self)))), inb_S8x128_S1x16_2_48, rfl⟩
  · exact ⟨_, List.mem_cons_of_mem _ (List.mem_cons_of_mem _ (List.mem_cons_of_mem _ (List.mem_cons_self))), inb_S8x128_S1x16_2_64, rfl⟩
  · exact ⟨_, List.mem_cons_of_mem _ (List.mem_cons_of_mem _ (List.mem_cons_self)), inb_S8x128_S1x16_2_80, rfl⟩
  · exact ⟨_, List.mem_cons_of_mem _ (List.mem_cons_self), inb_S8x128_S1x16_2_96, rfl⟩
  · exact ⟨_, List.mem_cons_self, inb_S8x128_S1x16_2_112, rfl⟩

theorem hinZ2 (L : grid0.Coords) : ∀ (g : (s0V).view.ty.Contents (Elt F)) (x : S128.Idx),
    (View.read (Elt F) (((s0V).slice (Rect.unit (s := S8x128) ![2, 0] S1x128.size inb_S8x128_S1x128_2_0) (fun _ => rfl)).squeeze S128 squeezes_S1x128_S128).view ((s0V).view.writes (Elt F) g (zL2 (F := F) L)) x).toNat < 524288 :=
  hinZ_of L 2 (by decide) inb_S8x128_S1x128_2_0 (zL2 L) (zL2_agree L) (zL2_cover L)

/-- The pieces written into the first scratch up to row 3, the last written first. -/
def zL3 (L : grid0.Coords) : List (View.Piece (Elt F) S8x128 .i32) :=
  ⟨Rect.unit (s := S8x128) ![3, 112] S1x16.size inb_S8x128_S1x16_3_112, zVec (v2w L) 384#32 112#32⟩ ::
  ⟨Rect.unit (s := S8x128) ![3, 96] S1x16.size inb_S8x128_S1x16_3_96, zVec (v2w L) 384#32 96#32⟩ ::
  ⟨Rect.unit (s := S8x128) ![3, 80] S1x16.size inb_S8x128_S1x16_3_80, zVec (v2w L) 384#32 80#32⟩ ::
  ⟨Rect.unit (s := S8x128) ![3, 64] S1x16.size inb_S8x128_S1x16_3_64, zVec (v2w L) 384#32 64#32⟩ ::
  ⟨Rect.unit (s := S8x128) ![3, 48] S1x16.size inb_S8x128_S1x16_3_48, zVec (v2w L) 384#32 48#32⟩ ::
  ⟨Rect.unit (s := S8x128) ![3, 32] S1x16.size inb_S8x128_S1x16_3_32, zVec (v2w L) 384#32 32#32⟩ ::
  ⟨Rect.unit (s := S8x128) ![3, 16] S1x16.size inb_S8x128_S1x16_3_16, zVec (v2w L) 384#32 16#32⟩ ::
  ⟨Rect.unit (s := S8x128) ![3, 0] S1x16.size inb_S8x128_S1x16_3_0, zVec (v2w L) 384#32 0#32⟩ :: zL2 L

theorem zL3_agree (L : grid0.Coords) : ∀ p ∈ zL3 (F := F) L, ∀ x, p.2 x = zG L (p.1.emb x) := by
  unfold zL3
  exact (List.forall_mem_cons.2 ⟨zP_agree L 3 7 112 (by decide) (by decide) rfl 384#32 112#32 (by decide) (by decide) inb_S8x128_S1x16_3_112, (List.forall_mem_cons.2 ⟨zP_agree L 3 6 96 (by decide) (by decide) rfl 384#32 96#32 (by decide) (by decide) inb_S8x128_S1x16_3_96, (List.forall_mem_cons.2 ⟨zP_agree L 3 5 80 (by decide) (by decide) rfl 384#32 80#32 (by decide) (by decide) inb_S8x128_S1x16_3_80, (List.forall_mem_cons.2 ⟨zP_agree L 3 4 64 (by decide) (by decide) rfl 384#32 64#32 (by decide) (by decide) inb_S8x128_S1x16_3_64, (List.forall_mem_cons.2 ⟨zP_agree L 3 3 48 (by decide) (by decide) rfl 384#32 48#32 (by decide) (by decide) inb_S8x128_S1x16_3_48, (List.forall_mem_cons.2 ⟨zP_agree L 3 2 32 (by decide) (by decide) rfl 384#32 32#32 (by decide) (by decide) inb_S8x128_S1x16_3_32, (List.forall_mem_cons.2 ⟨zP_agree L 3 1 16 (by decide) (by decide) rfl 384#32 16#32 (by decide) (by decide) inb_S8x128_S1x16_3_16, (List.forall_mem_cons.2 ⟨zP_agree L 3 0 0 (by decide) (by decide) rfl 384#32 0#32 (by decide) (by decide) inb_S8x128_S1x16_3_0, (zL2_agree L)⟩)⟩)⟩)⟩)⟩)⟩)⟩)⟩)

theorem zL3_cover (L : grid0.Coords) : ∀ v : Fin 8, ∃ p ∈ zL3 (F := F) L, ∃ inb, p.1 = Rect.unit (s := S8x128) ![3, 16 * v.val] S1x16.size inb := by
  unfold zL3
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_3_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_3_16, rfl⟩
  · exact ⟨_, List.mem_cons_of_mem _ (List.mem_cons_of_mem _ (List.mem_cons_of_mem _ (List.mem_cons_of_mem _ (List.mem_cons_of_mem _ (List.mem_cons_self))))), inb_S8x128_S1x16_3_32, rfl⟩
  · exact ⟨_, List.mem_cons_of_mem _ (List.mem_cons_of_mem _ (List.mem_cons_of_mem _ (List.mem_cons_of_mem _ (List.mem_cons_self)))), inb_S8x128_S1x16_3_48, rfl⟩
  · exact ⟨_, List.mem_cons_of_mem _ (List.mem_cons_of_mem _ (List.mem_cons_of_mem _ (List.mem_cons_self))), inb_S8x128_S1x16_3_64, rfl⟩
  · exact ⟨_, List.mem_cons_of_mem _ (List.mem_cons_of_mem _ (List.mem_cons_self)), inb_S8x128_S1x16_3_80, rfl⟩
  · exact ⟨_, List.mem_cons_of_mem _ (List.mem_cons_self), inb_S8x128_S1x16_3_96, rfl⟩
  · exact ⟨_, List.mem_cons_self, inb_S8x128_S1x16_3_112, rfl⟩

theorem hinZ3 (L : grid0.Coords) : ∀ (g : (s0V).view.ty.Contents (Elt F)) (x : S128.Idx),
    (View.read (Elt F) (((s0V).slice (Rect.unit (s := S8x128) ![3, 0] S1x128.size inb_S8x128_S1x128_3_0) (fun _ => rfl)).squeeze S128 squeezes_S1x128_S128).view ((s0V).view.writes (Elt F) g (zL3 (F := F) L)) x).toNat < 524288 :=
  hinZ_of L 3 (by decide) inb_S8x128_S1x128_3_0 (zL3 L) (zL3_agree L) (zL3_cover L)

/-- The pieces written into the first scratch up to row 4, the last written first. -/
def zL4 (L : grid0.Coords) : List (View.Piece (Elt F) S8x128 .i32) :=
  ⟨Rect.unit (s := S8x128) ![4, 112] S1x16.size inb_S8x128_S1x16_4_112, zVec (v2w L) 512#32 112#32⟩ ::
  ⟨Rect.unit (s := S8x128) ![4, 96] S1x16.size inb_S8x128_S1x16_4_96, zVec (v2w L) 512#32 96#32⟩ ::
  ⟨Rect.unit (s := S8x128) ![4, 80] S1x16.size inb_S8x128_S1x16_4_80, zVec (v2w L) 512#32 80#32⟩ ::
  ⟨Rect.unit (s := S8x128) ![4, 64] S1x16.size inb_S8x128_S1x16_4_64, zVec (v2w L) 512#32 64#32⟩ ::
  ⟨Rect.unit (s := S8x128) ![4, 48] S1x16.size inb_S8x128_S1x16_4_48, zVec (v2w L) 512#32 48#32⟩ ::
  ⟨Rect.unit (s := S8x128) ![4, 32] S1x16.size inb_S8x128_S1x16_4_32, zVec (v2w L) 512#32 32#32⟩ ::
  ⟨Rect.unit (s := S8x128) ![4, 16] S1x16.size inb_S8x128_S1x16_4_16, zVec (v2w L) 512#32 16#32⟩ ::
  ⟨Rect.unit (s := S8x128) ![4, 0] S1x16.size inb_S8x128_S1x16_4_0, zVec (v2w L) 512#32 0#32⟩ :: zL3 L

theorem zL4_agree (L : grid0.Coords) : ∀ p ∈ zL4 (F := F) L, ∀ x, p.2 x = zG L (p.1.emb x) := by
  unfold zL4
  exact (List.forall_mem_cons.2 ⟨zP_agree L 4 7 112 (by decide) (by decide) rfl 512#32 112#32 (by decide) (by decide) inb_S8x128_S1x16_4_112, (List.forall_mem_cons.2 ⟨zP_agree L 4 6 96 (by decide) (by decide) rfl 512#32 96#32 (by decide) (by decide) inb_S8x128_S1x16_4_96, (List.forall_mem_cons.2 ⟨zP_agree L 4 5 80 (by decide) (by decide) rfl 512#32 80#32 (by decide) (by decide) inb_S8x128_S1x16_4_80, (List.forall_mem_cons.2 ⟨zP_agree L 4 4 64 (by decide) (by decide) rfl 512#32 64#32 (by decide) (by decide) inb_S8x128_S1x16_4_64, (List.forall_mem_cons.2 ⟨zP_agree L 4 3 48 (by decide) (by decide) rfl 512#32 48#32 (by decide) (by decide) inb_S8x128_S1x16_4_48, (List.forall_mem_cons.2 ⟨zP_agree L 4 2 32 (by decide) (by decide) rfl 512#32 32#32 (by decide) (by decide) inb_S8x128_S1x16_4_32, (List.forall_mem_cons.2 ⟨zP_agree L 4 1 16 (by decide) (by decide) rfl 512#32 16#32 (by decide) (by decide) inb_S8x128_S1x16_4_16, (List.forall_mem_cons.2 ⟨zP_agree L 4 0 0 (by decide) (by decide) rfl 512#32 0#32 (by decide) (by decide) inb_S8x128_S1x16_4_0, (zL3_agree L)⟩)⟩)⟩)⟩)⟩)⟩)⟩)⟩)

theorem zL4_cover (L : grid0.Coords) : ∀ v : Fin 8, ∃ p ∈ zL4 (F := F) L, ∃ inb, p.1 = Rect.unit (s := S8x128) ![4, 16 * v.val] S1x16.size inb := by
  unfold zL4
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_4_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_4_16, rfl⟩
  · exact ⟨_, List.mem_cons_of_mem _ (List.mem_cons_of_mem _ (List.mem_cons_of_mem _ (List.mem_cons_of_mem _ (List.mem_cons_of_mem _ (List.mem_cons_self))))), inb_S8x128_S1x16_4_32, rfl⟩
  · exact ⟨_, List.mem_cons_of_mem _ (List.mem_cons_of_mem _ (List.mem_cons_of_mem _ (List.mem_cons_of_mem _ (List.mem_cons_self)))), inb_S8x128_S1x16_4_48, rfl⟩
  · exact ⟨_, List.mem_cons_of_mem _ (List.mem_cons_of_mem _ (List.mem_cons_of_mem _ (List.mem_cons_self))), inb_S8x128_S1x16_4_64, rfl⟩
  · exact ⟨_, List.mem_cons_of_mem _ (List.mem_cons_of_mem _ (List.mem_cons_self)), inb_S8x128_S1x16_4_80, rfl⟩
  · exact ⟨_, List.mem_cons_of_mem _ (List.mem_cons_self), inb_S8x128_S1x16_4_96, rfl⟩
  · exact ⟨_, List.mem_cons_self, inb_S8x128_S1x16_4_112, rfl⟩

theorem hinZ4 (L : grid0.Coords) : ∀ (g : (s0V).view.ty.Contents (Elt F)) (x : S128.Idx),
    (View.read (Elt F) (((s0V).slice (Rect.unit (s := S8x128) ![4, 0] S1x128.size inb_S8x128_S1x128_4_0) (fun _ => rfl)).squeeze S128 squeezes_S1x128_S128).view ((s0V).view.writes (Elt F) g (zL4 (F := F) L)) x).toNat < 524288 :=
  hinZ_of L 4 (by decide) inb_S8x128_S1x128_4_0 (zL4 L) (zL4_agree L) (zL4_cover L)

/-- The pieces written into the first scratch up to row 5, the last written first. -/
def zL5 (L : grid0.Coords) : List (View.Piece (Elt F) S8x128 .i32) :=
  ⟨Rect.unit (s := S8x128) ![5, 112] S1x16.size inb_S8x128_S1x16_5_112, zVec (v2w L) 640#32 112#32⟩ ::
  ⟨Rect.unit (s := S8x128) ![5, 96] S1x16.size inb_S8x128_S1x16_5_96, zVec (v2w L) 640#32 96#32⟩ ::
  ⟨Rect.unit (s := S8x128) ![5, 80] S1x16.size inb_S8x128_S1x16_5_80, zVec (v2w L) 640#32 80#32⟩ ::
  ⟨Rect.unit (s := S8x128) ![5, 64] S1x16.size inb_S8x128_S1x16_5_64, zVec (v2w L) 640#32 64#32⟩ ::
  ⟨Rect.unit (s := S8x128) ![5, 48] S1x16.size inb_S8x128_S1x16_5_48, zVec (v2w L) 640#32 48#32⟩ ::
  ⟨Rect.unit (s := S8x128) ![5, 32] S1x16.size inb_S8x128_S1x16_5_32, zVec (v2w L) 640#32 32#32⟩ ::
  ⟨Rect.unit (s := S8x128) ![5, 16] S1x16.size inb_S8x128_S1x16_5_16, zVec (v2w L) 640#32 16#32⟩ ::
  ⟨Rect.unit (s := S8x128) ![5, 0] S1x16.size inb_S8x128_S1x16_5_0, zVec (v2w L) 640#32 0#32⟩ :: zL4 L

theorem zL5_agree (L : grid0.Coords) : ∀ p ∈ zL5 (F := F) L, ∀ x, p.2 x = zG L (p.1.emb x) := by
  unfold zL5
  exact (List.forall_mem_cons.2 ⟨zP_agree L 5 7 112 (by decide) (by decide) rfl 640#32 112#32 (by decide) (by decide) inb_S8x128_S1x16_5_112, (List.forall_mem_cons.2 ⟨zP_agree L 5 6 96 (by decide) (by decide) rfl 640#32 96#32 (by decide) (by decide) inb_S8x128_S1x16_5_96, (List.forall_mem_cons.2 ⟨zP_agree L 5 5 80 (by decide) (by decide) rfl 640#32 80#32 (by decide) (by decide) inb_S8x128_S1x16_5_80, (List.forall_mem_cons.2 ⟨zP_agree L 5 4 64 (by decide) (by decide) rfl 640#32 64#32 (by decide) (by decide) inb_S8x128_S1x16_5_64, (List.forall_mem_cons.2 ⟨zP_agree L 5 3 48 (by decide) (by decide) rfl 640#32 48#32 (by decide) (by decide) inb_S8x128_S1x16_5_48, (List.forall_mem_cons.2 ⟨zP_agree L 5 2 32 (by decide) (by decide) rfl 640#32 32#32 (by decide) (by decide) inb_S8x128_S1x16_5_32, (List.forall_mem_cons.2 ⟨zP_agree L 5 1 16 (by decide) (by decide) rfl 640#32 16#32 (by decide) (by decide) inb_S8x128_S1x16_5_16, (List.forall_mem_cons.2 ⟨zP_agree L 5 0 0 (by decide) (by decide) rfl 640#32 0#32 (by decide) (by decide) inb_S8x128_S1x16_5_0, (zL4_agree L)⟩)⟩)⟩)⟩)⟩)⟩)⟩)⟩)

theorem zL5_cover (L : grid0.Coords) : ∀ v : Fin 8, ∃ p ∈ zL5 (F := F) L, ∃ inb, p.1 = Rect.unit (s := S8x128) ![5, 16 * v.val] S1x16.size inb := by
  unfold zL5
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_5_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_5_16, rfl⟩
  · exact ⟨_, List.mem_cons_of_mem _ (List.mem_cons_of_mem _ (List.mem_cons_of_mem _ (List.mem_cons_of_mem _ (List.mem_cons_of_mem _ (List.mem_cons_self))))), inb_S8x128_S1x16_5_32, rfl⟩
  · exact ⟨_, List.mem_cons_of_mem _ (List.mem_cons_of_mem _ (List.mem_cons_of_mem _ (List.mem_cons_of_mem _ (List.mem_cons_self)))), inb_S8x128_S1x16_5_48, rfl⟩
  · exact ⟨_, List.mem_cons_of_mem _ (List.mem_cons_of_mem _ (List.mem_cons_of_mem _ (List.mem_cons_self))), inb_S8x128_S1x16_5_64, rfl⟩
  · exact ⟨_, List.mem_cons_of_mem _ (List.mem_cons_of_mem _ (List.mem_cons_self)), inb_S8x128_S1x16_5_80, rfl⟩
  · exact ⟨_, List.mem_cons_of_mem _ (List.mem_cons_self), inb_S8x128_S1x16_5_96, rfl⟩
  · exact ⟨_, List.mem_cons_self, inb_S8x128_S1x16_5_112, rfl⟩

theorem hinZ5 (L : grid0.Coords) : ∀ (g : (s0V).view.ty.Contents (Elt F)) (x : S128.Idx),
    (View.read (Elt F) (((s0V).slice (Rect.unit (s := S8x128) ![5, 0] S1x128.size inb_S8x128_S1x128_5_0) (fun _ => rfl)).squeeze S128 squeezes_S1x128_S128).view ((s0V).view.writes (Elt F) g (zL5 (F := F) L)) x).toNat < 524288 :=
  hinZ_of L 5 (by decide) inb_S8x128_S1x128_5_0 (zL5 L) (zL5_agree L) (zL5_cover L)

/-- The pieces written into the first scratch up to row 6, the last written first. -/
def zL6 (L : grid0.Coords) : List (View.Piece (Elt F) S8x128 .i32) :=
  ⟨Rect.unit (s := S8x128) ![6, 112] S1x16.size inb_S8x128_S1x16_6_112, zVec (v2w L) 768#32 112#32⟩ ::
  ⟨Rect.unit (s := S8x128) ![6, 96] S1x16.size inb_S8x128_S1x16_6_96, zVec (v2w L) 768#32 96#32⟩ ::
  ⟨Rect.unit (s := S8x128) ![6, 80] S1x16.size inb_S8x128_S1x16_6_80, zVec (v2w L) 768#32 80#32⟩ ::
  ⟨Rect.unit (s := S8x128) ![6, 64] S1x16.size inb_S8x128_S1x16_6_64, zVec (v2w L) 768#32 64#32⟩ ::
  ⟨Rect.unit (s := S8x128) ![6, 48] S1x16.size inb_S8x128_S1x16_6_48, zVec (v2w L) 768#32 48#32⟩ ::
  ⟨Rect.unit (s := S8x128) ![6, 32] S1x16.size inb_S8x128_S1x16_6_32, zVec (v2w L) 768#32 32#32⟩ ::
  ⟨Rect.unit (s := S8x128) ![6, 16] S1x16.size inb_S8x128_S1x16_6_16, zVec (v2w L) 768#32 16#32⟩ ::
  ⟨Rect.unit (s := S8x128) ![6, 0] S1x16.size inb_S8x128_S1x16_6_0, zVec (v2w L) 768#32 0#32⟩ :: zL5 L

theorem zL6_agree (L : grid0.Coords) : ∀ p ∈ zL6 (F := F) L, ∀ x, p.2 x = zG L (p.1.emb x) := by
  unfold zL6
  exact (List.forall_mem_cons.2 ⟨zP_agree L 6 7 112 (by decide) (by decide) rfl 768#32 112#32 (by decide) (by decide) inb_S8x128_S1x16_6_112, (List.forall_mem_cons.2 ⟨zP_agree L 6 6 96 (by decide) (by decide) rfl 768#32 96#32 (by decide) (by decide) inb_S8x128_S1x16_6_96, (List.forall_mem_cons.2 ⟨zP_agree L 6 5 80 (by decide) (by decide) rfl 768#32 80#32 (by decide) (by decide) inb_S8x128_S1x16_6_80, (List.forall_mem_cons.2 ⟨zP_agree L 6 4 64 (by decide) (by decide) rfl 768#32 64#32 (by decide) (by decide) inb_S8x128_S1x16_6_64, (List.forall_mem_cons.2 ⟨zP_agree L 6 3 48 (by decide) (by decide) rfl 768#32 48#32 (by decide) (by decide) inb_S8x128_S1x16_6_48, (List.forall_mem_cons.2 ⟨zP_agree L 6 2 32 (by decide) (by decide) rfl 768#32 32#32 (by decide) (by decide) inb_S8x128_S1x16_6_32, (List.forall_mem_cons.2 ⟨zP_agree L 6 1 16 (by decide) (by decide) rfl 768#32 16#32 (by decide) (by decide) inb_S8x128_S1x16_6_16, (List.forall_mem_cons.2 ⟨zP_agree L 6 0 0 (by decide) (by decide) rfl 768#32 0#32 (by decide) (by decide) inb_S8x128_S1x16_6_0, (zL5_agree L)⟩)⟩)⟩)⟩)⟩)⟩)⟩)⟩)

theorem zL6_cover (L : grid0.Coords) : ∀ v : Fin 8, ∃ p ∈ zL6 (F := F) L, ∃ inb, p.1 = Rect.unit (s := S8x128) ![6, 16 * v.val] S1x16.size inb := by
  unfold zL6
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_6_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_6_16, rfl⟩
  · exact ⟨_, List.mem_cons_of_mem _ (List.mem_cons_of_mem _ (List.mem_cons_of_mem _ (List.mem_cons_of_mem _ (List.mem_cons_of_mem _ (List.mem_cons_self))))), inb_S8x128_S1x16_6_32, rfl⟩
  · exact ⟨_, List.mem_cons_of_mem _ (List.mem_cons_of_mem _ (List.mem_cons_of_mem _ (List.mem_cons_of_mem _ (List.mem_cons_self)))), inb_S8x128_S1x16_6_48, rfl⟩
  · exact ⟨_, List.mem_cons_of_mem _ (List.mem_cons_of_mem _ (List.mem_cons_of_mem _ (List.mem_cons_self))), inb_S8x128_S1x16_6_64, rfl⟩
  · exact ⟨_, List.mem_cons_of_mem _ (List.mem_cons_of_mem _ (List.mem_cons_self)), inb_S8x128_S1x16_6_80, rfl⟩
  · exact ⟨_, List.mem_cons_of_mem _ (List.mem_cons_self), inb_S8x128_S1x16_6_96, rfl⟩
  · exact ⟨_, List.mem_cons_self, inb_S8x128_S1x16_6_112, rfl⟩

theorem hinZ6 (L : grid0.Coords) : ∀ (g : (s0V).view.ty.Contents (Elt F)) (x : S128.Idx),
    (View.read (Elt F) (((s0V).slice (Rect.unit (s := S8x128) ![6, 0] S1x128.size inb_S8x128_S1x128_6_0) (fun _ => rfl)).squeeze S128 squeezes_S1x128_S128).view ((s0V).view.writes (Elt F) g (zL6 (F := F) L)) x).toNat < 524288 :=
  hinZ_of L 6 (by decide) inb_S8x128_S1x128_6_0 (zL6 L) (zL6_agree L) (zL6_cover L)

/-- The pieces written into the first scratch up to row 7, the last written first. -/
def zL7 (L : grid0.Coords) : List (View.Piece (Elt F) S8x128 .i32) :=
  ⟨Rect.unit (s := S8x128) ![7, 112] S1x16.size inb_S8x128_S1x16_7_112, zVec (v2w L) 896#32 112#32⟩ ::
  ⟨Rect.unit (s := S8x128) ![7, 96] S1x16.size inb_S8x128_S1x16_7_96, zVec (v2w L) 896#32 96#32⟩ ::
  ⟨Rect.unit (s := S8x128) ![7, 80] S1x16.size inb_S8x128_S1x16_7_80, zVec (v2w L) 896#32 80#32⟩ ::
  ⟨Rect.unit (s := S8x128) ![7, 64] S1x16.size inb_S8x128_S1x16_7_64, zVec (v2w L) 896#32 64#32⟩ ::
  ⟨Rect.unit (s := S8x128) ![7, 48] S1x16.size inb_S8x128_S1x16_7_48, zVec (v2w L) 896#32 48#32⟩ ::
  ⟨Rect.unit (s := S8x128) ![7, 32] S1x16.size inb_S8x128_S1x16_7_32, zVec (v2w L) 896#32 32#32⟩ ::
  ⟨Rect.unit (s := S8x128) ![7, 16] S1x16.size inb_S8x128_S1x16_7_16, zVec (v2w L) 896#32 16#32⟩ ::
  ⟨Rect.unit (s := S8x128) ![7, 0] S1x16.size inb_S8x128_S1x16_7_0, zVec (v2w L) 896#32 0#32⟩ :: zL6 L

theorem zL7_agree (L : grid0.Coords) : ∀ p ∈ zL7 (F := F) L, ∀ x, p.2 x = zG L (p.1.emb x) := by
  unfold zL7
  exact (List.forall_mem_cons.2 ⟨zP_agree L 7 7 112 (by decide) (by decide) rfl 896#32 112#32 (by decide) (by decide) inb_S8x128_S1x16_7_112, (List.forall_mem_cons.2 ⟨zP_agree L 7 6 96 (by decide) (by decide) rfl 896#32 96#32 (by decide) (by decide) inb_S8x128_S1x16_7_96, (List.forall_mem_cons.2 ⟨zP_agree L 7 5 80 (by decide) (by decide) rfl 896#32 80#32 (by decide) (by decide) inb_S8x128_S1x16_7_80, (List.forall_mem_cons.2 ⟨zP_agree L 7 4 64 (by decide) (by decide) rfl 896#32 64#32 (by decide) (by decide) inb_S8x128_S1x16_7_64, (List.forall_mem_cons.2 ⟨zP_agree L 7 3 48 (by decide) (by decide) rfl 896#32 48#32 (by decide) (by decide) inb_S8x128_S1x16_7_48, (List.forall_mem_cons.2 ⟨zP_agree L 7 2 32 (by decide) (by decide) rfl 896#32 32#32 (by decide) (by decide) inb_S8x128_S1x16_7_32, (List.forall_mem_cons.2 ⟨zP_agree L 7 1 16 (by decide) (by decide) rfl 896#32 16#32 (by decide) (by decide) inb_S8x128_S1x16_7_16, (List.forall_mem_cons.2 ⟨zP_agree L 7 0 0 (by decide) (by decide) rfl 896#32 0#32 (by decide) (by decide) inb_S8x128_S1x16_7_0, (zL6_agree L)⟩)⟩)⟩)⟩)⟩)⟩)⟩)⟩)

theorem zL7_cover (L : grid0.Coords) : ∀ v : Fin 8, ∃ p ∈ zL7 (F := F) L, ∃ inb, p.1 = Rect.unit (s := S8x128) ![7, 16 * v.val] S1x16.size inb := by
  unfold zL7
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_7_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_7_16, rfl⟩
  · exact ⟨_, List.mem_cons_of_mem _ (List.mem_cons_of_mem _ (List.mem_cons_of_mem _ (List.mem_cons_of_mem _ (List.mem_cons_of_mem _ (List.mem_cons_self))))), inb_S8x128_S1x16_7_32, rfl⟩
  · exact ⟨_, List.mem_cons_of_mem _ (List.mem_cons_of_mem _ (List.mem_cons_of_mem _ (List.mem_cons_of_mem _ (List.mem_cons_self)))), inb_S8x128_S1x16_7_48, rfl⟩
  · exact ⟨_, List.mem_cons_of_mem _ (List.mem_cons_of_mem _ (List.mem_cons_of_mem _ (List.mem_cons_self))), inb_S8x128_S1x16_7_64, rfl⟩
  · exact ⟨_, List.mem_cons_of_mem _ (List.mem_cons_of_mem _ (List.mem_cons_self)), inb_S8x128_S1x16_7_80, rfl⟩
  · exact ⟨_, List.mem_cons_of_mem _ (List.mem_cons_self), inb_S8x128_S1x16_7_96, rfl⟩
  · exact ⟨_, List.mem_cons_self, inb_S8x128_S1x16_7_112, rfl⟩

theorem hinZ7 (L : grid0.Coords) : ∀ (g : (s0V).view.ty.Contents (Elt F)) (x : S128.Idx),
    (View.read (Elt F) (((s0V).slice (Rect.unit (s := S8x128) ![7, 0] S1x128.size inb_S8x128_S1x128_7_0) (fun _ => rfl)).squeeze S128 squeezes_S1x128_S128).view ((s0V).view.writes (Elt F) g (zL7 (F := F) L)) x).toNat < 524288 :=
  hinZ_of L 7 (by decide) inb_S8x128_S1x128_7_0 (zL7 L) (zL7_agree L) (zL7_cover L)

end Cert.KB

end
-- ==== Proof.BodyRowWriteB.lean ====
/-
  Writing one whole row of an 8 × 128 scratch buffer and reading the buffer back.

  A gather delivers its 128 values through the view "row r' of the buffer, as a vector of 128". Read back through the
  whole buffer at index (p, q), the write shows the delivered value number q when p = r', and what the buffer held
  before at every other row: the row view's indices are exactly the indices (r', q), in order.
-/
import proofs.«207294_g27419071217675_cont_9to1_1737_29_alg».proof.Proof.CommonB

noncomputable section

namespace Cert.KB

open Cert.Kernel Cert.Kernel.Gen

open Idealize.ShloMosaic Idealize.ShloMosaic.ValueIdx

variable {F : FTy → Type}

/-- A write of a whole row `w` through row `r'` of the 8 × 128 buffer, read back at `y`: the row's entry at `y`'s column
    when `y` is in row `r'`, the earlier contents elsewhere. -/
theorem rowWrite1_read (C : (s1V).view.ty.Contents (Elt F)) (r' : ℕ)
    (inb' : ∀ a, (![r', 0] : Fin 2 → ℕ) a + S1x128.size a ≤ S8x128.size a)
    (w : S128.Idx → Elt F .f32) (y : S8x128.Idx) :
    View.read (Elt F) (s1V).view
        (View.write (Elt F) (((s1V).slice (Rect.unit (s := S8x128) ![r', 0] S1x128.size inb') (fun _ => rfl)).squeeze S128 squeezes_S1x128_S128).view C w Finset.univ) y
      = if (y 0).val = r' then w (ix1 (⟨(y 1).val, idx2_lt1 y⟩ : Fin 128)) else View.read (Elt F) (s1V).view C y := by
  show (((View.whole (cc0_scratch1 : Ref sig .scVector)).slice (Rect.unit (s := S8x128) ![r', 0] S1x128.size inb')).reshape S128 squeezes_S1x128_S128.numel_eq).write (Elt F) C w Finset.univ y
      = if (y 0).val = r' then w (ix1 (⟨(y 1).val, idx2_lt1 y⟩ : Fin 128)) else C y
  by_cases hy : (y 0).val = r'
  · rw [if_pos hy]
    have hre : Shape.reshapeEquiv squeezes_S1x128_S128.numel_eq (ix1 (⟨(y 1).val, idx2_lt1 y⟩ : Fin 128))
        = (ix2 (0 : Fin 1) (⟨(y 1).val, idx2_lt1 y⟩ : Fin 128) : S1x128.Idx) :=
      Shape.reshapeEquiv_eq_of_rowMajor _ (by rw [Shape.rowMajor_val_two, Shape.rowMajor_val_one]; simp)
    have hx : (((View.whole (cc0_scratch1 : Ref sig .scVector)).slice (Rect.unit (s := S8x128) ![r', 0] S1x128.size inb')).reshape S128 squeezes_S1x128_S128.numel_eq).emb
        (ix1 (⟨(y 1).val, idx2_lt1 y⟩ : Fin 128)) = y := by
      show (Rect.unit (s := S8x128) ![r', 0] S1x128.size inb').emb (Shape.reshapeEquiv squeezes_S1x128_S128.numel_eq (ix1 (⟨(y 1).val, idx2_lt1 y⟩ : Fin 128))) = y
      rw [hre]
      funext a
      apply Fin.ext
      rw [Rect.emb_apply]
      match a with
      | ⟨0, _⟩ => simp [hy]
      | ⟨1, _⟩ => simp
    calc _ = (((View.whole (cc0_scratch1 : Ref sig .scVector)).slice (Rect.unit (s := S8x128) ![r', 0] S1x128.size inb')).reshape S128 squeezes_S1x128_S128.numel_eq).write (Elt F) C w Finset.univ
              ((((View.whole (cc0_scratch1 : Ref sig .scVector)).slice (Rect.unit (s := S8x128) ![r', 0] S1x128.size inb')).reshape S128 squeezes_S1x128_S128.numel_eq).emb (ix1 (⟨(y 1).val, idx2_lt1 y⟩ : Fin 128))) := by rw [hx]
      _ = _ := (View.write_emb_of_mem _ _ (Finset.mem_univ _)).trans (cast_eq _ _)
  · rw [if_neg hy]
    refine View.write_of_not_mem _ _ _ ?_
    rw [View.setOn_univ, View.set_reshape, View.set_slice_whole, Rect.mem_set_unit]
    intro h
    have h0 := h 0
    simp at h0
    omega

/-- A write of a whole row `w` through row `r'` of the 8 × 128 buffer, read back at `y`: the row's entry at `y`'s column
    when `y` is in row `r'`, the earlier contents elsewhere. -/
theorem rowWrite3_read (C : (s3V).view.ty.Contents (Elt F)) (r' : ℕ)
    (inb' : ∀ a, (![r', 0] : Fin 2 → ℕ) a + S1x128.size a ≤ S8x128.size a)
    (w : S128.Idx → Elt F .f32) (y : S8x128.Idx) :
    View.read (Elt F) (s3V).view
        (View.write (Elt F) (((s3V).slice (Rect.unit (s := S8x128) ![r', 0] S1x128.size inb') (fun _ => rfl)).squeeze S128 squeezes_S1x128_S128).view C w Finset.univ) y
      = if (y 0).val = r' then w (ix1 (⟨(y 1).val, idx2_lt1 y⟩ : Fin 128)) else View.read (Elt F) (s3V).view C y := by
  show (((View.whole (cc0_scratch3 : Ref sig .scVector)).slice (Rect.unit (s := S8x128) ![r', 0] S1x128.size inb')).reshape S128 squeezes_S1x128_S128.numel_eq).write (Elt F) C w Finset.univ y
      = if (y 0).val = r' then w (ix1 (⟨(y 1).val, idx2_lt1 y⟩ : Fin 128)) else C y
  by_cases hy : (y 0).val = r'
  · rw [if_pos hy]
    have hre : Shape.reshapeEquiv squeezes_S1x128_S128.numel_eq (ix1 (⟨(y 1).val, idx2_lt1 y⟩ : Fin 128))
        = (ix2 (0 : Fin 1) (⟨(y 1).val, idx2_lt1 y⟩ : Fin 128) : S1x128.Idx) :=
      Shape.reshapeEquiv_eq_of_rowMajor _ (by rw [Shape.rowMajor_val_two, Shape.rowMajor_val_one]; simp)
    have hx : (((View.whole (cc0_scratch3 : Ref sig .scVector)).slice (Rect.unit (s := S8x128) ![r', 0] S1x128.size inb')).reshape S128 squeezes_S1x128_S128.numel_eq).emb
        (ix1 (⟨(y 1).val, idx2_lt1 y⟩ : Fin 128)) = y := by
      show (Rect.unit (s := S8x128) ![r', 0] S1x128.size inb').emb (Shape.reshapeEquiv squeezes_S1x128_S128.numel_eq (ix1 (⟨(y 1).val, idx2_lt1 y⟩ : Fin 128))) = y
      rw [hre]
      funext a
      apply Fin.ext
      rw [Rect.emb_apply]
      match a with
      | ⟨0, _⟩ => simp [hy]
      | ⟨1, _⟩ => simp
    calc _ = (((View.whole (cc0_scratch3 : Ref sig .scVector)).slice (Rect.unit (s := S8x128) ![r', 0] S1x128.size inb')).reshape S128 squeezes_S1x128_S128.numel_eq).write (Elt F) C w Finset.univ
              ((((View.whole (cc0_scratch3 : Ref sig .scVector)).slice (Rect.unit (s := S8x128) ![r', 0] S1x128.size inb')).reshape S128 squeezes_S1x128_S128.numel_eq).emb (ix1 (⟨(y 1).val, idx2_lt1 y⟩ : Fin 128))) := by rw [hx]
      _ = _ := (View.write_emb_of_mem _ _ (Finset.mem_univ _)).trans (cast_eq _ _)
  · rw [if_neg hy]
    refine View.write_of_not_mem _ _ _ ?_
    rw [View.setOn_univ, View.set_reshape, View.set_slice_whole, Rect.mem_set_unit]
    intro h
    have h0 := h 0
    simp at h0
    omega

end Cert.KB

end
-- ==== Proof.BodyGatherB.lean ====
/-
  An indirect gather's delivered row, entry by entry.

  A gather through an index list of 128 entries out of a flat array delivers, at entry x, the flat array's element at
  the position the list names at x: the list's entry k in row-major order is the entry at index k (the list has one
  axis), and the flat array read through the slice that covers all of it is the array itself.
-/
import proofs.«207294_g27419071217675_cont_9to1_1737_29_alg».proof.Proof.CommonB
import Idealize.ShloMosaic.Lib.ValueIdx

noncomputable section

namespace Cert.KB

open Cert.Kernel Cert.Kernel.Gen

open Idealize.ShloMosaic
open Idealize.ShloMosaic.SparseCore (S V T)
open Idealize.SL Idealize.SL.Sem

variable {F : FTy → Type}

/-- Entry k of a one-axis list of 128 index words, in row-major order, is the entry at the index whose coordinate is k. -/
theorem rows_at {o z : ℕ} (idx : S128.Idx → Elt F .i32) (hn : S128.numel = o) (hin : ∀ x, (idx x).toNat < z)
    (x : S128.Idx) (k : Fin o) (hk : k.val = (x 0).val) :
    SparseCore.rows idx hn hin k = ⟨(idx x).toNat, hin x⟩ := by
  unfold SparseCore.rows
  apply Fin.ext
  show (idx (S128.rowMajor.symm (k.cast hn.symm))).toNat = (idx x).toNat
  have e : S128.rowMajor.symm (k.cast hn.symm) = x := by
    rw [Equiv.symm_apply_eq]
    apply Fin.ext
    rw [Shape.rowMajor_val_one]
    exact hk
  rw [e]

variable [FloatOps F]

/-- The row gathered out of flat z, at entry x, is flat z at the position the list names at x. -/
theorem gatherZ_apply (d : Dev nD) (zf : Buf (Elt F) (zLoc d)) (idx : S128.Idx → Elt F .i32)
    (hn : S128.numel = S128.size gathers_S524288_S128.axis') (hin : ∀ x, (idx x).toNat < S524288.size gathers_S524288_S128.axis)
    (x : S128.Idx) :
    SparseCore.gatherPayload gathers_S524288_S128
        (View.read (Elt F) ((zV).slice (Rect.unit (s := S524288) ![0] S524288.size inb_S524288_S524288_0) (fun _ => rfl)).view zf)
        (SparseCore.rows idx hn hin) x
      = zf (ValueIdx.ix1 (⟨(idx x).toNat, hin x⟩ : Fin 524288)) := by
  unfold SparseCore.gatherPayload
  rw [View.read_apply]
  refine (cast_eq _ _).trans ?_
  refine congrArg zf (funext fun a => Fin.ext ?_)
  match a with
  | ⟨0, _⟩ =>
    show 0 + 1 * (gathers_S524288_S128.idx (SparseCore.rows idx hn hin) x gathers_S524288_S128.axis).val = (idx x).toNat
    rw [Shape.Gathers.idx_axis, rows_at idx hn hin x (x gathers_S524288_S128.axis') rfl]
    show 0 + 1 * (idx x).toNat = (idx x).toNat
    omega

/-- The row gathered out of flat a, at entry x, is flat a at the position the list names at x. -/
theorem gatherA_apply (d : Dev nD) (af : Buf (Elt F) (aLoc d)) (idx : S128.Idx → Elt F .i32)
    (hn : S128.numel = S128.size gathers_S2097152_S128.axis') (hin : ∀ x, (idx x).toNat < S2097152.size gathers_S2097152_S128.axis)
    (x : S128.Idx) :
    SparseCore.gatherPayload gathers_S2097152_S128
        (View.read (Elt F) ((aV).slice (Rect.unit (s := S2097152) ![0] S2097152.size inb_S2097152_S2097152_0) (fun _ => rfl)).view af)
        (SparseCore.rows idx hn hin) x
      = af (ValueIdx.ix1 (⟨(idx x).toNat, hin x⟩ : Fin 2097152)) := by
  unfold SparseCore.gatherPayload
  rw [View.read_apply]
  refine (cast_eq _ _).trans ?_
  refine congrArg af (funext fun a => Fin.ext ?_)
  match a with
  | ⟨0, _⟩ =>
    show 0 + 1 * (gathers_S2097152_S128.idx (SparseCore.rows idx hn hin) x gathers_S2097152_S128.axis).val = (idx x).toNat
    rw [Shape.Gathers.idx_axis, rows_at idx hn hin x (x gathers_S2097152_S128.axis') rfl]
    show 0 + 1 * (idx x).toNat = (idx x).toNat
    omega

end Cert.KB

end
-- ==== Proof.BodyAB.lean ====
/-
  Phase two of a task, as data. The gather through row `r` of the first scratch buffer delivers, at entry `c` of row
  `r` of the second, flat `z` at the position listed: attribute slot 4 of result row `1024 w + 128 r + c`. Converted to a
  word it is that row's selecting word, below 128 by the precondition, so `128 · row + word` does not wrap and is the
  position in flat `a` of the selected entry: the index lists of the third scratch buffer, and the in-range fact each
  gather out of flat `a` needs.
-/
import proofs.«207294_g27419071217675_cont_9to1_1737_29_alg».proof.Proof.BodyZB
import proofs.«207294_g27419071217675_cont_9to1_1737_29_alg».proof.Proof.BodyRowWriteB
import proofs.«207294_g27419071217675_cont_9to1_1737_29_alg».proof.Proof.BodyGatherB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Result rows -/

/-- The result row entry `y` of a scratch buffer belongs to: `1024 w + 128 y₀ + y₁`. -/
def rowN (L : grid0.Coords) (y : S8x128.Idx) : ℕ := 1024 * (L 1).val + 128 * (y 0).val + (y 1).val

omit [FloatOps F] in
theorem rowN_lt (L : grid0.Coords) (y : S8x128.Idx) : rowN L y < 16384 := by
  have h1 : (L 1).val < 16 := (L 1).isLt
  have h2 := ValueIdx.idx2_lt0 y
  have h3 := ValueIdx.idx2_lt1 y
  unfold rowN; omega

def rowF (L : grid0.Coords) (y : S8x128.Idx) : Fin 16384 := ⟨rowN L y, rowN_lt L y⟩

omit [FloatOps F] in
theorem zG_toNat (L : grid0.Coords) (y : S8x128.Idx) : (zG (F := F) L y).toNat = (Cert.Spec.zPos (rowF L y)).val := by
  show (BitVec.ofNat 32 _).toNat = rowN L y * 32 + 4
  rw [BitVec.toNat_ofNat]
  have := rowN_lt L y
  unfold rowN at *; omega

omit [FloatOps F] in
theorem zPos_row_eq (L : grid0.Coords) (y' y : S8x128.Idx) (h0 : (y' 0).val = (y 0).val) (h1 : (y' 1).val = (y 1).val) :
    (Cert.Spec.zPos (rowF L y')).val = (Cert.Spec.zPos (rowF L y)).val := by
  show rowN L y' * 32 + 4 = rowN L y * 32 + 4
  unfold rowN; rw [h0, h1]

omit [FloatOps F] in
/-- Entry `x` of row `r` of the first scratch buffer after the listed writes: the intended word. -/
theorem zread_of (L : grid0.Coords) (r : ℕ) (inb : ∀ a, (![r, 0] : Fin 2 → ℕ) a + S1x128.size a ≤ S8x128.size a)
    (Ls : List (View.Piece (Elt F) S8x128 .i32)) (hag : ∀ p ∈ Ls, ∀ x, p.2 x = zG L (p.1.emb x))
    (hcov : ∀ v : Fin 8, ∃ p ∈ Ls, ∃ inb, p.1 = Rect.unit (s := S8x128) ![r, 16 * v.val] S1x16.size inb)
    (g : (s0V).view.ty.Contents (Elt F)) (x : S128.Idx) :
    View.read (Elt F) (((s0V).slice (Rect.unit (s := S8x128) ![r, 0] S1x128.size inb) (fun _ => rfl)).squeeze S128 squeezes_S1x128_S128).view
        ((s0V).view.writes (Elt F) g Ls) x = zG L (rowIx r inb x) := by
  have e : View.read (Elt F) (((s0V).slice (Rect.unit (s := S8x128) ![r, 0] S1x128.size inb) (fun _ => rfl)).squeeze S128 squeezes_S1x128_S128).view
        ((s0V).view.writes (Elt F) g Ls) x
      = View.read (Elt F) (s0V).view ((s0V).view.writes (Elt F) g Ls) (rowIx r inb x) := by
    rw [View.read_apply, View.read_apply]; rfl
  rw [e, View.read_writes_apply_of_pieces (s0V).view g (zG L) Ls hag (rowIx r inb x) (cover_row Ls r hcov _ (rowIx_zero r inb x))]

/-! ## What the gathers out of flat `z` deliver -/

/-- Flat `z` as the gathers read it. -/
def zsrc (zf : (zV).view.ty.Contents (Elt F)) : S524288.Idx → Elt F .f32 :=
  View.read (Elt F) ((zV).slice (Rect.unit (s := S524288) ![0] S524288.size inb_S524288_S524288_0) (fun _ => rfl)).view zf

/-- What the gather through row 0 of the first scratch buffer delivers. -/
def gz0 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![0, 0] S1x128.size inb_S8x128_S1x128_0_0) (fun _ => rfl)).squeeze S128 squeezes_S1x128_S128).view ((s0V).view.writes (Elt F) f0 (zL0 L))) rfl (hinZ0 L f0))

/-- What the gather through row 1 of the first scratch buffer delivers. -/
def gz1 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![1, 0] S1x128.size inb_S8x128_S1x128_1_0) (fun _ => rfl)).squeeze S128 squeezes_S1x128_S128).view ((s0V).view.writes (Elt F) f0 (zL1 L))) rfl (hinZ1 L f0))

/-- What the gather through row 2 of the first scratch buffer delivers. -/
def gz2 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![2, 0] S1x128.size inb_S8x128_S1x128_2_0) (fun _ => rfl)).squeeze S128 squeezes_S1x128_S128).view ((s0V).view.writes (Elt F) f0 (zL2 L))) rfl (hinZ2 L f0))

/-- What the gather through row 3 of the first scratch buffer delivers. -/
def gz3 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![3, 0] S1x128.size inb_S8x128_S1x128_3_0) (fun _ => rfl)).squeeze S128 squeezes_S1x128_S128).view ((s0V).view.writes (Elt F) f0 (zL3 L))) rfl (hinZ3 L f0))

/-- What the gather through row 4 of the first scratch buffer delivers. -/
def gz4 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![4, 0] S1x128.size inb_S8x128_S1x128_4_0) (fun _ => rfl)).squeeze S128 squeezes_S1x128_S128).view ((s0V).view.writes (Elt F) f0 (zL4 L))) rfl (hinZ4 L f0))

/-- What the gather through row 5 of the first scratch buffer delivers. -/
def gz5 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![5, 0] S1x128.size inb_S8x128_S1x128_5_0) (fun _ => rfl)).squeeze S128 squeezes_S1x128_S128).view ((s0V).view.writes (Elt F) f0 (zL5 L))) rfl (hinZ5 L f0))

/-- What the gather through row 6 of the first scratch buffer delivers. -/
def gz6 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![6, 0] S1x128.size inb_S8x128_S1x128_6_0) (fun _ => rfl)).squeeze S128 squeezes_S1x128_S128).view ((s0V).view.writes (Elt F) f0 (zL6 L))) rfl (hinZ6 L f0))

/-- What the gather through row 7 of the first scratch buffer delivers. -/
def gz7 (L : grid0.Coords) (zf : (zV).view.ty.Contents (Elt F)) (f0 : (s0V).view.ty.Contents (Elt F)) : S128.Idx → Elt F .f32 :=
  SparseCore.gatherPayload gathers_S524288_S128 (zsrc zf)
    (SparseCore.rows (View.read (Elt F) (((s0V).slice (Rect.unit (s := S8x128) ![7, 0] S1x128.size inb_S8x128_S1x128_7_0) (fun _ => rfl)).squeeze S128 squeezes_S1x128_S128).view ((s0V).view.writes (Elt F) f0 (zL7 L))) rfl (hinZ7 L f0))

/-- The second scratch buffer once the eight gathers out of flat `z` are issued: row `r` written with gather `r`'s delivery. -/
def c1 (L : grid0.Coords) (zf : (zV).view.ty.Contents (Elt F)) (f0 : (s0V).view.ty.Contents (Elt F)) (f1 : (s1V).view.ty.Contents (Elt F)) : (s1V).view.ty.Contents (Elt F) :=
  (View.write (Elt F) (((s1V).slice (Rect.unit (s := S8x128) ![7, 0] S1x128.size inb_S8x128_S1x128_7_0) (fun _ => rfl)).squeeze S128 squeezes_S1x128_S128).view (View.write (Elt F) (((s1V).slice (Rect.unit (s := S8x128) ![6, 0] S1x128.size inb_S8x128_S1x128_6_0) (fun _ => rfl)).squeeze S128 squeezes_S1x128_S128).view (View.write (Elt F) (((s1V).slice (Rect.unit (s := S8x128) ![5, 0] S1x128.size inb_S8x128_S1x128_5_0) (fun _ => rfl)).squeeze S128 squeezes_S1x128_S128).view (View.write (Elt F) (((s1V).slice (Rect.unit (s := S8x128) ![4, 0] S1x128.size inb_S8x128_S1x128_4_0) (fun _ => rfl)).squeeze S128 squeezes_S1x128_S128).view (View.write (Elt F) (((s1V).slice (Rect.unit (s := S8x128) ![3, 0] S1x128.size inb_S8x128_S1x128_3_0) (fun _ => rfl)).squeeze S128 squeezes_S1x128_S128).view (View.write (Elt F) (((s1V).slice (Rect.unit (s := S8x128) ![2, 0] S1x128.size inb_S8x128_S1x128_2_0) (fun _ => rfl)).squeeze S128 squeezes_S1x128_S128).view (View.write (Elt F) (((s1V).slice (Rect.unit (s := S8x128) ![1, 0] S1x128.size inb_S8x128_S1x128_1_0) (fun _ => rfl)).squeeze S128 squeezes_S1x128_S128).view (View.write (Elt F) (((s1V).slice (Rect.unit (s := S8x128) ![0, 0] S1x128.size inb_S8x128_S1x128_0_0) (fun _ => rfl)).squeeze S128 squeezes_S1x128_S128).view f1 (gz0 L zf f0) Finset.univ) (gz1 L zf f0) Finset.univ) (gz2 L zf f0) Finset.univ) (gz3 L zf f0) Finset.univ) (gz4 L zf f0) Finset.univ) (gz5 L zf f0) Finset.univ) (gz6 L zf f0) Finset.univ) (gz7 L zf f0) Finset.univ)

/-- Sixteen lanes of the second scratch buffer. -/
def zld (L : grid0.Coords) (zf : (zV).view.ty.Contents (Elt F)) (f0 : (s0V).view.ty.Contents (Elt F)) (f1 : (s1V).view.ty.Contents (Elt F)) (r c : ℕ)
    (inb : ∀ a, (![r, c] : Fin 2 → ℕ) a + S1x16.size a ≤ S8x128.size a) : Vec F S1x16 .f32 :=
  View.readAt (Elt F) (s1V).view (Rect.unit (s := S8x128) ![r, c] S1x16.size inb).toLoadRect (c1 L zf f0 f1)

/-- Sixteen consecutive positions in flat `a`: lane `l` holds `128 · (b + c₁ + c₂ + l)` plus the converted lane of `u`. -/
def aVec (b c1 c2 : BitVec 32) (u : Vec F S1x16 .f32) : IVec S1x16 32 :=
  shapeCast S1x16 (addi (muli (addi (iota .scVector S16 32 [0] iota_S16_d0_w32_scVector) (broadcast S16 (Scalar.addi (Scalar.addi b c1) c2)))
    (broadcast S16 128#32)) (fptosi 32 (shapeCast S16 u shapeCasts_S1x16_S16))) shapeCasts_S16_S1x16

/-- The pieces written into the third scratch buffer up to row 0, the last written first. -/
def aL0 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![0, 112] S1x16.size inb_S8x128_S1x16_0_112, aVec (v2w L) 0#32 112#32 (zld L zf f0 f1 0 112 inb_S8x128_S1x16_0_112)⟩ ::
  ⟨Rect.unit (s := S8x128) ![0, 96] S1x16.size inb_S8x128_S1x16_0_96, aVec (v2w L) 0#32 96#32 (zld L zf f0 f1 0 96 inb_S8x128_S1x16_0_96)⟩ ::
  ⟨Rect.unit (s := S8x128) ![0, 80] S1x16.size inb_S8x128_S1x16_0_80, aVec (v2w L) 0#32 80#32 (zld L zf f0 f1 0 80 inb_S8x128_S1x16_0_80)⟩ ::
  ⟨Rect.unit (s := S8x128) ![0, 64] S1x16.size inb_S8x128_S1x16_0_64, aVec (v2w L) 0#32 64#32 (zld L zf f0 f1 0 64 inb_S8x128_S1x16_0_64)⟩ ::
  ⟨Rect.unit (s := S8x128) ![0, 48] S1x16.size inb_S8x128_S1x16_0_48, aVec (v2w L) 0#32 48#32 (zld L zf f0 f1 0 48 inb_S8x128_S1x16_0_48)⟩ ::
  ⟨Rect.unit (s := S8x128) ![0, 32] S1x16.size inb_S8x128_S1x16_0_32, aVec (v2w L) 0#32 32#32 (zld L zf f0 f1 0 32 inb_S8x128_S1x16_0_32)⟩ ::
  ⟨Rect.unit (s := S8x128) ![0, 16] S1x16.size inb_S8x128_S1x16_0_16, aVec (v2w L) 0#32 16#32 (zld L zf f0 f1 0 16 inb_S8x128_S1x16_0_16)⟩ ::
  ⟨Rect.unit (s := S8x128) ![0, 0] S1x16.size inb_S8x128_S1x16_0_0, aVec (v2w L) 0#32 0#32 (zld L zf f0 f1 0 0 inb_S8x128_S1x16_0_0)⟩ :: []

/-- The pieces written into the third scratch buffer up to row 1, the last written first. -/
def aL1 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![1, 112] S1x16.size inb_S8x128_S1x16_1_112, aVec (v2w L) 128#32 112#32 (zld L zf f0 f1 1 112 inb_S8x128_S1x16_1_112)⟩ ::
  ⟨Rect.unit (s := S8x128) ![1, 96] S1x16.size inb_S8x128_S1x16_1_96, aVec (v2w L) 128#32 96#32 (zld L zf f0 f1 1 96 inb_S8x128_S1x16_1_96)⟩ ::
  ⟨Rect.unit (s := S8x128) ![1, 80] S1x16.size inb_S8x128_S1x16_1_80, aVec (v2w L) 128#32 80#32 (zld L zf f0 f1 1 80 inb_S8x128_S1x16_1_80)⟩ ::
  ⟨Rect.unit (s := S8x128) ![1, 64] S1x16.size inb_S8x128_S1x16_1_64, aVec (v2w L) 128#32 64#32 (zld L zf f0 f1 1 64 inb_S8x128_S1x16_1_64)⟩ ::
  ⟨Rect.unit (s := S8x128) ![1, 48] S1x16.size inb_S8x128_S1x16_1_48, aVec (v2w L) 128#32 48#32 (zld L zf f0 f1 1 48 inb_S8x128_S1x16_1_48)⟩ ::
  ⟨Rect.unit (s := S8x128) ![1, 32] S1x16.size inb_S8x128_S1x16_1_32, aVec (v2w L) 128#32 32#32 (zld L zf f0 f1 1 32 inb_S8x128_S1x16_1_32)⟩ ::
  ⟨Rect.unit (s := S8x128) ![1, 16] S1x16.size inb_S8x128_S1x16_1_16, aVec (v2w L) 128#32 16#32 (zld L zf f0 f1 1 16 inb_S8x128_S1x16_1_16)⟩ ::
  ⟨Rect.unit (s := S8x128) ![1, 0] S1x16.size inb_S8x128_S1x16_1_0, aVec (v2w L) 128#32 0#32 (zld L zf f0 f1 1 0 inb_S8x128_S1x16_1_0)⟩ :: aL0 L zf f0 f1

/-- The pieces written into the third scratch buffer up to row 2, the last written first. -/
def aL2 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![2, 112] S1x16.size inb_S8x128_S1x16_2_112, aVec (v2w L) 256#32 112#32 (zld L zf f0 f1 2 112 inb_S8x128_S1x16_2_112)⟩ ::
  ⟨Rect.unit (s := S8x128) ![2, 96] S1x16.size inb_S8x128_S1x16_2_96, aVec (v2w L) 256#32 96#32 (zld L zf f0 f1 2 96 inb_S8x128_S1x16_2_96)⟩ ::
  ⟨Rect.unit (s := S8x128) ![2, 80] S1x16.size inb_S8x128_S1x16_2_80, aVec (v2w L) 256#32 80#32 (zld L zf f0 f1 2 80 inb_S8x128_S1x16_2_80)⟩ ::
  ⟨Rect.unit (s := S8x128) ![2, 64] S1x16.size inb_S8x128_S1x16_2_64, aVec (v2w L) 256#32 64#32 (zld L zf f0 f1 2 64 inb_S8x128_S1x16_2_64)⟩ ::
  ⟨Rect.unit (s := S8x128) ![2, 48] S1x16.size inb_S8x128_S1x16_2_48, aVec (v2w L) 256#32 48#32 (zld L zf f0 f1 2 48 inb_S8x128_S1x16_2_48)⟩ ::
  ⟨Rect.unit (s := S8x128) ![2, 32] S1x16.size inb_S8x128_S1x16_2_32, aVec (v2w L) 256#32 32#32 (zld L zf f0 f1 2 32 inb_S8x128_S1x16_2_32)⟩ ::
  ⟨Rect.unit (s := S8x128) ![2, 16] S1x16.size inb_S8x128_S1x16_2_16, aVec (v2w L) 256#32 16#32 (zld L zf f0 f1 2 16 inb_S8x128_S1x16_2_16)⟩ ::
  ⟨Rect.unit (s := S8x128) ![2, 0] S1x16.size inb_S8x128_S1x16_2_0, aVec (v2w L) 256#32 0#32 (zld L zf f0 f1 2 0 inb_S8x128_S1x16_2_0)⟩ :: aL1 L zf f0 f1

/-- The pieces written into the third scratch buffer up to row 3, the last written first. -/
def aL3 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![3, 112] S1x16.size inb_S8x128_S1x16_3_112, aVec (v2w L) 384#32 112#32 (zld L zf f0 f1 3 112 inb_S8x128_S1x16_3_112)⟩ ::
  ⟨Rect.unit (s := S8x128) ![3, 96] S1x16.size inb_S8x128_S1x16_3_96, aVec (v2w L) 384#32 96#32 (zld L zf f0 f1 3 96 inb_S8x128_S1x16_3_96)⟩ ::
  ⟨Rect.unit (s := S8x128) ![3, 80] S1x16.size inb_S8x128_S1x16_3_80, aVec (v2w L) 384#32 80#32 (zld L zf f0 f1 3 80 inb_S8x128_S1x16_3_80)⟩ ::
  ⟨Rect.unit (s := S8x128) ![3, 64] S1x16.size inb_S8x128_S1x16_3_64, aVec (v2w L) 384#32 64#32 (zld L zf f0 f1 3 64 inb_S8x128_S1x16_3_64)⟩ ::
  ⟨Rect.unit (s := S8x128) ![3, 48] S1x16.size inb_S8x128_S1x16_3_48, aVec (v2w L) 384#32 48#32 (zld L zf f0 f1 3 48 inb_S8x128_S1x16_3_48)⟩ ::
  ⟨Rect.unit (s := S8x128) ![3, 32] S1x16.size inb_S8x128_S1x16_3_32, aVec (v2w L) 384#32 32#32 (zld L zf f0 f1 3 32 inb_S8x128_S1x16_3_32)⟩ ::
  ⟨Rect.unit (s := S8x128) ![3, 16] S1x16.size inb_S8x128_S1x16_3_16, aVec (v2w L) 384#32 16#32 (zld L zf f0 f1 3 16 inb_S8x128_S1x16_3_16)⟩ ::
  ⟨Rect.unit (s := S8x128) ![3, 0] S1x16.size inb_S8x128_S1x16_3_0, aVec (v2w L) 384#32 0#32 (zld L zf f0 f1 3 0 inb_S8x128_S1x16_3_0)⟩ :: aL2 L zf f0 f1

/-- The pieces written into the third scratch buffer up to row 4, the last written first. -/
def aL4 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![4, 112] S1x16.size inb_S8x128_S1x16_4_112, aVec (v2w L) 512#32 112#32 (zld L zf f0 f1 4 112 inb_S8x128_S1x16_4_112)⟩ ::
  ⟨Rect.unit (s := S8x128) ![4, 96] S1x16.size inb_S8x128_S1x16_4_96, aVec (v2w L) 512#32 96#32 (zld L zf f0 f1 4 96 inb_S8x128_S1x16_4_96)⟩ ::
  ⟨Rect.unit (s := S8x128) ![4, 80] S1x16.size inb_S8x128_S1x16_4_80, aVec (v2w L) 512#32 80#32 (zld L zf f0 f1 4 80 inb_S8x128_S1x16_4_80)⟩ ::
  ⟨Rect.unit (s := S8x128) ![4, 64] S1x16.size inb_S8x128_S1x16_4_64, aVec (v2w L) 512#32 64#32 (zld L zf f0 f1 4 64 inb_S8x128_S1x16_4_64)⟩ ::
  ⟨Rect.unit (s := S8x128) ![4, 48] S1x16.size inb_S8x128_S1x16_4_48, aVec (v2w L) 512#32 48#32 (zld L zf f0 f1 4 48 inb_S8x128_S1x16_4_48)⟩ ::
  ⟨Rect.unit (s := S8x128) ![4, 32] S1x16.size inb_S8x128_S1x16_4_32, aVec (v2w L) 512#32 32#32 (zld L zf f0 f1 4 32 inb_S8x128_S1x16_4_32)⟩ ::
  ⟨Rect.unit (s := S8x128) ![4, 16] S1x16.size inb_S8x128_S1x16_4_16, aVec (v2w L) 512#32 16#32 (zld L zf f0 f1 4 16 inb_S8x128_S1x16_4_16)⟩ ::
  ⟨Rect.unit (s := S8x128) ![4, 0] S1x16.size inb_S8x128_S1x16_4_0, aVec (v2w L) 512#32 0#32 (zld L zf f0 f1 4 0 inb_S8x128_S1x16_4_0)⟩ :: aL3 L zf f0 f1

/-- The pieces written into the third scratch buffer up to row 5, the last written first. -/
def aL5 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![5, 112] S1x16.size inb_S8x128_S1x16_5_112, aVec (v2w L) 640#32 112#32 (zld L zf f0 f1 5 112 inb_S8x128_S1x16_5_112)⟩ ::
  ⟨Rect.unit (s := S8x128) ![5, 96] S1x16.size inb_S8x128_S1x16_5_96, aVec (v2w L) 640#32 96#32 (zld L zf f0 f1 5 96 inb_S8x128_S1x16_5_96)⟩ ::
  ⟨Rect.unit (s := S8x128) ![5, 80] S1x16.size inb_S8x128_S1x16_5_80, aVec (v2w L) 640#32 80#32 (zld L zf f0 f1 5 80 inb_S8x128_S1x16_5_80)⟩ ::
  ⟨Rect.unit (s := S8x128) ![5, 64] S1x16.size inb_S8x128_S1x16_5_64, aVec (v2w L) 640#32 64#32 (zld L zf f0 f1 5 64 inb_S8x128_S1x16_5_64)⟩ ::
  ⟨Rect.unit (s := S8x128) ![5, 48] S1x16.size inb_S8x128_S1x16_5_48, aVec (v2w L) 640#32 48#32 (zld L zf f0 f1 5 48 inb_S8x128_S1x16_5_48)⟩ ::
  ⟨Rect.unit (s := S8x128) ![5, 32] S1x16.size inb_S8x128_S1x16_5_32, aVec (v2w L) 640#32 32#32 (zld L zf f0 f1 5 32 inb_S8x128_S1x16_5_32)⟩ ::
  ⟨Rect.unit (s := S8x128) ![5, 16] S1x16.size inb_S8x128_S1x16_5_16, aVec (v2w L) 640#32 16#32 (zld L zf f0 f1 5 16 inb_S8x128_S1x16_5_16)⟩ ::
  ⟨Rect.unit (s := S8x128) ![5, 0] S1x16.size inb_S8x128_S1x16_5_0, aVec (v2w L) 640#32 0#32 (zld L zf f0 f1 5 0 inb_S8x128_S1x16_5_0)⟩ :: aL4 L zf f0 f1

/-- The pieces written into the third scratch buffer up to row 6, the last written first. -/
def aL6 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![6, 112] S1x16.size inb_S8x128_S1x16_6_112, aVec (v2w L) 768#32 112#32 (zld L zf f0 f1 6 112 inb_S8x128_S1x16_6_112)⟩ ::
  ⟨Rect.unit (s := S8x128) ![6, 96] S1x16.size inb_S8x128_S1x16_6_96, aVec (v2w L) 768#32 96#32 (zld L zf f0 f1 6 96 inb_S8x128_S1x16_6_96)⟩ ::
  ⟨Rect.unit (s := S8x128) ![6, 80] S1x16.size inb_S8x128_S1x16_6_80, aVec (v2w L) 768#32 80#32 (zld L zf f0 f1 6 80 inb_S8x128_S1x16_6_80)⟩ ::
  ⟨Rect.unit (s := S8x128) ![6, 64] S1x16.size inb_S8x128_S1x16_6_64, aVec (v2w L) 768#32 64#32 (zld L zf f0 f1 6 64 inb_S8x128_S1x16_6_64)⟩ ::
  ⟨Rect.unit (s := S8x128) ![6, 48] S1x16.size inb_S8x128_S1x16_6_48, aVec (v2w L) 768#32 48#32 (zld L zf f0 f1 6 48 inb_S8x128_S1x16_6_48)⟩ ::
  ⟨Rect.unit (s := S8x128) ![6, 32] S1x16.size inb_S8x128_S1x16_6_32, aVec (v2w L) 768#32 32#32 (zld L zf f0 f1 6 32 inb_S8x128_S1x16_6_32)⟩ ::
  ⟨Rect.unit (s := S8x128) ![6, 16] S1x16.size inb_S8x128_S1x16_6_16, aVec (v2w L) 768#32 16#32 (zld L zf f0 f1 6 16 inb_S8x128_S1x16_6_16)⟩ ::
  ⟨Rect.unit (s := S8x128) ![6, 0] S1x16.size inb_S8x128_S1x16_6_0, aVec (v2w L) 768#32 0#32 (zld L zf f0 f1 6 0 inb_S8x128_S1x16_6_0)⟩ :: aL5 L zf f0 f1

/-- The pieces written into the third scratch buffer up to row 7, the last written first. -/
def aL7 (L : grid0.Coords) (zf : (zV).view.ty.Contents (Elt F)) (f0 : (s0V).view.ty.Contents (Elt F)) (f1 : (s1V).view.ty.Contents (Elt F)) : List (View.Piece (Elt F) S8x128 .i32) :=
  ⟨Rect.unit (s := S8x128) ![7, 112] S1x16.size inb_S8x128_S1x16_7_112, aVec (v2w L) 896#32 112#32 (zld L zf f0 f1 7 112 inb_S8x128_S1x16_7_112)⟩ ::
  ⟨Rect.unit (s := S8x128) ![7, 96] S1x16.size inb_S8x128_S1x16_7_96, aVec (v2w L) 896#32 96#32 (zld L zf f0 f1 7 96 inb_S8x128_S1x16_7_96)⟩ ::
  ⟨Rect.unit (s := S8x128) ![7, 80] S1x16.size inb_S8x128_S1x16_7_80, aVec (v2w L) 896#32 80#32 (zld L zf f0 f1 7 80 inb_S8x128_S1x16_7_80)⟩ ::
  ⟨Rect.unit (s := S8x128) ![7, 64] S1x16.size inb_S8x128_S1x16_7_64, aVec (v2w L) 896#32 64#32 (zld L zf f0 f1 7 64 inb_S8x128_S1x16_7_64)⟩ ::
  ⟨Rect.unit (s := S8x128) ![7, 48] S1x16.size inb_S8x128_S1x16_7_48, aVec (v2w L) 896#32 48#32 (zld L zf f0 f1 7 48 inb_S8x128_S1x16_7_48)⟩ ::
  ⟨Rect.unit (s := S8x128) ![7, 32] S1x16.size inb_S8x128_S1x16_7_32, aVec (v2w L) 896#32 32#32 (zld L zf f0 f1 7 32 inb_S8x128_S1x16_7_32)⟩ ::
  ⟨Rect.unit (s := S8x128) ![7, 16] S1x16.size inb_S8x128_S1x16_7_16, aVec (v2w L) 896#32 16#32 (zld L zf f0 f1 7 16 inb_S8x128_S1x16_7_16)⟩ ::
  ⟨Rect.unit (s := S8x128) ![7, 0] S1x16.size inb_S8x128_S1x16_7_0, aVec (v2w L) 896#32 0#32 (zld L zf f0 f1 7 0 inb_S8x128_S1x16_7_0)⟩ :: aL6 L zf f0 f1

theorem aVec_apply (b c1 c2 : BitVec 32) (u : Vec F S1x16 .f32) (j : S1x16.Idx) :
    aVec b c1 c2 u j = IntOp.addi (IntOp.muli (IntOp.addi (BitVec.ofNat 32 (j 1).val) (Scalar.addi (Scalar.addi b c1) c2)) 128#32)
      (FloatOps.fptosi 32 (u j)) := by
  unfold aVec shapeCast addi muli iota broadcast fptosi
  simp only [List.foldl, Nat.zero_mul, Nat.zero_add]
  rw [reshape_lane, Shape.reshapeEquiv_reshapeEquiv, Shape.reshapeEquiv_self]

theorem c1_read0 (L : grid0.Coords) (zf : (zV).view.ty.Contents (Elt F)) (f0 : (s0V).view.ty.Contents (Elt F)) (f1 : (s1V).view.ty.Contents (Elt F)) (y : S8x128.Idx) (hy : (y 0).val = 0) :
    View.read (Elt F) (s1V).view (c1 L zf f0 f1) y = gz0 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_neg (by omega),
    rowWrite1_read, if_neg (by omega),
    rowWrite1_read, if_neg (by omega),
    rowWrite1_read, if_pos hy]

theorem c1_read1 (L : grid0.Coords) (zf : (zV).view.ty.Contents (Elt F)) (f0 : (s0V).view.ty.Contents (Elt F)) (f1 : (s1V).view.ty.Contents (Elt F)) (y : S8x128.Idx) (hy : (y 0).val = 1) :
    View.read (Elt F) (s1V).view (c1 L zf f0 f1) y = gz1 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_neg (by omega),
    rowWrite1_read, if_neg (by omega),
    rowWrite1_read, if_pos hy]

theorem c1_read2 (L : grid0.Coords) (zf : (zV).view.ty.Contents (Elt F)) (f0 : (s0V).view.ty.Contents (Elt F)) (f1 : (s1V).view.ty.Contents (Elt F)) (y : S8x128.Idx) (hy : (y 0).val = 2) :
    View.read (Elt F) (s1V).view (c1 L zf f0 f1) y = gz2 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_neg (by omega),
    rowWrite1_read, if_pos hy]

theorem c1_read3 (L : grid0.Coords) (zf : (zV).view.ty.Contents (Elt F)) (f0 : (s0V).view.ty.Contents (Elt F)) (f1 : (s1V).view.ty.Contents (Elt F)) (y : S8x128.Idx) (hy : (y 0).val = 3) :
    View.read (Elt F) (s1V).view (c1 L zf f0 f1) y = gz3 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_neg (by omega),
    rowWrite1_read, if_pos hy]

theorem c1_read4 (L : grid0.Coords) (zf : (zV).view.ty.Contents (Elt F)) (f0 : (s0V).view.ty.Contents (Elt F)) (f1 : (s1V).view.ty.Contents (Elt F)) (y : S8x128.Idx) (hy : (y 0).val = 4) :
    View.read (Elt F) (s1V).view (c1 L zf f0 f1) y = gz4 L zf f0 (ValueIdx.ix1 (⟨(y 1).val, ValueIdx.idx2_lt1 y⟩ : Fin 128)) := by
  unfold c1
  rw [rowWrite1_read, if_neg (by omega),
    rowWrite1_read, if_neg (by omega),
    rowWrite1_read, if_neg (by omega),
    rowWrite1_read, if_pos hy]

theorem c1_read5 (L : grid0.Coords) (zf : (zV).view.ty.Contents (Elt F)) (f0 : (s0V).view.ty.Contents (Elt F)) (f1 : (s1V).view.ty.Contents (Elt F)) (y : S8x128.Idx) (hy : (y 0).val = 5) :
    View.read (Elt F) (s1V).view (c1 L zf f0 f1) y = gz5 L zf f0 (ValueIdx.ix1 (⟨(y 1).val, ValueIdx.idx2_lt1 y⟩ : Fin 128)) := by
  unfold c1
  rw [rowWrite1_read, if_neg (by omega),
    rowWrite1_read, if_neg (by omega),
    rowWrite1_read, if_pos hy]

theorem c1_read6 (L : grid0.Coords) (zf : (zV).view.ty.Contents (Elt F)) (f0 : (s0V).view.ty.Contents (Elt F)) (f1 : (s1V).view.ty.Contents (Elt F)) (y : S8x128.Idx) (hy : (y 0).val = 6) :
    View.read (Elt F) (s1V).view (c1 L zf f0 f1) y = gz6 L zf f0 (ValueIdx.ix1 (⟨(y 1).val, ValueIdx.idx2_lt1 y⟩ : Fin 128)) := by
  unfold c1
  rw [rowWrite1_read, if_neg (by omega),
    rowWrite1_read, if_pos hy]

theorem c1_read7 (L : grid0.Coords) (zf : (zV).view.ty.Contents (Elt F)) (f0 : (s0V).view.ty.Contents (Elt F)) (f1 : (s1V).view.ty.Contents (Elt F)) (y : S8x128.Idx) (hy : (y 0).val = 7) :
    View.read (Elt F) (s1V).view (c1 L zf f0 f1) y = gz7 L zf f0 (ValueIdx.ix1 (⟨(y 1).val, ValueIdx.idx2_lt1 y⟩ : Fin 128)) := by
  unfold c1
  rw [rowWrite1_read, if_pos hy]

theorem gz0_at (d : Dev nD) (L : grid0.Coords) (zf : Buf (Elt F) (zLoc d)) (f0 : (s0V).view.ty.Contents (Elt F)) (y : S8x128.Idx) (hy : (y 0).val = 0) :
    gz0 L zf f0 (ValueIdx.ix1 (⟨(y 1).val, ValueIdx.idx2_lt1 y⟩ : Fin 128)) = zf (ValueIdx.ix1 (Cert.Spec.zPos (rowF L y))) := by
  unfold gz0 zsrc
  rw [gatherZ_apply d zf _ rfl (hinZ0 L f0)]
  refine congrArg zf (congrArg ValueIdx.ix1 (Fin.ext ?_))
  have e := zread_of L 0 inb_S8x128_S1x128_0_0 (zL0 L) (zL0_agree L) (zL0_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row0 (d : Dev nD) (L : grid0.Coords) (zf : Buf (Elt F) (zLoc d)) (f0 : (s0V).view.ty.Contents (Elt F)) (f1 : (s1V).view.ty.Contents (Elt F)) (y : S8x128.Idx) (hy : (y 0).val = 0) :
    View.read (Elt F) (s1V).view (c1 L zf f0 f1) y = zf (ValueIdx.ix1 (Cert.Spec.zPos (rowF L y))) :=
  (c1_read0 L zf f0 f1 y hy).trans (gz0_at d L zf f0 y hy)

theorem gz1_at (d : Dev nD) (L : grid0.Coords) (zf : Buf (Elt F) (zLoc d)) (f0 : (s0V).view.ty.Contents (Elt F)) (y : S8x128.Idx) (hy : (y 0).val = 1) :
    gz1 L zf f0 (ValueIdx.ix1 (⟨(y 1).val, ValueIdx.idx2_lt1 y⟩ : Fin 128)) = zf (ValueIdx.ix1 (Cert.Spec.zPos (rowF L y))) := by
  unfold gz1 zsrc
  rw [gatherZ_apply d zf _ rfl (hinZ1 L f0)]
  refine congrArg zf (congrArg ValueIdx.ix1 (Fin.ext ?_))
  have e := zread_of L 1 inb_S8x128_S1x128_1_0 (zL1 L) (zL1_agree L) (zL1_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row1 (d : Dev nD) (L : grid0.Coords) (zf : Buf (Elt F) (zLoc d)) (f0 : (s0V).view.ty.Contents (Elt F)) (f1 : (s1V).view.ty.Contents (Elt F)) (y : S8x128.Idx) (hy : (y 0).val = 1) :
    View.read (Elt F) (s1V).view (c1 L zf f0 f1) y = zf (ValueIdx.ix1 (Cert.Spec.zPos (rowF L y))) :=
  (c1_read1 L zf f0 f1 y hy).trans (gz1_at d L zf f0 y hy)

theorem gz2_at (d : Dev nD) (L : grid0.Coords) (zf : Buf (Elt F) (zLoc d)) (f0 : (s0V).view.ty.Contents (Elt F)) (y : S8x128.Idx) (hy : (y 0).val = 2) :
    gz2 L zf f0 (ValueIdx.ix1 (⟨(y 1).val, ValueIdx.idx2_lt1 y⟩ : Fin 128)) = zf (ValueIdx.ix1 (Cert.Spec.zPos (rowF L y))) := by
  unfold gz2 zsrc
  rw [gatherZ_apply d zf _ rfl (hinZ2 L f0)]
  refine congrArg zf (congrArg ValueIdx.ix1 (Fin.ext ?_))
  have e := zread_of L 2 inb_S8x128_S1x128_2_0 (zL2 L) (zL2_agree L) (zL2_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row2 (d : Dev nD) (L : grid0.Coords) (zf : Buf (Elt F) (zLoc d)) (f0 : (s0V).view.ty.Contents (Elt F)) (f1 : (s1V).view.ty.Contents (Elt F)) (y : S8x128.Idx) (hy : (y 0).val = 2) :
    View.read (Elt F) (s1V).view (c1 L zf f0 f1) y = zf (ValueIdx.ix1 (Cert.Spec.zPos (rowF L y))) :=
  (c1_read2 L zf f0 f1 y hy).trans (gz2_at d L zf f0 y hy)

theorem gz3_at (d : Dev nD) (L : grid0.Coords) (zf : Buf (Elt F) (zLoc d)) (f0 : (s0V).view.ty.Contents (Elt F)) (y : S8x128.Idx) (hy : (y 0).val = 3) :
    gz3 L zf f0 (ValueIdx.ix1 (⟨(y 1).val, ValueIdx.idx2_lt1 y⟩ : Fin 128)) = zf (ValueIdx.ix1 (Cert.Spec.zPos (rowF L y))) := by
  unfold gz3 zsrc
  rw [gatherZ_apply d zf _ rfl (hinZ3 L f0)]
  refine congrArg zf (congrArg ValueIdx.ix1 (Fin.ext ?_))
  have e := zread_of L 3 inb_S8x128_S1x128_3_0 (zL3 L) (zL3_agree L) (zL3_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row3 (d : Dev nD) (L : grid0.Coords) (zf : Buf (Elt F) (zLoc d)) (f0 : (s0V).view.ty.Contents (Elt F)) (f1 : (s1V).view.ty.Contents (Elt F)) (y : S8x128.Idx) (hy : (y 0).val = 3) :
    View.read (Elt F) (s1V).view (c1 L zf f0 f1) y = zf (ValueIdx.ix1 (Cert.Spec.zPos (rowF L y))) :=
  (c1_read3 L zf f0 f1 y hy).trans (gz3_at d L zf f0 y hy)

theorem gz4_at (d : Dev nD) (L : grid0.Coords) (zf : Buf (Elt F) (zLoc d)) (f0 : (s0V).view.ty.Contents (Elt F)) (y : S8x128.Idx) (hy : (y 0).val = 4) :
    gz4 L zf f0 (ValueIdx.ix1 (⟨(y 1).val, ValueIdx.idx2_lt1 y⟩ : Fin 128)) = zf (ValueIdx.ix1 (Cert.Spec.zPos (rowF L y))) := by
  unfold gz4 zsrc
  rw [gatherZ_apply d zf _ rfl (hinZ4 L f0)]
  refine congrArg zf (congrArg ValueIdx.ix1 (Fin.ext ?_))
  have e := zread_of L 4 inb_S8x128_S1x128_4_0 (zL4 L) (zL4_agree L) (zL4_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row4 (d : Dev nD) (L : grid0.Coords) (zf : Buf (Elt F) (zLoc d)) (f0 : (s0V).view.ty.Contents (Elt F)) (f1 : (s1V).view.ty.Contents (Elt F)) (y : S8x128.Idx) (hy : (y 0).val = 4) :
    View.read (Elt F) (s1V).view (c1 L zf f0 f1) y = zf (ValueIdx.ix1 (Cert.Spec.zPos (rowF L y))) :=
  (c1_read4 L zf f0 f1 y hy).trans (gz4_at d L zf f0 y hy)

theorem gz5_at (d : Dev nD) (L : grid0.Coords) (zf : Buf (Elt F) (zLoc d)) (f0 : (s0V).view.ty.Contents (Elt F)) (y : S8x128.Idx) (hy : (y 0).val = 5) :
    gz5 L zf f0 (ValueIdx.ix1 (⟨(y 1).val, ValueIdx.idx2_lt1 y⟩ : Fin 128)) = zf (ValueIdx.ix1 (Cert.Spec.zPos (rowF L y))) := by
  unfold gz5 zsrc
  rw [gatherZ_apply d zf _ rfl (hinZ5 L f0)]
  refine congrArg zf (congrArg ValueIdx.ix1 (Fin.ext ?_))
  have e := zread_of L 5 inb_S8x128_S1x128_5_0 (zL5 L) (zL5_agree L) (zL5_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row5 (d : Dev nD) (L : grid0.Coords) (zf : Buf (Elt F) (zLoc d)) (f0 : (s0V).view.ty.Contents (Elt F)) (f1 : (s1V).view.ty.Contents (Elt F)) (y : S8x128.Idx) (hy : (y 0).val = 5) :
    View.read (Elt F) (s1V).view (c1 L zf f0 f1) y = zf (ValueIdx.ix1 (Cert.Spec.zPos (rowF L y))) :=
  (c1_read5 L zf f0 f1 y hy).trans (gz5_at d L zf f0 y hy)

theorem gz6_at (d : Dev nD) (L : grid0.Coords) (zf : Buf (Elt F) (zLoc d)) (f0 : (s0V).view.ty.Contents (Elt F)) (y : S8x128.Idx) (hy : (y 0).val = 6) :
    gz6 L zf f0 (ValueIdx.ix1 (⟨(y 1).val, ValueIdx.idx2_lt1 y⟩ : Fin 128)) = zf (ValueIdx.ix1 (Cert.Spec.zPos (rowF L y))) := by
  unfold gz6 zsrc
  rw [gatherZ_apply d zf _ rfl (hinZ6 L f0)]
  refine congrArg zf (congrArg ValueIdx.ix1 (Fin.ext ?_))
  have e := zread_of L 6 inb_S8x128_S1x128_6_0 (zL6 L) (zL6_agree L) (zL6_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row6 (d : Dev nD) (L : grid0.Coords) (zf : Buf (Elt F) (zLoc d)) (f0 : (s0V).view.ty.Contents (Elt F)) (f1 : (s1V).view.ty.Contents (Elt F)) (y : S8x128.Idx) (hy : (y 0).val = 6) :
    View.read (Elt F) (s1V).view (c1 L zf f0 f1) y = zf (ValueIdx.ix1 (Cert.Spec.zPos (rowF L y))) :=
  (c1_read6 L zf f0 f1 y hy).trans (gz6_at d L zf f0 y hy)

theorem gz7_at (d : Dev nD) (L : grid0.Coords) (zf : Buf (Elt F) (zLoc d)) (f0 : (s0V).view.ty.Contents (Elt F)) (y : S8x128.Idx) (hy : (y 0).val = 7) :
    gz7 L zf f0 (ValueIdx.ix1 (⟨(y 1).val, ValueIdx.idx2_lt1 y⟩ : Fin 128)) = zf (ValueIdx.ix1 (Cert.Spec.zPos (rowF L y))) := by
  unfold gz7 zsrc
  rw [gatherZ_apply d zf _ rfl (hinZ7 L f0)]
  refine congrArg zf (congrArg ValueIdx.ix1 (Fin.ext ?_))
  have e := zread_of L 7 inb_S8x128_S1x128_7_0 (zL7 L) (zL7_agree L) (zL7_cover L) f0 (ValueIdx.ix1 (⟨(y 1).val, ValueIdx.idx2_lt1 y⟩ : Fin 128))
  exact (congrArg BitVec.toNat e).trans ((zG_toNat L _).trans (zPos_row_eq L _ y (by rw [rowIx_zero, hy]) (by rw [rowIx_one])))

theorem c1_row7 (d : Dev nD) (L : grid0.Coords) (zf : Buf (Elt F) (zLoc d)) (f0 : (s0V).view.ty.Contents (Elt F)) (f1 : (s1V).view.ty.Contents (Elt F)) (y : S8x128.Idx) (hy : (y 0).val = 7) :
    View.read (Elt F) (s1V).view (c1 L zf f0 f1) y = zf (ValueIdx.ix1 (Cert.Spec.zPos (rowF L y))) :=
  (c1_read7 L zf f0 f1 y hy).trans (gz7_at d L zf f0 y hy)

/-! ## The words of the third scratch buffer -/

/-- What entry `y` of the third scratch buffer is to hold: `128 · row` plus the row's selecting word. -/
def aG (L : grid0.Coords) (zf : FVec F Cert.Spec.SZf .f32) : S8x128.Idx → Elt F .i32 :=
  fun y => BitVec.ofNat 32 (128 * rowN L y + (Cert.Spec.colWordF zf (rowF L y)).toNat)

theorem aG_toNat (L : grid0.Coords) (zf : FVec F Cert.Spec.SZf .f32) (hpre : Cert.Spec.InRangeF (F := F) zf) (y : S8x128.Idx) :
    (aG L zf y).toNat = (Cert.Spec.aPos zf (rowF L y)).val := by
  show (BitVec.ofNat 32 _).toNat = rowN L y * 128 + (Cert.Spec.colWordF zf (rowF L y)).toNat % 128
  have h := hpre (rowF L y)
  have := rowN_lt L y
  rw [BitVec.toNat_ofNat, Nat.mod_eq_of_lt h]
  omega

theorem aG_lt (L : grid0.Coords) (zf : FVec F Cert.Spec.SZf .f32) (hpre : Cert.Spec.InRangeF (F := F) zf) (y : S8x128.Idx) :
    (aG L zf y).toNat < 2097152 := by
  rw [aG_toNat L zf hpre]; exact (Cert.Spec.aPos zf (rowF L y)).isLt

/-- One stored piece agrees with `aG` on its rectangle. -/
theorem aP_agree (d : Dev nD) (L : grid0.Coords) (zf : Buf (Elt F) (zLoc d)) (f0 : (s0V).view.ty.Contents (Elt F)) (f1 : (s1V).view.ty.Contents (Elt F)) (hpre : Cert.Spec.InRangeF (F := F) zf)
    (r v c : ℕ) (hr : r < 8) (hv : v < 8) (hc : c = 16 * v) (c1w c2w : BitVec 32)
    (h1 : c1w.toNat = 128 * r) (h2 : c2w.toNat = 16 * v) (inb : ∀ a, (![r, c] : Fin 2 → ℕ) a + S1x16.size a ≤ S8x128.size a)
    (hrow : ∀ y : S8x128.Idx, (y 0).val = r → View.read (Elt F) (s1V).view (c1 L zf f0 f1) y = zf (ValueIdx.ix1 (Cert.Spec.zPos (rowF L y))))
    (x : (Rect.unit (s := S8x128) ![r, c] S1x16.size inb).shape.Idx) :
    aVec (v2w L) c1w c2w (zld L zf f0 f1 r c inb) x = aG L zf ((Rect.unit (s := S8x128) ![r, c] S1x16.size inb).emb x) := by
  subst hc
  apply BitVec.eq_of_toNat_eq
  have hx1 : (x 1).val < 16 := (x 1).isLt
  have hx0 : (x 0).val = 0 := by have := (x 0).isLt; simpa using this
  have e0 : ((Rect.unit (s := S8x128) ![r, 16 * v] S1x16.size inb).emb x 0).val = r := by
    rw [Rect.emb_apply]; simp [hx0]
  have e1 : ((Rect.unit (s := S8x128) ![r, 16 * v] S1x16.size inb).emb x 1).val = 16 * v + (x 1).val := by
    rw [Rect.emb_apply]; simp
  have hu : zld L zf f0 f1 r (16 * v) inb x
      = zf (ValueIdx.ix1 (Cert.Spec.zPos (rowF L ((Rect.unit (s := S8x128) ![r, 16 * v] S1x16.size inb).emb x)))) := by
    unfold zld; rw [View.readAt_apply]; exact hrow _ e0
  have hcw := hpre (rowF L ((Rect.unit (s := S8x128) ![r, 16 * v] S1x16.size inb).emb x))
  unfold Cert.Spec.colWordF at hcw
  rw [aVec_apply, hu, Cert.WordFacts.aword_toNat _ _ _ _ (L 1).val r v (x 1).val (L 1).isLt hr hv hx1 (v2w_toNat L) h1 h2 hcw]
  show _ = (BitVec.ofNat 32 _).toNat
  have hw : (L 1).val < 16 := (L 1).isLt
  rw [BitVec.toNat_ofNat]
  unfold Cert.Spec.colWordF rowN
  rw [e0, e1]
  omega

/-- Entry `x` of row `r` of the third scratch buffer after the listed writes: the intended word. -/
theorem aread_of (L : grid0.Coords) (zf : FVec F Cert.Spec.SZf .f32) (r : ℕ) (inb : ∀ a, (![r, 0] : Fin 2 → ℕ) a + S1x128.size a ≤ S8x128.size a)
    (Ls : List (View.Piece (Elt F) S8x128 .i32)) (hag : ∀ p ∈ Ls, ∀ x, p.2 x = aG L zf (p.1.emb x))
    (hcov : ∀ v : Fin 8, ∃ p ∈ Ls, ∃ inb, p.1 = Rect.unit (s := S8x128) ![r, 16 * v.val] S1x16.size inb)
    (g : (s2V).view.ty.Contents (Elt F)) (x : S128.Idx) :
    View.read (Elt F) (((s2V).slice (Rect.unit (s := S8x128) ![r, 0] S1x128.size inb) (fun _ => rfl)).squeeze S128 squeezes_S1x128_S128).view
        ((s2V).view.writes (Elt F) g Ls) x = aG L zf (rowIx r inb x) := by
  have e : View.read (Elt F) (((s2V).slice (Rect.unit (s := S8x128) ![r, 0] S1x128.size inb) (fun _ => rfl)).squeeze S128 squeezes_S1x128_S128).view
        ((s2V).view.writes (Elt F) g Ls) x
      = View.read (Elt F) (s2V).view ((s2V).view.writes (Elt F) g Ls) (rowIx r inb x) := by
    rw [View.read_apply, View.read_apply]; rfl
  rw [e, View.read_writes_apply_of_pieces (s2V).view g (aG L zf) Ls hag (rowIx r inb x) (cover_row Ls r hcov _ (rowIx_zero r inb x))]

/-! ## The lists, row by row -/

theorem aL0_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL0 (F := F) L zf f0 f1, ∀ x, p.2 x = aG L zf (p.1.emb x) := by
  unfold aL0
  exact (List.forall_mem_cons.2 ⟨aP_agree d L zf f0 f1 hpre 0 7 112 (by decide) (by decide) rfl 0#32 112#32 (by decide) (by decide) inb_S8x128_S1x16_0_112 (c1_row0 d L zf f0 f1), (List.forall_mem_cons.2 ⟨aP_agree d L zf f0 f1 hpre 0 6 96 (by decide) (by decide) rfl 0#32 96#32 (by decide) (by decide) inb_S8x128_S1x16_0_96 (c1_row0 d L zf f0 f1), (List.forall_mem_cons.2 ⟨aP_agree d L zf f0 f1 hpre 0 5 80 (by decide) (by decide) rfl 0#32 80#32 (by decide) (by decide) inb_S8x128_S1x16_0_80 (c1_row0 d L zf f0 f1), (List.forall_mem_cons.2 ⟨aP_agree d L zf f0 f1 hpre 0 4 64 (by decide) (by decide) rfl 0#32 64#32 (by decide) (by decide) inb_S8x128_S1x16_0_64 (c1_row0 d L zf f0 f1), (List.forall_mem_cons.2 ⟨aP_agree d L zf f0 f1 hpre 0 3 48 (by decide) (by decide) rfl 0#32 48#32 (by decide) (by decide) inb_S8x128_S1x16_0_48 (c1_row0 d L zf f0 f1), (List.forall_mem_cons.2 ⟨aP_agree d L zf f0 f1 hpre 0 2 32 (by decide) (by decide) rfl 0#32 32#32 (by decide) (by decide) inb_S8x128_S1x16_0_32 (c1_row0 d L zf f0 f1), (List.forall_mem_cons.2 ⟨aP_agree d L zf f0 f1 hpre 0 1 16 (by decide) (by decide) rfl 0#32 16#32 (by decide) (by decide) inb_S8x128_S1x16_0_16 (c1_row0 d L zf f0 f1), (List.forall_mem_cons.2 ⟨aP_agree d L zf f0 f1 hpre 0 0 0 (by decide) (by decide) rfl 0#32 0#32 (by decide) (by decide) inb_S8x128_S1x16_0_0 (c1_row0 d L zf f0 f1), (fun _ hp => nomatch hp)⟩)⟩)⟩)⟩)⟩)⟩)⟩)⟩)

theorem aL0_cover (L : grid0.Coords) (zf : (zV).view.ty.Contents (Elt F)) (f0 : (s0V).view.ty.Contents (Elt F)) (f1 : (s1V).view.ty.Contents (Elt F)) :
    ∀ v : Fin 8, ∃ p ∈ aL0 (F := F) L zf f0 f1, ∃ inb, p.1 = Rect.unit (s := S8x128) ![0, 16 * v.val] S1x16.size inb := by
  unfold aL0
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_0_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_0_16, rfl⟩
  · exact ⟨_, List.mem_cons_of_mem _ (List.mem_cons_of_mem _ (List.mem_cons_of_mem _ (List.mem_cons_of_mem _ (List.mem_cons_of_mem _ (List.mem_cons_self))))), inb_S8x128_S1x16_0_32, rfl⟩
  · exact ⟨_, List.mem_cons_of_mem _ (List.mem_cons_of_mem _ (List.mem_cons_of_mem _ (List.mem_cons_of_mem _ (List.mem_cons_self)))), inb_S8x128_S1x16_0_48, rfl⟩
  · exact ⟨_, List.mem_cons_of_mem _ (List.mem_cons_of_mem _ (List.mem_cons_of_mem _ (List.mem_cons_self))), inb_S8x128_S1x16_0_64, rfl⟩
  · exact ⟨_, List.mem_cons_of_mem _ (List.mem_cons_of_mem _ (List.mem_cons_self)), inb_S8x128_S1x16_0_80, rfl⟩
  · exact ⟨_, List.mem_cons_of_mem _ (List.mem_cons_self), inb_S8x128_S1x16_0_96, rfl⟩
  · exact ⟨_, List.mem_cons_self, inb_S8x128_S1x16_0_112, rfl⟩

theorem aread0 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![0, 0] S1x128.size inb_S8x128_S1x128_0_0) (fun _ => rfl)).squeeze S128 squeezes_S1x128_S128).view ((s2V).view.writes (Elt F) g (aL0 (F := F) L zf f0 f1)) x = aG L zf (rowIx 0 inb_S8x128_S1x128_0_0 x) :=
  aread_of L zf 0 inb_S8x128_S1x128_0_0 (aL0 L zf f0 f1) (aL0_agree d L zf f0 f1 hpre) (aL0_cover L zf f0 f1) g x

theorem hinA0 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![0, 0] S1x128.size inb_S8x128_S1x128_0_0) (fun _ => rfl)).squeeze S128 squeezes_S1x128_S128).view ((s2V).view.writes (Elt F) g (aL0 (F := F) L zf f0 f1)) x).toNat < 2097152 := by
  intro g x
  rw [aread0 d L zf f0 f1 hpre]
  exact aG_lt L zf hpre _

theorem aL1_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL1 (F := F) L zf f0 f1, ∀ x, p.2 x = aG L zf (p.1.emb x) := by
  unfold aL1
  exact (List.forall_mem_cons.2 ⟨aP_agree d L zf f0 f1 hpre 1 7 112 (by decide) (by decide) rfl 128#32 112#32 (by decide) (by decide) inb_S8x128_S1x16_1_112 (c1_row1 d L zf f0 f1), (List.forall_mem_cons.2 ⟨aP_agree d L zf f0 f1 hpre 1 6 96 (by decide) (by decide) rfl 128#32 96#32 (by decide) (by decide) inb_S8x128_S1x16_1_96 (c1_row1 d L zf f0 f1), (List.forall_mem_cons.2 ⟨aP_agree d L zf f0 f1 hpre 1 5 80 (by decide) (by decide) rfl 128#32 80#32 (by decide) (by decide) inb_S8x128_S1x16_1_80 (c1_row1 d L zf f0 f1), (List.forall_mem_cons.2 ⟨aP_agree d L zf f0 f1 hpre 1 4 64 (by decide) (by decide) rfl 128#32 64#32 (by decide) (by decide) inb_S8x128_S1x16_1_64 (c1_row1 d L zf f0 f1), (List.forall_mem_cons.2 ⟨aP_agree d L zf f0 f1 hpre 1 3 48 (by decide) (by decide) rfl 128#32 48#32 (by decide) (by decide) inb_S8x128_S1x16_1_48 (c1_row1 d L zf f0 f1), (List.forall_mem_cons.2 ⟨aP_agree d L zf f0 f1 hpre 1 2 32 (by decide) (by decide) rfl 128#32 32#32 (by decide) (by decide) inb_S8x128_S1x16_1_32 (c1_row1 d L zf f0 f1), (List.forall_mem_cons.2 ⟨aP_agree d L zf f0 f1 hpre 1 1 16 (by decide) (by decide) rfl 128#32 16#32 (by decide) (by decide) inb_S8x128_S1x16_1_16 (c1_row1 d L zf f0 f1), (List.forall_mem_cons.2 ⟨aP_agree d L zf f0 f1 hpre 1 0 0 (by decide) (by decide) rfl 128#32 0#32 (by decide) (by decide) inb_S8x128_S1x16_1_0 (c1_row1 d L zf f0 f1), (aL0_agree d L zf f0 f1 hpre)⟩)⟩)⟩)⟩)⟩)⟩)⟩)⟩)

theorem aL1_cover (L : grid0.Coords) (zf : (zV).view.ty.Contents (Elt F)) (f0 : (s0V).view.ty.Contents (Elt F)) (f1 : (s1V).view.ty.Contents (Elt F)) :
    ∀ v : Fin 8, ∃ p ∈ aL1 (F := F) L zf f0 f1, ∃ inb, p.1 = Rect.unit (s := S8x128) ![1, 16 * v.val] S1x16.size inb := by
  unfold aL1
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_1_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_1_16, rfl⟩
  · exact ⟨_, List.mem_cons_of_mem _ (List.mem_cons_of_mem _ (List.mem_cons_of_mem _ (List.mem_cons_of_mem _ (List.mem_cons_of_mem _ (List.mem_cons_self))))), inb_S8x128_S1x16_1_32, rfl⟩
  · exact ⟨_, List.mem_cons_of_mem _ (List.mem_cons_of_mem _ (List.mem_cons_of_mem _ (List.mem_cons_of_mem _ (List.mem_cons_self)))), inb_S8x128_S1x16_1_48, rfl⟩
  · exact ⟨_, List.mem_cons_of_mem _ (List.mem_cons_of_mem _ (List.mem_cons_of_mem _ (List.mem_cons_self))), inb_S8x128_S1x16_1_64, rfl⟩
  · exact ⟨_, List.mem_cons_of_mem _ (List.mem_cons_of_mem _ (List.mem_cons_self)), inb_S8x128_S1x16_1_80, rfl⟩
  · exact ⟨_, List.mem_cons_of_mem _ (List.mem_cons_self), inb_S8x128_S1x16_1_96, rfl⟩
  · exact ⟨_, List.mem_cons_self, inb_S8x128_S1x16_1_112, rfl⟩

theorem aread1 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![1, 0] S1x128.size inb_S8x128_S1x128_1_0) (fun _ => rfl)).squeeze S128 squeezes_S1x128_S128).view ((s2V).view.writes (Elt F) g (aL1 (F := F) L zf f0 f1)) x = aG L zf (rowIx 1 inb_S8x128_S1x128_1_0 x) :=
  aread_of L zf 1 inb_S8x128_S1x128_1_0 (aL1 L zf f0 f1) (aL1_agree d L zf f0 f1 hpre) (aL1_cover L zf f0 f1) g x

theorem hinA1 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![1, 0] S1x128.size inb_S8x128_S1x128_1_0) (fun _ => rfl)).squeeze S128 squeezes_S1x128_S128).view ((s2V).view.writes (Elt F) g (aL1 (F := F) L zf f0 f1)) x).toNat < 2097152 := by
  intro g x
  rw [aread1 d L zf f0 f1 hpre]
  exact aG_lt L zf hpre _

theorem aL2_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL2 (F := F) L zf f0 f1, ∀ x, p.2 x = aG L zf (p.1.emb x) := by
  unfold aL2
  exact (List.forall_mem_cons.2 ⟨aP_agree d L zf f0 f1 hpre 2 7 112 (by decide) (by decide) rfl 256#32 112#32 (by decide) (by decide) inb_S8x128_S1x16_2_112 (c1_row2 d L zf f0 f1), (List.forall_mem_cons.2 ⟨aP_agree d L zf f0 f1 hpre 2 6 96 (by decide) (by decide) rfl 256#32 96#32 (by decide) (by decide) inb_S8x128_S1x16_2_96 (c1_row2 d L zf f0 f1), (List.forall_mem_cons.2 ⟨aP_agree d L zf f0 f1 hpre 2 5 80 (by decide) (by decide) rfl 256#32 80#32 (by decide) (by decide) inb_S8x128_S1x16_2_80 (c1_row2 d L zf f0 f1), (List.forall_mem_cons.2 ⟨aP_agree d L zf f0 f1 hpre 2 4 64 (by decide) (by decide) rfl 256#32 64#32 (by decide) (by decide) inb_S8x128_S1x16_2_64 (c1_row2 d L zf f0 f1), (List.forall_mem_cons.2 ⟨aP_agree d L zf f0 f1 hpre 2 3 48 (by decide) (by decide) rfl 256#32 48#32 (by decide) (by decide) inb_S8x128_S1x16_2_48 (c1_row2 d L zf f0 f1), (List.forall_mem_cons.2 ⟨aP_agree d L zf f0 f1 hpre 2 2 32 (by decide) (by decide) rfl 256#32 32#32 (by decide) (by decide) inb_S8x128_S1x16_2_32 (c1_row2 d L zf f0 f1), (List.forall_mem_cons.2 ⟨aP_agree d L zf f0 f1 hpre 2 1 16 (by decide) (by decide) rfl 256#32 16#32 (by decide) (by decide) inb_S8x128_S1x16_2_16 (c1_row2 d L zf f0 f1), (List.forall_mem_cons.2 ⟨aP_agree d L zf f0 f1 hpre 2 0 0 (by decide) (by decide) rfl 256#32 0#32 (by decide) (by decide) inb_S8x128_S1x16_2_0 (c1_row2 d L zf f0 f1), (aL1_agree d L zf f0 f1 hpre)⟩)⟩)⟩)⟩)⟩)⟩)⟩)⟩)

theorem aL2_cover (L : grid0.Coords) (zf : (zV).view.ty.Contents (Elt F)) (f0 : (s0V).view.ty.Contents (Elt F)) (f1 : (s1V).view.ty.Contents (Elt F)) :
    ∀ v : Fin 8, ∃ p ∈ aL2 (F := F) L zf f0 f1, ∃ inb, p.1 = Rect.unit (s := S8x128) ![2, 16 * v.val] S1x16.size inb := by
  unfold aL2
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_2_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_2_16, rfl⟩
  · exact ⟨_, List.mem_cons_of_mem _ (List.mem_cons_of_mem _ (List.mem_cons_of_mem _ (List.mem_cons_of_mem _ (List.mem_cons_of_mem _ (List.mem_cons_self))))), inb_S8x128_S1x16_2_32, rfl⟩
  · exact ⟨_, List.mem_cons_of_mem _ (List.mem_cons_of_mem _ (List.mem_cons_of_mem _ (List.mem_cons_of_mem _ (List.mem_cons_self)))), inb_S8x128_S1x16_2_48, rfl⟩
  · exact ⟨_, List.mem_cons_of_mem _ (List.mem_cons_of_mem _ (List.mem_cons_of_mem _ (List.mem_cons_self))), inb_S8x128_S1x16_2_64, rfl⟩
  · exact ⟨_, List.mem_cons_of_mem _ (List.mem_cons_of_mem _ (List.mem_cons_self)), inb_S8x128_S1x16_2_80, rfl⟩
  · exact ⟨_, List.mem_cons_of_mem _ (List.mem_cons_self), inb_S8x128_S1x16_2_96, rfl⟩
  · exact ⟨_, List.mem_cons_self, inb_S8x128_S1x16_2_112, rfl⟩

theorem aread2 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![2, 0] S1x128.size inb_S8x128_S1x128_2_0) (fun _ => rfl)).squeeze S128 squeezes_S1x128_S128).view ((s2V).view.writes (Elt F) g (aL2 (F := F) L zf f0 f1)) x = aG L zf (rowIx 2 inb_S8x128_S1x128_2_0 x) :=
  aread_of L zf 2 inb_S8x128_S1x128_2_0 (aL2 L zf f0 f1) (aL2_agree d L zf f0 f1 hpre) (aL2_cover L zf f0 f1) g x

theorem hinA2 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![2, 0] S1x128.size inb_S8x128_S1x128_2_0) (fun _ => rfl)).squeeze S128 squeezes_S1x128_S128).view ((s2V).view.writes (Elt F) g (aL2 (F := F) L zf f0 f1)) x).toNat < 2097152 := by
  intro g x
  rw [aread2 d L zf f0 f1 hpre]
  exact aG_lt L zf hpre _

theorem aL3_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL3 (F := F) L zf f0 f1, ∀ x, p.2 x = aG L zf (p.1.emb x) := by
  unfold aL3
  exact (List.forall_mem_cons.2 ⟨aP_agree d L zf f0 f1 hpre 3 7 112 (by decide) (by decide) rfl 384#32 112#32 (by decide) (by decide) inb_S8x128_S1x16_3_112 (c1_row3 d L zf f0 f1), (List.forall_mem_cons.2 ⟨aP_agree d L zf f0 f1 hpre 3 6 96 (by decide) (by decide) rfl 384#32 96#32 (by decide) (by decide) inb_S8x128_S1x16_3_96 (c1_row3 d L zf f0 f1), (List.forall_mem_cons.2 ⟨aP_agree d L zf f0 f1 hpre 3 5 80 (by decide) (by decide) rfl 384#32 80#32 (by decide) (by decide) inb_S8x128_S1x16_3_80 (c1_row3 d L zf f0 f1), (List.forall_mem_cons.2 ⟨aP_agree d L zf f0 f1 hpre 3 4 64 (by decide) (by decide) rfl 384#32 64#32 (by decide) (by decide) inb_S8x128_S1x16_3_64 (c1_row3 d L zf f0 f1), (List.forall_mem_cons.2 ⟨aP_agree d L zf f0 f1 hpre 3 3 48 (by decide) (by decide) rfl 384#32 48#32 (by decide) (by decide) inb_S8x128_S1x16_3_48 (c1_row3 d L zf f0 f1), (List.forall_mem_cons.2 ⟨aP_agree d L zf f0 f1 hpre 3 2 32 (by decide) (by decide) rfl 384#32 32#32 (by decide) (by decide) inb_S8x128_S1x16_3_32 (c1_row3 d L zf f0 f1), (List.forall_mem_cons.2 ⟨aP_agree d L zf f0 f1 hpre 3 1 16 (by decide) (by decide) rfl 384#32 16#32 (by decide) (by decide) inb_S8x128_S1x16_3_16 (c1_row3 d L zf f0 f1), (List.forall_mem_cons.2 ⟨aP_agree d L zf f0 f1 hpre 3 0 0 (by decide) (by decide) rfl 384#32 0#32 (by decide) (by decide) inb_S8x128_S1x16_3_0 (c1_row3 d L zf f0 f1), (aL2_agree d L zf f0 f1 hpre)⟩)⟩)⟩)⟩)⟩)⟩)⟩)⟩)

theorem aL3_cover (L : grid0.Coords) (zf : (zV).view.ty.Contents (Elt F)) (f0 : (s0V).view.ty.Contents (Elt F)) (f1 : (s1V).view.ty.Contents (Elt F)) :
    ∀ v : Fin 8, ∃ p ∈ aL3 (F := F) L zf f0 f1, ∃ inb, p.1 = Rect.unit (s := S8x128) ![3, 16 * v.val] S1x16.size inb := by
  unfold aL3
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_3_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_3_16, rfl⟩
  · exact ⟨_, List.mem_cons_of_mem _ (List.mem_cons_of_mem _ (List.mem_cons_of_mem _ (List.mem_cons_of_mem _ (List.mem_cons_of_mem _ (List.mem_cons_self))))), inb_S8x128_S1x16_3_32, rfl⟩
  · exact ⟨_, List.mem_cons_of_mem _ (List.mem_cons_of_mem _ (List.mem_cons_of_mem _ (List.mem_cons_of_mem _ (List.mem_cons_self)))), inb_S8x128_S1x16_3_48, rfl⟩
  · exact ⟨_, List.mem_cons_of_mem _ (List.mem_cons_of_mem _ (List.mem_cons_of_mem _ (List.mem_cons_self))), inb_S8x128_S1x16_3_64, rfl⟩
  · exact ⟨_, List.mem_cons_of_mem _ (List.mem_cons_of_mem _ (List.mem_cons_self)), inb_S8x128_S1x16_3_80, rfl⟩
  · exact ⟨_, List.mem_cons_of_mem _ (List.mem_cons_self), inb_S8x128_S1x16_3_96, rfl⟩
  · exact ⟨_, List.mem_cons_self, inb_S8x128_S1x16_3_112, rfl⟩

theorem aread3 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![3, 0] S1x128.size inb_S8x128_S1x128_3_0) (fun _ => rfl)).squeeze S128 squeezes_S1x128_S128).view ((s2V).view.writes (Elt F) g (aL3 (F := F) L zf f0 f1)) x = aG L zf (rowIx 3 inb_S8x128_S1x128_3_0 x) :=
  aread_of L zf 3 inb_S8x128_S1x128_3_0 (aL3 L zf f0 f1) (aL3_agree d L zf f0 f1 hpre) (aL3_cover L zf f0 f1) g x

theorem hinA3 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![3, 0] S1x128.size inb_S8x128_S1x128_3_0) (fun _ => rfl)).squeeze S128 squeezes_S1x128_S128).view ((s2V).view.writes (Elt F) g (aL3 (F := F) L zf f0 f1)) x).toNat < 2097152 := by
  intro g x
  rw [aread3 d L zf f0 f1 hpre]
  exact aG_lt L zf hpre _

theorem aL4_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL4 (F := F) L zf f0 f1, ∀ x, p.2 x = aG L zf (p.1.emb x) := by
  unfold aL4
  exact (List.forall_mem_cons.2 ⟨aP_agree d L zf f0 f1 hpre 4 7 112 (by decide) (by decide) rfl 512#32 112#32 (by decide) (by decide) inb_S8x128_S1x16_4_112 (c1_row4 d L zf f0 f1), (List.forall_mem_cons.2 ⟨aP_agree d L zf f0 f1 hpre 4 6 96 (by decide) (by decide) rfl 512#32 96#32 (by decide) (by decide) inb_S8x128_S1x16_4_96 (c1_row4 d L zf f0 f1), (List.forall_mem_cons.2 ⟨aP_agree d L zf f0 f1 hpre 4 5 80 (by decide) (by decide) rfl 512#32 80#32 (by decide) (by decide) inb_S8x128_S1x16_4_80 (c1_row4 d L zf f0 f1), (List.forall_mem_cons.2 ⟨aP_agree d L zf f0 f1 hpre 4 4 64 (by decide) (by decide) rfl 512#32 64#32 (by decide) (by decide) inb_S8x128_S1x16_4_64 (c1_row4 d L zf f0 f1), (List.forall_mem_cons.2 ⟨aP_agree d L zf f0 f1 hpre 4 3 48 (by decide) (by decide) rfl 512#32 48#32 (by decide) (by decide) inb_S8x128_S1x16_4_48 (c1_row4 d L zf f0 f1), (List.forall_mem_cons.2 ⟨aP_agree d L zf f0 f1 hpre 4 2 32 (by decide) (by decide) rfl 512#32 32#32 (by decide) (by decide) inb_S8x128_S1x16_4_32 (c1_row4 d L zf f0 f1), (List.forall_mem_cons.2 ⟨aP_agree d L zf f0 f1 hpre 4 1 16 (by decide) (by decide) rfl 512#32 16#32 (by decide) (by decide) inb_S8x128_S1x16_4_16 (c1_row4 d L zf f0 f1), (List.forall_mem_cons.2 ⟨aP_agree d L zf f0 f1 hpre 4 0 0 (by decide) (by decide) rfl 512#32 0#32 (by decide) (by decide) inb_S8x128_S1x16_4_0 (c1_row4 d L zf f0 f1), (aL3_agree d L zf f0 f1 hpre)⟩)⟩)⟩)⟩)⟩)⟩)⟩)⟩)

theorem aL4_cover (L : grid0.Coords) (zf : (zV).view.ty.Contents (Elt F)) (f0 : (s0V).view.ty.Contents (Elt F)) (f1 : (s1V).view.ty.Contents (Elt F)) :
    ∀ v : Fin 8, ∃ p ∈ aL4 (F := F) L zf f0 f1, ∃ inb, p.1 = Rect.unit (s := S8x128) ![4, 16 * v.val] S1x16.size inb := by
  unfold aL4
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_4_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_4_16, rfl⟩
  · exact ⟨_, List.mem_cons_of_mem _ (List.mem_cons_of_mem _ (List.mem_cons_of_mem _ (List.mem_cons_of_mem _ (List.mem_cons_of_mem _ (List.mem_cons_self))))), inb_S8x128_S1x16_4_32, rfl⟩
  · exact ⟨_, List.mem_cons_of_mem _ (List.mem_cons_of_mem _ (List.mem_cons_of_mem _ (List.mem_cons_of_mem _ (List.mem_cons_self)))), inb_S8x128_S1x16_4_48, rfl⟩
  · exact ⟨_, List.mem_cons_of_mem _ (List.mem_cons_of_mem _ (List.mem_cons_of_mem _ (List.mem_cons_self))), inb_S8x128_S1x16_4_64, rfl⟩
  · exact ⟨_, List.mem_cons_of_mem _ (List.mem_cons_of_mem _ (List.mem_cons_self)), inb_S8x128_S1x16_4_80, rfl⟩
  · exact ⟨_, List.mem_cons_of_mem _ (List.mem_cons_self), inb_S8x128_S1x16_4_96, rfl⟩
  · exact ⟨_, List.mem_cons_self, inb_S8x128_S1x16_4_112, rfl⟩

theorem aread4 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![4, 0] S1x128.size inb_S8x128_S1x128_4_0) (fun _ => rfl)).squeeze S128 squeezes_S1x128_S128).view ((s2V).view.writes (Elt F) g (aL4 (F := F) L zf f0 f1)) x = aG L zf (rowIx 4 inb_S8x128_S1x128_4_0 x) :=
  aread_of L zf 4 inb_S8x128_S1x128_4_0 (aL4 L zf f0 f1) (aL4_agree d L zf f0 f1 hpre) (aL4_cover L zf f0 f1) g x

theorem hinA4 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![4, 0] S1x128.size inb_S8x128_S1x128_4_0) (fun _ => rfl)).squeeze S128 squeezes_S1x128_S128).view ((s2V).view.writes (Elt F) g (aL4 (F := F) L zf f0 f1)) x).toNat < 2097152 := by
  intro g x
  rw [aread4 d L zf f0 f1 hpre]
  exact aG_lt L zf hpre _

theorem aL5_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL5 (F := F) L zf f0 f1, ∀ x, p.2 x = aG L zf (p.1.emb x) := by
  unfold aL5
  exact (List.forall_mem_cons.2 ⟨aP_agree d L zf f0 f1 hpre 5 7 112 (by decide) (by decide) rfl 640#32 112#32 (by decide) (by decide) inb_S8x128_S1x16_5_112 (c1_row5 d L zf f0 f1), (List.forall_mem_cons.2 ⟨aP_agree d L zf f0 f1 hpre 5 6 96 (by decide) (by decide) rfl 640#32 96#32 (by decide) (by decide) inb_S8x128_S1x16_5_96 (c1_row5 d L zf f0 f1), (List.forall_mem_cons.2 ⟨aP_agree d L zf f0 f1 hpre 5 5 80 (by decide) (by decide) rfl 640#32 80#32 (by decide) (by decide) inb_S8x128_S1x16_5_80 (c1_row5 d L zf f0 f1), (List.forall_mem_cons.2 ⟨aP_agree d L zf f0 f1 hpre 5 4 64 (by decide) (by decide) rfl 640#32 64#32 (by decide) (by decide) inb_S8x128_S1x16_5_64 (c1_row5 d L zf f0 f1), (List.forall_mem_cons.2 ⟨aP_agree d L zf f0 f1 hpre 5 3 48 (by decide) (by decide) rfl 640#32 48#32 (by decide) (by decide) inb_S8x128_S1x16_5_48 (c1_row5 d L zf f0 f1), (List.forall_mem_cons.2 ⟨aP_agree d L zf f0 f1 hpre 5 2 32 (by decide) (by decide) rfl 640#32 32#32 (by decide) (by decide) inb_S8x128_S1x16_5_32 (c1_row5 d L zf f0 f1), (List.forall_mem_cons.2 ⟨aP_agree d L zf f0 f1 hpre 5 1 16 (by decide) (by decide) rfl 640#32 16#32 (by decide) (by decide) inb_S8x128_S1x16_5_16 (c1_row5 d L zf f0 f1), (List.forall_mem_cons.2 ⟨aP_agree d L zf f0 f1 hpre 5 0 0 (by decide) (by decide) rfl 640#32 0#32 (by decide) (by decide) inb_S8x128_S1x16_5_0 (c1_row5 d L zf f0 f1), (aL4_agree d L zf f0 f1 hpre)⟩)⟩)⟩)⟩)⟩)⟩)⟩)⟩)

theorem aL5_cover (L : grid0.Coords) (zf : (zV).view.ty.Contents (Elt F)) (f0 : (s0V).view.ty.Contents (Elt F)) (f1 : (s1V).view.ty.Contents (Elt F)) :
    ∀ v : Fin 8, ∃ p ∈ aL5 (F := F) L zf f0 f1, ∃ inb, p.1 = Rect.unit (s := S8x128) ![5, 16 * v.val] S1x16.size inb := by
  unfold aL5
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_5_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_5_16, rfl⟩
  · exact ⟨_, List.mem_cons_of_mem _ (List.mem_cons_of_mem _ (List.mem_cons_of_mem _ (List.mem_cons_of_mem _ (List.mem_cons_of_mem _ (List.mem_cons_self))))), inb_S8x128_S1x16_5_32, rfl⟩
  · exact ⟨_, List.mem_cons_of_mem _ (List.mem_cons_of_mem _ (List.mem_cons_of_mem _ (List.mem_cons_of_mem _ (List.mem_cons_self)))), inb_S8x128_S1x16_5_48, rfl⟩
  · exact ⟨_, List.mem_cons_of_mem _ (List.mem_cons_of_mem _ (List.mem_cons_of_mem _ (List.mem_cons_self))), inb_S8x128_S1x16_5_64, rfl⟩
  · exact ⟨_, List.mem_cons_of_mem _ (List.mem_cons_of_mem _ (List.mem_cons_self)), inb_S8x128_S1x16_5_80, rfl⟩
  · exact ⟨_, List.mem_cons_of_mem _ (List.mem_cons_self), inb_S8x128_S1x16_5_96, rfl⟩
  · exact ⟨_, List.mem_cons_self, inb_S8x128_S1x16_5_112, rfl⟩

theorem aread5 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![5, 0] S1x128.size inb_S8x128_S1x128_5_0) (fun _ => rfl)).squeeze S128 squeezes_S1x128_S128).view ((s2V).view.writes (Elt F) g (aL5 (F := F) L zf f0 f1)) x = aG L zf (rowIx 5 inb_S8x128_S1x128_5_0 x) :=
  aread_of L zf 5 inb_S8x128_S1x128_5_0 (aL5 L zf f0 f1) (aL5_agree d L zf f0 f1 hpre) (aL5_cover L zf f0 f1) g x

theorem hinA5 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![5, 0] S1x128.size inb_S8x128_S1x128_5_0) (fun _ => rfl)).squeeze S128 squeezes_S1x128_S128).view ((s2V).view.writes (Elt F) g (aL5 (F := F) L zf f0 f1)) x).toNat < 2097152 := by
  intro g x
  rw [aread5 d L zf f0 f1 hpre]
  exact aG_lt L zf hpre _

theorem aL6_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL6 (F := F) L zf f0 f1, ∀ x, p.2 x = aG L zf (p.1.emb x) := by
  unfold aL6
  exact (List.forall_mem_cons.2 ⟨aP_agree d L zf f0 f1 hpre 6 7 112 (by decide) (by decide) rfl 768#32 112#32 (by decide) (by decide) inb_S8x128_S1x16_6_112 (c1_row6 d L zf f0 f1), (List.forall_mem_cons.2 ⟨aP_agree d L zf f0 f1 hpre 6 6 96 (by decide) (by decide) rfl 768#32 96#32 (by decide) (by decide) inb_S8x128_S1x16_6_96 (c1_row6 d L zf f0 f1), (List.forall_mem_cons.2 ⟨aP_agree d L zf f0 f1 hpre 6 5 80 (by decide) (by decide) rfl 768#32 80#32 (by decide) (by decide) inb_S8x128_S1x16_6_80 (c1_row6 d L zf f0 f1), (List.forall_mem_cons.2 ⟨aP_agree d L zf f0 f1 hpre 6 4 64 (by decide) (by decide) rfl 768#32 64#32 (by decide) (by decide) inb_S8x128_S1x16_6_64 (c1_row6 d L zf f0 f1), (List.forall_mem_cons.2 ⟨aP_agree d L zf f0 f1 hpre 6 3 48 (by decide) (by decide) rfl 768#32 48#32 (by decide) (by decide) inb_S8x128_S1x16_6_48 (c1_row6 d L zf f0 f1), (List.forall_mem_cons.2 ⟨aP_agree d L zf f0 f1 hpre 6 2 32 (by decide) (by decide) rfl 768#32 32#32 (by decide) (by decide) inb_S8x128_S1x16_6_32 (c1_row6 d L zf f0 f1), (List.forall_mem_cons.2 ⟨aP_agree d L zf f0 f1 hpre 6 1 16 (by decide) (by decide) rfl 768#32 16#32 (by decide) (by decide) inb_S8x128_S1x16_6_16 (c1_row6 d L zf f0 f1), (List.forall_mem_cons.2 ⟨aP_agree d L zf f0 f1 hpre 6 0 0 (by decide) (by decide) rfl 768#32 0#32 (by decide) (by decide) inb_S8x128_S1x16_6_0 (c1_row6 d L zf f0 f1), (aL5_agree d L zf f0 f1 hpre)⟩)⟩)⟩)⟩)⟩)⟩)⟩)⟩)

theorem aL6_cover (L : grid0.Coords) (zf : (zV).view.ty.Contents (Elt F)) (f0 : (s0V).view.ty.Contents (Elt F)) (f1 : (s1V).view.ty.Contents (Elt F)) :
    ∀ v : Fin 8, ∃ p ∈ aL6 (F := F) L zf f0 f1, ∃ inb, p.1 = Rect.unit (s := S8x128) ![6, 16 * v.val] S1x16.size inb := by
  unfold aL6
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_6_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_6_16, rfl⟩
  · exact ⟨_, List.mem_cons_of_mem _ (List.mem_cons_of_mem _ (List.mem_cons_of_mem _ (List.mem_cons_of_mem _ (List.mem_cons_of_mem _ (List.mem_cons_self))))), inb_S8x128_S1x16_6_32, rfl⟩
  · exact ⟨_, List.mem_cons_of_mem _ (List.mem_cons_of_mem _ (List.mem_cons_of_mem _ (List.mem_cons_of_mem _ (List.mem_cons_self)))), inb_S8x128_S1x16_6_48, rfl⟩
  · exact ⟨_, List.mem_cons_of_mem _ (List.mem_cons_of_mem _ (List.mem_cons_of_mem _ (List.mem_cons_self))), inb_S8x128_S1x16_6_64, rfl⟩
  · exact ⟨_, List.mem_cons_of_mem _ (List.mem_cons_of_mem _ (List.mem_cons_self)), inb_S8x128_S1x16_6_80, rfl⟩
  · exact ⟨_, List.mem_cons_of_mem _ (List.mem_cons_self), inb_S8x128_S1x16_6_96, rfl⟩
  · exact ⟨_, List.mem_cons_self, inb_S8x128_S1x16_6_112, rfl⟩

theorem aread6 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![6, 0] S1x128.size inb_S8x128_S1x128_6_0) (fun _ => rfl)).squeeze S128 squeezes_S1x128_S128).view ((s2V).view.writes (Elt F) g (aL6 (F := F) L zf f0 f1)) x = aG L zf (rowIx 6 inb_S8x128_S1x128_6_0 x) :=
  aread_of L zf 6 inb_S8x128_S1x128_6_0 (aL6 L zf f0 f1) (aL6_agree d L zf f0 f1 hpre) (aL6_cover L zf f0 f1) g x

theorem hinA6 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![6, 0] S1x128.size inb_S8x128_S1x128_6_0) (fun _ => rfl)).squeeze S128 squeezes_S1x128_S128).view ((s2V).view.writes (Elt F) g (aL6 (F := F) L zf f0 f1)) x).toNat < 2097152 := by
  intro g x
  rw [aread6 d L zf f0 f1 hpre]
  exact aG_lt L zf hpre _

theorem aL7_agree (d : Dev nD) (L : grid0.Coords) (zf : Buf (Elt F) (zLoc d)) (f0 : (s0V).view.ty.Contents (Elt F)) (f1 : (s1V).view.ty.Contents (Elt F)) (hpre : Cert.Spec.InRangeF (F := F) zf) :
    ∀ p ∈ aL7 (F := F) L zf f0 f1, ∀ x, p.2 x = aG L zf (p.1.emb x) := by
  unfold aL7
  exact (List.forall_mem_cons.2 ⟨aP_agree d L zf f0 f1 hpre 7 7 112 (by decide) (by decide) rfl 896#32 112#32 (by decide) (by decide) inb_S8x128_S1x16_7_112 (c1_row7 d L zf f0 f1), (List.forall_mem_cons.2 ⟨aP_agree d L zf f0 f1 hpre 7 6 96 (by decide) (by decide) rfl 896#32 96#32 (by decide) (by decide) inb_S8x128_S1x16_7_96 (c1_row7 d L zf f0 f1), (List.forall_mem_cons.2 ⟨aP_agree d L zf f0 f1 hpre 7 5 80 (by decide) (by decide) rfl 896#32 80#32 (by decide) (by decide) inb_S8x128_S1x16_7_80 (c1_row7 d L zf f0 f1), (List.forall_mem_cons.2 ⟨aP_agree d L zf f0 f1 hpre 7 4 64 (by decide) (by decide) rfl 896#32 64#32 (by decide) (by decide) inb_S8x128_S1x16_7_64 (c1_row7 d L zf f0 f1), (List.forall_mem_cons.2 ⟨aP_agree d L zf f0 f1 hpre 7 3 48 (by decide) (by decide) rfl 896#32 48#32 (by decide) (by decide) inb_S8x128_S1x16_7_48 (c1_row7 d L zf f0 f1), (List.forall_mem_cons.2 ⟨aP_agree d L zf f0 f1 hpre 7 2 32 (by decide) (by decide) rfl 896#32 32#32 (by decide) (by decide) inb_S8x128_S1x16_7_32 (c1_row7 d L zf f0 f1), (List.forall_mem_cons.2 ⟨aP_agree d L zf f0 f1 hpre 7 1 16 (by decide) (by decide) rfl 896#32 16#32 (by decide) (by decide) inb_S8x128_S1x16_7_16 (c1_row7 d L zf f0 f1), (List.forall_mem_cons.2 ⟨aP_agree d L zf f0 f1 hpre 7 0 0 (by decide) (by decide) rfl 896#32 0#32 (by decide) (by decide) inb_S8x128_S1x16_7_0 (c1_row7 d L zf f0 f1), (aL6_agree d L zf f0 f1 hpre)⟩)⟩)⟩)⟩)⟩)⟩)⟩)⟩)

theorem aL7_cover (L : grid0.Coords) (zf : (zV).view.ty.Contents (Elt F)) (f0 : (s0V).view.ty.Contents (Elt F)) (f1 : (s1V).view.ty.Contents (Elt F)) :
    ∀ v : Fin 8, ∃ p ∈ aL7 (F := F) L zf f0 f1, ∃ inb, p.1 = Rect.unit (s := S8x128) ![7, 16 * v.val] S1x16.size inb := by
  unfold aL7
  intro v; fin_cases v
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_7_0, rfl⟩
  · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_7_16, rfl⟩
  · exact ⟨_, List.mem_cons_of_mem _ (List.mem_cons_of_mem _ (List.mem_cons_of_mem _ (List.mem_cons_of_mem _ (List.mem_cons_of_mem _ (List.mem_cons_self))))), inb_S8x128_S1x16_7_32, rfl⟩
  · exact ⟨_, List.mem_cons_of_mem _ (List.mem_cons_of_mem _ (List.mem_cons_of_mem _ (List.mem_cons_of_mem _ (List.mem_cons_self)))), inb_S8x128_S1x16_7_48, rfl⟩
  · exact ⟨_, List.mem_cons_of_mem _ (List.mem_cons_of_mem _ (List.mem_cons_of_mem _ (List.mem_cons_self))), inb_S8x128_S1x16_7_64, rfl⟩
  · exact ⟨_, List.mem_cons_of_mem _ (List.mem_cons_of_mem _ (List.mem_cons_self)), inb_S8x128_S1x16_7_80, rfl⟩
  · exact ⟨_, List.mem_cons_of_mem _ (List.mem_cons_self), inb_S8x128_S1x16_7_96, rfl⟩
  · exact ⟨_, List.mem_cons_self, inb_S8x128_S1x16_7_112, rfl⟩

theorem aread7 (d : Dev nD) (L : grid0.Coords) (zf : Buf (Elt F) (zLoc d)) (f0 : (s0V).view.ty.Contents (Elt F)) (f1 : (s1V).view.ty.Contents (Elt F)) (hpre : Cert.Spec.InRangeF (F := F) zf)
    (g : (s2V).view.ty.Contents (Elt F)) (x : S128.Idx) :
    View.read (Elt F) (((s2V).slice (Rect.unit (s := S8x128) ![7, 0] S1x128.size inb_S8x128_S1x128_7_0) (fun _ => rfl)).squeeze S128 squeezes_S1x128_S128).view ((s2V).view.writes (Elt F) g (aL7 (F := F) L zf f0 f1)) x = aG L zf (rowIx 7 inb_S8x128_S1x128_7_0 x) :=
  aread_of L zf 7 inb_S8x128_S1x128_7_0 (aL7 L zf f0 f1) (aL7_agree d L zf f0 f1 hpre) (aL7_cover L zf f0 f1) g x

theorem hinA7 (d : Dev nD) (L : grid0.Coords) (zf : Buf (Elt F) (zLoc d)) (f0 : (s0V).view.ty.Contents (Elt F)) (f1 : (s1V).view.ty.Contents (Elt F)) (hpre : Cert.Spec.InRangeF (F := F) zf) :
    ∀ (g : (s2V).view.ty.Contents (Elt F)) (x : S128.Idx),
      (View.read (Elt F) (((s2V).slice (Rect.unit (s := S8x128) ![7, 0] S1x128.size inb_S8x128_S1x128_7_0) (fun _ => rfl)).squeeze S128 squeezes_S1x128_S128).view ((s2V).view.writes (Elt F) g (aL7 (F := F) L zf f0 f1)) x).toNat < 2097152 := by
  intro g x
  rw [aread7 d L zf f0 f1 hpre]
  exact aG_lt L zf hpre _

end Cert.KB

end
-- ==== Proof.BodySB.lean ====
/-
  Phase three of a task, as data. The gather through row `r` of the third scratch buffer delivers, at entry `c` of row
  `r` of the fourth, flat `a` at the position listed: the selected entry of result row `1024 w + 128 r + c`. The task then
  scales the fourth buffer sixteen lanes at a time; what reading it back gives, row by row, is stated here for any
  contents the scaling stores were made over.
-/
import proofs.«207294_g27419071217675_cont_9to1_1737_29_alg».proof.Proof.BodyAB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the gathers out of flat `a` deliver -/

/-- Flat `a` as the gathers read it. -/
def asrc {d : Dev nD} (af : Buf (Elt F) (aLoc d)) : S2097152.Idx → Elt F .f32 :=
  View.read (Elt F) ((aV).slice (Rect.unit (s := S2097152) ![0] S2097152.size inb_S2097152_S2097152_0) (fun _ => rfl)).view af

/-- What the gather through row 0 of the third scratch buffer delivers. -/
def ga0 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![0, 0] S1x128.size inb_S8x128_S1x128_0_0) (fun _ => rfl)).squeeze S128 squeezes_S1x128_S128).view ((s2V).view.writes (Elt F) f2 (aL0 L zf f0 f1))) rfl (hinA0 d L zf f0 f1 hpre f2))

/-- What the gather through row 1 of the third scratch buffer delivers. -/
def ga1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![1, 0] S1x128.size inb_S8x128_S1x128_1_0) (fun _ => rfl)).squeeze S128 squeezes_S1x128_S128).view ((s2V).view.writes (Elt F) f2 (aL1 L zf f0 f1))) rfl (hinA1 d L zf f0 f1 hpre f2))

/-- What the gather through row 2 of the third scratch buffer delivers. -/
def ga2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![2, 0] S1x128.size inb_S8x128_S1x128_2_0) (fun _ => rfl)).squeeze S128 squeezes_S1x128_S128).view ((s2V).view.writes (Elt F) f2 (aL2 L zf f0 f1))) rfl (hinA2 d L zf f0 f1 hpre f2))

/-- What the gather through row 3 of the third scratch buffer delivers. -/
def ga3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![3, 0] S1x128.size inb_S8x128_S1x128_3_0) (fun _ => rfl)).squeeze S128 squeezes_S1x128_S128).view ((s2V).view.writes (Elt F) f2 (aL3 L zf f0 f1))) rfl (hinA3 d L zf f0 f1 hpre f2))

/-- What the gather through row 4 of the third scratch buffer delivers. -/
def ga4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![4, 0] S1x128.size inb_S8x128_S1x128_4_0) (fun _ => rfl)).squeeze S128 squeezes_S1x128_S128).view ((s2V).view.writes (Elt F) f2 (aL4 L zf f0 f1))) rfl (hinA4 d L zf f0 f1 hpre f2))

/-- What the gather through row 5 of the third scratch buffer delivers. -/
def ga5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![5, 0] S1x128.size inb_S8x128_S1x128_5_0) (fun _ => rfl)).squeeze S128 squeezes_S1x128_S128).view ((s2V).view.writes (Elt F) f2 (aL5 L zf f0 f1))) rfl (hinA5 d L zf f0 f1 hpre f2))

/-- What the gather through row 6 of the third scratch buffer delivers. -/
def ga6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![6, 0] S1x128.size inb_S8x128_S1x128_6_0) (fun _ => rfl)).squeeze S128 squeezes_S1x128_S128).view ((s2V).view.writes (Elt F) f2 (aL6 L zf f0 f1))) rfl (hinA6 d L zf f0 f1 hpre f2))

/-- What the gather through row 7 of the third scratch buffer delivers. -/
def ga7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) : S128.Idx → Elt F .f32 :=
  SparseCore.gatherPayload gathers_S2097152_S128 (asrc af)
    (SparseCore.rows (View.read (Elt F) (((s2V).slice (Rect.unit (s := S8x128) ![7, 0] S1x128.size inb_S8x128_S1x128_7_0) (fun _ => rfl)).squeeze S128 squeezes_S1x128_S128).view ((s2V).view.writes (Elt F) f2 (aL7 L zf f0 f1))) rfl (hinA7 d L zf f0 f1 hpre f2))

/-- The fourth scratch buffer once the eight gathers out of flat `a` are issued: row `r` written with gather `r`'s delivery. -/
def c3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![7, 0] S1x128.size inb_S8x128_S1x128_7_0) (fun _ => rfl)).squeeze S128 squeezes_S1x128_S128).view (View.write (Elt F) (((s3V).slice (Rect.unit (s := S8x128) ![6, 0] S1x128.size inb_S8x128_S1x128_6_0) (fun _ => rfl)).squeeze S128 squeezes_S1x128_S128).view (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ) (ga6 d L zf af f0 f1 f2 hpre) Finset.univ) (ga7 d L zf af f0 f1 f2 hpre) Finset.univ)

theorem aPos_row_eq (L : grid0.Coords) (zf : FVec F Cert.Spec.SZf .f32) (y' y : S8x128.Idx) (h0 : (y' 0).val = (y 0).val) (h1 : (y' 1).val = (y 1).val) :
    (Cert.Spec.aPos zf (rowF L y')).val = (Cert.Spec.aPos zf (rowF L y)).val := by
  have e : rowF L y' = rowF L y := Fin.ext (by show rowN L y' = rowN L y; unfold rowN; rw [h0, h1])
  rw [e]

theorem c3_read0 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 0) :
    View.read (Elt F) (s3V).view (c3 d L zf af f0 f1 f2 f3 hpre) y = ga0 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_neg (by omega),
    rowWrite3_read, if_neg (by omega),
    rowWrite3_read, if_neg (by omega),
    rowWrite3_read, if_pos hy]

theorem ga0_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 0) :
    ga0 d L zf af f0 f1 f2 hpre (ValueIdx.ix1 (⟨(y 1).val, ValueIdx.idx2_lt1 y⟩ : Fin 128)) = af (ValueIdx.ix1 (Cert.Spec.aPos zf (rowF L y))) := by
  unfold ga0 asrc
  rw [gatherA_apply d af _ rfl (hinA0 d L zf f0 f1 hpre f2)]
  refine congrArg af (congrArg ValueIdx.ix1 (Fin.ext ?_))
  have e := aread0 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row0 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 0) :
    View.read (Elt F) (s3V).view (c3 d L zf af f0 f1 f2 f3 hpre) y = af (ValueIdx.ix1 (Cert.Spec.aPos zf (rowF L y))) :=
  (c3_read0 d L zf af f0 f1 f2 f3 hpre y hy).trans (ga0_at d L zf af f0 f1 f2 hpre y hy)

theorem c3_read1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 1) :
    View.read (Elt F) (s3V).view (c3 d L zf af f0 f1 f2 f3 hpre) y = ga1 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_neg (by omega),
    rowWrite3_read, if_neg (by omega),
    rowWrite3_read, if_pos hy]

theorem ga1_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 1) :
    ga1 d L zf af f0 f1 f2 hpre (ValueIdx.ix1 (⟨(y 1).val, ValueIdx.idx2_lt1 y⟩ : Fin 128)) = af (ValueIdx.ix1 (Cert.Spec.aPos zf (rowF L y))) := by
  unfold ga1 asrc
  rw [gatherA_apply d af _ rfl (hinA1 d L zf f0 f1 hpre f2)]
  refine congrArg af (congrArg ValueIdx.ix1 (Fin.ext ?_))
  have e := aread1 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 1) :
    View.read (Elt F) (s3V).view (c3 d L zf af f0 f1 f2 f3 hpre) y = af (ValueIdx.ix1 (Cert.Spec.aPos zf (rowF L y))) :=
  (c3_read1 d L zf af f0 f1 f2 f3 hpre y hy).trans (ga1_at d L zf af f0 f1 f2 hpre y hy)

theorem c3_read2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 2) :
    View.read (Elt F) (s3V).view (c3 d L zf af f0 f1 f2 f3 hpre) y = ga2 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_neg (by omega),
    rowWrite3_read, if_pos hy]

theorem ga2_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 2) :
    ga2 d L zf af f0 f1 f2 hpre (ValueIdx.ix1 (⟨(y 1).val, ValueIdx.idx2_lt1 y⟩ : Fin 128)) = af (ValueIdx.ix1 (Cert.Spec.aPos zf (rowF L y))) := by
  unfold ga2 asrc
  rw [gatherA_apply d af _ rfl (hinA2 d L zf f0 f1 hpre f2)]
  refine congrArg af (congrArg ValueIdx.ix1 (Fin.ext ?_))
  have e := aread2 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 2) :
    View.read (Elt F) (s3V).view (c3 d L zf af f0 f1 f2 f3 hpre) y = af (ValueIdx.ix1 (Cert.Spec.aPos zf (rowF L y))) :=
  (c3_read2 d L zf af f0 f1 f2 f3 hpre y hy).trans (ga2_at d L zf af f0 f1 f2 hpre y hy)

theorem c3_read3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 3) :
    View.read (Elt F) (s3V).view (c3 d L zf af f0 f1 f2 f3 hpre) y = ga3 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_neg (by omega),
    rowWrite3_read, if_pos hy]

theorem ga3_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 3) :
    ga3 d L zf af f0 f1 f2 hpre (ValueIdx.ix1 (⟨(y 1).val, ValueIdx.idx2_lt1 y⟩ : Fin 128)) = af (ValueIdx.ix1 (Cert.Spec.aPos zf (rowF L y))) := by
  unfold ga3 asrc
  rw [gatherA_apply d af _ rfl (hinA3 d L zf f0 f1 hpre f2)]
  refine congrArg af (congrArg ValueIdx.ix1 (Fin.ext ?_))
  have e := aread3 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 3) :
    View.read (Elt F) (s3V).view (c3 d L zf af f0 f1 f2 f3 hpre) y = af (ValueIdx.ix1 (Cert.Spec.aPos zf (rowF L y))) :=
  (c3_read3 d L zf af f0 f1 f2 f3 hpre y hy).trans (ga3_at d L zf af f0 f1 f2 hpre y hy)

theorem c3_read4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 4) :
    View.read (Elt F) (s3V).view (c3 d L zf af f0 f1 f2 f3 hpre) y = ga4 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_neg (by omega),
    rowWrite3_read, if_pos hy]

theorem ga4_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 4) :
    ga4 d L zf af f0 f1 f2 hpre (ValueIdx.ix1 (⟨(y 1).val, ValueIdx.idx2_lt1 y⟩ : Fin 128)) = af (ValueIdx.ix1 (Cert.Spec.aPos zf (rowF L y))) := by
  unfold ga4 asrc
  rw [gatherA_apply d af _ rfl (hinA4 d L zf f0 f1 hpre f2)]
  refine congrArg af (congrArg ValueIdx.ix1 (Fin.ext ?_))
  have e := aread4 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 4) :
    View.read (Elt F) (s3V).view (c3 d L zf af f0 f1 f2 f3 hpre) y = af (ValueIdx.ix1 (Cert.Spec.aPos zf (rowF L y))) :=
  (c3_read4 d L zf af f0 f1 f2 f3 hpre y hy).trans (ga4_at d L zf af f0 f1 f2 hpre y hy)

theorem c3_read5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 5) :
    View.read (Elt F) (s3V).view (c3 d L zf af f0 f1 f2 f3 hpre) y = ga5 d L zf af f0 f1 f2 hpre (ValueIdx.ix1 (⟨(y 1).val, ValueIdx.idx2_lt1 y⟩ : Fin 128)) := by
  unfold c3
  rw [rowWrite3_read, if_neg (by omega),
    rowWrite3_read, if_neg (by omega),
    rowWrite3_read, if_pos hy]

theorem ga5_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 5) :
    ga5 d L zf af f0 f1 f2 hpre (ValueIdx.ix1 (⟨(y 1).val, ValueIdx.idx2_lt1 y⟩ : Fin 128)) = af (ValueIdx.ix1 (Cert.Spec.aPos zf (rowF L y))) := by
  unfold ga5 asrc
  rw [gatherA_apply d af _ rfl (hinA5 d L zf f0 f1 hpre f2)]
  refine congrArg af (congrArg ValueIdx.ix1 (Fin.ext ?_))
  have e := aread5 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 5) :
    View.read (Elt F) (s3V).view (c3 d L zf af f0 f1 f2 f3 hpre) y = af (ValueIdx.ix1 (Cert.Spec.aPos zf (rowF L y))) :=
  (c3_read5 d L zf af f0 f1 f2 f3 hpre y hy).trans (ga5_at d L zf af f0 f1 f2 hpre y hy)

theorem c3_read6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 6) :
    View.read (Elt F) (s3V).view (c3 d L zf af f0 f1 f2 f3 hpre) y = ga6 d L zf af f0 f1 f2 hpre (ValueIdx.ix1 (⟨(y 1).val, ValueIdx.idx2_lt1 y⟩ : Fin 128)) := by
  unfold c3
  rw [rowWrite3_read, if_neg (by omega),
    rowWrite3_read, if_pos hy]

theorem ga6_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 6) :
    ga6 d L zf af f0 f1 f2 hpre (ValueIdx.ix1 (⟨(y 1).val, ValueIdx.idx2_lt1 y⟩ : Fin 128)) = af (ValueIdx.ix1 (Cert.Spec.aPos zf (rowF L y))) := by
  unfold ga6 asrc
  rw [gatherA_apply d af _ rfl (hinA6 d L zf f0 f1 hpre f2)]
  refine congrArg af (congrArg ValueIdx.ix1 (Fin.ext ?_))
  have e := aread6 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 6) :
    View.read (Elt F) (s3V).view (c3 d L zf af f0 f1 f2 f3 hpre) y = af (ValueIdx.ix1 (Cert.Spec.aPos zf (rowF L y))) :=
  (c3_read6 d L zf af f0 f1 f2 f3 hpre y hy).trans (ga6_at d L zf af f0 f1 f2 hpre y hy)

theorem c3_read7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 7) :
    View.read (Elt F) (s3V).view (c3 d L zf af f0 f1 f2 f3 hpre) y = ga7 d L zf af f0 f1 f2 hpre (ValueIdx.ix1 (⟨(y 1).val, ValueIdx.idx2_lt1 y⟩ : Fin 128)) := by
  unfold c3
  rw [rowWrite3_read, if_pos hy]

theorem ga7_at (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (hpre : Cert.Spec.InRangeF (F := F) zf) (y : S8x128.Idx) (hy : (y 0).val = 7) :
    ga7 d L zf af f0 f1 f2 hpre (ValueIdx.ix1 (⟨(y 1).val, ValueIdx.idx2_lt1 y⟩ : Fin 128)) = af (ValueIdx.ix1 (Cert.Spec.aPos zf (rowF L y))) := by
  unfold ga7 asrc
  rw [gatherA_apply d af _ rfl (hinA7 d L zf f0 f1 hpre f2)]
  refine congrArg af (congrArg ValueIdx.ix1 (Fin.ext ?_))
  have e := aread7 d L zf f0 f1 hpre f2 (ValueIdx.ix1 (⟨(y 1).val, ValueIdx.idx2_lt1 y⟩ : Fin 128))
  exact (congrArg BitVec.toNat e).trans ((aG_toNat L zf hpre _).trans (aPos_row_eq L zf _ y (by rw [rowIx_zero, hy]) (by rw [rowIx_one])))

theorem c3_row7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 7) :
    View.read (Elt F) (s3V).view (c3 d L zf af f0 f1 f2 f3 hpre) y = af (ValueIdx.ix1 (Cert.Spec.aPos zf (rowF L y))) :=
  (c3_read7 d L zf af f0 f1 f2 f3 hpre y hy).trans (ga7_at d L zf af f0 f1 f2 hpre y hy)

/-! ## Scaling -/

/-- The scaling constant as a sixteen-lane vector, as the program builds it. -/
def scaleVec : FVec F S16 .f32 := broadcast S16 (Scalar.ofBits .f32 0x3F7FBE77#32)

/-- Sixteen lanes scaled. -/
def sVec (u : Vec F S1x16 .f32) : FVec F S1x16 .f32 :=
  shapeCast S1x16 (mulf (shapeCast S16 u shapeCasts_S1x16_S16) (scaleVec (F := F))) shapeCasts_S16_S1x16

theorem sVec_apply (u : Vec F S1x16 .f32) (j : S1x16.Idx) : sVec u j = FloatOps.mulf (u j) (Cert.Spec.scale (F := F)) := by
  unfold sVec scaleVec shapeCast mulf broadcast Cert.Spec.scale
  dsimp only
  rw [Shape.reshapeEquiv_reshapeEquiv, Shape.reshapeEquiv_self]

/-- A piece that scales what it loads from contents `J` agrees, on its rectangle, with `J` scaled entry by entry. -/
theorem sP_agree (J : (s3V).view.ty.Contents (Elt F)) (r c : ℕ) (inb : ∀ a, (![r, c] : Fin 2 → ℕ) a + S1x16.size a ≤ S8x128.size a)
    (x : (Rect.unit (s := S8x128) ![r, c] S1x16.size inb).shape.Idx) :
    sVec (View.readAt (Elt F) (s3V).view (Rect.unit (s := S8x128) ![r, c] S1x16.size inb).toLoadRect J) x
      = (fun y => FloatOps.mulf (View.read (Elt F) (s3V).view J y) (Cert.Spec.scale (F := F))) ((Rect.unit (s := S8x128) ![r, c] S1x16.size inb).emb x) := by
  rw [sVec_apply, View.readAt_apply]; rfl

/-- Pieces over sixteen-lane rectangles of rows `rs` leave every entry of another row as it was. -/
theorem not_mem_of_row {Val : EltTy → Type} {e : EltTy} (Ls : List (View.Piece Val S8x128 e)) (rs : List ℕ)
    (h : ∀ p ∈ Ls, ∃ r ∈ rs, ∃ c inb, p.1 = Rect.unit (s := S8x128) ![r, c] S1x16.size inb)
    (y : S8x128.Idx) (hy : (y 0).val ∉ rs) : ∀ p ∈ Ls, y ∉ p.1.set := by
  intro p hp hm
  obtain ⟨r, hr, c, inb, hrect⟩ := h p hp
  rw [hrect, Rect.mem_set_unit] at hm
  have h0 := hm 0
  simp at h0
  have : (y 0).val = r := by omega
  exact hy (this ▸ hr)

/-- Scaling stores over rows `rs` of contents `J`, each piece scaling what it loads from `J`: the rows `rs` read `J` scaled,
    the other rows read `J`. -/
theorem read_scaled (J : (s3V).view.ty.Contents (Elt F)) (Ls : List (View.Piece (Elt F) S8x128 .f32)) (rs : List ℕ)
    (hag : ∀ p ∈ Ls, ∀ x, p.2 x = (fun y => FloatOps.mulf (View.read (Elt F) (s3V).view J y) (Cert.Spec.scale (F := F))) (p.1.emb x))
    (hcov : ∀ r ∈ rs, ∀ v : Fin 8, ∃ p ∈ Ls, ∃ inb, p.1 = Rect.unit (s := S8x128) ![r, 16 * v.val] S1x16.size inb)
    (hrows : ∀ p ∈ Ls, ∃ r ∈ rs, ∃ c inb, p.1 = Rect.unit (s := S8x128) ![r, c] S1x16.size inb)
    (y : S8x128.Idx) :
    View.read (Elt F) (s3V).view ((s3V).view.writes (Elt F) J Ls) y
      = if (y 0).val ∈ rs then FloatOps.mulf (View.read (Elt F) (s3V).view J y) (Cert.Spec.scale (F := F)) else View.read (Elt F) (s3V).view J y := by
  split
  · next hy =>
    exact View.read_writes_apply_of_pieces (s3V).view J (fun y => FloatOps.mulf (View.read (Elt F) (s3V).view J y) (Cert.Spec.scale (F := F))) Ls hag y (cover_row Ls (y 0).val (hcov _ hy) y rfl)
  · next hy =>
    exact View.read_writes_apply_of_forall_not_mem (s3V).view J y Ls (not_mem_of_row Ls rs hrows y hy)

/-- A delivered row put back: row `r` reads the delivery, the other rows what was held. -/
theorem read_joined (g fs : (s3V).view.ty.Contents (Elt F)) (r : ℕ) (inb : ∀ a, (![r, 0] : Fin 2 → ℕ) a + S1x128.size a ≤ S8x128.size a)
    (y : S8x128.Idx) :
    View.read (Elt F) (s3V).view (View.write (Elt F) (((s3V).slice (Rect.unit (s := S8x128) ![r, 0] S1x128.size inb) (fun _ => rfl)).squeeze S128 squeezes_S1x128_S128).view g
        (View.read (Elt F) (((s3V).slice (Rect.unit (s := S8x128) ![r, 0] S1x128.size inb) (fun _ => rfl)).squeeze S128 squeezes_S1x128_S128).view fs) Finset.univ) y
      = if (y 0).val = r then View.read (Elt F) (s3V).view fs y else View.read (Elt F) (s3V).view g y := by
  rw [rowWrite3_read]
  split
  · next hy =>
    rw [View.read_apply, View.read_apply]
    have : (((s3V).slice (Rect.unit (s := S8x128) ![r, 0] S1x128.size inb) (fun _ => rfl)).squeeze S128 squeezes_S1x128_S128).view.emb
        (ValueIdx.ix1 (⟨(y 1).val, ValueIdx.idx2_lt1 y⟩ : Fin 128)) = (s3V).view.emb y := by
      show (s3V).view.emb (rowIx r inb (ValueIdx.ix1 (⟨(y 1).val, ValueIdx.idx2_lt1 y⟩ : Fin 128))) = _
      congr 1
      funext a
      fin_cases a
      · exact Fin.ext ((rowIx_zero r inb _).trans hy.symm)
      · exact Fin.ext (rowIx_one r inb _)
    rw [this]
  · rfl

end Cert.KB

end
-- ==== Proof.BodyVB.lean ====
/-
  The fourth scratch buffer through phase three, level by level, and what it reads at the end: every entry the selected
  entry of flat `a` for its result row, scaled — the specified result.
-/
import proofs.«207294_g27419071217675_cont_9to1_1737_29_alg».proof.Proof.BodySB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## One level of the scaling -/

/-- Row `r` joins the scaled rows: from "rows below `r` scaled, the others as delivered" to the same for `r + 1`. -/
theorem level_step (r y0 : ℕ) (sc : F .f32 → F .f32) (cv fsv kpv : F .f32) (hfs : y0 = r → fsv = cv)
    (hkp : kpv = if y0 < r then sc cv else cv) :
    (if y0 ∈ [r] then sc (if y0 = r then fsv else kpv) else (if y0 = r then fsv else kpv)) = if y0 < r + 1 then sc cv else cv := by
  by_cases h : y0 = r
  · have h1 : y0 < r + 1 := by omega
    simp only [List.mem_singleton, h, if_true, h1, if_true, hfs h]
    simp
  · have hm : ¬ (y0 ∈ [r]) := by simpa using h
    rw [if_neg hm, if_neg h, hkp]
    by_cases h2 : y0 < r
    · have : y0 < r + 1 := by omega
      rw [if_pos h2, if_pos this]
    · have : ¬ y0 < r + 1 := by omega
      rw [if_neg h2, if_neg this]

/-! ## The levels -/

/-- The fourth scratch buffer when gather 2 out of flat `a` is issued: rows 0 … 2 written with their deliveries. -/
def c3u2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ)

theorem c3u2_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 2) :
    View.read (Elt F) (s3V).view (c3u2 d L zf af f0 f1 f2 f3 hpre) y = View.read (Elt F) (s3V).view (c3 d L zf af f0 f1 f2 f3 hpre) y := by
  unfold c3u2
  rw [rowWrite3_read, if_pos hy]
  exact (c3_read2 d L zf af f0 f1 f2 f3 hpre y hy).symm

/-- The fourth scratch buffer when gather 3 out of flat `a` is issued: rows 0 … 3 written with their deliveries. -/
def c3u3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ)

theorem c3u3_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 3) :
    View.read (Elt F) (s3V).view (c3u3 d L zf af f0 f1 f2 f3 hpre) y = View.read (Elt F) (s3V).view (c3 d L zf af f0 f1 f2 f3 hpre) y := by
  unfold c3u3
  rw [rowWrite3_read, if_pos hy]
  exact (c3_read3 d L zf af f0 f1 f2 f3 hpre y hy).symm

/-- The fourth scratch buffer when gather 4 out of flat `a` is issued: rows 0 … 4 written with their deliveries. -/
def c3u4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ)

theorem c3u4_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 4) :
    View.read (Elt F) (s3V).view (c3u4 d L zf af f0 f1 f2 f3 hpre) y = View.read (Elt F) (s3V).view (c3 d L zf af f0 f1 f2 f3 hpre) y := by
  unfold c3u4
  rw [rowWrite3_read, if_pos hy]
  exact (c3_read4 d L zf af f0 f1 f2 f3 hpre y hy).symm

/-- The fourth scratch buffer when gather 5 out of flat `a` is issued: rows 0 … 5 written with their deliveries. -/
def c3u5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ)

theorem c3u5_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 5) :
    View.read (Elt F) (s3V).view (c3u5 d L zf af f0 f1 f2 f3 hpre) y = View.read (Elt F) (s3V).view (c3 d L zf af f0 f1 f2 f3 hpre) y := by
  unfold c3u5
  rw [rowWrite3_read, if_pos hy]
  exact (c3_read5 d L zf af f0 f1 f2 f3 hpre y hy).symm

/-- The fourth scratch buffer when gather 6 out of flat `a` is issued: rows 0 … 6 written with their deliveries. -/
def c3u6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![6, 0] S1x128.size inb_S8x128_S1x128_6_0) (fun _ => rfl)).squeeze S128 squeezes_S1x128_S128).view (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ) (ga6 d L zf af f0 f1 f2 hpre) Finset.univ)

theorem c3u6_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 6) :
    View.read (Elt F) (s3V).view (c3u6 d L zf af f0 f1 f2 f3 hpre) y = View.read (Elt F) (s3V).view (c3 d L zf af f0 f1 f2 f3 hpre) y := by
  unfold c3u6
  rw [rowWrite3_read, if_pos hy]
  exact (c3_read6 d L zf af f0 f1 f2 f3 hpre y hy).symm

/-- The fourth scratch buffer when gather 7 out of flat `a` is issued: rows 0 … 7 written with their deliveries. -/
def c3u7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  (View.write (Elt F) (((s3V).slice (Rect.unit (s := S8x128) ![7, 0] S1x128.size inb_S8x128_S1x128_7_0) (fun _ => rfl)).squeeze S128 squeezes_S1x128_S128).view (View.write (Elt F) (((s3V).slice (Rect.unit (s := S8x128) ![6, 0] S1x128.size inb_S8x128_S1x128_6_0) (fun _ => rfl)).squeeze S128 squeezes_S1x128_S128).view (View.write (Elt F) (((s3V).slice (Rect.unit (s := S8x128) ![5, 0] S1x128.size inb_S8x128_S1x128_5_0) (fun _ => rfl)).squeeze S128 squeezes_S1x128_S128).view (View.write (Elt F) (((s3V).slice (Rect.unit (s := S8x128) ![4, 0] S1x128.size inb_S8x128_S1x128_4_0) (fun _ => rfl)).squeeze S128 squeezes_S1x128_S128).view (View.write (Elt F) (((s3V).slice (Rect.unit (s := S8x128) ![3, 0] S1x128.size inb_S8x128_S1x128_3_0) (fun _ => rfl)).squeeze S128 squeezes_S1x128_S128).view (View.write (Elt F) (((s3V).slice (Rect.unit (s := S8x128) ![2, 0] S1x128.size inb_S8x128_S1x128_2_0) (fun _ => rfl)).squeeze S128 squeezes_S1x128_S128).view (View.write (Elt F) (((s3V).slice (Rect.unit (s := S8x128) ![1, 0] S1x128.size inb_S8x128_S1x128_1_0) (fun _ => rfl)).squeeze S128 squeezes_S1x128_S128).view (View.write (Elt F) (((s3V).slice (Rect.unit (s := S8x128) ![0, 0] S1x128.size inb_S8x128_S1x128_0_0) (fun _ => rfl)).squeeze S128 squeezes_S1x128_S128).view f3 (ga0 d L zf af f0 f1 f2 hpre) Finset.univ) (ga1 d L zf af f0 f1 f2 hpre) Finset.univ) (ga2 d L zf af f0 f1 f2 hpre) Finset.univ) (ga3 d L zf af f0 f1 f2 hpre) Finset.univ) (ga4 d L zf af f0 f1 f2 hpre) Finset.univ) (ga5 d L zf af f0 f1 f2 hpre) Finset.univ) (ga6 d L zf af f0 f1 f2 hpre) Finset.univ) (ga7 d L zf af f0 f1 f2 hpre) Finset.univ)

theorem c3u7_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) (hy : (y 0).val = 7) :
    View.read (Elt F) (s3V).view (c3u7 d L zf af f0 f1 f2 f3 hpre) y = View.read (Elt F) (s3V).view (c3 d L zf af f0 f1 f2 f3 hpre) y := by
  unfold c3u7
  rw [rowWrite3_read, if_pos hy]
  exact (c3_read7 d L zf af f0 f1 f2 f3 hpre y hy).symm

/-- The scaling stores of rows 0 and 1, the last first. -/
def sL01 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![1, 112] S1x16.size inb_S8x128_S1x16_1_112, sVec (View.readAt (Elt F) (s3V).view (Rect.unit (s := S8x128) ![1, 112] S1x16.size inb_S8x128_S1x16_1_112).toLoadRect (c3 d L zf af f0 f1 f2 f3 hpre))⟩ ::
  ⟨Rect.unit (s := S8x128) ![1, 96] S1x16.size inb_S8x128_S1x16_1_96, sVec (View.readAt (Elt F) (s3V).view (Rect.unit (s := S8x128) ![1, 96] S1x16.size inb_S8x128_S1x16_1_96).toLoadRect (c3 d L zf af f0 f1 f2 f3 hpre))⟩ ::
  ⟨Rect.unit (s := S8x128) ![1, 80] S1x16.size inb_S8x128_S1x16_1_80, sVec (View.readAt (Elt F) (s3V).view (Rect.unit (s := S8x128) ![1, 80] S1x16.size inb_S8x128_S1x16_1_80).toLoadRect (c3 d L zf af f0 f1 f2 f3 hpre))⟩ ::
  ⟨Rect.unit (s := S8x128) ![1, 64] S1x16.size inb_S8x128_S1x16_1_64, sVec (View.readAt (Elt F) (s3V).view (Rect.unit (s := S8x128) ![1, 64] S1x16.size inb_S8x128_S1x16_1_64).toLoadRect (c3 d L zf af f0 f1 f2 f3 hpre))⟩ ::
  ⟨Rect.unit (s := S8x128) ![1, 48] S1x16.size inb_S8x128_S1x16_1_48, sVec (View.readAt (Elt F) (s3V).view (Rect.unit (s := S8x128) ![1, 48] S1x16.size inb_S8x128_S1x16_1_48).toLoadRect (c3 d L zf af f0 f1 f2 f3 hpre))⟩ ::
  ⟨Rect.unit (s := S8x128) ![1, 32] S1x16.size inb_S8x128_S1x16_1_32, sVec (View.readAt (Elt F) (s3V).view (Rect.unit (s := S8x128) ![1, 32] S1x16.size inb_S8x128_S1x16_1_32).toLoadRect (c3 d L zf af f0 f1 f2 f3 hpre))⟩ ::
  ⟨Rect.unit (s := S8x128) ![1, 16] S1x16.size inb_S8x128_S1x16_1_16, sVec (View.readAt (Elt F) (s3V).view (Rect.unit (s := S8x128) ![1, 16] S1x16.size inb_S8x128_S1x16_1_16).toLoadRect (c3 d L zf af f0 f1 f2 f3 hpre))⟩ ::
  ⟨Rect.unit (s := S8x128) ![1, 0] S1x16.size inb_S8x128_S1x16_1_0, sVec (View.readAt (Elt F) (s3V).view (Rect.unit (s := S8x128) ![1, 0] S1x16.size inb_S8x128_S1x16_1_0).toLoadRect (c3 d L zf af f0 f1 f2 f3 hpre))⟩ ::
  ⟨Rect.unit (s := S8x128) ![0, 112] S1x16.size inb_S8x128_S1x16_0_112, sVec (View.readAt (Elt F) (s3V).view (Rect.unit (s := S8x128) ![0, 112] S1x16.size inb_S8x128_S1x16_0_112).toLoadRect (c3 d L zf af f0 f1 f2 f3 hpre))⟩ ::
  ⟨Rect.unit (s := S8x128) ![0, 96] S1x16.size inb_S8x128_S1x16_0_96, sVec (View.readAt (Elt F) (s3V).view (Rect.unit (s := S8x128) ![0, 96] S1x16.size inb_S8x128_S1x16_0_96).toLoadRect (c3 d L zf af f0 f1 f2 f3 hpre))⟩ ::
  ⟨Rect.unit (s := S8x128) ![0, 80] S1x16.size inb_S8x128_S1x16_0_80, sVec (View.readAt (Elt F) (s3V).view (Rect.unit (s := S8x128) ![0, 80] S1x16.size inb_S8x128_S1x16_0_80).toLoadRect (c3 d L zf af f0 f1 f2 f3 hpre))⟩ ::
  ⟨Rect.unit (s := S8x128) ![0, 64] S1x16.size inb_S8x128_S1x16_0_64, sVec (View.readAt (Elt F) (s3V).view (Rect.unit (s := S8x128) ![0, 64] S1x16.size inb_S8x128_S1x16_0_64).toLoadRect (c3 d L zf af f0 f1 f2 f3 hpre))⟩ ::
  ⟨Rect.unit (s := S8x128) ![0, 48] S1x16.size inb_S8x128_S1x16_0_48, sVec (View.readAt (Elt F) (s3V).view (Rect.unit (s := S8x128) ![0, 48] S1x16.size inb_S8x128_S1x16_0_48).toLoadRect (c3 d L zf af f0 f1 f2 f3 hpre))⟩ ::
  ⟨Rect.unit (s := S8x128) ![0, 32] S1x16.size inb_S8x128_S1x16_0_32, sVec (View.readAt (Elt F) (s3V).view (Rect.unit (s := S8x128) ![0, 32] S1x16.size inb_S8x128_S1x16_0_32).toLoadRect (c3 d L zf af f0 f1 f2 f3 hpre))⟩ ::
  ⟨Rect.unit (s := S8x128) ![0, 16] S1x16.size inb_S8x128_S1x16_0_16, sVec (View.readAt (Elt F) (s3V).view (Rect.unit (s := S8x128) ![0, 16] S1x16.size inb_S8x128_S1x16_0_16).toLoadRect (c3 d L zf af f0 f1 f2 f3 hpre))⟩ ::
  ⟨Rect.unit (s := S8x128) ![0, 0] S1x16.size inb_S8x128_S1x16_0_0, sVec (View.readAt (Elt F) (s3V).view (Rect.unit (s := S8x128) ![0, 0] S1x16.size inb_S8x128_S1x16_0_0).toLoadRect (c3 d L zf af f0 f1 f2 f3 hpre))⟩ :: []

def K1 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (c3 d L zf af f0 f1 f2 f3 hpre) (sL01 d L zf af f0 f1 f2 f3 hpre)

theorem K1_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K1 d L zf af f0 f1 f2 f3 hpre) y
      = if (y 0).val < 1 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL01 d L zf af f0 f1 f2 f3 hpre, ∀ x, p.2 x = (fun y => FloatOps.mulf (View.read (Elt F) (s3V).view (c3 d L zf af f0 f1 f2 f3 hpre) y) (Cert.Spec.scale (F := F))) (p.1.emb x) := by
    unfold sL01
    exact (List.forall_mem_cons.2 ⟨sP_agree (c3 d L zf af f0 f1 f2 f3 hpre) 1 112 inb_S8x128_S1x16_1_112, (List.forall_mem_cons.2 ⟨sP_agree (c3 d L zf af f0 f1 f2 f3 hpre) 1 96 inb_S8x128_S1x16_1_96, (List.forall_mem_cons.2 ⟨sP_agree (c3 d L zf af f0 f1 f2 f3 hpre) 1 80 inb_S8x128_S1x16_1_80, (List.forall_mem_cons.2 ⟨sP_agree (c3 d L zf af f0 f1 f2 f3 hpre) 1 64 inb_S8x128_S1x16_1_64, (List.forall_mem_cons.2 ⟨sP_agree (c3 d L zf af f0 f1 f2 f3 hpre) 1 48 inb_S8x128_S1x16_1_48, (List.forall_mem_cons.2 ⟨sP_agree (c3 d L zf af f0 f1 f2 f3 hpre) 1 32 inb_S8x128_S1x16_1_32, (List.forall_mem_cons.2 ⟨sP_agree (c3 d L zf af f0 f1 f2 f3 hpre) 1 16 inb_S8x128_S1x16_1_16, (List.forall_mem_cons.2 ⟨sP_agree (c3 d L zf af f0 f1 f2 f3 hpre) 1 0 inb_S8x128_S1x16_1_0, (List.forall_mem_cons.2 ⟨sP_agree (c3 d L zf af f0 f1 f2 f3 hpre) 0 112 inb_S8x128_S1x16_0_112, (List.forall_mem_cons.2 ⟨sP_agree (c3 d L zf af f0 f1 f2 f3 hpre) 0 96 inb_S8x128_S1x16_0_96, (List.forall_mem_cons.2 ⟨sP_agree (c3 d L zf af f0 f1 f2 f3 hpre) 0 80 inb_S8x128_S1x16_0_80, (List.forall_mem_cons.2 ⟨sP_agree (c3 d L zf af f0 f1 f2 f3 hpre) 0 64 inb_S8x128_S1x16_0_64, (List.forall_mem_cons.2 ⟨sP_agree (c3 d L zf af f0 f1 f2 f3 hpre) 0 48 inb_S8x128_S1x16_0_48, (List.forall_mem_cons.2 ⟨sP_agree (c3 d L zf af f0 f1 f2 f3 hpre) 0 32 inb_S8x128_S1x16_0_32, (List.forall_mem_cons.2 ⟨sP_agree (c3 d L zf af f0 f1 f2 f3 hpre) 0 16 inb_S8x128_S1x16_0_16, (List.forall_mem_cons.2 ⟨sP_agree (c3 d L zf af f0 f1 f2 f3 hpre) 0 0 inb_S8x128_S1x16_0_0, (fun _ hp => nomatch hp)⟩)⟩)⟩)⟩)⟩)⟩)⟩)⟩)⟩)⟩)⟩)⟩)⟩)⟩)⟩)⟩)
  have hcov : ∀ r ∈ [0, 1], ∀ v : Fin 8, ∃ p ∈ sL01 d L zf af f0 f1 f2 f3 hpre, ∃ inb, p.1 = Rect.unit (s := S8x128) ![r, 16 * v.val] S1x16.size inb := by
    unfold sL01
    intro r hr
    simp only [List.mem_cons, List.not_mem_nil, or_false] at hr
    rcases hr with rfl | rfl
    · intro v; fin_cases v
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), inb_S8x128_S1x16_0_0, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), inb_S8x128_S1x16_0_16, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), inb_S8x128_S1x16_0_32, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), inb_S8x128_S1x16_0_48, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), inb_S8x128_S1x16_0_64, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), inb_S8x128_S1x16_0_80, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), inb_S8x128_S1x16_0_96, rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), inb_S8x128_S1x16_0_112, rfl⟩
    · intro v; fin_cases v
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_1_0, rfl⟩
      · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_1_16, rfl⟩
      · exact ⟨_, List.mem_cons_of_mem _ (List.mem_cons_of_mem _ (List.mem_cons_of_mem _ (List.mem_cons_of_mem _ (List.mem_cons_of_mem _ (List.mem_cons_self))))), inb_S8x128_S1x16_1_32, rfl⟩
      · exact ⟨_, List.mem_cons_of_mem _ (List.mem_cons_of_mem _ (List.mem_cons_of_mem _ (List.mem_cons_of_mem _ (List.mem_cons_self)))), inb_S8x128_S1x16_1_48, rfl⟩
      · exact ⟨_, List.mem_cons_of_mem _ (List.mem_cons_of_mem _ (List.mem_cons_of_mem _ (List.mem_cons_self))), inb_S8x128_S1x16_1_64, rfl⟩
      · exact ⟨_, List.mem_cons_of_mem _ (List.mem_cons_of_mem _ (List.mem_cons_self)), inb_S8x128_S1x16_1_80, rfl⟩
      · exact ⟨_, List.mem_cons_of_mem _ (List.mem_cons_self), inb_S8x128_S1x16_1_96, rfl⟩
      · exact ⟨_, List.mem_cons_self, inb_S8x128_S1x16_1_112, rfl⟩
  have hrows : ∀ p ∈ sL01 d L zf af f0 f1 f2 f3 hpre, ∃ r ∈ [0, 1], ∃ c inb, p.1 = Rect.unit (s := S8x128) ![r, c] S1x16.size inb := by
    unfold sL01
    exact (List.forall_mem_cons.2 ⟨⟨1, by decide, 112, inb_S8x128_S1x16_1_112, rfl⟩, (List.forall_mem_cons.2 ⟨⟨1, by decide, 96, inb_S8x128_S1x16_1_96, rfl⟩, (List.forall_mem_cons.2 ⟨⟨1, by decide, 80, inb_S8x128_S1x16_1_80, rfl⟩, (List.forall_mem_cons.2 ⟨⟨1, by decide, 64, inb_S8x128_S1x16_1_64, rfl⟩, (List.forall_mem_cons.2 ⟨⟨1, by decide, 48, inb_S8x128_S1x16_1_48, rfl⟩, (List.forall_mem_cons.2 ⟨⟨1, by decide, 32, inb_S8x128_S1x16_1_32, rfl⟩, (List.forall_mem_cons.2 ⟨⟨1, by decide, 16, inb_S8x128_S1x16_1_16, rfl⟩, (List.forall_mem_cons.2 ⟨⟨1, by decide, 0, inb_S8x128_S1x16_1_0, rfl⟩, (List.forall_mem_cons.2 ⟨⟨0, by decide, 112, inb_S8x128_S1x16_0_112, rfl⟩, (List.forall_mem_cons.2 ⟨⟨0, by decide, 96, inb_S8x128_S1x16_0_96, rfl⟩, (List.forall_mem_cons.2 ⟨⟨0, by decide, 80, inb_S8x128_S1x16_0_80, rfl⟩, (List.forall_mem_cons.2 ⟨⟨0, by decide, 64, inb_S8x128_S1x16_0_64, rfl⟩, (List.forall_mem_cons.2 ⟨⟨0, by decide, 48, inb_S8x128_S1x16_0_48, rfl⟩, (List.forall_mem_cons.2 ⟨⟨0, by decide, 32, inb_S8x128_S1x16_0_32, rfl⟩, (List.forall_mem_cons.2 ⟨⟨0, by decide, 16, inb_S8x128_S1x16_0_16, rfl⟩, (List.forall_mem_cons.2 ⟨⟨0, by decide, 0, inb_S8x128_S1x16_0_0, rfl⟩, (fun _ hp => nomatch hp)⟩)⟩)⟩)⟩)⟩)⟩)⟩)⟩)⟩)⟩)⟩)⟩)⟩)⟩)⟩)⟩)
  unfold K1
  rw [read_scaled (c3 d L zf af f0 f1 f2 f3 hpre) (sL01 d L zf af f0 f1 f2 f3 hpre) [0, 1] hag hcov hrows y]
  by_cases h : (y 0).val < 1 + 1
  · have hm : (y 0).val ∈ [0, 1] := by simp; omega
    rw [if_pos h, if_pos hm]
  · have hm : ¬ (y 0).val ∈ [0, 1] := by simp; omega
    rw [if_neg h, if_neg hm]

/-- Row 2 put back once its gather is waited for. -/
def J2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![2, 0] S1x128.size inb_S8x128_S1x128_2_0) (fun _ => rfl)).squeeze S128 squeezes_S1x128_S128).view (K1 d L zf af f0 f1 f2 f3 hpre) (View.read (Elt F) (((s3V).slice (Rect.unit (s := S8x128) ![2, 0] S1x128.size inb_S8x128_S1x128_2_0) (fun _ => rfl)).squeeze S128 squeezes_S1x128_S128).view (c3u2 d L zf af f0 f1 f2 f3 hpre)) Finset.univ

/-- The scaling stores of row 2, the last first. -/
def sL2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![2, 112] S1x16.size inb_S8x128_S1x16_2_112, sVec (View.readAt (Elt F) (s3V).view (Rect.unit (s := S8x128) ![2, 112] S1x16.size inb_S8x128_S1x16_2_112).toLoadRect (J2 d L zf af f0 f1 f2 f3 hpre))⟩ ::
  ⟨Rect.unit (s := S8x128) ![2, 96] S1x16.size inb_S8x128_S1x16_2_96, sVec (View.readAt (Elt F) (s3V).view (Rect.unit (s := S8x128) ![2, 96] S1x16.size inb_S8x128_S1x16_2_96).toLoadRect (J2 d L zf af f0 f1 f2 f3 hpre))⟩ ::
  ⟨Rect.unit (s := S8x128) ![2, 80] S1x16.size inb_S8x128_S1x16_2_80, sVec (View.readAt (Elt F) (s3V).view (Rect.unit (s := S8x128) ![2, 80] S1x16.size inb_S8x128_S1x16_2_80).toLoadRect (J2 d L zf af f0 f1 f2 f3 hpre))⟩ ::
  ⟨Rect.unit (s := S8x128) ![2, 64] S1x16.size inb_S8x128_S1x16_2_64, sVec (View.readAt (Elt F) (s3V).view (Rect.unit (s := S8x128) ![2, 64] S1x16.size inb_S8x128_S1x16_2_64).toLoadRect (J2 d L zf af f0 f1 f2 f3 hpre))⟩ ::
  ⟨Rect.unit (s := S8x128) ![2, 48] S1x16.size inb_S8x128_S1x16_2_48, sVec (View.readAt (Elt F) (s3V).view (Rect.unit (s := S8x128) ![2, 48] S1x16.size inb_S8x128_S1x16_2_48).toLoadRect (J2 d L zf af f0 f1 f2 f3 hpre))⟩ ::
  ⟨Rect.unit (s := S8x128) ![2, 32] S1x16.size inb_S8x128_S1x16_2_32, sVec (View.readAt (Elt F) (s3V).view (Rect.unit (s := S8x128) ![2, 32] S1x16.size inb_S8x128_S1x16_2_32).toLoadRect (J2 d L zf af f0 f1 f2 f3 hpre))⟩ ::
  ⟨Rect.unit (s := S8x128) ![2, 16] S1x16.size inb_S8x128_S1x16_2_16, sVec (View.readAt (Elt F) (s3V).view (Rect.unit (s := S8x128) ![2, 16] S1x16.size inb_S8x128_S1x16_2_16).toLoadRect (J2 d L zf af f0 f1 f2 f3 hpre))⟩ ::
  ⟨Rect.unit (s := S8x128) ![2, 0] S1x16.size inb_S8x128_S1x16_2_0, sVec (View.readAt (Elt F) (s3V).view (Rect.unit (s := S8x128) ![2, 0] S1x16.size inb_S8x128_S1x16_2_0).toLoadRect (J2 d L zf af f0 f1 f2 f3 hpre))⟩ :: []

def K2 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J2 d L zf af f0 f1 f2 f3 hpre) (sL2 d L zf af f0 f1 f2 f3 hpre)

theorem K2_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K2 d L zf af f0 f1 f2 f3 hpre) y
      = if (y 0).val < 2 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL2 d L zf af f0 f1 f2 f3 hpre, ∀ x, p.2 x = (fun y => FloatOps.mulf (View.read (Elt F) (s3V).view (J2 d L zf af f0 f1 f2 f3 hpre) y) (Cert.Spec.scale (F := F))) (p.1.emb x) := by
    unfold sL2
    exact (List.forall_mem_cons.2 ⟨sP_agree (J2 d L zf af f0 f1 f2 f3 hpre) 2 112 inb_S8x128_S1x16_2_112, (List.forall_mem_cons.2 ⟨sP_agree (J2 d L zf af f0 f1 f2 f3 hpre) 2 96 inb_S8x128_S1x16_2_96, (List.forall_mem_cons.2 ⟨sP_agree (J2 d L zf af f0 f1 f2 f3 hpre) 2 80 inb_S8x128_S1x16_2_80, (List.forall_mem_cons.2 ⟨sP_agree (J2 d L zf af f0 f1 f2 f3 hpre) 2 64 inb_S8x128_S1x16_2_64, (List.forall_mem_cons.2 ⟨sP_agree (J2 d L zf af f0 f1 f2 f3 hpre) 2 48 inb_S8x128_S1x16_2_48, (List.forall_mem_cons.2 ⟨sP_agree (J2 d L zf af f0 f1 f2 f3 hpre) 2 32 inb_S8x128_S1x16_2_32, (List.forall_mem_cons.2 ⟨sP_agree (J2 d L zf af f0 f1 f2 f3 hpre) 2 16 inb_S8x128_S1x16_2_16, (List.forall_mem_cons.2 ⟨sP_agree (J2 d L zf af f0 f1 f2 f3 hpre) 2 0 inb_S8x128_S1x16_2_0, (fun _ hp => nomatch hp)⟩)⟩)⟩)⟩)⟩)⟩)⟩)⟩)
  have hcov : ∀ r ∈ [2], ∀ v : Fin 8, ∃ p ∈ sL2 d L zf af f0 f1 f2 f3 hpre, ∃ inb, p.1 = Rect.unit (s := S8x128) ![r, 16 * v.val] S1x16.size inb := by
    unfold sL2
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_2_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_2_16, rfl⟩
    · exact ⟨_, List.mem_cons_of_mem _ (List.mem_cons_of_mem _ (List.mem_cons_of_mem _ (List.mem_cons_of_mem _ (List.mem_cons_of_mem _ (List.mem_cons_self))))), inb_S8x128_S1x16_2_32, rfl⟩
    · exact ⟨_, List.mem_cons_of_mem _ (List.mem_cons_of_mem _ (List.mem_cons_of_mem _ (List.mem_cons_of_mem _ (List.mem_cons_self)))), inb_S8x128_S1x16_2_48, rfl⟩
    · exact ⟨_, List.mem_cons_of_mem _ (List.mem_cons_of_mem _ (List.mem_cons_of_mem _ (List.mem_cons_self))), inb_S8x128_S1x16_2_64, rfl⟩
    · exact ⟨_, List.mem_cons_of_mem _ (List.mem_cons_of_mem _ (List.mem_cons_self)), inb_S8x128_S1x16_2_80, rfl⟩
    · exact ⟨_, List.mem_cons_of_mem _ (List.mem_cons_self), inb_S8x128_S1x16_2_96, rfl⟩
    · exact ⟨_, List.mem_cons_self, inb_S8x128_S1x16_2_112, rfl⟩
  have hrows : ∀ p ∈ sL2 d L zf af f0 f1 f2 f3 hpre, ∃ r ∈ [2], ∃ c inb, p.1 = Rect.unit (s := S8x128) ![r, c] S1x16.size inb := by
    unfold sL2
    exact (List.forall_mem_cons.2 ⟨⟨2, by decide, 112, inb_S8x128_S1x16_2_112, rfl⟩, (List.forall_mem_cons.2 ⟨⟨2, by decide, 96, inb_S8x128_S1x16_2_96, rfl⟩, (List.forall_mem_cons.2 ⟨⟨2, by decide, 80, inb_S8x128_S1x16_2_80, rfl⟩, (List.forall_mem_cons.2 ⟨⟨2, by decide, 64, inb_S8x128_S1x16_2_64, rfl⟩, (List.forall_mem_cons.2 ⟨⟨2, by decide, 48, inb_S8x128_S1x16_2_48, rfl⟩, (List.forall_mem_cons.2 ⟨⟨2, by decide, 32, inb_S8x128_S1x16_2_32, rfl⟩, (List.forall_mem_cons.2 ⟨⟨2, by decide, 16, inb_S8x128_S1x16_2_16, rfl⟩, (List.forall_mem_cons.2 ⟨⟨2, by decide, 0, inb_S8x128_S1x16_2_0, rfl⟩, (fun _ hp => nomatch hp)⟩)⟩)⟩)⟩)⟩)⟩)⟩)⟩)
  unfold K2
  rw [read_scaled (J2 d L zf af f0 f1 f2 f3 hpre) (sL2 d L zf af f0 f1 f2 f3 hpre) [2] hag hcov hrows y]
  unfold J2
  rw [read_joined]
  exact level_step 2 (y 0).val (fun t => FloatOps.mulf t (Cert.Spec.scale (F := F))) _ _ _
    (fun hy => c3u2_read d L zf af f0 f1 f2 f3 hpre y hy) (K1_read d L zf af f0 f1 f2 f3 hpre y)

/-- Row 3 put back once its gather is waited for. -/
def J3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![3, 0] S1x128.size inb_S8x128_S1x128_3_0) (fun _ => rfl)).squeeze S128 squeezes_S1x128_S128).view (K2 d L zf af f0 f1 f2 f3 hpre) (View.read (Elt F) (((s3V).slice (Rect.unit (s := S8x128) ![3, 0] S1x128.size inb_S8x128_S1x128_3_0) (fun _ => rfl)).squeeze S128 squeezes_S1x128_S128).view (c3u3 d L zf af f0 f1 f2 f3 hpre)) Finset.univ

/-- The scaling stores of row 3, the last first. -/
def sL3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![3, 112] S1x16.size inb_S8x128_S1x16_3_112, sVec (View.readAt (Elt F) (s3V).view (Rect.unit (s := S8x128) ![3, 112] S1x16.size inb_S8x128_S1x16_3_112).toLoadRect (J3 d L zf af f0 f1 f2 f3 hpre))⟩ ::
  ⟨Rect.unit (s := S8x128) ![3, 96] S1x16.size inb_S8x128_S1x16_3_96, sVec (View.readAt (Elt F) (s3V).view (Rect.unit (s := S8x128) ![3, 96] S1x16.size inb_S8x128_S1x16_3_96).toLoadRect (J3 d L zf af f0 f1 f2 f3 hpre))⟩ ::
  ⟨Rect.unit (s := S8x128) ![3, 80] S1x16.size inb_S8x128_S1x16_3_80, sVec (View.readAt (Elt F) (s3V).view (Rect.unit (s := S8x128) ![3, 80] S1x16.size inb_S8x128_S1x16_3_80).toLoadRect (J3 d L zf af f0 f1 f2 f3 hpre))⟩ ::
  ⟨Rect.unit (s := S8x128) ![3, 64] S1x16.size inb_S8x128_S1x16_3_64, sVec (View.readAt (Elt F) (s3V).view (Rect.unit (s := S8x128) ![3, 64] S1x16.size inb_S8x128_S1x16_3_64).toLoadRect (J3 d L zf af f0 f1 f2 f3 hpre))⟩ ::
  ⟨Rect.unit (s := S8x128) ![3, 48] S1x16.size inb_S8x128_S1x16_3_48, sVec (View.readAt (Elt F) (s3V).view (Rect.unit (s := S8x128) ![3, 48] S1x16.size inb_S8x128_S1x16_3_48).toLoadRect (J3 d L zf af f0 f1 f2 f3 hpre))⟩ ::
  ⟨Rect.unit (s := S8x128) ![3, 32] S1x16.size inb_S8x128_S1x16_3_32, sVec (View.readAt (Elt F) (s3V).view (Rect.unit (s := S8x128) ![3, 32] S1x16.size inb_S8x128_S1x16_3_32).toLoadRect (J3 d L zf af f0 f1 f2 f3 hpre))⟩ ::
  ⟨Rect.unit (s := S8x128) ![3, 16] S1x16.size inb_S8x128_S1x16_3_16, sVec (View.readAt (Elt F) (s3V).view (Rect.unit (s := S8x128) ![3, 16] S1x16.size inb_S8x128_S1x16_3_16).toLoadRect (J3 d L zf af f0 f1 f2 f3 hpre))⟩ ::
  ⟨Rect.unit (s := S8x128) ![3, 0] S1x16.size inb_S8x128_S1x16_3_0, sVec (View.readAt (Elt F) (s3V).view (Rect.unit (s := S8x128) ![3, 0] S1x16.size inb_S8x128_S1x16_3_0).toLoadRect (J3 d L zf af f0 f1 f2 f3 hpre))⟩ :: []

def K3 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J3 d L zf af f0 f1 f2 f3 hpre) (sL3 d L zf af f0 f1 f2 f3 hpre)

theorem K3_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K3 d L zf af f0 f1 f2 f3 hpre) y
      = if (y 0).val < 3 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL3 d L zf af f0 f1 f2 f3 hpre, ∀ x, p.2 x = (fun y => FloatOps.mulf (View.read (Elt F) (s3V).view (J3 d L zf af f0 f1 f2 f3 hpre) y) (Cert.Spec.scale (F := F))) (p.1.emb x) := by
    unfold sL3
    exact (List.forall_mem_cons.2 ⟨sP_agree (J3 d L zf af f0 f1 f2 f3 hpre) 3 112 inb_S8x128_S1x16_3_112, (List.forall_mem_cons.2 ⟨sP_agree (J3 d L zf af f0 f1 f2 f3 hpre) 3 96 inb_S8x128_S1x16_3_96, (List.forall_mem_cons.2 ⟨sP_agree (J3 d L zf af f0 f1 f2 f3 hpre) 3 80 inb_S8x128_S1x16_3_80, (List.forall_mem_cons.2 ⟨sP_agree (J3 d L zf af f0 f1 f2 f3 hpre) 3 64 inb_S8x128_S1x16_3_64, (List.forall_mem_cons.2 ⟨sP_agree (J3 d L zf af f0 f1 f2 f3 hpre) 3 48 inb_S8x128_S1x16_3_48, (List.forall_mem_cons.2 ⟨sP_agree (J3 d L zf af f0 f1 f2 f3 hpre) 3 32 inb_S8x128_S1x16_3_32, (List.forall_mem_cons.2 ⟨sP_agree (J3 d L zf af f0 f1 f2 f3 hpre) 3 16 inb_S8x128_S1x16_3_16, (List.forall_mem_cons.2 ⟨sP_agree (J3 d L zf af f0 f1 f2 f3 hpre) 3 0 inb_S8x128_S1x16_3_0, (fun _ hp => nomatch hp)⟩)⟩)⟩)⟩)⟩)⟩)⟩)⟩)
  have hcov : ∀ r ∈ [3], ∀ v : Fin 8, ∃ p ∈ sL3 d L zf af f0 f1 f2 f3 hpre, ∃ inb, p.1 = Rect.unit (s := S8x128) ![r, 16 * v.val] S1x16.size inb := by
    unfold sL3
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_3_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_3_16, rfl⟩
    · exact ⟨_, List.mem_cons_of_mem _ (List.mem_cons_of_mem _ (List.mem_cons_of_mem _ (List.mem_cons_of_mem _ (List.mem_cons_of_mem _ (List.mem_cons_self))))), inb_S8x128_S1x16_3_32, rfl⟩
    · exact ⟨_, List.mem_cons_of_mem _ (List.mem_cons_of_mem _ (List.mem_cons_of_mem _ (List.mem_cons_of_mem _ (List.mem_cons_self)))), inb_S8x128_S1x16_3_48, rfl⟩
    · exact ⟨_, List.mem_cons_of_mem _ (List.mem_cons_of_mem _ (List.mem_cons_of_mem _ (List.mem_cons_self))), inb_S8x128_S1x16_3_64, rfl⟩
    · exact ⟨_, List.mem_cons_of_mem _ (List.mem_cons_of_mem _ (List.mem_cons_self)), inb_S8x128_S1x16_3_80, rfl⟩
    · exact ⟨_, List.mem_cons_of_mem _ (List.mem_cons_self), inb_S8x128_S1x16_3_96, rfl⟩
    · exact ⟨_, List.mem_cons_self, inb_S8x128_S1x16_3_112, rfl⟩
  have hrows : ∀ p ∈ sL3 d L zf af f0 f1 f2 f3 hpre, ∃ r ∈ [3], ∃ c inb, p.1 = Rect.unit (s := S8x128) ![r, c] S1x16.size inb := by
    unfold sL3
    exact (List.forall_mem_cons.2 ⟨⟨3, by decide, 112, inb_S8x128_S1x16_3_112, rfl⟩, (List.forall_mem_cons.2 ⟨⟨3, by decide, 96, inb_S8x128_S1x16_3_96, rfl⟩, (List.forall_mem_cons.2 ⟨⟨3, by decide, 80, inb_S8x128_S1x16_3_80, rfl⟩, (List.forall_mem_cons.2 ⟨⟨3, by decide, 64, inb_S8x128_S1x16_3_64, rfl⟩, (List.forall_mem_cons.2 ⟨⟨3, by decide, 48, inb_S8x128_S1x16_3_48, rfl⟩, (List.forall_mem_cons.2 ⟨⟨3, by decide, 32, inb_S8x128_S1x16_3_32, rfl⟩, (List.forall_mem_cons.2 ⟨⟨3, by decide, 16, inb_S8x128_S1x16_3_16, rfl⟩, (List.forall_mem_cons.2 ⟨⟨3, by decide, 0, inb_S8x128_S1x16_3_0, rfl⟩, (fun _ hp => nomatch hp)⟩)⟩)⟩)⟩)⟩)⟩)⟩)⟩)
  unfold K3
  rw [read_scaled (J3 d L zf af f0 f1 f2 f3 hpre) (sL3 d L zf af f0 f1 f2 f3 hpre) [3] hag hcov hrows y]
  unfold J3
  rw [read_joined]
  exact level_step 3 (y 0).val (fun t => FloatOps.mulf t (Cert.Spec.scale (F := F))) _ _ _
    (fun hy => c3u3_read d L zf af f0 f1 f2 f3 hpre y hy) (K2_read d L zf af f0 f1 f2 f3 hpre y)

/-- Row 4 put back once its gather is waited for. -/
def J4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![4, 0] S1x128.size inb_S8x128_S1x128_4_0) (fun _ => rfl)).squeeze S128 squeezes_S1x128_S128).view (K3 d L zf af f0 f1 f2 f3 hpre) (View.read (Elt F) (((s3V).slice (Rect.unit (s := S8x128) ![4, 0] S1x128.size inb_S8x128_S1x128_4_0) (fun _ => rfl)).squeeze S128 squeezes_S1x128_S128).view (c3u4 d L zf af f0 f1 f2 f3 hpre)) Finset.univ

/-- The scaling stores of row 4, the last first. -/
def sL4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![4, 112] S1x16.size inb_S8x128_S1x16_4_112, sVec (View.readAt (Elt F) (s3V).view (Rect.unit (s := S8x128) ![4, 112] S1x16.size inb_S8x128_S1x16_4_112).toLoadRect (J4 d L zf af f0 f1 f2 f3 hpre))⟩ ::
  ⟨Rect.unit (s := S8x128) ![4, 96] S1x16.size inb_S8x128_S1x16_4_96, sVec (View.readAt (Elt F) (s3V).view (Rect.unit (s := S8x128) ![4, 96] S1x16.size inb_S8x128_S1x16_4_96).toLoadRect (J4 d L zf af f0 f1 f2 f3 hpre))⟩ ::
  ⟨Rect.unit (s := S8x128) ![4, 80] S1x16.size inb_S8x128_S1x16_4_80, sVec (View.readAt (Elt F) (s3V).view (Rect.unit (s := S8x128) ![4, 80] S1x16.size inb_S8x128_S1x16_4_80).toLoadRect (J4 d L zf af f0 f1 f2 f3 hpre))⟩ ::
  ⟨Rect.unit (s := S8x128) ![4, 64] S1x16.size inb_S8x128_S1x16_4_64, sVec (View.readAt (Elt F) (s3V).view (Rect.unit (s := S8x128) ![4, 64] S1x16.size inb_S8x128_S1x16_4_64).toLoadRect (J4 d L zf af f0 f1 f2 f3 hpre))⟩ ::
  ⟨Rect.unit (s := S8x128) ![4, 48] S1x16.size inb_S8x128_S1x16_4_48, sVec (View.readAt (Elt F) (s3V).view (Rect.unit (s := S8x128) ![4, 48] S1x16.size inb_S8x128_S1x16_4_48).toLoadRect (J4 d L zf af f0 f1 f2 f3 hpre))⟩ ::
  ⟨Rect.unit (s := S8x128) ![4, 32] S1x16.size inb_S8x128_S1x16_4_32, sVec (View.readAt (Elt F) (s3V).view (Rect.unit (s := S8x128) ![4, 32] S1x16.size inb_S8x128_S1x16_4_32).toLoadRect (J4 d L zf af f0 f1 f2 f3 hpre))⟩ ::
  ⟨Rect.unit (s := S8x128) ![4, 16] S1x16.size inb_S8x128_S1x16_4_16, sVec (View.readAt (Elt F) (s3V).view (Rect.unit (s := S8x128) ![4, 16] S1x16.size inb_S8x128_S1x16_4_16).toLoadRect (J4 d L zf af f0 f1 f2 f3 hpre))⟩ ::
  ⟨Rect.unit (s := S8x128) ![4, 0] S1x16.size inb_S8x128_S1x16_4_0, sVec (View.readAt (Elt F) (s3V).view (Rect.unit (s := S8x128) ![4, 0] S1x16.size inb_S8x128_S1x16_4_0).toLoadRect (J4 d L zf af f0 f1 f2 f3 hpre))⟩ :: []

def K4 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J4 d L zf af f0 f1 f2 f3 hpre) (sL4 d L zf af f0 f1 f2 f3 hpre)

theorem K4_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K4 d L zf af f0 f1 f2 f3 hpre) y
      = if (y 0).val < 4 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL4 d L zf af f0 f1 f2 f3 hpre, ∀ x, p.2 x = (fun y => FloatOps.mulf (View.read (Elt F) (s3V).view (J4 d L zf af f0 f1 f2 f3 hpre) y) (Cert.Spec.scale (F := F))) (p.1.emb x) := by
    unfold sL4
    exact (List.forall_mem_cons.2 ⟨sP_agree (J4 d L zf af f0 f1 f2 f3 hpre) 4 112 inb_S8x128_S1x16_4_112, (List.forall_mem_cons.2 ⟨sP_agree (J4 d L zf af f0 f1 f2 f3 hpre) 4 96 inb_S8x128_S1x16_4_96, (List.forall_mem_cons.2 ⟨sP_agree (J4 d L zf af f0 f1 f2 f3 hpre) 4 80 inb_S8x128_S1x16_4_80, (List.forall_mem_cons.2 ⟨sP_agree (J4 d L zf af f0 f1 f2 f3 hpre) 4 64 inb_S8x128_S1x16_4_64, (List.forall_mem_cons.2 ⟨sP_agree (J4 d L zf af f0 f1 f2 f3 hpre) 4 48 inb_S8x128_S1x16_4_48, (List.forall_mem_cons.2 ⟨sP_agree (J4 d L zf af f0 f1 f2 f3 hpre) 4 32 inb_S8x128_S1x16_4_32, (List.forall_mem_cons.2 ⟨sP_agree (J4 d L zf af f0 f1 f2 f3 hpre) 4 16 inb_S8x128_S1x16_4_16, (List.forall_mem_cons.2 ⟨sP_agree (J4 d L zf af f0 f1 f2 f3 hpre) 4 0 inb_S8x128_S1x16_4_0, (fun _ hp => nomatch hp)⟩)⟩)⟩)⟩)⟩)⟩)⟩)⟩)
  have hcov : ∀ r ∈ [4], ∀ v : Fin 8, ∃ p ∈ sL4 d L zf af f0 f1 f2 f3 hpre, ∃ inb, p.1 = Rect.unit (s := S8x128) ![r, 16 * v.val] S1x16.size inb := by
    unfold sL4
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_4_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_4_16, rfl⟩
    · exact ⟨_, List.mem_cons_of_mem _ (List.mem_cons_of_mem _ (List.mem_cons_of_mem _ (List.mem_cons_of_mem _ (List.mem_cons_of_mem _ (List.mem_cons_self))))), inb_S8x128_S1x16_4_32, rfl⟩
    · exact ⟨_, List.mem_cons_of_mem _ (List.mem_cons_of_mem _ (List.mem_cons_of_mem _ (List.mem_cons_of_mem _ (List.mem_cons_self)))), inb_S8x128_S1x16_4_48, rfl⟩
    · exact ⟨_, List.mem_cons_of_mem _ (List.mem_cons_of_mem _ (List.mem_cons_of_mem _ (List.mem_cons_self))), inb_S8x128_S1x16_4_64, rfl⟩
    · exact ⟨_, List.mem_cons_of_mem _ (List.mem_cons_of_mem _ (List.mem_cons_self)), inb_S8x128_S1x16_4_80, rfl⟩
    · exact ⟨_, List.mem_cons_of_mem _ (List.mem_cons_self), inb_S8x128_S1x16_4_96, rfl⟩
    · exact ⟨_, List.mem_cons_self, inb_S8x128_S1x16_4_112, rfl⟩
  have hrows : ∀ p ∈ sL4 d L zf af f0 f1 f2 f3 hpre, ∃ r ∈ [4], ∃ c inb, p.1 = Rect.unit (s := S8x128) ![r, c] S1x16.size inb := by
    unfold sL4
    exact (List.forall_mem_cons.2 ⟨⟨4, by decide, 112, inb_S8x128_S1x16_4_112, rfl⟩, (List.forall_mem_cons.2 ⟨⟨4, by decide, 96, inb_S8x128_S1x16_4_96, rfl⟩, (List.forall_mem_cons.2 ⟨⟨4, by decide, 80, inb_S8x128_S1x16_4_80, rfl⟩, (List.forall_mem_cons.2 ⟨⟨4, by decide, 64, inb_S8x128_S1x16_4_64, rfl⟩, (List.forall_mem_cons.2 ⟨⟨4, by decide, 48, inb_S8x128_S1x16_4_48, rfl⟩, (List.forall_mem_cons.2 ⟨⟨4, by decide, 32, inb_S8x128_S1x16_4_32, rfl⟩, (List.forall_mem_cons.2 ⟨⟨4, by decide, 16, inb_S8x128_S1x16_4_16, rfl⟩, (List.forall_mem_cons.2 ⟨⟨4, by decide, 0, inb_S8x128_S1x16_4_0, rfl⟩, (fun _ hp => nomatch hp)⟩)⟩)⟩)⟩)⟩)⟩)⟩)⟩)
  unfold K4
  rw [read_scaled (J4 d L zf af f0 f1 f2 f3 hpre) (sL4 d L zf af f0 f1 f2 f3 hpre) [4] hag hcov hrows y]
  unfold J4
  rw [read_joined]
  exact level_step 4 (y 0).val (fun t => FloatOps.mulf t (Cert.Spec.scale (F := F))) _ _ _
    (fun hy => c3u4_read d L zf af f0 f1 f2 f3 hpre y hy) (K3_read d L zf af f0 f1 f2 f3 hpre y)

/-- Row 5 put back once its gather is waited for. -/
def J5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![5, 0] S1x128.size inb_S8x128_S1x128_5_0) (fun _ => rfl)).squeeze S128 squeezes_S1x128_S128).view (K4 d L zf af f0 f1 f2 f3 hpre) (View.read (Elt F) (((s3V).slice (Rect.unit (s := S8x128) ![5, 0] S1x128.size inb_S8x128_S1x128_5_0) (fun _ => rfl)).squeeze S128 squeezes_S1x128_S128).view (c3u5 d L zf af f0 f1 f2 f3 hpre)) Finset.univ

/-- The scaling stores of row 5, the last first. -/
def sL5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![5, 112] S1x16.size inb_S8x128_S1x16_5_112, sVec (View.readAt (Elt F) (s3V).view (Rect.unit (s := S8x128) ![5, 112] S1x16.size inb_S8x128_S1x16_5_112).toLoadRect (J5 d L zf af f0 f1 f2 f3 hpre))⟩ ::
  ⟨Rect.unit (s := S8x128) ![5, 96] S1x16.size inb_S8x128_S1x16_5_96, sVec (View.readAt (Elt F) (s3V).view (Rect.unit (s := S8x128) ![5, 96] S1x16.size inb_S8x128_S1x16_5_96).toLoadRect (J5 d L zf af f0 f1 f2 f3 hpre))⟩ ::
  ⟨Rect.unit (s := S8x128) ![5, 80] S1x16.size inb_S8x128_S1x16_5_80, sVec (View.readAt (Elt F) (s3V).view (Rect.unit (s := S8x128) ![5, 80] S1x16.size inb_S8x128_S1x16_5_80).toLoadRect (J5 d L zf af f0 f1 f2 f3 hpre))⟩ ::
  ⟨Rect.unit (s := S8x128) ![5, 64] S1x16.size inb_S8x128_S1x16_5_64, sVec (View.readAt (Elt F) (s3V).view (Rect.unit (s := S8x128) ![5, 64] S1x16.size inb_S8x128_S1x16_5_64).toLoadRect (J5 d L zf af f0 f1 f2 f3 hpre))⟩ ::
  ⟨Rect.unit (s := S8x128) ![5, 48] S1x16.size inb_S8x128_S1x16_5_48, sVec (View.readAt (Elt F) (s3V).view (Rect.unit (s := S8x128) ![5, 48] S1x16.size inb_S8x128_S1x16_5_48).toLoadRect (J5 d L zf af f0 f1 f2 f3 hpre))⟩ ::
  ⟨Rect.unit (s := S8x128) ![5, 32] S1x16.size inb_S8x128_S1x16_5_32, sVec (View.readAt (Elt F) (s3V).view (Rect.unit (s := S8x128) ![5, 32] S1x16.size inb_S8x128_S1x16_5_32).toLoadRect (J5 d L zf af f0 f1 f2 f3 hpre))⟩ ::
  ⟨Rect.unit (s := S8x128) ![5, 16] S1x16.size inb_S8x128_S1x16_5_16, sVec (View.readAt (Elt F) (s3V).view (Rect.unit (s := S8x128) ![5, 16] S1x16.size inb_S8x128_S1x16_5_16).toLoadRect (J5 d L zf af f0 f1 f2 f3 hpre))⟩ ::
  ⟨Rect.unit (s := S8x128) ![5, 0] S1x16.size inb_S8x128_S1x16_5_0, sVec (View.readAt (Elt F) (s3V).view (Rect.unit (s := S8x128) ![5, 0] S1x16.size inb_S8x128_S1x16_5_0).toLoadRect (J5 d L zf af f0 f1 f2 f3 hpre))⟩ :: []

def K5 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J5 d L zf af f0 f1 f2 f3 hpre) (sL5 d L zf af f0 f1 f2 f3 hpre)

theorem K5_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K5 d L zf af f0 f1 f2 f3 hpre) y
      = if (y 0).val < 5 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL5 d L zf af f0 f1 f2 f3 hpre, ∀ x, p.2 x = (fun y => FloatOps.mulf (View.read (Elt F) (s3V).view (J5 d L zf af f0 f1 f2 f3 hpre) y) (Cert.Spec.scale (F := F))) (p.1.emb x) := by
    unfold sL5
    exact (List.forall_mem_cons.2 ⟨sP_agree (J5 d L zf af f0 f1 f2 f3 hpre) 5 112 inb_S8x128_S1x16_5_112, (List.forall_mem_cons.2 ⟨sP_agree (J5 d L zf af f0 f1 f2 f3 hpre) 5 96 inb_S8x128_S1x16_5_96, (List.forall_mem_cons.2 ⟨sP_agree (J5 d L zf af f0 f1 f2 f3 hpre) 5 80 inb_S8x128_S1x16_5_80, (List.forall_mem_cons.2 ⟨sP_agree (J5 d L zf af f0 f1 f2 f3 hpre) 5 64 inb_S8x128_S1x16_5_64, (List.forall_mem_cons.2 ⟨sP_agree (J5 d L zf af f0 f1 f2 f3 hpre) 5 48 inb_S8x128_S1x16_5_48, (List.forall_mem_cons.2 ⟨sP_agree (J5 d L zf af f0 f1 f2 f3 hpre) 5 32 inb_S8x128_S1x16_5_32, (List.forall_mem_cons.2 ⟨sP_agree (J5 d L zf af f0 f1 f2 f3 hpre) 5 16 inb_S8x128_S1x16_5_16, (List.forall_mem_cons.2 ⟨sP_agree (J5 d L zf af f0 f1 f2 f3 hpre) 5 0 inb_S8x128_S1x16_5_0, (fun _ hp => nomatch hp)⟩)⟩)⟩)⟩)⟩)⟩)⟩)⟩)
  have hcov : ∀ r ∈ [5], ∀ v : Fin 8, ∃ p ∈ sL5 d L zf af f0 f1 f2 f3 hpre, ∃ inb, p.1 = Rect.unit (s := S8x128) ![r, 16 * v.val] S1x16.size inb := by
    unfold sL5
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_5_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_5_16, rfl⟩
    · exact ⟨_, List.mem_cons_of_mem _ (List.mem_cons_of_mem _ (List.mem_cons_of_mem _ (List.mem_cons_of_mem _ (List.mem_cons_of_mem _ (List.mem_cons_self))))), inb_S8x128_S1x16_5_32, rfl⟩
    · exact ⟨_, List.mem_cons_of_mem _ (List.mem_cons_of_mem _ (List.mem_cons_of_mem _ (List.mem_cons_of_mem _ (List.mem_cons_self)))), inb_S8x128_S1x16_5_48, rfl⟩
    · exact ⟨_, List.mem_cons_of_mem _ (List.mem_cons_of_mem _ (List.mem_cons_of_mem _ (List.mem_cons_self))), inb_S8x128_S1x16_5_64, rfl⟩
    · exact ⟨_, List.mem_cons_of_mem _ (List.mem_cons_of_mem _ (List.mem_cons_self)), inb_S8x128_S1x16_5_80, rfl⟩
    · exact ⟨_, List.mem_cons_of_mem _ (List.mem_cons_self), inb_S8x128_S1x16_5_96, rfl⟩
    · exact ⟨_, List.mem_cons_self, inb_S8x128_S1x16_5_112, rfl⟩
  have hrows : ∀ p ∈ sL5 d L zf af f0 f1 f2 f3 hpre, ∃ r ∈ [5], ∃ c inb, p.1 = Rect.unit (s := S8x128) ![r, c] S1x16.size inb := by
    unfold sL5
    exact (List.forall_mem_cons.2 ⟨⟨5, by decide, 112, inb_S8x128_S1x16_5_112, rfl⟩, (List.forall_mem_cons.2 ⟨⟨5, by decide, 96, inb_S8x128_S1x16_5_96, rfl⟩, (List.forall_mem_cons.2 ⟨⟨5, by decide, 80, inb_S8x128_S1x16_5_80, rfl⟩, (List.forall_mem_cons.2 ⟨⟨5, by decide, 64, inb_S8x128_S1x16_5_64, rfl⟩, (List.forall_mem_cons.2 ⟨⟨5, by decide, 48, inb_S8x128_S1x16_5_48, rfl⟩, (List.forall_mem_cons.2 ⟨⟨5, by decide, 32, inb_S8x128_S1x16_5_32, rfl⟩, (List.forall_mem_cons.2 ⟨⟨5, by decide, 16, inb_S8x128_S1x16_5_16, rfl⟩, (List.forall_mem_cons.2 ⟨⟨5, by decide, 0, inb_S8x128_S1x16_5_0, rfl⟩, (fun _ hp => nomatch hp)⟩)⟩)⟩)⟩)⟩)⟩)⟩)⟩)
  unfold K5
  rw [read_scaled (J5 d L zf af f0 f1 f2 f3 hpre) (sL5 d L zf af f0 f1 f2 f3 hpre) [5] hag hcov hrows y]
  unfold J5
  rw [read_joined]
  exact level_step 5 (y 0).val (fun t => FloatOps.mulf t (Cert.Spec.scale (F := F))) _ _ _
    (fun hy => c3u5_read d L zf af f0 f1 f2 f3 hpre y hy) (K4_read d L zf af f0 f1 f2 f3 hpre y)

/-- Row 6 put back once its gather is waited for. -/
def J6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![6, 0] S1x128.size inb_S8x128_S1x128_6_0) (fun _ => rfl)).squeeze S128 squeezes_S1x128_S128).view (K5 d L zf af f0 f1 f2 f3 hpre) (View.read (Elt F) (((s3V).slice (Rect.unit (s := S8x128) ![6, 0] S1x128.size inb_S8x128_S1x128_6_0) (fun _ => rfl)).squeeze S128 squeezes_S1x128_S128).view (c3u6 d L zf af f0 f1 f2 f3 hpre)) Finset.univ

/-- The scaling stores of row 6, the last first. -/
def sL6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![6, 112] S1x16.size inb_S8x128_S1x16_6_112, sVec (View.readAt (Elt F) (s3V).view (Rect.unit (s := S8x128) ![6, 112] S1x16.size inb_S8x128_S1x16_6_112).toLoadRect (J6 d L zf af f0 f1 f2 f3 hpre))⟩ ::
  ⟨Rect.unit (s := S8x128) ![6, 96] S1x16.size inb_S8x128_S1x16_6_96, sVec (View.readAt (Elt F) (s3V).view (Rect.unit (s := S8x128) ![6, 96] S1x16.size inb_S8x128_S1x16_6_96).toLoadRect (J6 d L zf af f0 f1 f2 f3 hpre))⟩ ::
  ⟨Rect.unit (s := S8x128) ![6, 80] S1x16.size inb_S8x128_S1x16_6_80, sVec (View.readAt (Elt F) (s3V).view (Rect.unit (s := S8x128) ![6, 80] S1x16.size inb_S8x128_S1x16_6_80).toLoadRect (J6 d L zf af f0 f1 f2 f3 hpre))⟩ ::
  ⟨Rect.unit (s := S8x128) ![6, 64] S1x16.size inb_S8x128_S1x16_6_64, sVec (View.readAt (Elt F) (s3V).view (Rect.unit (s := S8x128) ![6, 64] S1x16.size inb_S8x128_S1x16_6_64).toLoadRect (J6 d L zf af f0 f1 f2 f3 hpre))⟩ ::
  ⟨Rect.unit (s := S8x128) ![6, 48] S1x16.size inb_S8x128_S1x16_6_48, sVec (View.readAt (Elt F) (s3V).view (Rect.unit (s := S8x128) ![6, 48] S1x16.size inb_S8x128_S1x16_6_48).toLoadRect (J6 d L zf af f0 f1 f2 f3 hpre))⟩ ::
  ⟨Rect.unit (s := S8x128) ![6, 32] S1x16.size inb_S8x128_S1x16_6_32, sVec (View.readAt (Elt F) (s3V).view (Rect.unit (s := S8x128) ![6, 32] S1x16.size inb_S8x128_S1x16_6_32).toLoadRect (J6 d L zf af f0 f1 f2 f3 hpre))⟩ ::
  ⟨Rect.unit (s := S8x128) ![6, 16] S1x16.size inb_S8x128_S1x16_6_16, sVec (View.readAt (Elt F) (s3V).view (Rect.unit (s := S8x128) ![6, 16] S1x16.size inb_S8x128_S1x16_6_16).toLoadRect (J6 d L zf af f0 f1 f2 f3 hpre))⟩ ::
  ⟨Rect.unit (s := S8x128) ![6, 0] S1x16.size inb_S8x128_S1x16_6_0, sVec (View.readAt (Elt F) (s3V).view (Rect.unit (s := S8x128) ![6, 0] S1x16.size inb_S8x128_S1x16_6_0).toLoadRect (J6 d L zf af f0 f1 f2 f3 hpre))⟩ :: []

def K6 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J6 d L zf af f0 f1 f2 f3 hpre) (sL6 d L zf af f0 f1 f2 f3 hpre)

theorem K6_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K6 d L zf af f0 f1 f2 f3 hpre) y
      = if (y 0).val < 6 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL6 d L zf af f0 f1 f2 f3 hpre, ∀ x, p.2 x = (fun y => FloatOps.mulf (View.read (Elt F) (s3V).view (J6 d L zf af f0 f1 f2 f3 hpre) y) (Cert.Spec.scale (F := F))) (p.1.emb x) := by
    unfold sL6
    exact (List.forall_mem_cons.2 ⟨sP_agree (J6 d L zf af f0 f1 f2 f3 hpre) 6 112 inb_S8x128_S1x16_6_112, (List.forall_mem_cons.2 ⟨sP_agree (J6 d L zf af f0 f1 f2 f3 hpre) 6 96 inb_S8x128_S1x16_6_96, (List.forall_mem_cons.2 ⟨sP_agree (J6 d L zf af f0 f1 f2 f3 hpre) 6 80 inb_S8x128_S1x16_6_80, (List.forall_mem_cons.2 ⟨sP_agree (J6 d L zf af f0 f1 f2 f3 hpre) 6 64 inb_S8x128_S1x16_6_64, (List.forall_mem_cons.2 ⟨sP_agree (J6 d L zf af f0 f1 f2 f3 hpre) 6 48 inb_S8x128_S1x16_6_48, (List.forall_mem_cons.2 ⟨sP_agree (J6 d L zf af f0 f1 f2 f3 hpre) 6 32 inb_S8x128_S1x16_6_32, (List.forall_mem_cons.2 ⟨sP_agree (J6 d L zf af f0 f1 f2 f3 hpre) 6 16 inb_S8x128_S1x16_6_16, (List.forall_mem_cons.2 ⟨sP_agree (J6 d L zf af f0 f1 f2 f3 hpre) 6 0 inb_S8x128_S1x16_6_0, (fun _ hp => nomatch hp)⟩)⟩)⟩)⟩)⟩)⟩)⟩)⟩)
  have hcov : ∀ r ∈ [6], ∀ v : Fin 8, ∃ p ∈ sL6 d L zf af f0 f1 f2 f3 hpre, ∃ inb, p.1 = Rect.unit (s := S8x128) ![r, 16 * v.val] S1x16.size inb := by
    unfold sL6
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_6_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_6_16, rfl⟩
    · exact ⟨_, List.mem_cons_of_mem _ (List.mem_cons_of_mem _ (List.mem_cons_of_mem _ (List.mem_cons_of_mem _ (List.mem_cons_of_mem _ (List.mem_cons_self))))), inb_S8x128_S1x16_6_32, rfl⟩
    · exact ⟨_, List.mem_cons_of_mem _ (List.mem_cons_of_mem _ (List.mem_cons_of_mem _ (List.mem_cons_of_mem _ (List.mem_cons_self)))), inb_S8x128_S1x16_6_48, rfl⟩
    · exact ⟨_, List.mem_cons_of_mem _ (List.mem_cons_of_mem _ (List.mem_cons_of_mem _ (List.mem_cons_self))), inb_S8x128_S1x16_6_64, rfl⟩
    · exact ⟨_, List.mem_cons_of_mem _ (List.mem_cons_of_mem _ (List.mem_cons_self)), inb_S8x128_S1x16_6_80, rfl⟩
    · exact ⟨_, List.mem_cons_of_mem _ (List.mem_cons_self), inb_S8x128_S1x16_6_96, rfl⟩
    · exact ⟨_, List.mem_cons_self, inb_S8x128_S1x16_6_112, rfl⟩
  have hrows : ∀ p ∈ sL6 d L zf af f0 f1 f2 f3 hpre, ∃ r ∈ [6], ∃ c inb, p.1 = Rect.unit (s := S8x128) ![r, c] S1x16.size inb := by
    unfold sL6
    exact (List.forall_mem_cons.2 ⟨⟨6, by decide, 112, inb_S8x128_S1x16_6_112, rfl⟩, (List.forall_mem_cons.2 ⟨⟨6, by decide, 96, inb_S8x128_S1x16_6_96, rfl⟩, (List.forall_mem_cons.2 ⟨⟨6, by decide, 80, inb_S8x128_S1x16_6_80, rfl⟩, (List.forall_mem_cons.2 ⟨⟨6, by decide, 64, inb_S8x128_S1x16_6_64, rfl⟩, (List.forall_mem_cons.2 ⟨⟨6, by decide, 48, inb_S8x128_S1x16_6_48, rfl⟩, (List.forall_mem_cons.2 ⟨⟨6, by decide, 32, inb_S8x128_S1x16_6_32, rfl⟩, (List.forall_mem_cons.2 ⟨⟨6, by decide, 16, inb_S8x128_S1x16_6_16, rfl⟩, (List.forall_mem_cons.2 ⟨⟨6, by decide, 0, inb_S8x128_S1x16_6_0, rfl⟩, (fun _ hp => nomatch hp)⟩)⟩)⟩)⟩)⟩)⟩)⟩)⟩)
  unfold K6
  rw [read_scaled (J6 d L zf af f0 f1 f2 f3 hpre) (sL6 d L zf af f0 f1 f2 f3 hpre) [6] hag hcov hrows y]
  unfold J6
  rw [read_joined]
  exact level_step 6 (y 0).val (fun t => FloatOps.mulf t (Cert.Spec.scale (F := F))) _ _ _
    (fun hy => c3u6_read d L zf af f0 f1 f2 f3 hpre y hy) (K5_read d L zf af f0 f1 f2 f3 hpre y)

/-- Row 7 put back once its gather is waited for. -/
def J7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) :=
  View.write (Elt F) (((s3V).slice (Rect.unit (s := S8x128) ![7, 0] S1x128.size inb_S8x128_S1x128_7_0) (fun _ => rfl)).squeeze S128 squeezes_S1x128_S128).view (K6 d L zf af f0 f1 f2 f3 hpre) (View.read (Elt F) (((s3V).slice (Rect.unit (s := S8x128) ![7, 0] S1x128.size inb_S8x128_S1x128_7_0) (fun _ => rfl)).squeeze S128 squeezes_S1x128_S128).view (c3u7 d L zf af f0 f1 f2 f3 hpre)) Finset.univ

/-- The scaling stores of row 7, the last first. -/
def sL7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : List (View.Piece (Elt F) S8x128 .f32) :=
  ⟨Rect.unit (s := S8x128) ![7, 112] S1x16.size inb_S8x128_S1x16_7_112, sVec (View.readAt (Elt F) (s3V).view (Rect.unit (s := S8x128) ![7, 112] S1x16.size inb_S8x128_S1x16_7_112).toLoadRect (J7 d L zf af f0 f1 f2 f3 hpre))⟩ ::
  ⟨Rect.unit (s := S8x128) ![7, 96] S1x16.size inb_S8x128_S1x16_7_96, sVec (View.readAt (Elt F) (s3V).view (Rect.unit (s := S8x128) ![7, 96] S1x16.size inb_S8x128_S1x16_7_96).toLoadRect (J7 d L zf af f0 f1 f2 f3 hpre))⟩ ::
  ⟨Rect.unit (s := S8x128) ![7, 80] S1x16.size inb_S8x128_S1x16_7_80, sVec (View.readAt (Elt F) (s3V).view (Rect.unit (s := S8x128) ![7, 80] S1x16.size inb_S8x128_S1x16_7_80).toLoadRect (J7 d L zf af f0 f1 f2 f3 hpre))⟩ ::
  ⟨Rect.unit (s := S8x128) ![7, 64] S1x16.size inb_S8x128_S1x16_7_64, sVec (View.readAt (Elt F) (s3V).view (Rect.unit (s := S8x128) ![7, 64] S1x16.size inb_S8x128_S1x16_7_64).toLoadRect (J7 d L zf af f0 f1 f2 f3 hpre))⟩ ::
  ⟨Rect.unit (s := S8x128) ![7, 48] S1x16.size inb_S8x128_S1x16_7_48, sVec (View.readAt (Elt F) (s3V).view (Rect.unit (s := S8x128) ![7, 48] S1x16.size inb_S8x128_S1x16_7_48).toLoadRect (J7 d L zf af f0 f1 f2 f3 hpre))⟩ ::
  ⟨Rect.unit (s := S8x128) ![7, 32] S1x16.size inb_S8x128_S1x16_7_32, sVec (View.readAt (Elt F) (s3V).view (Rect.unit (s := S8x128) ![7, 32] S1x16.size inb_S8x128_S1x16_7_32).toLoadRect (J7 d L zf af f0 f1 f2 f3 hpre))⟩ ::
  ⟨Rect.unit (s := S8x128) ![7, 16] S1x16.size inb_S8x128_S1x16_7_16, sVec (View.readAt (Elt F) (s3V).view (Rect.unit (s := S8x128) ![7, 16] S1x16.size inb_S8x128_S1x16_7_16).toLoadRect (J7 d L zf af f0 f1 f2 f3 hpre))⟩ ::
  ⟨Rect.unit (s := S8x128) ![7, 0] S1x16.size inb_S8x128_S1x16_7_0, sVec (View.readAt (Elt F) (s3V).view (Rect.unit (s := S8x128) ![7, 0] S1x16.size inb_S8x128_S1x16_7_0).toLoadRect (J7 d L zf af f0 f1 f2 f3 hpre))⟩ :: []

def K7 (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) : (s3V).view.ty.Contents (Elt F) := (s3V).view.writes (Elt F) (J7 d L zf af f0 f1 f2 f3 hpre) (sL7 d L zf af f0 f1 f2 f3 hpre)

theorem K7_read (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K7 d L zf af f0 f1 f2 f3 hpre) y
      = if (y 0).val < 7 + 1 then FloatOps.mulf (View.read (Elt F) (s3V).view (c3 d L zf af f0 f1 f2 f3 hpre) y) (Cert.Spec.scale (F := F)) else View.read (Elt F) (s3V).view (c3 d L zf af f0 f1 f2 f3 hpre) y := by
  have hag : ∀ p ∈ sL7 d L zf af f0 f1 f2 f3 hpre, ∀ x, p.2 x = (fun y => FloatOps.mulf (View.read (Elt F) (s3V).view (J7 d L zf af f0 f1 f2 f3 hpre) y) (Cert.Spec.scale (F := F))) (p.1.emb x) := by
    unfold sL7
    exact (List.forall_mem_cons.2 ⟨sP_agree (J7 d L zf af f0 f1 f2 f3 hpre) 7 112 inb_S8x128_S1x16_7_112, (List.forall_mem_cons.2 ⟨sP_agree (J7 d L zf af f0 f1 f2 f3 hpre) 7 96 inb_S8x128_S1x16_7_96, (List.forall_mem_cons.2 ⟨sP_agree (J7 d L zf af f0 f1 f2 f3 hpre) 7 80 inb_S8x128_S1x16_7_80, (List.forall_mem_cons.2 ⟨sP_agree (J7 d L zf af f0 f1 f2 f3 hpre) 7 64 inb_S8x128_S1x16_7_64, (List.forall_mem_cons.2 ⟨sP_agree (J7 d L zf af f0 f1 f2 f3 hpre) 7 48 inb_S8x128_S1x16_7_48, (List.forall_mem_cons.2 ⟨sP_agree (J7 d L zf af f0 f1 f2 f3 hpre) 7 32 inb_S8x128_S1x16_7_32, (List.forall_mem_cons.2 ⟨sP_agree (J7 d L zf af f0 f1 f2 f3 hpre) 7 16 inb_S8x128_S1x16_7_16, (List.forall_mem_cons.2 ⟨sP_agree (J7 d L zf af f0 f1 f2 f3 hpre) 7 0 inb_S8x128_S1x16_7_0, (fun _ hp => nomatch hp)⟩)⟩)⟩)⟩)⟩)⟩)⟩)⟩)
  have hcov : ∀ r ∈ [7], ∀ v : Fin 8, ∃ p ∈ sL7 d L zf af f0 f1 f2 f3 hpre, ∃ inb, p.1 = Rect.unit (s := S8x128) ![r, 16 * v.val] S1x16.size inb := by
    unfold sL7
    intro r hr
    simp only [List.mem_cons, List.not_mem_nil, or_false] at hr
    subst hr
    intro v; fin_cases v
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), inb_S8x128_S1x16_7_0, rfl⟩
    · exact ⟨_, List.mem_cons_of_mem _ (List.mem_cons_of_mem _ (List.mem_cons_of_mem _ (List.mem_cons_of_mem _ (List.mem_cons_of_mem _ (List.mem_cons_of_mem _ (List.mem_cons_self)))))), inb_S8x128_S1x16_7_16, rfl⟩
    · exact ⟨_, List.mem_cons_of_mem _ (List.mem_cons_of_mem _ (List.mem_cons_of_mem _ (List.mem_cons_of_mem _ (List.mem_cons_of_mem _ (List.mem_cons_self))))), inb_S8x128_S1x16_7_32, rfl⟩
    · exact ⟨_, List.mem_cons_of_mem _ (List.mem_cons_of_mem _ (List.mem_cons_of_mem _ (List.mem_cons_of_mem _ (List.mem_cons_self)))), inb_S8x128_S1x16_7_48, rfl⟩
    · exact ⟨_, List.mem_cons_of_mem _ (List.mem_cons_of_mem _ (List.mem_cons_of_mem _ (List.mem_cons_self))), inb_S8x128_S1x16_7_64, rfl⟩
    · exact ⟨_, List.mem_cons_of_mem _ (List.mem_cons_of_mem _ (List.mem_cons_self)), inb_S8x128_S1x16_7_80, rfl⟩
    · exact ⟨_, List.mem_cons_of_mem _ (List.mem_cons_self), inb_S8x128_S1x16_7_96, rfl⟩
    · exact ⟨_, List.mem_cons_self, inb_S8x128_S1x16_7_112, rfl⟩
  have hrows : ∀ p ∈ sL7 d L zf af f0 f1 f2 f3 hpre, ∃ r ∈ [7], ∃ c inb, p.1 = Rect.unit (s := S8x128) ![r, c] S1x16.size inb := by
    unfold sL7
    exact (List.forall_mem_cons.2 ⟨⟨7, by decide, 112, inb_S8x128_S1x16_7_112, rfl⟩, (List.forall_mem_cons.2 ⟨⟨7, by decide, 96, inb_S8x128_S1x16_7_96, rfl⟩, (List.forall_mem_cons.2 ⟨⟨7, by decide, 80, inb_S8x128_S1x16_7_80, rfl⟩, (List.forall_mem_cons.2 ⟨⟨7, by decide, 64, inb_S8x128_S1x16_7_64, rfl⟩, (List.forall_mem_cons.2 ⟨⟨7, by decide, 48, inb_S8x128_S1x16_7_48, rfl⟩, (List.forall_mem_cons.2 ⟨⟨7, by decide, 32, inb_S8x128_S1x16_7_32, rfl⟩, (List.forall_mem_cons.2 ⟨⟨7, by decide, 16, inb_S8x128_S1x16_7_16, rfl⟩, (List.forall_mem_cons.2 ⟨⟨7, by decide, 0, inb_S8x128_S1x16_7_0, rfl⟩, (fun _ hp => nomatch hp)⟩)⟩)⟩)⟩)⟩)⟩)⟩)⟩)
  unfold K7
  rw [read_scaled (J7 d L zf af f0 f1 f2 f3 hpre) (sL7 d L zf af f0 f1 f2 f3 hpre) [7] hag hcov hrows y]
  unfold J7
  rw [read_joined]
  exact level_step 7 (y 0).val (fun t => FloatOps.mulf t (Cert.Spec.scale (F := F))) _ _ _
    (fun hy => c3u7_read d L zf af f0 f1 f2 f3 hpre y hy) (K6_read d L zf af f0 f1 f2 f3 hpre y)

/-! ## What the task copies out -/

theorem c3_row_all (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (c3 d L zf af f0 f1 f2 f3 hpre) y = af (ValueIdx.ix1 (Cert.Spec.aPos zf (rowF L y))) := by
  have h := ValueIdx.idx2_lt0 y
  obtain h0 | h0 | h0 | h0 | h0 | h0 | h0 | h0 : (y 0).val = 0 ∨ (y 0).val = 1 ∨ (y 0).val = 2 ∨ (y 0).val = 3 ∨ (y 0).val = 4 ∨ (y 0).val = 5
      ∨ (y 0).val = 6 ∨ (y 0).val = 7 := by omega
  · exact c3_row0 d L zf af f0 f1 f2 f3 hpre y h0
  · exact c3_row1 d L zf af f0 f1 f2 f3 hpre y h0
  · exact c3_row2 d L zf af f0 f1 f2 f3 hpre y h0
  · exact c3_row3 d L zf af f0 f1 f2 f3 hpre y h0
  · exact c3_row4 d L zf af f0 f1 f2 f3 hpre y h0
  · exact c3_row5 d L zf af f0 f1 f2 f3 hpre y h0
  · exact c3_row6 d L zf af f0 f1 f2 f3 hpre y h0
  · exact c3_row7 d L zf af f0 f1 f2 f3 hpre y h0

/-- Every entry of the fourth scratch buffer, at the end, is the specified result of its row. -/
theorem K7_value (d : Dev nD) (L : grid0.Coords) (zf : Buf (Elt F) (zLoc d)) (af : Buf (Elt F) (aLoc d)) (f0 : (s0V).view.ty.Contents (Elt F)) (f1 : (s1V).view.ty.Contents (Elt F)) (f2 : (s2V).view.ty.Contents (Elt F)) (f3 : (s3V).view.ty.Contents (Elt F)) (hpre : Cert.Spec.InRangeF (F := F) zf) (y : S8x128.Idx) :
    View.read (Elt F) (s3V).view (K7 d L zf af f0 f1 f2 f3 hpre) y = Cert.Spec.outAtF zf af (rowF L y) := by
  have h := ValueIdx.idx2_lt0 y
  rw [K7_read, if_pos (by omega), c3_row_all]
  rfl

end Cert.KB

end
-- ==== Proof.BodyOB.lean ====
/-
  The task's copy out: its eight rows of the block, written whole with what the fourth scratch buffer reads at the end,
  hold the specified block there — block entry (8 w + y₀, y₁) is the result of row 1024 w + 128 y₀ + y₁.
-/
import proofs.«207294_g27419071217675_cont_9to1_1737_29_alg».proof.Proof.BodyVB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The result row of block entry (8 w + y₀, y₁). -/
theorem rowOf_emb (L : grid0.Coords) (y : S8x128.Idx) :
    Cert.Spec.rowOf (((oRowK L).view.emb y) 0) (((oRowK L).view.emb y) 1) = rowF L y := by
  apply Fin.ext
  have h0 : (L 0).val = 0 := by have := (L 0).isLt; simpa using this
  have e0 : (((oRowK L).view.emb y) 0).val = 8 * (L 1).val + (y 0).val := by
    show ((orowK L).emb y 0).val = _
    rw [Rect.emb_apply]
    simp [orowK, k0_off1_eq, h0]
  have e1 : (((oRowK L).view.emb y) 1).val = (y 1).val := by
    show ((orowK L).emb y 1).val = _
    rw [Rect.emb_apply]
    simp [orowK, k0_off1_eq]
  show (((oRowK L).view.emb y) 0).val * 128 + (((oRowK L).view.emb y) 1).val = rowN L y
  rw [e0, e1]; unfold rowN; omega

/-- The block's rows after the copy, from what the copy carried. -/
theorem block_rows (d : Dev nD) (L : grid0.Coords) (zf : Buf (Elt F) (zLoc d)) (af : Buf (Elt F) (aLoc d)) (o : Buf (Elt F) (oLoc d))
    (pay : S8x128.Idx → Elt F .f32) (hpay : ∀ y, pay y = Cert.Spec.outAtF zf af (rowF L y)) :
    ((oRowK L).view.loc (V d (cV L) (jV L)) ↦[(oRowK L).view.set]{fullShare} ((oRowK L).view.writes (Elt F) o [⟨Rect.whole S8x128, pay⟩]) : sProp 𝕄)
      ⊢ oLoc d ↦[oRowSet (jL L)]{fullShare} (outBlk d zf af) := by
  rw [← pts_oRowK (F := F) d L]
  refine Entails.of_eq (pointsTo_congr fun i hi => ?_)
  obtain ⟨y, -, rfl⟩ := Finset.mem_map.mp hi
  have hr := congrFun (View.read_writes_whole (oRowK L).view o pay) y
  rw [View.read_apply] at hr
  have hv : ((oRowK L).view.writes (Elt F) o [⟨Rect.whole S8x128, pay⟩]) ((oRowK L).view.emb y) = pay y := by
    simpa using hr
  rw [hv, hpay]
  show _ = Cert.Spec.outAtF zf af (Cert.Spec.rowOf (((oRowK L).view.emb y) 0) (((oRowK L).view.emb y) 1))
  rw [rowOf_emb]

end Cert.KB

end
-- ==== Proof.BodyJoinB.lean ====
/-
  Putting a delivered row back into the buffer it is a row of.

  While a copy into one row of a scratch buffer is in flight the row's elements are held apart from the rest of the
  buffer. Afterwards the rest (at contents `g`) and the row (at contents `fs`, the delivered values in place) are
  again one assertion about the buffer: at the contents "g, overwritten on the row by what `fs` holds there", which is
  the write through the row's view of the row read from `fs`. Only the values on the held elements matter.
-/
import proofs.«207294_g27419071217675_cont_9to1_1737_29_alg».proof.Proof.CommonB

noncomputable section

namespace Cert.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The write through a view `rv` of what `fs` holds on the view, over `g`: `fs` on the view's elements, `g` elsewhere. -/
theorem write_read_piecewise {κ : Kind} {sp : Space} {s : Shape} {e : EltTy} (rv : View sig κ sp s e)
    (g fs : rv.ty.Contents (Elt F)) (i : rv.ty.Idx) :
    View.write (Elt F) rv g (View.read (Elt F) rv fs) Finset.univ i = (rv.set).piecewise fs g i := by
  by_cases hi : i ∈ rv.set
  · rw [Finset.piecewise_eq_of_mem _ _ _ hi]
    obtain ⟨x, -, rfl⟩ := Finset.mem_map.mp hi
    rw [View.write_emb_of_mem _ _ (Finset.mem_univ _), View.read_apply, cast_cast, cast_eq]
  · rw [Finset.piecewise_eq_of_notMem _ _ _ hi, View.write_of_not_mem _ _ _ (by rwa [View.setOn_univ])]

/-- The rest of a buffer at `g` and a view's elements at `fs` are the buffer's elements `X` (which contain the view's)
    at the write through the view of what `fs` holds there, over `g`. -/
theorem join_view (c : Thread nD τ) {sp : Space} {s : Shape} {e : EltTy} (rv : View sig c.2.kind sp s e)
    (X : Finset (Idx (rv.loc c))) (hIX : rv.set ⊆ X) (g fs : Buf (Elt F) (rv.loc c)) :
    iprop((rv.loc c ↦[X \ rv.set]{fullShare} g) ∗ (rv.loc c ↦[rv.set]{fullShare} fs))
      ⊢ (rv.loc c ↦[X]{fullShare} (View.write (Elt F) rv g (View.read (Elt F) rv fs) Finset.univ) : sProp 𝕄) := by
  refine (sep_comm.1.trans (pointsTo_join_subset hIX)).trans (Entails.of_eq (pointsTo_congr fun i _ => ?_))
  exact (write_read_piecewise rv g fs i).symm

end Cert.KB

end
-- ==== Proof.BodyRows8B.lean ====
/-
  The eight rows of an 8 × 128 scratch buffer are pairwise disjoint, and a row held apart can be put back under any
  number of later rows still held apart.

  Row r's elements are the indices (r, q); two different rows share none. If the rest of a buffer is held on "everything
  but row r and then but some other sets W₁, …, Wₙ", each disjoint from row r, then together with row r it is the
  buffer held on "everything but W₁, …, Wₙ": removing sets one after another does not depend on the order, and a set
  disjoint from all the removed ones survives every removal.
-/
import proofs.«207294_g27419071217675_cont_9to1_1737_29_alg».proof.Proof.BodyJoinB

noncomputable section

namespace Cert.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Two different rows of an 8 × 128 buffer, each addressed as a vector of 128, have no element in common. -/
theorem rows_disjoint {e : EltTy} (m : Memref sig .scVector .vmem S8x128 e) (r k : ℕ) (h : r ≠ k)
    (inb : ∀ a, (![r, 0] : Fin 2 → ℕ) a + S1x128.size a ≤ S8x128.size a)
    (inb' : ∀ a, (![k, 0] : Fin 2 → ℕ) a + S1x128.size a ≤ S8x128.size a) :
    Disjoint ((m.slice (Rect.unit (s := S8x128) ![r, 0] S1x128.size inb) (fun _ => rfl)).squeeze S128 squeezes_S1x128_S128).view.set
      ((m.slice (Rect.unit (s := S8x128) ![k, 0] S1x128.size inb') (fun _ => rfl)).squeeze S128 squeezes_S1x128_S128).view.set := by
  show Disjoint ((m.view.slice (Rect.unit (s := S8x128) ![r, 0] S1x128.size inb)).reshape S128 squeezes_S1x128_S128.numel_eq).set
    ((m.view.slice (Rect.unit (s := S8x128) ![k, 0] S1x128.size inb')).reshape S128 squeezes_S1x128_S128.numel_eq).set
  rw [View.set_reshape, View.set_reshape, View.set_slice, View.set_slice, Finset.disjoint_map]
  refine Rect.unit_disjoint 0 ?_
  show r + 1 ≤ k ∨ k + 1 ≤ r
  omega

/-- Removing a list of sets one after another: one more set removed first may as well be removed last. -/
theorem foldl_sdiff_first {α : Type} [DecidableEq α] (Ws : List (Finset α)) (A B : Finset α) :
    Ws.foldl (· \ ·) (A \ B) = (Ws.foldl (· \ ·) A) \ B := by
  induction Ws generalizing A with
  | nil => rfl
  | cons W Ws ih =>
    show Ws.foldl (· \ ·) ((A \ B) \ W) = (Ws.foldl (· \ ·) (A \ W)) \ B
    rw [sdiff_right_comm, ih]

/-- A set disjoint from every removed set survives all the removals. -/
theorem subset_foldl_sdiff {α : Type} [DecidableEq α] (Ws : List (Finset α)) (S A : Finset α) (hSA : S ⊆ A)
    (hdis : ∀ W ∈ Ws, Disjoint S W) : S ⊆ Ws.foldl (· \ ·) A := by
  induction Ws generalizing A with
  | nil => exact hSA
  | cons W Ws ih =>
    exact ih (A \ W) (Finset.subset_sdiff.mpr ⟨hSA, hdis W (List.mem_cons_self ..)⟩) fun W' hW' => hdis W' (List.mem_cons_of_mem _ hW')

/-- The rest of a buffer, held on everything but a view's elements and then but the sets `Ws`, and the view's elements,
    are the buffer held on everything but the sets `Ws` — when each of them is disjoint from the view's elements. -/
theorem join_layer (c : Thread nD τ) {sp : Space} {s : Shape} {e : EltTy} (rv : View sig c.2.kind sp s e)
    (Ws : List (Finset (Idx (rv.loc c)))) (hdis : ∀ W ∈ Ws, Disjoint rv.set W) (g fs : Buf (Elt F) (rv.loc c)) :
    iprop((rv.loc c ↦[Ws.foldl (· \ ·) (Finset.univ \ rv.set)]{fullShare} g) ∗ (rv.loc c ↦[rv.set]{fullShare} fs))
      ⊢ (rv.loc c ↦[Ws.foldl (· \ ·) Finset.univ]{fullShare} (View.write (Elt F) rv g (View.read (Elt F) rv fs) Finset.univ) : sProp 𝕄) := by
  rw [foldl_sdiff_first]
  exact join_view c rv _ (subset_foldl_sdiff Ws _ _ (Finset.subset_univ _) hdis) g fs

end Cert.KB

end
-- ==== Proof.BodyJoin3B.lean ====
/-
  A delivered row of the fourth scratch buffer put back among the rows the task holds, while later rows are still
  lent to the gathers that fill them: one statement per row, the later rows' sets spelt out.
-/
import proofs.«207294_g27419071217675_cont_9to1_1737_29_alg».proof.Proof.BodySetupB
import proofs.«207294_g27419071217675_cont_9to1_1737_29_alg».proof.Proof.BodyRows8B

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem join3_2 (d : Dev nD) (L : grid0.Coords) (g fs : Buf (Elt F) ((s3V).view.loc (V d (cV L) (jV L)))) :
    iprop((View.loc (V d (cV L) (jV L)) (s3V).view ↦[((((((Finset.univ \ (((s3V).slice (Rect.unit (s := S8x128) ![2, 0] S1x128.size inb_S8x128_S1x128_2_0) (fun _ => rfl)).squeeze S128 squeezes_S1x128_S128).view.set) \ (((s3V).slice (Rect.unit (s := S8x128) ![3, 0] S1x128.size inb_S8x128_S1x128_3_0) (fun _ => rfl)).squeeze S128 squeezes_S1x128_S128).view.set) \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![2, 0] S1x128.size inb_S8x128_S1x128_2_0) (fun _ => rfl)).squeeze S128 squeezes_S1x128_S128).view.set]{fullShare} fs))
      ⊢ (View.loc (V d (cV L) (jV L)) (s3V).view ↦[(((((Finset.univ \ (((s3V).slice (Rect.unit (s := S8x128) ![3, 0] S1x128.size inb_S8x128_S1x128_3_0) (fun _ => rfl)).squeeze S128 squeezes_S1x128_S128).view.set) \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![2, 0] S1x128.size inb_S8x128_S1x128_2_0) (fun _ => rfl)).squeeze S128 squeezes_S1x128_S128).view g (View.read (Elt F) (((s3V).slice (Rect.unit (s := S8x128) ![2, 0] S1x128.size inb_S8x128_S1x128_2_0) (fun _ => rfl)).squeeze S128 squeezes_S1x128_S128).view fs) Finset.univ) : sProp 𝕄) :=
  join_layer (F := F) (V d (cV L) (jV L)) (((s3V).slice (Rect.unit (s := S8x128) ![2, 0] S1x128.size inb_S8x128_S1x128_2_0) (fun _ => rfl)).squeeze S128 squeezes_S1x128_S128).view [(((s3V).slice (Rect.unit (s := S8x128) ![3, 0] S1x128.size inb_S8x128_S1x128_3_0) (fun _ => rfl)).squeeze S128 squeezes_S1x128_S128).view.set, (((s3V).slice (Rect.unit (s := S8x128) ![4, 0] S1x128.size inb_S8x128_S1x128_4_0) (fun _ => rfl)).squeeze S128 squeezes_S1x128_S128).view.set, (((s3V).slice (Rect.unit (s := S8x128) ![5, 0] S1x128.size inb_S8x128_S1x128_5_0) (fun _ => rfl)).squeeze S128 squeezes_S1x128_S128).view.set, (((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl | rfl | rfl | rfl
    · exact rows_disjoint (s3V) 2 3 (by decide) _ _
    · exact rows_disjoint (s3V) 2 4 (by decide) _ _
    · exact rows_disjoint (s3V) 2 5 (by decide) _ _
    · exact rows_disjoint (s3V) 2 6 (by decide) _ _
    · exact rows_disjoint (s3V) 2 7 (by decide) _ _) g fs

theorem join3_3 (d : Dev nD) (L : grid0.Coords) (g fs : Buf (Elt F) ((s3V).view.loc (V d (cV L) (jV L)))) :
    iprop((View.loc (V d (cV L) (jV L)) (s3V).view ↦[(((((Finset.univ \ (((s3V).slice (Rect.unit (s := S8x128) ![3, 0] S1x128.size inb_S8x128_S1x128_3_0) (fun _ => rfl)).squeeze S128 squeezes_S1x128_S128).view.set) \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![3, 0] S1x128.size inb_S8x128_S1x128_3_0) (fun _ => rfl)).squeeze S128 squeezes_S1x128_S128).view.set]{fullShare} fs))
      ⊢ (View.loc (V d (cV L) (jV L)) (s3V).view ↦[((((Finset.univ \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![3, 0] S1x128.size inb_S8x128_S1x128_3_0) (fun _ => rfl)).squeeze S128 squeezes_S1x128_S128).view g (View.read (Elt F) (((s3V).slice (Rect.unit (s := S8x128) ![3, 0] S1x128.size inb_S8x128_S1x128_3_0) (fun _ => rfl)).squeeze S128 squeezes_S1x128_S128).view fs) Finset.univ) : sProp 𝕄) :=
  join_layer (F := F) (V d (cV L) (jV L)) (((s3V).slice (Rect.unit (s := S8x128) ![3, 0] S1x128.size inb_S8x128_S1x128_3_0) (fun _ => rfl)).squeeze S128 squeezes_S1x128_S128).view [(((s3V).slice (Rect.unit (s := S8x128) ![4, 0] S1x128.size inb_S8x128_S1x128_4_0) (fun _ => rfl)).squeeze S128 squeezes_S1x128_S128).view.set, (((s3V).slice (Rect.unit (s := S8x128) ![5, 0] S1x128.size inb_S8x128_S1x128_5_0) (fun _ => rfl)).squeeze S128 squeezes_S1x128_S128).view.set, (((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl | rfl | rfl
    · exact rows_disjoint (s3V) 3 4 (by decide) _ _
    · exact rows_disjoint (s3V) 3 5 (by decide) _ _
    · exact rows_disjoint (s3V) 3 6 (by decide) _ _
    · exact rows_disjoint (s3V) 3 7 (by decide) _ _) g fs

theorem join3_4 (d : Dev nD) (L : grid0.Coords) (g fs : Buf (Elt F) ((s3V).view.loc (V d (cV L) (jV L)))) :
    iprop((View.loc (V d (cV L) (jV L)) (s3V).view ↦[((((Finset.univ \ (((s3V).slice (Rect.unit (s := S8x128) ![4, 0] S1x128.size inb_S8x128_S1x128_4_0) (fun _ => rfl)).squeeze S128 squeezes_S1x128_S128).view.set) \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![4, 0] S1x128.size inb_S8x128_S1x128_4_0) (fun _ => rfl)).squeeze S128 squeezes_S1x128_S128).view.set]{fullShare} fs))
      ⊢ (View.loc (V d (cV L) (jV L)) (s3V).view ↦[(((Finset.univ \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![4, 0] S1x128.size inb_S8x128_S1x128_4_0) (fun _ => rfl)).squeeze S128 squeezes_S1x128_S128).view g (View.read (Elt F) (((s3V).slice (Rect.unit (s := S8x128) ![4, 0] S1x128.size inb_S8x128_S1x128_4_0) (fun _ => rfl)).squeeze S128 squeezes_S1x128_S128).view fs) Finset.univ) : sProp 𝕄) :=
  join_layer (F := F) (V d (cV L) (jV L)) (((s3V).slice (Rect.unit (s := S8x128) ![4, 0] S1x128.size inb_S8x128_S1x128_4_0) (fun _ => rfl)).squeeze S128 squeezes_S1x128_S128).view [(((s3V).slice (Rect.unit (s := S8x128) ![5, 0] S1x128.size inb_S8x128_S1x128_5_0) (fun _ => rfl)).squeeze S128 squeezes_S1x128_S128).view.set, (((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl | rfl
    · exact rows_disjoint (s3V) 4 5 (by decide) _ _
    · exact rows_disjoint (s3V) 4 6 (by decide) _ _
    · exact rows_disjoint (s3V) 4 7 (by decide) _ _) g fs

theorem join3_5 (d : Dev nD) (L : grid0.Coords) (g fs : Buf (Elt F) ((s3V).view.loc (V d (cV L) (jV L)))) :
    iprop((View.loc (V d (cV L) (jV L)) (s3V).view ↦[(((Finset.univ \ (((s3V).slice (Rect.unit (s := S8x128) ![5, 0] S1x128.size inb_S8x128_S1x128_5_0) (fun _ => rfl)).squeeze S128 squeezes_S1x128_S128).view.set) \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![5, 0] S1x128.size inb_S8x128_S1x128_5_0) (fun _ => rfl)).squeeze S128 squeezes_S1x128_S128).view.set]{fullShare} fs))
      ⊢ (View.loc (V d (cV L) (jV L)) (s3V).view ↦[((Finset.univ \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![5, 0] S1x128.size inb_S8x128_S1x128_5_0) (fun _ => rfl)).squeeze S128 squeezes_S1x128_S128).view g (View.read (Elt F) (((s3V).slice (Rect.unit (s := S8x128) ![5, 0] S1x128.size inb_S8x128_S1x128_5_0) (fun _ => rfl)).squeeze S128 squeezes_S1x128_S128).view fs) Finset.univ) : sProp 𝕄) :=
  join_layer (F := F) (V d (cV L) (jV L)) (((s3V).slice (Rect.unit (s := S8x128) ![5, 0] S1x128.size inb_S8x128_S1x128_5_0) (fun _ => rfl)).squeeze S128 squeezes_S1x128_S128).view [(((s3V).slice (Rect.unit (s := S8x128) ![6, 0] S1x128.size inb_S8x128_S1x128_6_0) (fun _ => rfl)).squeeze S128 squeezes_S1x128_S128).view.set, (((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl | rfl
    · exact rows_disjoint (s3V) 5 6 (by decide) _ _
    · exact rows_disjoint (s3V) 5 7 (by decide) _ _) g fs

theorem join3_6 (d : Dev nD) (L : grid0.Coords) (g fs : Buf (Elt F) ((s3V).view.loc (V d (cV L) (jV L)))) :
    iprop((View.loc (V d (cV L) (jV L)) (s3V).view ↦[((Finset.univ \ (((s3V).slice (Rect.unit (s := S8x128) ![6, 0] S1x128.size inb_S8x128_S1x128_6_0) (fun _ => rfl)).squeeze S128 squeezes_S1x128_S128).view.set) \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![6, 0] S1x128.size inb_S8x128_S1x128_6_0) (fun _ => rfl)).squeeze S128 squeezes_S1x128_S128).view.set]{fullShare} fs))
      ⊢ (View.loc (V d (cV L) (jV L)) (s3V).view ↦[(Finset.univ \ (((s3V).slice (Rect.unit (s := S8x128) ![7, 0] S1x128.size inb_S8x128_S1x128_7_0) (fun _ => rfl)).squeeze S128 squeezes_S1x128_S128).view.set)]{fullShare}
          (View.write (Elt F) (((s3V).slice (Rect.unit (s := S8x128) ![6, 0] S1x128.size inb_S8x128_S1x128_6_0) (fun _ => rfl)).squeeze S128 squeezes_S1x128_S128).view g (View.read (Elt F) (((s3V).slice (Rect.unit (s := S8x128) ![6, 0] S1x128.size inb_S8x128_S1x128_6_0) (fun _ => rfl)).squeeze S128 squeezes_S1x128_S128).view fs) Finset.univ) : sProp 𝕄) :=
  join_layer (F := F) (V d (cV L) (jV L)) (((s3V).slice (Rect.unit (s := S8x128) ![6, 0] S1x128.size inb_S8x128_S1x128_6_0) (fun _ => rfl)).squeeze S128 squeezes_S1x128_S128).view [(((s3V).slice (Rect.unit (s := S8x128) ![7, 0] S1x128.size inb_S8x128_S1x128_7_0) (fun _ => rfl)).squeeze S128 squeezes_S1x128_S128).view.set] (by
    intro W hW
    simp only [List.mem_cons, List.not_mem_nil, or_false] at hW
    rcases hW with rfl
    · exact rows_disjoint (s3V) 6 7 (by decide) _ _) g fs

theorem join3_7 (d : Dev nD) (L : grid0.Coords) (g fs : Buf (Elt F) ((s3V).view.loc (V d (cV L) (jV L)))) :
    iprop((View.loc (V d (cV L) (jV L)) (s3V).view ↦[(Finset.univ \ (((s3V).slice (Rect.unit (s := S8x128) ![7, 0] S1x128.size inb_S8x128_S1x128_7_0) (fun _ => rfl)).squeeze S128 squeezes_S1x128_S128).view.set)]{fullShare} g)
        ∗ (View.loc (V d (cV L) (jV L)) (s3V).view ↦[(((s3V).slice (Rect.unit (s := S8x128) ![7, 0] S1x128.size inb_S8x128_S1x128_7_0) (fun _ => rfl)).squeeze S128 squeezes_S1x128_S128).view.set]{fullShare} fs))
      ⊢ (View.loc (V d (cV L) (jV L)) (s3V).view ↦[Finset.univ]{fullShare}
          (View.write (Elt F) (((s3V).slice (Rect.unit (s := S8x128) ![7, 0] S1x128.size inb_S8x128_S1x128_7_0) (fun _ => rfl)).squeeze S128 squeezes_S1x128_S128).view g (View.read (Elt F) (((s3V).slice (Rect.unit (s := S8x128) ![7, 0] S1x128.size inb_S8x128_S1x128_7_0) (fun _ => rfl)).squeeze S128 squeezes_S1x128_S128).view fs) Finset.univ) : sProp 𝕄) :=
  join_layer (F := F) (V d (cV L) (jV L)) (((s3V).slice (Rect.unit (s := S8x128) ![7, 0] S1x128.size inb_S8x128_S1x128_7_0) (fun _ => rfl)).squeeze S128 squeezes_S1x128_S128).view [] (by intro W hW; exact absurd hW List.not_mem_nil) g fs

end Cert.KB

end
-- ==== Proof.BodyJoinLB.lean ====
/-
  The list windows of the first and third scratch buffers put back among the rows the task holds, once every gather
  is waited for: rows 0 … 5 of each are held apart at the end, one statement per row.
-/
import proofs.«207294_g27419071217675_cont_9to1_1737_29_alg».proof.Proof.BodySetupB
import proofs.«207294_g27419071217675_cont_9to1_1737_29_alg».proof.Proof.BodyRows8B

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem join0m5_0 (d : Dev nD) (L : grid0.Coords) (g fs : Buf (Elt F) ((s0V).view.loc (V d (cV L) (jV L)))) :
    iprop((View.loc (V d (cV L) (jV L)) (s0V).view ↦[((((((Finset.univ \ (((s0V).slice (Rect.unit (s := S8x128) ![0, 0] S1x128.size inb_S8x128_S1x128_0_0) (fun _ => rfl)).squeeze S128 squeezes_S1x128_S128).view.set) \ (((s0V).slice (Rect.unit (s := S8x128) ![1, 0] S1x128.size inb_S8x128_S1x128_1_0) (fun _ => rfl)).squeeze S128 squeezes_S1x128_S128).view.set) \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![0, 0] S1x128.size inb_S8x128_S1x128_0_0) (fun _ => rfl)).squeeze S128 squeezes_S1x128_S128).view.set]{fullShare} fs))
      ⊢ (View.loc (V d (cV L) (jV L)) (s0V).view ↦[(((((Finset.univ \ (((s0V).slice (Rect.unit (s := S8x128) ![1, 0] S1x128.size inb_S8x128_S1x128_1_0) (fun _ => rfl)).squeeze S128 squeezes_S1x128_S128).view.set) \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![0, 0] S1x128.size inb_S8x128_S1x128_0_0) (fun _ => rfl)).squeeze S128 squeezes_S1x128_S128).view g (View.read (Elt F) (((s0V).slice (Rect.unit (s := S8x128) ![0, 0] S1x128.size inb_S8x128_S1x128_0_0) (fun _ => rfl)).squeeze S128 squeezes_S1x128_S128).view fs) Finset.univ) : sProp 𝕄) :=
  join_layer (F := F) (V d (cV L) (jV L)) (((s0V).slice (Rect.unit (s := S8x128) ![0, 0] S1x128.size inb_S8x128_S1x128_0_0) (fun _ => rfl)).squeeze S128 squeezes_S1x128_S128).view [(((s0V).slice (Rect.unit (s := S8x128) ![1, 0] S1x128.size inb_S8x128_S1x128_1_0) (fun _ => rfl)).squeeze S128 squeezes_S1x128_S128).view.set, (((s0V).slice (Rect.unit (s := S8x128) ![2, 0] S1x128.size inb_S8x128_S1x128_2_0) (fun _ => rfl)).squeeze S128 squeezes_S1x128_S128).view.set, (((s0V).slice (Rect.unit (s := S8x128) ![3, 0] S1x128.size inb_S8x128_S1x128_3_0) (fun _ => rfl)).squeeze S128 squeezes_S1x128_S128).view.set, (((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl | rfl
    · exact rows_disjoint (s0V) 0 1 (by decide) _ _
    · exact rows_disjoint (s0V) 0 2 (by decide) _ _
    · exact rows_disjoint (s0V) 0 3 (by decide) _ _
    · exact rows_disjoint (s0V) 0 4 (by decide) _ _
    · exact rows_disjoint (s0V) 0 5 (by decide) _ _) g fs

theorem join0m5_1 (d : Dev nD) (L : grid0.Coords) (g fs : Buf (Elt F) ((s0V).view.loc (V d (cV L) (jV L)))) :
    iprop((View.loc (V d (cV L) (jV L)) (s0V).view ↦[(((((Finset.univ \ (((s0V).slice (Rect.unit (s := S8x128) ![1, 0] S1x128.size inb_S8x128_S1x128_1_0) (fun _ => rfl)).squeeze S128 squeezes_S1x128_S128).view.set) \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![1, 0] S1x128.size inb_S8x128_S1x128_1_0) (fun _ => rfl)).squeeze S128 squeezes_S1x128_S128).view.set]{fullShare} fs))
      ⊢ (View.loc (V d (cV L) (jV L)) (s0V).view ↦[((((Finset.univ \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![1, 0] S1x128.size inb_S8x128_S1x128_1_0) (fun _ => rfl)).squeeze S128 squeezes_S1x128_S128).view g (View.read (Elt F) (((s0V).slice (Rect.unit (s := S8x128) ![1, 0] S1x128.size inb_S8x128_S1x128_1_0) (fun _ => rfl)).squeeze S128 squeezes_S1x128_S128).view fs) Finset.univ) : sProp 𝕄) :=
  join_layer (F := F) (V d (cV L) (jV L)) (((s0V).slice (Rect.unit (s := S8x128) ![1, 0] S1x128.size inb_S8x128_S1x128_1_0) (fun _ => rfl)).squeeze S128 squeezes_S1x128_S128).view [(((s0V).slice (Rect.unit (s := S8x128) ![2, 0] S1x128.size inb_S8x128_S1x128_2_0) (fun _ => rfl)).squeeze S128 squeezes_S1x128_S128).view.set, (((s0V).slice (Rect.unit (s := S8x128) ![3, 0] S1x128.size inb_S8x128_S1x128_3_0) (fun _ => rfl)).squeeze S128 squeezes_S1x128_S128).view.set, (((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl
    · exact rows_disjoint (s0V) 1 2 (by decide) _ _
    · exact rows_disjoint (s0V) 1 3 (by decide) _ _
    · exact rows_disjoint (s0V) 1 4 (by decide) _ _
    · exact rows_disjoint (s0V) 1 5 (by decide) _ _) g fs

theorem join0m5_2 (d : Dev nD) (L : grid0.Coords) (g fs : Buf (Elt F) ((s0V).view.loc (V d (cV L) (jV L)))) :
    iprop((View.loc (V d (cV L) (jV L)) (s0V).view ↦[((((Finset.univ \ (((s0V).slice (Rect.unit (s := S8x128) ![2, 0] S1x128.size inb_S8x128_S1x128_2_0) (fun _ => rfl)).squeeze S128 squeezes_S1x128_S128).view.set) \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![2, 0] S1x128.size inb_S8x128_S1x128_2_0) (fun _ => rfl)).squeeze S128 squeezes_S1x128_S128).view.set]{fullShare} fs))
      ⊢ (View.loc (V d (cV L) (jV L)) (s0V).view ↦[(((Finset.univ \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![2, 0] S1x128.size inb_S8x128_S1x128_2_0) (fun _ => rfl)).squeeze S128 squeezes_S1x128_S128).view g (View.read (Elt F) (((s0V).slice (Rect.unit (s := S8x128) ![2, 0] S1x128.size inb_S8x128_S1x128_2_0) (fun _ => rfl)).squeeze S128 squeezes_S1x128_S128).view fs) Finset.univ) : sProp 𝕄) :=
  join_layer (F := F) (V d (cV L) (jV L)) (((s0V).slice (Rect.unit (s := S8x128) ![2, 0] S1x128.size inb_S8x128_S1x128_2_0) (fun _ => rfl)).squeeze S128 squeezes_S1x128_S128).view [(((s0V).slice (Rect.unit (s := S8x128) ![3, 0] S1x128.size inb_S8x128_S1x128_3_0) (fun _ => rfl)).squeeze S128 squeezes_S1x128_S128).view.set, (((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl
    · exact rows_disjoint (s0V) 2 3 (by decide) _ _
    · exact rows_disjoint (s0V) 2 4 (by decide) _ _
    · exact rows_disjoint (s0V) 2 5 (by decide) _ _) g fs

theorem join0m5_3 (d : Dev nD) (L : grid0.Coords) (g fs : Buf (Elt F) ((s0V).view.loc (V d (cV L) (jV L)))) :
    iprop((View.loc (V d (cV L) (jV L)) (s0V).view ↦[(((Finset.univ \ (((s0V).slice (Rect.unit (s := S8x128) ![3, 0] S1x128.size inb_S8x128_S1x128_3_0) (fun _ => rfl)).squeeze S128 squeezes_S1x128_S128).view.set) \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![3, 0] S1x128.size inb_S8x128_S1x128_3_0) (fun _ => rfl)).squeeze S128 squeezes_S1x128_S128).view.set]{fullShare} fs))
      ⊢ (View.loc (V d (cV L) (jV L)) (s0V).view ↦[((Finset.univ \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![3, 0] S1x128.size inb_S8x128_S1x128_3_0) (fun _ => rfl)).squeeze S128 squeezes_S1x128_S128).view g (View.read (Elt F) (((s0V).slice (Rect.unit (s := S8x128) ![3, 0] S1x128.size inb_S8x128_S1x128_3_0) (fun _ => rfl)).squeeze S128 squeezes_S1x128_S128).view fs) Finset.univ) : sProp 𝕄) :=
  join_layer (F := F) (V d (cV L) (jV L)) (((s0V).slice (Rect.unit (s := S8x128) ![3, 0] S1x128.size inb_S8x128_S1x128_3_0) (fun _ => rfl)).squeeze S128 squeezes_S1x128_S128).view [(((s0V).slice (Rect.unit (s := S8x128) ![4, 0] S1x128.size inb_S8x128_S1x128_4_0) (fun _ => rfl)).squeeze S128 squeezes_S1x128_S128).view.set, (((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl
    · exact rows_disjoint (s0V) 3 4 (by decide) _ _
    · exact rows_disjoint (s0V) 3 5 (by decide) _ _) g fs

theorem join0m5_4 (d : Dev nD) (L : grid0.Coords) (g fs : Buf (Elt F) ((s0V).view.loc (V d (cV L) (jV L)))) :
    iprop((View.loc (V d (cV L) (jV L)) (s0V).view ↦[((Finset.univ \ (((s0V).slice (Rect.unit (s := S8x128) ![4, 0] S1x128.size inb_S8x128_S1x128_4_0) (fun _ => rfl)).squeeze S128 squeezes_S1x128_S128).view.set) \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![4, 0] S1x128.size inb_S8x128_S1x128_4_0) (fun _ => rfl)).squeeze S128 squeezes_S1x128_S128).view.set]{fullShare} fs))
      ⊢ (View.loc (V d (cV L) (jV L)) (s0V).view ↦[(Finset.univ \ (((s0V).slice (Rect.unit (s := S8x128) ![5, 0] S1x128.size inb_S8x128_S1x128_5_0) (fun _ => rfl)).squeeze S128 squeezes_S1x128_S128).view.set)]{fullShare}
          (View.write (Elt F) (((s0V).slice (Rect.unit (s := S8x128) ![4, 0] S1x128.size inb_S8x128_S1x128_4_0) (fun _ => rfl)).squeeze S128 squeezes_S1x128_S128).view g (View.read (Elt F) (((s0V).slice (Rect.unit (s := S8x128) ![4, 0] S1x128.size inb_S8x128_S1x128_4_0) (fun _ => rfl)).squeeze S128 squeezes_S1x128_S128).view fs) Finset.univ) : sProp 𝕄) :=
  join_layer (F := F) (V d (cV L) (jV L)) (((s0V).slice (Rect.unit (s := S8x128) ![4, 0] S1x128.size inb_S8x128_S1x128_4_0) (fun _ => rfl)).squeeze S128 squeezes_S1x128_S128).view [(((s0V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl
    · exact rows_disjoint (s0V) 4 5 (by decide) _ _) g fs

theorem join0m5_5 (d : Dev nD) (L : grid0.Coords) (g fs : Buf (Elt F) ((s0V).view.loc (V d (cV L) (jV L)))) :
    iprop((View.loc (V d (cV L) (jV L)) (s0V).view ↦[(Finset.univ \ (((s0V).slice (Rect.unit (s := S8x128) ![5, 0] S1x128.size inb_S8x128_S1x128_5_0) (fun _ => rfl)).squeeze S128 squeezes_S1x128_S128).view.set)]{fullShare} g)
        ∗ (View.loc (V d (cV L) (jV L)) (s0V).view ↦[(((s0V).slice (Rect.unit (s := S8x128) ![5, 0] S1x128.size inb_S8x128_S1x128_5_0) (fun _ => rfl)).squeeze S128 squeezes_S1x128_S128).view.set]{fullShare} fs))
      ⊢ (View.loc (V d (cV L) (jV L)) (s0V).view ↦[Finset.univ]{fullShare}
          (View.write (Elt F) (((s0V).slice (Rect.unit (s := S8x128) ![5, 0] S1x128.size inb_S8x128_S1x128_5_0) (fun _ => rfl)).squeeze S128 squeezes_S1x128_S128).view g (View.read (Elt F) (((s0V).slice (Rect.unit (s := S8x128) ![5, 0] S1x128.size inb_S8x128_S1x128_5_0) (fun _ => rfl)).squeeze S128 squeezes_S1x128_S128).view fs) Finset.univ) : sProp 𝕄) :=
  join_layer (F := F) (V d (cV L) (jV L)) (((s0V).slice (Rect.unit (s := S8x128) ![5, 0] S1x128.size inb_S8x128_S1x128_5_0) (fun _ => rfl)).squeeze S128 squeezes_S1x128_S128).view [] (by intro W hW; exact absurd hW List.not_mem_nil) g fs

theorem join2m5_0 (d : Dev nD) (L : grid0.Coords) (g fs : Buf (Elt F) ((s2V).view.loc (V d (cV L) (jV L)))) :
    iprop((View.loc (V d (cV L) (jV L)) (s2V).view ↦[((((((Finset.univ \ (((s2V).slice (Rect.unit (s := S8x128) ![0, 0] S1x128.size inb_S8x128_S1x128_0_0) (fun _ => rfl)).squeeze S128 squeezes_S1x128_S128).view.set) \ (((s2V).slice (Rect.unit (s := S8x128) ![1, 0] S1x128.size inb_S8x128_S1x128_1_0) (fun _ => rfl)).squeeze S128 squeezes_S1x128_S128).view.set) \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![0, 0] S1x128.size inb_S8x128_S1x128_0_0) (fun _ => rfl)).squeeze S128 squeezes_S1x128_S128).view.set]{fullShare} fs))
      ⊢ (View.loc (V d (cV L) (jV L)) (s2V).view ↦[(((((Finset.univ \ (((s2V).slice (Rect.unit (s := S8x128) ![1, 0] S1x128.size inb_S8x128_S1x128_1_0) (fun _ => rfl)).squeeze S128 squeezes_S1x128_S128).view.set) \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![0, 0] S1x128.size inb_S8x128_S1x128_0_0) (fun _ => rfl)).squeeze S128 squeezes_S1x128_S128).view g (View.read (Elt F) (((s2V).slice (Rect.unit (s := S8x128) ![0, 0] S1x128.size inb_S8x128_S1x128_0_0) (fun _ => rfl)).squeeze S128 squeezes_S1x128_S128).view fs) Finset.univ) : sProp 𝕄) :=
  join_layer (F := F) (V d (cV L) (jV L)) (((s2V).slice (Rect.unit (s := S8x128) ![0, 0] S1x128.size inb_S8x128_S1x128_0_0) (fun _ => rfl)).squeeze S128 squeezes_S1x128_S128).view [(((s2V).slice (Rect.unit (s := S8x128) ![1, 0] S1x128.size inb_S8x128_S1x128_1_0) (fun _ => rfl)).squeeze S128 squeezes_S1x128_S128).view.set, (((s2V).slice (Rect.unit (s := S8x128) ![2, 0] S1x128.size inb_S8x128_S1x128_2_0) (fun _ => rfl)).squeeze S128 squeezes_S1x128_S128).view.set, (((s2V).slice (Rect.unit (s := S8x128) ![3, 0] S1x128.size inb_S8x128_S1x128_3_0) (fun _ => rfl)).squeeze S128 squeezes_S1x128_S128).view.set, (((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl | rfl
    · exact rows_disjoint (s2V) 0 1 (by decide) _ _
    · exact rows_disjoint (s2V) 0 2 (by decide) _ _
    · exact rows_disjoint (s2V) 0 3 (by decide) _ _
    · exact rows_disjoint (s2V) 0 4 (by decide) _ _
    · exact rows_disjoint (s2V) 0 5 (by decide) _ _) g fs

theorem join2m5_1 (d : Dev nD) (L : grid0.Coords) (g fs : Buf (Elt F) ((s2V).view.loc (V d (cV L) (jV L)))) :
    iprop((View.loc (V d (cV L) (jV L)) (s2V).view ↦[(((((Finset.univ \ (((s2V).slice (Rect.unit (s := S8x128) ![1, 0] S1x128.size inb_S8x128_S1x128_1_0) (fun _ => rfl)).squeeze S128 squeezes_S1x128_S128).view.set) \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![1, 0] S1x128.size inb_S8x128_S1x128_1_0) (fun _ => rfl)).squeeze S128 squeezes_S1x128_S128).view.set]{fullShare} fs))
      ⊢ (View.loc (V d (cV L) (jV L)) (s2V).view ↦[((((Finset.univ \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![1, 0] S1x128.size inb_S8x128_S1x128_1_0) (fun _ => rfl)).squeeze S128 squeezes_S1x128_S128).view g (View.read (Elt F) (((s2V).slice (Rect.unit (s := S8x128) ![1, 0] S1x128.size inb_S8x128_S1x128_1_0) (fun _ => rfl)).squeeze S128 squeezes_S1x128_S128).view fs) Finset.univ) : sProp 𝕄) :=
  join_layer (F := F) (V d (cV L) (jV L)) (((s2V).slice (Rect.unit (s := S8x128) ![1, 0] S1x128.size inb_S8x128_S1x128_1_0) (fun _ => rfl)).squeeze S128 squeezes_S1x128_S128).view [(((s2V).slice (Rect.unit (s := S8x128) ![2, 0] S1x128.size inb_S8x128_S1x128_2_0) (fun _ => rfl)).squeeze S128 squeezes_S1x128_S128).view.set, (((s2V).slice (Rect.unit (s := S8x128) ![3, 0] S1x128.size inb_S8x128_S1x128_3_0) (fun _ => rfl)).squeeze S128 squeezes_S1x128_S128).view.set, (((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl | rfl
    · exact rows_disjoint (s2V) 1 2 (by decide) _ _
    · exact rows_disjoint (s2V) 1 3 (by decide) _ _
    · exact rows_disjoint (s2V) 1 4 (by decide) _ _
    · exact rows_disjoint (s2V) 1 5 (by decide) _ _) g fs

theorem join2m5_2 (d : Dev nD) (L : grid0.Coords) (g fs : Buf (Elt F) ((s2V).view.loc (V d (cV L) (jV L)))) :
    iprop((View.loc (V d (cV L) (jV L)) (s2V).view ↦[((((Finset.univ \ (((s2V).slice (Rect.unit (s := S8x128) ![2, 0] S1x128.size inb_S8x128_S1x128_2_0) (fun _ => rfl)).squeeze S128 squeezes_S1x128_S128).view.set) \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![2, 0] S1x128.size inb_S8x128_S1x128_2_0) (fun _ => rfl)).squeeze S128 squeezes_S1x128_S128).view.set]{fullShare} fs))
      ⊢ (View.loc (V d (cV L) (jV L)) (s2V).view ↦[(((Finset.univ \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![2, 0] S1x128.size inb_S8x128_S1x128_2_0) (fun _ => rfl)).squeeze S128 squeezes_S1x128_S128).view g (View.read (Elt F) (((s2V).slice (Rect.unit (s := S8x128) ![2, 0] S1x128.size inb_S8x128_S1x128_2_0) (fun _ => rfl)).squeeze S128 squeezes_S1x128_S128).view fs) Finset.univ) : sProp 𝕄) :=
  join_layer (F := F) (V d (cV L) (jV L)) (((s2V).slice (Rect.unit (s := S8x128) ![2, 0] S1x128.size inb_S8x128_S1x128_2_0) (fun _ => rfl)).squeeze S128 squeezes_S1x128_S128).view [(((s2V).slice (Rect.unit (s := S8x128) ![3, 0] S1x128.size inb_S8x128_S1x128_3_0) (fun _ => rfl)).squeeze S128 squeezes_S1x128_S128).view.set, (((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl | rfl
    · exact rows_disjoint (s2V) 2 3 (by decide) _ _
    · exact rows_disjoint (s2V) 2 4 (by decide) _ _
    · exact rows_disjoint (s2V) 2 5 (by decide) _ _) g fs

theorem join2m5_3 (d : Dev nD) (L : grid0.Coords) (g fs : Buf (Elt F) ((s2V).view.loc (V d (cV L) (jV L)))) :
    iprop((View.loc (V d (cV L) (jV L)) (s2V).view ↦[(((Finset.univ \ (((s2V).slice (Rect.unit (s := S8x128) ![3, 0] S1x128.size inb_S8x128_S1x128_3_0) (fun _ => rfl)).squeeze S128 squeezes_S1x128_S128).view.set) \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![3, 0] S1x128.size inb_S8x128_S1x128_3_0) (fun _ => rfl)).squeeze S128 squeezes_S1x128_S128).view.set]{fullShare} fs))
      ⊢ (View.loc (V d (cV L) (jV L)) (s2V).view ↦[((Finset.univ \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![3, 0] S1x128.size inb_S8x128_S1x128_3_0) (fun _ => rfl)).squeeze S128 squeezes_S1x128_S128).view g (View.read (Elt F) (((s2V).slice (Rect.unit (s := S8x128) ![3, 0] S1x128.size inb_S8x128_S1x128_3_0) (fun _ => rfl)).squeeze S128 squeezes_S1x128_S128).view fs) Finset.univ) : sProp 𝕄) :=
  join_layer (F := F) (V d (cV L) (jV L)) (((s2V).slice (Rect.unit (s := S8x128) ![3, 0] S1x128.size inb_S8x128_S1x128_3_0) (fun _ => rfl)).squeeze S128 squeezes_S1x128_S128).view [(((s2V).slice (Rect.unit (s := S8x128) ![4, 0] S1x128.size inb_S8x128_S1x128_4_0) (fun _ => rfl)).squeeze S128 squeezes_S1x128_S128).view.set, (((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl | rfl
    · exact rows_disjoint (s2V) 3 4 (by decide) _ _
    · exact rows_disjoint (s2V) 3 5 (by decide) _ _) g fs

theorem join2m5_4 (d : Dev nD) (L : grid0.Coords) (g fs : Buf (Elt F) ((s2V).view.loc (V d (cV L) (jV L)))) :
    iprop((View.loc (V d (cV L) (jV L)) (s2V).view ↦[((Finset.univ \ (((s2V).slice (Rect.unit (s := S8x128) ![4, 0] S1x128.size inb_S8x128_S1x128_4_0) (fun _ => rfl)).squeeze S128 squeezes_S1x128_S128).view.set) \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![4, 0] S1x128.size inb_S8x128_S1x128_4_0) (fun _ => rfl)).squeeze S128 squeezes_S1x128_S128).view.set]{fullShare} fs))
      ⊢ (View.loc (V d (cV L) (jV L)) (s2V).view ↦[(Finset.univ \ (((s2V).slice (Rect.unit (s := S8x128) ![5, 0] S1x128.size inb_S8x128_S1x128_5_0) (fun _ => rfl)).squeeze S128 squeezes_S1x128_S128).view.set)]{fullShare}
          (View.write (Elt F) (((s2V).slice (Rect.unit (s := S8x128) ![4, 0] S1x128.size inb_S8x128_S1x128_4_0) (fun _ => rfl)).squeeze S128 squeezes_S1x128_S128).view g (View.read (Elt F) (((s2V).slice (Rect.unit (s := S8x128) ![4, 0] S1x128.size inb_S8x128_S1x128_4_0) (fun _ => rfl)).squeeze S128 squeezes_S1x128_S128).view fs) Finset.univ) : sProp 𝕄) :=
  join_layer (F := F) (V d (cV L) (jV L)) (((s2V).slice (Rect.unit (s := S8x128) ![4, 0] S1x128.size inb_S8x128_S1x128_4_0) (fun _ => rfl)).squeeze S128 squeezes_S1x128_S128).view [(((s2V).slice (Rect.unit (s := S8x128) ![5, 0] S1x128.size inb_S8x128_S1x128_5_0) (fun _ => rfl)).squeeze S128 squeezes_S1x128_S128).view.set] (by
    intro W hW
    simp only [List.mem_cons, List.not_mem_nil, or_false] at hW
    rcases hW with rfl
    · exact rows_disjoint (s2V) 4 5 (by decide) _ _) g fs

theorem join2m5_5 (d : Dev nD) (L : grid0.Coords) (g fs : Buf (Elt F) ((s2V).view.loc (V d (cV L) (jV L)))) :
    iprop((View.loc (V d (cV L) (jV L)) (s2V).view ↦[(Finset.univ \ (((s2V).slice (Rect.unit (s := S8x128) ![5, 0] S1x128.size inb_S8x128_S1x128_5_0) (fun _ => rfl)).squeeze S128 squeezes_S1x128_S128).view.set)]{fullShare} g)
        ∗ (View.loc (V d (cV L) (jV L)) (s2V).view ↦[(((s2V).slice (Rect.unit (s := S8x128) ![5, 0] S1x128.size inb_S8x128_S1x128_5_0) (fun _ => rfl)).squeeze S128 squeezes_S1x128_S128).view.set]{fullShare} fs))
      ⊢ (View.loc (V d (cV L) (jV L)) (s2V).view ↦[Finset.univ]{fullShare}
          (View.write (Elt F) (((s2V).slice (Rect.unit (s := S8x128) ![5, 0] S1x128.size inb_S8x128_S1x128_5_0) (fun _ => rfl)).squeeze S128 squeezes_S1x128_S128).view g (View.read (Elt F) (((s2V).slice (Rect.unit (s := S8x128) ![5, 0] S1x128.size inb_S8x128_S1x128_5_0) (fun _ => rfl)).squeeze S128 squeezes_S1x128_S128).view fs) Finset.univ) : sProp 𝕄) :=
  join_layer (F := F) (V d (cV L) (jV L)) (((s2V).slice (Rect.unit (s := S8x128) ![5, 0] S1x128.size inb_S8x128_S1x128_5_0) (fun _ => rfl)).squeeze S128 squeezes_S1x128_S128).view [] (by intro W hW; exact absurd hW List.not_mem_nil) g fs

end Cert.KB

end
-- ==== Proof.BodyB.lean ====
/-
  One task of the kernel, at a symbolic vector subcore: from its read shares of flat `z` and flat `a`, its eight rows of
  the result block, its scratch buffers and its semaphores, the task runs to the end and leaves its rows of the block at
  the specified values, everything else as it was.

  Phase one fills the first scratch buffer with positions of flat `z` (one list per row) and issues a gather per row
  into the second; phase two waits for each, turns the gathered selecting words into positions of flat `a` in the third
  scratch buffer and issues a gather per row into the fourth; phase three waits for each, scales the row, and the whole
  fourth buffer is copied into the task's rows of the block. Each gather needs its list's entries in range when it is
  issued: those facts are stated over the lists written so far (rows of the lists are never written again). Up to eight
  gathers read one flat array at once: each array is held as one read token per semaphore. A row of the fourth buffer
  delivered after sixteen or more later stores is put back among the held rows by a separate statement. At the end the
  tokens are joined, the list rows still held apart are joined under some contents, and the copied rows are the
  specified block because the fourth buffer reads, entry by entry, the scaled selected entry of its result row.
-/
import proofs.«207294_g27419071217675_cont_9to1_1737_29_alg».proof.Proof.BodyOB
import proofs.«207294_g27419071217675_cont_9to1_1737_29_alg».proof.Proof.BodyJoin3B
import proofs.«207294_g27419071217675_cont_9to1_1737_29_alg».proof.Proof.BodyJoinLB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 64000000 in
set_option maxRecDepth 65536 in
theorem tile_body : TileBodySpec (F := F) := by
  unfold TileBodySpec
  intro hF d L zf af o hpre O W hO
  unfold taskProg
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hz, Ha, Ho⟩, ⟨⟨%f0, Hs0⟩, ⟨%f1, Hs1⟩, ⟨%f2, Hs2⟩, ⟨%f3, Hs3⟩, Hbufs⟩, ⟨Hc0, Hc1, Hc2, Hc3, Hc4, Hc5, Hc6, Hc7, Hc8, Hc9, Hc10, Hc11, Hc12, Hc13, Hc14, Hc15, Hcs, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Ho' := (Entails.of_eq (pts_oRowK (F := F) d L _).symm) $$ Ho
  ihave Hs0' := (Entails.of_eq (pts_s0V (F := F) d L _).symm) $$ Hs0
  ihave Hs1' := (Entails.of_eq (pts_s1V (F := F) d L _).symm) $$ Hs1
  ihave Hs2' := (Entails.of_eq (pts_s2V (F := F) d L _).symm) $$ Hs2
  ihave Hs3' := (Entails.of_eq (pts_s3V (F := F) d L _).symm) $$ Hs3
  ihave Hzd0 := (Entails.of_eq (show (zLoc d ↦{rq (jL L)} zf : sProp 𝕄) = ((zV).view.loc (V d (cV L) (jV L)) ↦{Transfers.shareDrop (rq (jL L)) 0} zf) from rfl)) $$ Hz
  ihave Hzs0 := (tok_step (F := F) (ℓ := (zV).view.loc (V d (cV L) (jV L))) (I := Finset.univ) (f := zf) (rq (jL L)) 0).1 $$ Hzd0
  icases Hzs0 with ⟨Hzd1, Hzt0⟩
  ihave Hzs1 := (tok_step (F := F) (ℓ := (zV).view.loc (V d (cV L) (jV L))) (I := Finset.univ) (f := zf) (rq (jL L)) 1).1 $$ Hzd1
  icases Hzs1 with ⟨Hzd2, Hzt1⟩
  ihave Hzs2 := (tok_step (F := F) (ℓ := (zV).view.loc (V d (cV L) (jV L))) (I := Finset.univ) (f := zf) (rq (jL L)) 2).1 $$ Hzd2
  icases Hzs2 with ⟨Hzd3, Hzt2⟩
  ihave Hzs3 := (tok_step (F := F) (ℓ := (zV).view.loc (V d (cV L) (jV L))) (I := Finset.univ) (f := zf) (rq (jL L)) 3).1 $$ Hzd3
  icases Hzs3 with ⟨Hzd4, Hzt3⟩
  ihave Hzs4 := (tok_step (F := F) (ℓ := (zV).view.loc (V d (cV L) (jV L))) (I := Finset.univ) (f := zf) (rq (jL L)) 4).1 $$ Hzd4
  icases Hzs4 with ⟨Hzd5, Hzt4⟩
  ihave Hzs5 := (tok_step (F := F) (ℓ := (zV).view.loc (V d (cV L) (jV L))) (I := Finset.univ) (f := zf) (rq (jL L)) 5).1 $$ Hzd5
  icases Hzs5 with ⟨Hzd6, Hzt5⟩
  ihave Hzs6 := (tok_step (F := F) (ℓ := (zV).view.loc (V d (cV L) (jV L))) (I := Finset.univ) (f := zf) (rq (jL L)) 6).1 $$ Hzd6
  icases Hzs6 with ⟨Hzd7, Hzt6⟩
  ihave Hzs7 := (tok_step (F := F) (ℓ := (zV).view.loc (V d (cV L) (jV L))) (I := Finset.univ) (f := zf) (rq (jL L)) 7).1 $$ Hzd7
  icases Hzs7 with ⟨Hzd8, Hzt7⟩
  ihave Had0 := (Entails.of_eq (show (aLoc d ↦{rq (jL L)} af : sProp 𝕄) = ((aV).view.loc (V d (cV L) (jV L)) ↦{Transfers.shareDrop (rq (jL L)) 0} af) from rfl)) $$ Ha
  ihave Has0 := (tok_step (F := F) (ℓ := (aV).view.loc (V d (cV L) (jV L))) (I := Finset.univ) (f := af) (rq (jL L)) 0).1 $$ Had0
  icases Has0 with ⟨Had1, Hat0⟩
  ihave Has1 := (tok_step (F := F) (ℓ := (aV).view.loc (V d (cV L) (jV L))) (I := Finset.univ) (f := af) (rq (jL L)) 1).1 $$ Had1
  icases Has1 with ⟨Had2, Hat1⟩
  ihave Has2 := (tok_step (F := F) (ℓ := (aV).view.loc (V d (cV L) (jV L))) (I := Finset.univ) (f := af) (rq (jL L)) 2).1 $$ Had2
  icases Has2 with ⟨Had3, Hat2⟩
  ihave Has3 := (tok_step (F := F) (ℓ := (aV).view.loc (V d (cV L) (jV L))) (I := Finset.univ) (f := af) (rq (jL L)) 3).1 $$ Had3
  icases Has3 with ⟨Had4, Hat3⟩
  ihave Has4 := (tok_step (F := F) (ℓ := (aV).view.loc (V d (cV L) (jV L))) (I := Finset.univ) (f := af) (rq (jL L)) 4).1 $$ Had4
  icases Has4 with ⟨Had5, Hat4⟩
  ihave Has5 := (tok_step (F := F) (ℓ := (aV).view.loc (V d (cV L) (jV L))) (I := Finset.univ) (f := af) (rq (jL L)) 5).1 $$ Had5
  icases Has5 with ⟨Had6, Hat5⟩
  ihave Has6 := (tok_step (F := F) (ℓ := (aV).view.loc (V d (cV L) (jV L))) (I := Finset.univ) (f := af) (rq (jL L)) 6).1 $$ Had6
  icases Has6 with ⟨Had7, Hat6⟩
  ihave Has7 := (tok_step (F := F) (ℓ := (aV).view.loc (V d (cV L) (jV L))) (I := Finset.univ) (f := af) (rq (jL L)) 7).1 $$ Had7
  icases Has7 with ⟨Had8, Hat7⟩
  ihave Has8 := (tok_step (F := F) (ℓ := (aV).view.loc (V d (cV L) (jV L))) (I := Finset.univ) (f := af) (rq (jL L)) 8).1 $$ Had8
  icases Has8 with ⟨Had9, Hat8⟩
  ihave Has9 := (tok_step (F := F) (ℓ := (aV).view.loc (V d (cV L) (jV L))) (I := Finset.univ) (f := af) (rq (jL L)) 9).1 $$ Had9
  icases Has9 with ⟨Had10, Hat9⟩
  ihave Has10 := (tok_step (F := F) (ℓ := (aV).view.loc (V d (cV L) (jV L))) (I := Finset.univ) (f := af) (rq (jL L)) 10).1 $$ Had10
  icases Has10 with ⟨Had11, Hat10⟩
  ihave Has11 := (tok_step (F := F) (ℓ := (aV).view.loc (V d (cV L) (jV L))) (I := Finset.univ) (f := af) (rq (jL L)) 11).1 $$ Had11
  icases Has11 with ⟨Had12, Hat11⟩
  ihave Has12 := (tok_step (F := F) (ℓ := (aV).view.loc (V d (cV L) (jV L))) (I := Finset.univ) (f := af) (rq (jL L)) 12).1 $$ Had12
  icases Has12 with ⟨Had13, Hat12⟩
  ihave Has13 := (tok_step (F := F) (ℓ := (aV).view.loc (V d (cV L) (jV L))) (I := Finset.univ) (f := af) (rq (jL L)) 13).1 $$ Had13
  icases Has13 with ⟨Had14, Hat13⟩
  ihave Has14 := (tok_step (F := F) (ℓ := (aV).view.loc (V d (cV L) (jV L))) (I := Finset.univ) (f := af) (rq (jL L)) 14).1 $$ Had14
  icases Has14 with ⟨Had15, Hat14⟩
  ihave Has15 := (tok_step (F := F) (ℓ := (aV).view.loc (V d (cV L) (jV L))) (I := Finset.univ) (f := af) (rq (jL L)) 15).1 $$ Had15
  icases Has15 with ⟨Had16, Hat15⟩
  have hinZ0' := hinZ0 (F := F) L
  have hinZ1' := hinZ1 (F := F) L
  have hinZ2' := hinZ2 (F := F) L
  have hinZ3' := hinZ3 (F := F) L
  have hinZ4' := hinZ4 (F := F) L
  have hinZ5' := hinZ5 (F := F) L
  have hinZ6' := hinZ6 (F := F) L
  have hinZ7' := hinZ7 (F := F) L
  have hinA0' := hinA0 (F := F) d L zf f0 f1 hpre
  have hinA1' := hinA1 (F := F) d L zf f0 f1 hpre
  have hinA2' := hinA2 (F := F) d L zf f0 f1 hpre
  have hinA3' := hinA3 (F := F) d L zf f0 f1 hpre
  have hinA4' := hinA4 (F := F) d L zf f0 f1 hpre
  have hinA5' := hinA5 (F := F) d L zf f0 f1 hpre
  have hinA6' := hinA6 (F := F) d L zf f0 f1 hpre
  have hinA7' := hinA7 (F := F) d L zf f0 f1 hpre
  sl_exec_parts
  ihave Hj2 := (join3_2 (F := F) d L _ _) $$ [Hs3' Hs3'_2]
  · isplitl [Hs3'] <;> iassumption
  sl_exec_parts
  ihave Hj3 := (join3_3 (F := F) d L _ _) $$ [Hj2 Hs3']
  · isplitl [Hj2] <;> iassumption
  sl_exec_parts
  ihave Hj4 := (join3_4 (F := F) d L _ _) $$ [Hj3 Hs3']
  · isplitl [Hj3] <;> iassumption
  sl_exec_parts
  ihave Hj5 := (join3_5 (F := F) d L _ _) $$ [Hj4 Hs3']
  · isplitl [Hj4] <;> iassumption
  sl_exec_parts
  ihave Hj6 := (join3_6 (F := F) d L _ _) $$ [Hj5 Hs3']
  · isplitl [Hj5] <;> iassumption
  sl_exec_parts
  ihave Hj7 := (join3_7 (F := F) d L _ _) $$ [Hj6 Hs3']
  · isplitl [Hj6] <;> iassumption
  sl_exec_parts
  sl_step
  ihave Hzj7 := (tok_step (F := F) (ℓ := (zV).view.loc (V d (cV L) (jV L))) (I := Finset.univ) (f := zf) (rq (jL L)) 7).2 $$ [Hzd8 Hzt7]
  · isplitl [Hzd8] <;> iassumption
  ihave Hzj6 := (tok_step (F := F) (ℓ := (zV).view.loc (V d (cV L) (jV L))) (I := Finset.univ) (f := zf) (rq (jL L)) 6).2 $$ [Hzj7 Hzt6]
  · isplitl [Hzj7] <;> iassumption
  ihave Hzj5 := (tok_step (F := F) (ℓ := (zV).view.loc (V d (cV L) (jV L))) (I := Finset.univ) (f := zf) (rq (jL L)) 5).2 $$ [Hzj6 Hzt5]
  · isplitl [Hzj6] <;> iassumption
  ihave Hzj4 := (tok_step (F := F) (ℓ := (zV).view.loc (V d (cV L) (jV L))) (I := Finset.univ) (f := zf) (rq (jL L)) 4).2 $$ [Hzj5 Hzt4]
  · isplitl [Hzj5] <;> iassumption
  ihave Hzj3 := (tok_step (F := F) (ℓ := (zV).view.loc (V d (cV L) (jV L))) (I := Finset.univ) (f := zf) (rq (jL L)) 3).2 $$ [Hzj4 Hzt3]
  · isplitl [Hzj4] <;> iassumption
  ihave Hzj2 := (tok_step (F := F) (ℓ := (zV).view.loc (V d (cV L) (jV L))) (I := Finset.univ) (f := zf) (rq (jL L)) 2).2 $$ [Hzj3 Hzt2]
  · isplitl [Hzj3] <;> iassumption
  ihave Hzj1 := (tok_step (F := F) (ℓ := (zV).view.loc (V d (cV L) (jV L))) (I := Finset.univ) (f := zf) (rq (jL L)) 1).2 $$ [Hzj2 Hzt1]
  · isplitl [Hzj2] <;> iassumption
  ihave Hzj0 := (tok_step (F := F) (ℓ := (zV).view.loc (V d (cV L) (jV L))) (I := Finset.univ) (f := zf) (rq (jL L)) 0).2 $$ [Hzj1 Hzt0]
  · isplitl [Hzj1] <;> iassumption
  ihave Haj15 := (tok_step (F := F) (ℓ := (aV).view.loc (V d (cV L) (jV L))) (I := Finset.univ) (f := af) (rq (jL L)) 15).2 $$ [Had16 Hat15]
  · isplitl [Had16] <;> iassumption
  ihave Haj14 := (tok_step (F := F) (ℓ := (aV).view.loc (V d (cV L) (jV L))) (I := Finset.univ) (f := af) (rq (jL L)) 14).2 $$ [Haj15 Hat14]
  · isplitl [Haj15] <;> iassumption
  ihave Haj13 := (tok_step (F := F) (ℓ := (aV).view.loc (V d (cV L) (jV L))) (I := Finset.univ) (f := af) (rq (jL L)) 13).2 $$ [Haj14 Hat13]
  · isplitl [Haj14] <;> iassumption
  ihave Haj12 := (tok_step (F := F) (ℓ := (aV).view.loc (V d (cV L) (jV L))) (I := Finset.univ) (f := af) (rq (jL L)) 12).2 $$ [Haj13 Hat12]
  · isplitl [Haj13] <;> iassumption
  ihave Haj11 := (tok_step (F := F) (ℓ := (aV).view.loc (V d (cV L) (jV L))) (I := Finset.univ) (f := af) (rq (jL L)) 11).2 $$ [Haj12 Hat11]
  · isplitl [Haj12] <;> iassumption
  ihave Haj10 := (tok_step (F := F) (ℓ := (aV).view.loc (V d (cV L) (jV L))) (I := Finset.univ) (f := af) (rq (jL L)) 10).2 $$ [Haj11 Hat10]
  · isplitl [Haj11] <;> iassumption
  ihave Haj9 := (tok_step (F := F) (ℓ := (aV).view.loc (V d (cV L) (jV L))) (I := Finset.univ) (f := af) (rq (jL L)) 9).2 $$ [Haj10 Hat9]
  · isplitl [Haj10] <;> iassumption
  ihave Haj8 := (tok_step (F := F) (ℓ := (aV).view.loc (V d (cV L) (jV L))) (I := Finset.univ) (f := af) (rq (jL L)) 8).2 $$ [Haj9 Hat8]
  · isplitl [Haj9] <;> iassumption
  ihave Haj7 := (tok_step (F := F) (ℓ := (aV).view.loc (V d (cV L) (jV L))) (I := Finset.univ) (f := af) (rq (jL L)) 7).2 $$ [Haj8 Hat7]
  · isplitl [Haj8] <;> iassumption
  ihave Haj6 := (tok_step (F := F) (ℓ := (aV).view.loc (V d (cV L) (jV L))) (I := Finset.univ) (f := af) (rq (jL L)) 6).2 $$ [Haj7 Hat6]
  · isplitl [Haj7] <;> iassumption
  ihave Haj5 := (tok_step (F := F) (ℓ := (aV).view.loc (V d (cV L) (jV L))) (I := Finset.univ) (f := af) (rq (jL L)) 5).2 $$ [Haj6 Hat5]
  · isplitl [Haj6] <;> iassumption
  ihave Haj4 := (tok_step (F := F) (ℓ := (aV).view.loc (V d (cV L) (jV L))) (I := Finset.univ) (f := af) (rq (jL L)) 4).2 $$ [Haj5 Hat4]
  · isplitl [Haj5] <;> iassumption
  ihave Haj3 := (tok_step (F := F) (ℓ := (aV).view.loc (V d (cV L) (jV L))) (I := Finset.univ) (f := af) (rq (jL L)) 3).2 $$ [Haj4 Hat3]
  · isplitl [Haj4] <;> iassumption
  ihave Haj2 := (tok_step (F := F) (ℓ := (aV).view.loc (V d (cV L) (jV L))) (I := Finset.univ) (f := af) (rq (jL L)) 2).2 $$ [Haj3 Hat2]
  · isplitl [Haj3] <;> iassumption
  ihave Haj1 := (tok_step (F := F) (ℓ := (aV).view.loc (V d (cV L) (jV L))) (I := Finset.univ) (f := af) (rq (jL L)) 1).2 $$ [Haj2 Hat1]
  · isplitl [Haj2] <;> iassumption
  ihave Haj0 := (tok_step (F := F) (ℓ := (aV).view.loc (V d (cV L) (jV L))) (I := Finset.univ) (f := af) (rq (jL L)) 0).2 $$ [Haj1 Hat0]
  · isplitl [Haj1] <;> iassumption
  have hpay : ∀ y, (tile_body.sl.dma24 d L zf af f0 f1 f2 f3 hinZ0' hinZ1' hinZ2' hinZ3' hinZ4' hinZ5' hinZ6' hinZ7' hinA0' hinA1' hinA2' hinA3' hinA4' hinA5' hinA6' hinA7') y = Cert.Spec.outAtF zf af (rowF L y) :=
    fun y => K7_value d L zf af f0 f1 f2 f3 hpre y
  ihave Hob := (block_rows (F := F) d L zf af o _ hpay) $$ Ho'
  ihave Hq0 := (join0m5_0 (F := F) d L _ _) $$ [Hs0' Hs0'_2]
  · isplitl [Hs0'] <;> iassumption
  ihave Hq1 := (join0m5_1 (F := F) d L _ _) $$ [Hq0 Hs0'_3]
  · isplitl [Hq0] <;> iassumption
  ihave Hq2 := (join0m5_2 (F := F) d L _ _) $$ [Hq1 Hs0'_4]
  · isplitl [Hq1] <;> iassumption
  ihave Hq3 := (join0m5_3 (F := F) d L _ _) $$ [Hq2 Hs0'_5]
  · isplitl [Hq2] <;> iassumption
  ihave Hq4 := (join0m5_4 (F := F) d L _ _) $$ [Hq3 Hs0'_6]
  · isplitl [Hq3] <;> iassumption
  ihave Hq5 := (join0m5_5 (F := F) d L _ _) $$ [Hq4 Hs0'_7]
  · isplitl [Hq4] <;> iassumption
  ihave Hr0 := (join2m5_0 (F := F) d L _ _) $$ [Hs2' Hs2'_2]
  · isplitl [Hs2'] <;> iassumption
  ihave Hr1 := (join2m5_1 (F := F) d L _ _) $$ [Hr0 Hs2'_3]
  · isplitl [Hr0] <;> iassumption
  ihave Hr2 := (join2m5_2 (F := F) d L _ _) $$ [Hr1 Hs2'_4]
  · isplitl [Hr1] <;> iassumption
  ihave Hr3 := (join2m5_3 (F := F) d L _ _) $$ [Hr2 Hs2'_5]
  · isplitl [Hr2] <;> iassumption
  ihave Hr4 := (join2m5_4 (F := F) d L _ _) $$ [Hr3 Hs2'_6]
  · isplitl [Hr3] <;> iassumption
  ihave Hr5 := (join2m5_5 (F := F) d L _ _) $$ [Hr4 Hs2'_7]
  · isplitl [Hr4] <;> iassumption
  isplitl [Hzj0 Haj0 Hob]
  · isplitl [Hzj0]; · iexact Hzj0
    isplitl [Haj0]; · iexact Haj0
    iexact Hob
  isplitl [Hq5 Hs1' Hr5 Hj7 Hbufs]
  · isplitl [Hq5]; · iexists _; iexact Hq5
    isplitl [Hs1']; · iexists _; iexact Hs1'
    isplitl [Hr5]; · iexists _; iexact Hr5
    isplitl [Hj7]; · iexists _; iexact Hj7
    iexact Hbufs
  isplitl [Hc0 Hc1 Hc2 Hc3 Hc4 Hc5 Hc6 Hc7 Hc8 Hc9 Hc10 Hc11 Hc12 Hc13 Hc14 Hc15 Hcs Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hcs]; · iexact Hcs
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KB

end
-- ==== Proof.lean ====
/-
  The certificate's claim, assembled.

  One kernel on sixteen vector subcores against a host reference, over z : 16384 × 32 and a : 16384 × 128, finite, with
  every row's code in attribute slot 4 converting to a column number in [0, 128). Both programs compute, for each row r,
  the entry of `a` in row r and that column, times the constant whose binary32 word is 0x3F7FBE77 (`Cert.Spec.G`).

  The kernel: each task fills eight lists with the positions 32 row + 4 of its 1024 rows' codes in flat `z`, gathers
  them, converts them and fills eight lists with the positions 128 row + column in flat `a`, gathers those, scales them
  and copies its eight rows of the result block out. Every position is inside its array because the rows are below
  16384 and the columns below 128, and no 32-bit word wraps (`tile_body`, at the word level and on the extended reals).
  The launch hands each task read shares of the two flat arrays and its own rows of the block, and the host reshapes
  on both sides of the call are the row-major layouts (`run_main`, `G_of_flat`).
  The reference: the scatter of the constant lands at exactly one column per row, every other product is a · 0 = 0, and
  the row sum is the one surviving term (`ref_value`).
  The three frames are the runs with the values dropped; the idealization rewrote nothing.
-/
import proofs.«207294_g27419071217675_cont_9to1_1737_29_alg».proof.Proof.Assembly
import proofs.«207294_g27419071217675_cont_9to1_1737_29_alg».proof.Proof.Body
import proofs.«207294_g27419071217675_cont_9to1_1737_29_alg».proof.Proof.BodyB
import Idealize.ShloMosaic.Adequacy
import Idealize.ShloMosaic.Init

noncomputable section

namespace Cert.Proof

theorem claim : Cert.Claim := Cert.Assembly.claim_of_bodies Cert.KB.tile_body Cert.KI.tile_body

end Cert.Proof

end
